-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v97)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v97) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v193) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S3x128x128 : Shape := ⟨3, ![3, 128, 128]⟩
abbrev S3x128 : Shape := ⟨2, ![3, 128]⟩
abbrev S384x16 : Shape := ⟨2, ![384, 16]⟩
abbrev S16 : Shape := ⟨1, ![16]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S384x16 : S_.BroadcastsInDim S384x16 (![] : Fin 0 → Fin S384x16.rank)
  reducesTo_S384x16_S_d0_1 : S384x16.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg8 : FVec F S3x128 .f32) (main_arg9 : FVec F S384x16 .f32) (main_arg10 : FVec F S16 .f32) (main_v33 : IVec S_ 1) : IVec S_ 1 :=
  let main_v34 : FVec F S3x128 .f32 := Host.absf main_arg8
  let main_cst_12 : FVec F S_ .f32 := constant S_ .f32 0x7F800000#32
  let main_v35 : FVec F S3x128 .f32 := broadcastInDim S3x128 ![] bcast_S_S3x128 main_cst_12
  let main_v36 : IVec S3x128 1 := cmpf .olt main_v34 main_v35
  let main_c_13 : IVec S_ 1 := constantI S_ 1 1#1
  let main_v37 : IVec S_ 1 := (fun x v => Host.reduce IntOp.andi x v reducesTo_S3x128_S_d0_1 h_S_) main_v36 main_c_13
  let main_v38 : IVec S_ 1 := andi main_v33 main_v37
  let main_v39 : FVec F S384x16 .f32 := Host.absf main_arg9
  let main_cst_14 : FVec F S_ .f32 := constant S_ .f32 0x7F800000#32
  let main_v40 : FVec F S384x16 .f32 := broadcastInDim S384x16 ![] bcast_S_S384x16 main_cst_14
  let main_v41 : IVec S384x16 1 := cmpf .olt main_v39 main_v40
  let main_c_15 : IVec S_ 1 := constantI S_ 1 1#1
  let main_v42 : IVec S_ 1 := (fun x v => Host.reduce IntOp.andi x v reducesTo_S384x16_S_d0_1 h_S_) main_v41 main_c_15
  let main_v43 : IVec S_ 1 := andi main_v38 main_v42
  let main_v44 : FVec F S16 .f32 := Host.absf main_arg10
  let main_cst_16 : FVec F S_ .f32 := constant S_ .f32 0x7F800000#32
  let main_v45 : FVec F S16 .f32 := broadcastInDim S16 ![] bcast_S_S16 main_cst_16
  let main_v46 : IVec S16 1 := cmpf .olt main_v44 main_v45
  let main_c_17 : IVec S_ 1 := constantI S_ 1 1#1
  let main_v47 : IVec S_ 1 := (fun x v => Host.reduce IntOp.andi x v reducesTo_S16_S_d0 h_S_) main_v46 main_c_17
  let main_v48 : IVec S_ 1 := andi main_v43 main_v47
  main_v48

def fn_part1 {F : FTy → Type} [FloatOps F] (main_arg5 : FVec F S3x128 .f32) (main_arg6 : FVec F S3x128x128 .f32) (main_arg7 : FVec F S3x128 .f32) (main_arg8 : FVec F S3x128 .f32) (main_arg9 : FVec F S384x16 .f32) (main_arg10 : FVec F S16 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128 .f32 := Host.absf main_arg5
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S3x128x128 .f32 := Host.absf main_arg6
  let main_cst_8 : FVec F S_ .f32 := constant S_ .f32 0x7F800000#32
  let main_v25 : FVec F S3x128x128 .f32 := broadcastInDim S3x128x128 ![] bcast_S_S3x128x128 main_cst_8
  let main_v26 : IVec S3x128x128 1 := cmpf .olt main_v24 main_v25
  let main_c_9 : IVec S_ 1 := constantI S_ 1 1#1
  let main_v27 : IVec S_ 1 := (fun x v => Host.reduce IntOp.andi x v reducesTo_S3x128x128_S_d0_1_2 h_S_) main_v26 main_c_9
  let main_v28 : IVec S_ 1 := andi main_v23 main_v27
  let main_v29 : FVec F S3x128 .f32 := Host.absf main_arg7
  let main_cst_10 : FVec F S_ .f32 := constant S_ .f32 0x7F800000#32
  let main_v30 : FVec F S3x128 .f32 := broadcastInDim S3x128 ![] bcast_S_S3x128 main_cst_10
  let main_v31 : IVec S3x128 1 := cmpf .olt main_v29 main_v30
  let main_c_11 : IVec S_ 1 := constantI S_ 1 1#1
  let main_v32 : IVec S_ 1 := (fun x v => Host.reduce IntOp.andi x v reducesTo_S3x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S100000x128 .f32) (main_arg1 : IVec S2x1600000 32) (main_arg2 : FVec F S128x128 .f32) (main_arg3 : FVec F S128 .f32) (main_arg4 : FVec F S3x128x128 .f32) (main_arg5 : FVec F S3x128 .f32) (main_arg6 : FVec F S3x128x128 .f32) (main_arg7 : FVec F S3x128 .f32) (main_arg8 : FVec F S3x128 .f32) (main_arg9 : FVec F S384x16 .f32) (main_arg10 : FVec F S16 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S3x128x128 .f32 := Host.absf main_arg4
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg5 main_arg6 main_arg7 main_arg8 main_arg9 main_arg10 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S3x128x128 : Shape := ⟨3, ![3, 128, 128]⟩
abbrev S3x128 : Shape := ⟨2, ![3, 128]⟩
abbrev S384x16 : Shape := ⟨2, ![384, 16]⟩
abbrev S16 : Shape := ⟨1, ![16]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1x128 : Shape := ⟨2, ![1, 128]⟩
abbrev S2000x128 : Shape := ⟨2, ![2000, 128]⟩
abbrev S1600000x128 : Shape := ⟨2, ![1600000, 128]⟩
abbrev S1x128x128 : Shape := ⟨3, ![1, 128, 128]⟩
abbrev S2000 : Shape := ⟨1, ![2000]⟩
abbrev S2000x1 : Shape := ⟨2, ![2000, 1]⟩
abbrev S128x16 : Shape := ⟨2, ![128, 16]⟩
abbrev S1x16 : Shape := ⟨2, ![1, 16]⟩
abbrev S100000x16 : Shape := ⟨2, ![100000, 16]⟩
abbrev S2000x16 : Shape := ⟨2, ![2000, 16]⟩

abbrev nBuf : Space → Nat
  | .hbm => 122
  | .vmem => 51
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S3x128x128, .f32⟩
  | .hbm, ⟨5, _⟩ => ⟨S3x128, .f32⟩
  | .hbm, ⟨6, _⟩ => ⟨S3x128x128, .f32⟩
  | .hbm, ⟨7, _⟩ => ⟨S3x128, .f32⟩
  | .hbm, ⟨8, _⟩ => ⟨S3x128, .f32⟩
  | .hbm, ⟨9, _⟩ => ⟨S384x16, .f32⟩
  | .hbm, ⟨10, _⟩ => ⟨S16, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .f32⟩
  | .hbm, ⟨16, _⟩ => ⟨S1600000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S1x128, .f32⟩
  | .hbm, ⟨29, _⟩ => ⟨S100000x128, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000x128, .f32⟩
  | .hbm, ⟨39, _⟩ => ⟨S_, .f32⟩
  | .hbm, ⟨40, _⟩ => ⟨S100000x128, .f32⟩
  | .hbm, ⟨41, _⟩ => ⟨S1600000x1, .i32⟩
  | .hbm, ⟨42, _⟩ => ⟨S100000x128, .f32⟩
  | .hbm, ⟨43, _⟩ => ⟨S100000x128, .f32⟩
  | .hbm, ⟨44, _⟩ => ⟨S100000x128, .f32⟩
  | .hbm, ⟨45, _⟩ => ⟨S1x128x128, .f32⟩
  | .hbm, ⟨46, _⟩ => ⟨S128x128, .f32⟩
  | .hbm, ⟨47, _⟩ => ⟨S1x128, .f32⟩
  | .hbm, ⟨48, _⟩ => ⟨S128, .f32⟩
  | .hbm, ⟨49, _⟩ => ⟨S1x128x128, .f32⟩
  | .hbm, ⟨50, _⟩ => ⟨S128x128, .f32⟩
  | .hbm, ⟨51, _⟩ => ⟨S1x128, .f32⟩
  | .hbm, ⟨52, _⟩ => ⟨S128, .f32⟩
  | .hbm, ⟨53, _⟩ => ⟨S1x128, .f32⟩
  | .hbm, ⟨54, _⟩ => ⟨S128, .f32⟩
  | .hbm, ⟨55, _⟩ => ⟨S1x128, .f32⟩
  | .hbm, ⟨56, _⟩ => ⟨S1x128, .f32⟩
  | .hbm, ⟨57, _⟩ => ⟨S1x128, .f32⟩
  | .hbm, ⟨58, _⟩ => ⟨S100000x128, .f32⟩
  | .hbm, ⟨59, _⟩ => ⟨S_, .i32⟩
  | .hbm, ⟨60, _⟩ => ⟨S1600000, .i32⟩
  | .hbm, ⟨61, _⟩ => ⟨S1600000, .i1⟩
  | .hbm, ⟨62, _⟩ => ⟨S_, .i32⟩
  | .hbm, ⟨63, _⟩ => ⟨S1600000, .i32⟩
  | .hbm, ⟨64, _⟩ => ⟨S1600000, .i32⟩
  | .hbm, ⟨65, _⟩ => ⟨S1600000, .i32⟩
  | .hbm, ⟨66, _⟩ => ⟨S1600000x1, .i32⟩
  | .hbm, ⟨67, _⟩ => ⟨S1600000x128, .f32⟩
  | .hbm, ⟨68, _⟩ => ⟨S_, .f32⟩
  | .hbm, ⟨69, _⟩ => ⟨S100000x128, .f32⟩
  | .hbm, ⟨70, _⟩ => ⟨S1600000x1, .i32⟩
  | .hbm, ⟨71, _⟩ => ⟨S100000x128, .f32⟩
  | .hbm, ⟨72, _⟩ => ⟨S100000x128, .f32⟩
  | .hbm, ⟨73, _⟩ => ⟨S100000x128, .f32⟩
  | .hbm, ⟨74, _⟩ => ⟨S1x128x128, .f32⟩
  | .hbm, ⟨75, _⟩ => ⟨S128x128, .f32⟩
  | .hbm, ⟨76, _⟩ => ⟨S1x128, .f32⟩
  | .hbm, ⟨77, _⟩ => ⟨S128, .f32⟩
  | .hbm, ⟨78, _⟩ => ⟨S1x128x128, .f32⟩
  | .hbm, ⟨79, _⟩ => ⟨S128x128, .f32⟩
  | .hbm, ⟨80, _⟩ => ⟨S1x128, .f32⟩
  | .hbm, ⟨81, _⟩ => ⟨S128, .f32⟩
  | .hbm, ⟨82, _⟩ => ⟨S1x128, .f32⟩
  | .hbm, ⟨83, _⟩ => ⟨S128, .f32⟩
  | .hbm, ⟨84, _⟩ => ⟨S1x128, .f32⟩
  | .hbm, ⟨85, _⟩ => ⟨S1x128, .f32⟩
  | .hbm, ⟨86, _⟩ => ⟨S1x128, .f32⟩
  | .hbm, ⟨87, _⟩ => ⟨S100000x128, .f32⟩
  | .hbm, ⟨88, _⟩ => ⟨S_, .i32⟩
  | .hbm, ⟨89, _⟩ => ⟨S1600000, .i32⟩
  | .hbm, ⟨90, _⟩ => ⟨S1600000, .i1⟩
  | .hbm, ⟨91, _⟩ => ⟨S_, .i32⟩
  | .hbm, ⟨92, _⟩ => ⟨S1600000, .i32⟩
  | .hbm, ⟨93, _⟩ => ⟨S1600000, .i32⟩
  | .hbm, ⟨94, _⟩ => ⟨S1600000, .i32⟩
  | .hbm, ⟨95, _⟩ => ⟨S1600000x1, .i32⟩
  | .hbm, ⟨96, _⟩ => ⟨S1600000x128, .f32⟩
  | .hbm, ⟨97, _⟩ => ⟨S_, .f32⟩
  | .hbm, ⟨98, _⟩ => ⟨S100000x128, .f32⟩
  | .hbm, ⟨99, _⟩ => ⟨S1600000x1, .i32⟩
  | .hbm, ⟨100, _⟩ => ⟨S100000x128, .f32⟩
  | .hbm, ⟨101, _⟩ => ⟨S100000x128, .f32⟩
  | .hbm, ⟨102, _⟩ => ⟨S100000x128, .f32⟩
  | .hbm, ⟨103, _⟩ => ⟨S1x128x128, .f32⟩
  | .hbm, ⟨104, _⟩ => ⟨S128x128, .f32⟩
  | .hbm, ⟨105, _⟩ => ⟨S1x128, .f32⟩
  | .hbm, ⟨106, _⟩ => ⟨S128, .f32⟩
  | .hbm, ⟨107, _⟩ => ⟨S1x128x128, .f32⟩
  | .hbm, ⟨108, _⟩ => ⟨S128x128, .f32⟩
  | .hbm, ⟨109, _⟩ => ⟨S1x128, .f32⟩
  | .hbm, ⟨110, _⟩ => ⟨S128, .f32⟩
  | .hbm, ⟨111, _⟩ => ⟨S1x128, .f32⟩
  | .hbm, ⟨112, _⟩ => ⟨S128, .f32⟩
  | .hbm, ⟨113, _⟩ => ⟨S1x128, .f32⟩
  | .hbm, ⟨114, _⟩ => ⟨S1x128, .f32⟩
  | .hbm, ⟨115, _⟩ => ⟨S1x128, .f32⟩
  | .hbm, ⟨116, _⟩ => ⟨S100000x128, .f32⟩
  | .hbm, ⟨117, _⟩ => ⟨S128x16, .f32⟩
  | .hbm, ⟨118, _⟩ => ⟨S128x16, .f32⟩
  | .hbm, ⟨119, _⟩ => ⟨S128x16, .f32⟩
  | .hbm, ⟨120, _⟩ => ⟨S1x16, .f32⟩
  | .hbm, ⟨121, _⟩ => ⟨S100000x16, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S1x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S128x128, .f32⟩
  | .local _ .vmem, ⟨11, _⟩ => ⟨S1x128, .f32⟩
  | .local _ .vmem, ⟨12, _⟩ => ⟨S128x128, .f32⟩
  | .local _ .vmem, ⟨13, _⟩ => ⟨S1x128, .f32⟩
  | .local _ .vmem, ⟨14, _⟩ => ⟨S1x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S128x128, .f32⟩
  | .local _ .vmem, ⟨22, _⟩ => ⟨S1x128, .f32⟩
  | .local _ .vmem, ⟨23, _⟩ => ⟨S128x128, .f32⟩
  | .local _ .vmem, ⟨24, _⟩ => ⟨S1x128, .f32⟩
  | .local _ .vmem, ⟨25, _⟩ => ⟨S1x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S2000x128, .f32⟩
  | .local _ .vmem, ⟨32, _⟩ => ⟨S128x128, .f32⟩
  | .local _ .vmem, ⟨33, _⟩ => ⟨S1x128, .f32⟩
  | .local _ .vmem, ⟨34, _⟩ => ⟨S128x128, .f32⟩
  | .local _ .vmem, ⟨35, _⟩ => ⟨S1x128, .f32⟩
  | .local _ .vmem, ⟨36, _⟩ => ⟨S1x128, .f32⟩
  | .local _ .vmem, ⟨37, _⟩ => ⟨S2000x128, .f32⟩
  | .local _ .vmem, ⟨38, _⟩ => ⟨S2000x128, .f32⟩
  | .local _ .vmem, ⟨39, _⟩ => ⟨S2000x128, .f32⟩
  | .local _ .vmem, ⟨40, _⟩ => ⟨S2000x128, .f32⟩
  | .local _ .vmem, ⟨41, _⟩ => ⟨S2000x128, .f32⟩
  | .local _ .vmem, ⟨42, _⟩ => ⟨S2000x128, .f32⟩
  | .local _ .vmem, ⟨43, _⟩ => ⟨S2000x128, .f32⟩
  | .local _ .vmem, ⟨44, _⟩ => ⟨S2000x128, .f32⟩
  | .local _ .vmem, ⟨45, _⟩ => ⟨S128x16, .f32⟩
  | .local _ .vmem, ⟨46, _⟩ => ⟨S128x16, .f32⟩
  | .local _ .vmem, ⟨47, _⟩ => ⟨S128x16, .f32⟩
  | .local _ .vmem, ⟨48, _⟩ => ⟨S1x16, .f32⟩
  | .local _ .vmem, ⟨49, _⟩ => ⟨S2000x16, .f32⟩
  | .local _ .vmem, ⟨50, _⟩ => ⟨S2000x16, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | _, _ => false

abbrev semScoped : Fin 0 → Bool
  | ⟨_, h⟩ => absurd h (Nat.not_lt_zero _)

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  ofTc nBuf bufTy 0 51 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_4 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_c_5 : Ref sig .tc := ⟨.hbm, 59, rfl⟩
abbrev main_v41 : Ref sig .tc := ⟨.hbm, 60, rfl⟩
abbrev main_v42 : Ref sig .tc := ⟨.hbm, 61, rfl⟩
abbrev main_c_6 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_7 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_c_8 : Ref sig .tc := ⟨.hbm, 88, rfl⟩
abbrev main_v67 : Ref sig .tc := ⟨.hbm, 89, rfl⟩
abbrev main_v68 : Ref sig .tc := ⟨.hbm, 90, rfl⟩
abbrev main_c_9 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_cst_10 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg7_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg6_0 : Ref sig .tc := ⟨.vmem, 25, rfl⟩
abbrev cc2_stg7_0 : Ref sig .tc := ⟨.vmem, 26, rfl⟩
abbrev cc2_stg7_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg1_1 : Ref sig .tc := ⟨.vmem, 31, rfl⟩
abbrev cc3_stg2_0 : Ref sig .tc := ⟨.vmem, 32, rfl⟩
abbrev cc3_stg3_0 : Ref sig .tc := ⟨.vmem, 33, rfl⟩
abbrev cc3_stg4_0 : Ref sig .tc := ⟨.vmem, 34, rfl⟩
abbrev cc3_stg5_0 : Ref sig .tc := ⟨.vmem, 35, rfl⟩
abbrev cc3_stg6_0 : Ref sig .tc := ⟨.vmem, 36, rfl⟩
abbrev cc3_stg7_0 : Ref sig .tc := ⟨.vmem, 37, rfl⟩
abbrev cc3_stg7_1 : Ref sig .tc := ⟨.vmem, 38, rfl⟩
abbrev cc4_stg0_0 : Ref sig .tc := ⟨.vmem, 39, rfl⟩
abbrev cc4_stg0_1 : Ref sig .tc := ⟨.vmem, 40, rfl⟩
abbrev cc4_stg1_0 : Ref sig .tc := ⟨.vmem, 41, rfl⟩
abbrev cc4_stg1_1 : Ref sig .tc := ⟨.vmem, 42, rfl⟩
abbrev cc4_stg2_0 : Ref sig .tc := ⟨.vmem, 43, rfl⟩
abbrev cc4_stg2_1 : Ref sig .tc := ⟨.vmem, 44, rfl⟩
abbrev cc4_stg3_0 : Ref sig .tc := ⟨.vmem, 45, rfl⟩
abbrev cc4_stg4_0 : Ref sig .tc := ⟨.vmem, 46, rfl⟩
abbrev cc4_stg5_0 : Ref sig .tc := ⟨.vmem, 47, rfl⟩
abbrev cc4_stg6_0 : Ref sig .tc := ⟨.vmem, 48, rfl⟩
abbrev cc4_stg7_0 : Ref sig .tc := ⟨.vmem, 49, rfl⟩
abbrev cc4_stg7_1 : Ref sig .tc := ⟨.vmem, 50, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem7_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem6_0 : DmaSem sig := 25
abbrev cc2_sem7_0 : DmaSem sig := 26
abbrev cc2_sem7_1 : DmaSem sig := 27
abbrev cc3_sem0_0 : DmaSem sig := 28
abbrev cc3_sem0_1 : DmaSem sig := 29
abbrev cc3_sem1_0 : DmaSem sig := 30
abbrev cc3_sem1_1 : DmaSem sig := 31
abbrev cc3_sem2_0 : DmaSem sig := 32
abbrev cc3_sem3_0 : DmaSem sig := 33
abbrev cc3_sem4_0 : DmaSem sig := 34
abbrev cc3_sem5_0 : DmaSem sig := 35
abbrev cc3_sem6_0 : DmaSem sig := 36
abbrev cc3_sem7_0 : DmaSem sig := 37
abbrev cc3_sem7_1 : DmaSem sig := 38
abbrev cc4_sem0_0 : DmaSem sig := 39
abbrev cc4_sem0_1 : DmaSem sig := 40
abbrev cc4_sem1_0 : DmaSem sig := 41
abbrev cc4_sem1_1 : DmaSem sig := 42
abbrev cc4_sem2_0 : DmaSem sig := 43
abbrev cc4_sem2_1 : DmaSem sig := 44
abbrev cc4_sem3_0 : DmaSem sig := 45
abbrev cc4_sem4_0 : DmaSem sig := 46
abbrev cc4_sem5_0 : DmaSem sig := 47
abbrev cc4_sem6_0 : DmaSem sig := 48
abbrev cc4_sem7_0 : DmaSem sig := 49
abbrev cc4_sem7_1 : DmaSem sig := 50

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S2000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S2000x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S128x16 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x16 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128x16 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x16 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S2000x16 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S2000x128_S2000x128 : S2000x128.ShapeCasts S2000x128
  shapeCasts_S128x128_S128x128 : S128x128.ShapeCasts S128x128
  reduces_S2000x128_S2000 : S2000x128.Reduces [1] S2000
  shapeCasts_S2000_S2000x1 : S2000.ShapeCasts S2000x1
  broadcasts_S2000x1_S2000x128 : S2000x1.Broadcasts S2000x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  slices_S384x16_S128x16_0_0 : S384x16.Slices ![0, 0] S128x16
  slices_S384x16_S128x16_128_0 : S384x16.Slices ![128, 0] S128x16
  slices_S384x16_S128x16_256_0 : S384x16.Slices ![256, 0] S128x16
  shapeCasts_S16_S1x16 : S16.ShapeCasts S1x16
  inb_S128x16_S128x16_0_0 : ∀ a, (![0, 0] : Fin 2 → Nat) a + S128x16.size a ≤ S128x16.size a
  h_S128x16 : 0 < S128x16.numel
  shapeCasts_S128x16_S128x16 : S128x16.ShapeCasts S128x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2000x16 : S1x16.Broadcasts S2000x16
  inb_S2000x16_S2000x16_0_0 : ∀ a, (![0, 0] : Fin 2 → Nat) a + S2000x16.size a ≤ S2000x16.size a
  h_S2000x16 : 0 < S2000x16.numel
  scatter_S100000_S1600000x1_S1600000_n_0_0_1_wf : ScatterDims.WF S100000 S1600000x1 S1600000 [] [0] [0] 1
  dot_S2000x128_S128x128_S2000x128_1_0_0_1_n_n_wf : DotDims.WF S2000x128 S128x128 S2000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x16_S2000x16_1_0_0_1_n_n_wf : DotDims.WF S2000x128 S128x16 S2000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S100000x128.size a
  hwx0_3 : ∀ i : grid0.Coords, EltTy.bits .f32 = 32 ∨ (Rect.block (s := S100000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x128.size a ≤ S100000x128.size a
  hwx1_7 : ∀ i : grid1.Coords, EltTy.bits .f32 = 32 ∨ (Rect.block (s := S100000x128) S2000x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S100000x128.size a
  hwx2_1 : ∀ i : grid2.Coords, EltTy.bits .f32 = 32 ∨ (Rect.block (s := S100000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2000x128.size a ≤ S100000x128.size a
  hwx2_7 : ∀ i : grid2.Coords, EltTy.bits .f32 = 32 ∨ (Rect.block (s := S100000x128) S2000x128.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S100000x128.size a
  hwx3_1 : ∀ i : grid3.Coords, EltTy.bits .f32 = 32 ∨ (Rect.block (s := S100000x128) S2000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S2000x128.size a ≤ S100000x128.size a
  hwx3_7 : ∀ i : grid3.Coords, EltTy.bits .f32 = 32 ∨ (Rect.block (s := S100000x128) S2000x128.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S100000x128.size a
  hwx4_0 : ∀ i : grid4.Coords, EltTy.bits .f32 = 32 ∨ (Rect.block (s := S100000x128) S2000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x128.size a ≤ S100000x128.size a
  hwx4_1 : ∀ i : grid4.Coords, EltTy.bits .f32 = 32 ∨ (Rect.block (s := S100000x128) S2000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x128.size a ≤ S100000x128.size a
  hwx4_2 : ∀ i : grid4.Coords, EltTy.bits .f32 = 32 ∨ (Rect.block (s := S100000x128) S2000x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x16.size a ≤ S128x16.size a
  hwx4_3 : ∀ i : grid4.Coords, EltTy.bits .f32 = 32 ∨ (Rect.block (s := S128x16) S128x16.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x16.size a ≤ S128x16.size a
  hwx4_4 : ∀ i : grid4.Coords, EltTy.bits .f32 = 32 ∨ (Rect.block (s := S128x16) S128x16.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128x16.size a ≤ S128x16.size a
  hwx4_5 : ∀ i : grid4.Coords, EltTy.bits .f32 = 32 ∨ (Rect.block (s := S128x16) S128x16.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x16.size a ≤ S1x16.size a
  hwx4_6 : ∀ i : grid4.Coords, EltTy.bits .f32 = 32 ∨ (Rect.block (s := S1x16) S1x16.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S2000x16.size a ≤ S100000x16.size a
  hwx4_7 : ∀ i : grid4.Coords, EltTy.bits .f32 = 32 ∨ (Rect.block (s := S100000x16) S2000x16.size (cc4_transform_7 i) (hinb4_7 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x16_S2000x16_1_0_0_1_n_n : DotDims S2000x128 S128x16 S2000x16 where
  lhsContracting := [1]
  rhsContracting := [0]
  lhsNonContracting := [0]
  rhsNonContracting := [1]
  lhsBatch := []
  rhsBatch := []
  wf := dot_S2000x128_S128x16_S2000x16_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v37) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v32) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v38) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v39) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v40) S2000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v52) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v40) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v54) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v63) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v58) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v64) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v65) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v66) S2000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v78) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v66) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v80) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v89) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v84) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v90) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v91) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v92) S2000x128.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v40) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v66) S2000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v92) S2000x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v93) S128x16.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v94) S128x16.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v95) S128x16.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v96) S1x16.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v97) S2000x16.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S3x128x128 : Shape := ⟨3, ![3, 128, 128]⟩
abbrev S3x128 : Shape := ⟨2, ![3, 128]⟩
abbrev S384x16 : Shape := ⟨2, ![384, 16]⟩
abbrev S16 : Shape := ⟨1, ![16]⟩
abbrev S1x1600000 : Shape := ⟨2, ![1, 1600000]⟩
abbrev S1600000 : Shape := ⟨1, ![1600000]⟩
abbrev S1x128 : Shape := ⟨2, ![1, 128]⟩
abbrev S_ : Shape := ⟨0, ![]⟩
abbrev S1x128x128 : Shape := ⟨3, ![1, 128, 128]⟩
abbrev S1600000x1 : Shape := ⟨2, ![1600000, 1]⟩
abbrev S1600000x128 : Shape := ⟨2, ![1600000, 128]⟩
abbrev S100000x1 : Shape := ⟨2, ![100000, 1]⟩
abbrev S100000 : Shape := ⟨1, ![100000]⟩
abbrev S100000x384 : Shape := ⟨2, ![100000, 384]⟩
abbrev S100000x16 : Shape := ⟨2, ![100000, 16]⟩
abbrev S1x16 : Shape := ⟨2, ![1, 16]⟩

abbrev nBuf : Space → Nat
  | .hbm => 246
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S3x128x128, .f32⟩
  | 5 => ⟨S3x128, .f32⟩
  | 6 => ⟨S3x128x128, .f32⟩
  | 7 => ⟨S3x128, .f32⟩
  | 8 => ⟨S3x128, .f32⟩
  | 9 => ⟨S384x16, .f32⟩
  | 10 => ⟨S16, .f32⟩
  | 11 => ⟨S1x1600000, .i32⟩
  | 12 => ⟨S1600000, .i32⟩
  | 13 => ⟨S1x1600000, .i32⟩
  | 14 => ⟨S1600000, .i32⟩
  | 15 => ⟨S100000x128, .f32⟩
  | 16 => ⟨S1x128, .f32⟩
  | 17 => ⟨S100000x128, .f32⟩
  | 18 => ⟨S100000x128, .f32⟩
  | 19 => ⟨S_, .f32⟩
  | 20 => ⟨S100000x128, .f32⟩
  | 21 => ⟨S100000x128, .f32⟩
  | 22 => ⟨S1x128x128, .f32⟩
  | 23 => ⟨S128x128, .f32⟩
  | 24 => ⟨S1x128, .f32⟩
  | 25 => ⟨S128, .f32⟩
  | 26 => ⟨S1x128x128, .f32⟩
  | 27 => ⟨S128x128, .f32⟩
  | 28 => ⟨S_, .i32⟩
  | 29 => ⟨S1600000, .i32⟩
  | 30 => ⟨S1600000, .i1⟩
  | 31 => ⟨S_, .i32⟩
  | 32 => ⟨S1600000, .i32⟩
  | 33 => ⟨S1600000, .i32⟩
  | 34 => ⟨S1600000, .i32⟩
  | 35 => ⟨S1600000x1, .i32⟩
  | 36 => ⟨S1600000x128, .f32⟩
  | 37 => ⟨S_, .f32⟩
  | 38 => ⟨S100000x128, .f32⟩
  | 39 => ⟨S1600000x1, .i32⟩
  | 40 => ⟨S100000x128, .f32⟩
  | 41 => ⟨S_, .f32⟩
  | 42 => ⟨S1600000x1, .f32⟩
  | 43 => ⟨S_, .f32⟩
  | 44 => ⟨S100000x1, .f32⟩
  | 45 => ⟨S1600000x1, .i32⟩
  | 46 => ⟨S100000x1, .f32⟩
  | 47 => ⟨S_, .f32⟩
  | 48 => ⟨S100000x1, .f32⟩
  | 49 => ⟨S100000x1, .f32⟩
  | 50 => ⟨S100000x128, .f32⟩
  | 51 => ⟨S100000x128, .f32⟩
  | 52 => ⟨S100000x128, .f32⟩
  | 53 => ⟨S1x128, .f32⟩
  | 54 => ⟨S100000x128, .f32⟩
  | 55 => ⟨S100000x128, .f32⟩
  | 56 => ⟨S100000x128, .f32⟩
  | 57 => ⟨S100000x128, .f32⟩
  | 58 => ⟨S1x128, .f32⟩
  | 59 => ⟨S128, .f32⟩
  | 60 => ⟨S1x128, .f32⟩
  | 61 => ⟨S128, .f32⟩
  | 62 => ⟨S_, .f32⟩
  | 63 => ⟨S100000, .f32⟩
  | 64 => ⟨S100000x1, .f32⟩
  | 65 => ⟨S_, .f32⟩
  | 66 => ⟨S100000x1, .f32⟩
  | 67 => ⟨S100000x1, .f32⟩
  | 68 => ⟨S100000x128, .f32⟩
  | 69 => ⟨S100000x128, .f32⟩
  | 70 => ⟨S100000x128, .f32⟩
  | 71 => ⟨S_, .f32⟩
  | 72 => ⟨S100000, .f32⟩
  | 73 => ⟨S100000x1, .f32⟩
  | 74 => ⟨S_, .f32⟩
  | 75 => ⟨S100000x1, .f32⟩
  | 76 => ⟨S100000x1, .f32⟩
  | 77 => ⟨S100000x128, .f32⟩
  | 78 => ⟨S100000x128, .f32⟩
  | 79 => ⟨S_, .f32⟩
  | 80 => ⟨S100000x1, .f32⟩
  | 81 => ⟨S100000x1, .f32⟩
  | 82 => ⟨S100000x1, .f32⟩
  | 83 => ⟨S100000x128, .f32⟩
  | 84 => ⟨S100000x128, .f32⟩
  | 85 => ⟨S1x128, .f32⟩
  | 86 => ⟨S100000x128, .f32⟩
  | 87 => ⟨S100000x128, .f32⟩
  | 88 => ⟨S1x128, .f32⟩
  | 89 => ⟨S100000x128, .f32⟩
  | 90 => ⟨S100000x128, .f32⟩
  | 91 => ⟨S_, .f32⟩
  | 92 => ⟨S100000x128, .f32⟩
  | 93 => ⟨S100000x128, .f32⟩
  | 94 => ⟨S100000x128, .f32⟩
  | 95 => ⟨S1x128x128, .f32⟩
  | 96 => ⟨S128x128, .f32⟩
  | 97 => ⟨S1x128, .f32⟩
  | 98 => ⟨S128, .f32⟩
  | 99 => ⟨S1x128x128, .f32⟩
  | 100 => ⟨S128x128, .f32⟩
  | 101 => ⟨S_, .i32⟩
  | 102 => ⟨S1600000, .i32⟩
  | 103 => ⟨S1600000, .i1⟩
  | 104 => ⟨S_, .i32⟩
  | 105 => ⟨S1600000, .i32⟩
  | 106 => ⟨S1600000, .i32⟩
  | 107 => ⟨S1600000, .i32⟩
  | 108 => ⟨S1600000x1, .i32⟩
  | 109 => ⟨S1600000x128, .f32⟩
  | 110 => ⟨S_, .f32⟩
  | 111 => ⟨S100000x128, .f32⟩
  | 112 => ⟨S1600000x1, .i32⟩
  | 113 => ⟨S100000x128, .f32⟩
  | 114 => ⟨S_, .f32⟩
  | 115 => ⟨S1600000x1, .f32⟩
  | 116 => ⟨S_, .f32⟩
  | 117 => ⟨S100000x1, .f32⟩
  | 118 => ⟨S1600000x1, .i32⟩
  | 119 => ⟨S100000x1, .f32⟩
  | 120 => ⟨S_, .f32⟩
  | 121 => ⟨S100000x1, .f32⟩
  | 122 => ⟨S100000x1, .f32⟩
  | 123 => ⟨S100000x128, .f32⟩
  | 124 => ⟨S100000x128, .f32⟩
  | 125 => ⟨S100000x128, .f32⟩
  | 126 => ⟨S1x128, .f32⟩
  | 127 => ⟨S100000x128, .f32⟩
  | _ => ⟨S100000x128, .f32⟩

abbrev hbmTy0_1 (i : Nat) : BufTy := match i % 128 with
  | 0 => ⟨S100000x128, .f32⟩
  | 1 => ⟨S100000x128, .f32⟩
  | 2 => ⟨S100000x128, .f32⟩
  | 3 => ⟨S1x128, .f32⟩
  | 4 => ⟨S128, .f32⟩
  | 5 => ⟨S1x128, .f32⟩
  | 6 => ⟨S128, .f32⟩
  | 7 => ⟨S_, .f32⟩
  | 8 => ⟨S100000, .f32⟩
  | 9 => ⟨S100000x1, .f32⟩
  | 10 => ⟨S_, .f32⟩
  | 11 => ⟨S100000x1, .f32⟩
  | 12 => ⟨S100000x1, .f32⟩
  | 13 => ⟨S100000x128, .f32⟩
  | 14 => ⟨S100000x128, .f32⟩
  | 15 => ⟨S100000x128, .f32⟩
  | 16 => ⟨S_, .f32⟩
  | 17 => ⟨S100000, .f32⟩
  | 18 => ⟨S100000x1, .f32⟩
  | 19 => ⟨S_, .f32⟩
  | 20 => ⟨S100000x1, .f32⟩
  | 21 => ⟨S100000x1, .f32⟩
  | 22 => ⟨S100000x128, .f32⟩
  | 23 => ⟨S100000x128, .f32⟩
  | 24 => ⟨S_, .f32⟩
  | 25 => ⟨S100000x1, .f32⟩
  | 26 => ⟨S100000x1, .f32⟩
  | 27 => ⟨S100000x1, .f32⟩
  | 28 => ⟨S100000x128, .f32⟩
  | 29 => ⟨S100000x128, .f32⟩
  | 30 => ⟨S1x128, .f32⟩
  | 31 => ⟨S100000x128, .f32⟩
  | 32 => ⟨S100000x128, .f32⟩
  | 33 => ⟨S1x128, .f32⟩
  | 34 => ⟨S100000x128, .f32⟩
  | 35 => ⟨S100000x128, .f32⟩
  | 36 => ⟨S_, .f32⟩
  | 37 => ⟨S100000x128, .f32⟩
  | 38 => ⟨S100000x128, .f32⟩
  | 39 => ⟨S100000x128, .f32⟩
  | 40 => ⟨S1x128x128, .f32⟩
  | 41 => ⟨S128x128, .f32⟩
  | 42 => ⟨S1x128, .f32⟩
  | 43 => ⟨S128, .f32⟩
  | 44 => ⟨S1x128x128, .f32⟩
  | 45 => ⟨S128x128, .f32⟩
  | 46 => ⟨S_, .i32⟩
  | 47 => ⟨S1600000, .i32⟩
  | 48 => ⟨S1600000, .i1⟩
  | 49 => ⟨S_, .i32⟩
  | 50 => ⟨S1600000, .i32⟩
  | 51 => ⟨S1600000, .i32⟩
  | 52 => ⟨S1600000, .i32⟩
  | 53 => ⟨S1600000x1, .i32⟩
  | 54 => ⟨S1600000x128, .f32⟩
  | 55 => ⟨S_, .f32⟩
  | 56 => ⟨S100000x128, .f32⟩
  | 57 => ⟨S1600000x1, .i32⟩
  | 58 => ⟨S100000x128, .f32⟩
  | 59 => ⟨S_, .f32⟩
  | 60 => ⟨S1600000x1, .f32⟩
  | 61 => ⟨S_, .f32⟩
  | 62 => ⟨S100000x1, .f32⟩
  | 63 => ⟨S1600000x1, .i32⟩
  | 64 => ⟨S100000x1, .f32⟩
  | 65 => ⟨S_, .f32⟩
  | 66 => ⟨S100000x1, .f32⟩
  | 67 => ⟨S100000x1, .f32⟩
  | 68 => ⟨S100000x128, .f32⟩
  | 69 => ⟨S100000x128, .f32⟩
  | 70 => ⟨S100000x128, .f32⟩
  | 71 => ⟨S1x128, .f32⟩
  | 72 => ⟨S100000x128, .f32⟩
  | 73 => ⟨S100000x128, .f32⟩
  | 74 => ⟨S100000x128, .f32⟩
  | 75 => ⟨S100000x128, .f32⟩
  | 76 => ⟨S1x128, .f32⟩
  | 77 => ⟨S128, .f32⟩
  | 78 => ⟨S1x128, .f32⟩
  | 79 => ⟨S128, .f32⟩
  | 80 => ⟨S_, .f32⟩
  | 81 => ⟨S100000, .f32⟩
  | 82 => ⟨S100000x1, .f32⟩
  | 83 => ⟨S_, .f32⟩
  | 84 => ⟨S100000x1, .f32⟩
  | 85 => ⟨S100000x1, .f32⟩
  | 86 => ⟨S100000x128, .f32⟩
  | 87 => ⟨S100000x128, .f32⟩
  | 88 => ⟨S100000x128, .f32⟩
  | 89 => ⟨S_, .f32⟩
  | 90 => ⟨S100000, .f32⟩
  | 91 => ⟨S100000x1, .f32⟩
  | 92 => ⟨S_, .f32⟩
  | 93 => ⟨S100000x1, .f32⟩
  | 94 => ⟨S100000x1, .f32⟩
  | 95 => ⟨S100000x128, .f32⟩
  | 96 => ⟨S100000x128, .f32⟩
  | 97 => ⟨S_, .f32⟩
  | 98 => ⟨S100000x1, .f32⟩
  | 99 => ⟨S100000x1, .f32⟩
  | 100 => ⟨S100000x1, .f32⟩
  | 101 => ⟨S100000x128, .f32⟩
  | 102 => ⟨S100000x128, .f32⟩
  | 103 => ⟨S1x128, .f32⟩
  | 104 => ⟨S100000x128, .f32⟩
  | 105 => ⟨S100000x128, .f32⟩
  | 106 => ⟨S1x128, .f32⟩
  | 107 => ⟨S100000x128, .f32⟩
  | 108 => ⟨S100000x128, .f32⟩
  | 109 => ⟨S_, .f32⟩
  | 110 => ⟨S100000x128, .f32⟩
  | 111 => ⟨S100000x128, .f32⟩
  | 112 => ⟨S100000x128, .f32⟩
  | 113 => ⟨S100000x384, .f32⟩
  | 114 => ⟨S100000x16, .f32⟩
  | 115 => ⟨S1x16, .f32⟩
  | 116 => ⟨S100000x16, .f32⟩
  | 117 => ⟨S100000x16, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_call0_cst : Ref sig .tc := ⟨.hbm, 19, rfl⟩
abbrev main_call0_v0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_0 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_1 : Ref sig .tc := ⟨.hbm, 41, rfl⟩
abbrev main_v25 : Ref sig .tc := ⟨.hbm, 42, rfl⟩
abbrev main_cst_2 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_3 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_4 : Ref sig .tc := ⟨.hbm, 62, rfl⟩
abbrev main_v43 : Ref sig .tc := ⟨.hbm, 63, rfl⟩
abbrev main_v44 : Ref sig .tc := ⟨.hbm, 64, rfl⟩
abbrev main_cst_5 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_6 : Ref sig .tc := ⟨.hbm, 71, rfl⟩
abbrev main_v50 : Ref sig .tc := ⟨.hbm, 72, rfl⟩
abbrev main_v51 : Ref sig .tc := ⟨.hbm, 73, rfl⟩
abbrev main_cst_7 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_8 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_call1_cst : Ref sig .tc := ⟨.hbm, 91, rfl⟩
abbrev main_call1_v0 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_c_9 : Ref sig .tc := ⟨.hbm, 101, rfl⟩
abbrev main_v75 : Ref sig .tc := ⟨.hbm, 102, rfl⟩
abbrev main_v76 : Ref sig .tc := ⟨.hbm, 103, rfl⟩
abbrev main_c_10 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_cst_11 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_cst_12 : Ref sig .tc := ⟨.hbm, 114, rfl⟩
abbrev main_v85 : Ref sig .tc := ⟨.hbm, 115, rfl⟩
abbrev main_cst_13 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_cst_14 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_cst_15 : Ref sig .tc := ⟨.hbm, 135, rfl⟩
abbrev main_v103 : Ref sig .tc := ⟨.hbm, 136, rfl⟩
abbrev main_v104 : Ref sig .tc := ⟨.hbm, 137, rfl⟩
abbrev main_cst_16 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_cst_17 : Ref sig .tc := ⟨.hbm, 144, rfl⟩
abbrev main_v110 : Ref sig .tc := ⟨.hbm, 145, rfl⟩
abbrev main_v111 : Ref sig .tc := ⟨.hbm, 146, rfl⟩
abbrev main_cst_18 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_cst_19 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_call2_cst : Ref sig .tc := ⟨.hbm, 164, rfl⟩
abbrev main_call2_v0 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_c_20 : Ref sig .tc := ⟨.hbm, 174, rfl⟩
abbrev main_v135 : Ref sig .tc := ⟨.hbm, 175, rfl⟩
abbrev main_v136 : Ref sig .tc := ⟨.hbm, 176, rfl⟩
abbrev main_c_21 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_cst_22 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_cst_23 : Ref sig .tc := ⟨.hbm, 187, rfl⟩
abbrev main_v145 : Ref sig .tc := ⟨.hbm, 188, rfl⟩
abbrev main_cst_24 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_cst_25 : Ref sig .tc := ⟨.hbm, 193, rfl⟩
abbrev main_v149 : Ref sig .tc := ⟨.hbm, 194, rfl⟩
abbrev main_v150 : Ref sig .tc := ⟨.hbm, 195, rfl⟩
abbrev main_v151 : Ref sig .tc := ⟨.hbm, 196, rfl⟩
abbrev main_v152 : Ref sig .tc := ⟨.hbm, 197, rfl⟩
abbrev main_v153 : Ref sig .tc := ⟨.hbm, 198, rfl⟩
abbrev main_v154 : Ref sig .tc := ⟨.hbm, 199, rfl⟩
abbrev main_v155 : Ref sig .tc := ⟨.hbm, 200, rfl⟩
abbrev main_v156 : Ref sig .tc := ⟨.hbm, 201, rfl⟩
abbrev main_v157 : Ref sig .tc := ⟨.hbm, 202, rfl⟩
abbrev main_v158 : Ref sig .tc := ⟨.hbm, 203, rfl⟩
abbrev main_v159 : Ref sig .tc := ⟨.hbm, 204, rfl⟩
abbrev main_v160 : Ref sig .tc := ⟨.hbm, 205, rfl⟩
abbrev main_v161 : Ref sig .tc := ⟨.hbm, 206, rfl⟩
abbrev main_v162 : Ref sig .tc := ⟨.hbm, 207, rfl⟩
abbrev main_cst_26 : Ref sig .tc := ⟨.hbm, 208, rfl⟩
abbrev main_v163 : Ref sig .tc := ⟨.hbm, 209, rfl⟩
abbrev main_v164 : Ref sig .tc := ⟨.hbm, 210, rfl⟩
abbrev main_cst_27 : Ref sig .tc := ⟨.hbm, 211, rfl⟩
abbrev main_v165 : Ref sig .tc := ⟨.hbm, 212, rfl⟩
abbrev main_v166 : Ref sig .tc := ⟨.hbm, 213, rfl⟩
abbrev main_v167 : Ref sig .tc := ⟨.hbm, 214, rfl⟩
abbrev main_v168 : Ref sig .tc := ⟨.hbm, 215, rfl⟩
abbrev main_v169 : Ref sig .tc := ⟨.hbm, 216, rfl⟩
abbrev main_cst_28 : Ref sig .tc := ⟨.hbm, 217, rfl⟩
abbrev main_v170 : Ref sig .tc := ⟨.hbm, 218, rfl⟩
abbrev main_v171 : Ref sig .tc := ⟨.hbm, 219, rfl⟩
abbrev main_cst_29 : Ref sig .tc := ⟨.hbm, 220, rfl⟩
abbrev main_v172 : Ref sig .tc := ⟨.hbm, 221, rfl⟩
abbrev main_v173 : Ref sig .tc := ⟨.hbm, 222, rfl⟩
abbrev main_v174 : Ref sig .tc := ⟨.hbm, 223, rfl⟩
abbrev main_v175 : Ref sig .tc := ⟨.hbm, 224, rfl⟩
abbrev main_cst_30 : Ref sig .tc := ⟨.hbm, 225, rfl⟩
abbrev main_v176 : Ref sig .tc := ⟨.hbm, 226, rfl⟩
abbrev main_v177 : Ref sig .tc := ⟨.hbm, 227, rfl⟩
abbrev main_v178 : Ref sig .tc := ⟨.hbm, 228, rfl⟩
abbrev main_v179 : Ref sig .tc := ⟨.hbm, 229, rfl⟩
abbrev main_v180 : Ref sig .tc := ⟨.hbm, 230, rfl⟩
abbrev main_v181 : Ref sig .tc := ⟨.hbm, 231, rfl⟩
abbrev main_v182 : Ref sig .tc := ⟨.hbm, 232, rfl⟩
abbrev main_v183 : Ref sig .tc := ⟨.hbm, 233, rfl⟩
abbrev main_v184 : Ref sig .tc := ⟨.hbm, 234, rfl⟩
abbrev main_v185 : Ref sig .tc := ⟨.hbm, 235, rfl⟩
abbrev main_v186 : Ref sig .tc := ⟨.hbm, 236, rfl⟩
abbrev main_call3_cst : Ref sig .tc := ⟨.hbm, 237, rfl⟩
abbrev main_call3_v0 : Ref sig .tc := ⟨.hbm, 238, rfl⟩
abbrev main_v187 : Ref sig .tc := ⟨.hbm, 239, rfl⟩
abbrev main_v188 : Ref sig .tc := ⟨.hbm, 240, rfl⟩
abbrev main_v189 : Ref sig .tc := ⟨.hbm, 241, rfl⟩
abbrev main_v190 : Ref sig .tc := ⟨.hbm, 242, rfl⟩
abbrev main_v191 : Ref sig .tc := ⟨.hbm, 243, rfl⟩
abbrev main_v192 : Ref sig .tc := ⟨.hbm, 244, rfl⟩
abbrev main_v193 : Ref sig .tc := ⟨.hbm, 245, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  reducesTo_S100000x128_S100000_d1 : S100000x128.ReducesTo [1] S100000
  h_S_ : 0 < S_.numel
  bcast_S100000_S100000x1_0 : S100000.BroadcastsInDim S100000x1 (![0] : Fin 1 → Fin S100000x1.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  concatenates_S100000x128_S100000x128_S100000x128_S100000x384_d1 : Shape.Concatenates [S100000x128, S100000x128, S100000x128] S100000x384 1
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000x1_S1600000x1_S1600000x1_1_0_0_1_wf : ScatterDims.WF S100000x1 S1600000x1 S1600000x1 [1] [0] [0] 1
  dot_S100000x384_S384x16_S100000x16_1_0_0_1_n_n_wf : DotDims.WF S100000x384 S384x16 S100000x16 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S100000x384_S384x16_S100000x16_1_0_0_1_n_n : DotDims S100000x384 S384x16 S100000x16 where
  lhsContracting := [1]
  rhsContracting := [0]
  lhsNonContracting := [0]
  rhsNonContracting := [1]
  lhsBatch := []
  rhsBatch := []
  wf := dot_S100000x384_S384x16_S100000x16_1_0_0_1_n_n_wf

class Facts : Prop extends Facts₀ where

variable [Facts]
-- ==== Proof.KRun.lean ====
/-
  The idealized kernel's run with its result named.

  The program is ten segments: five stretches of host operations and five regions, alternating.  The buffer
  contents at each segment boundary are a fold from the launch memory (a host stretch applies its operations; a
  region replaces its arrays by what its write-backs leave), and every weakly fair execution ends with every
  unscoped buffer at the last boundary's contents.  The frame keeps from this only that the arguments are unchanged;
  here the same launch is read once more at the result buffer as well, so the result is the last boundary's
  contents at that buffer.
-/
import proofs.«121075_j4492535791673_1_alg».proof.Proof.Gen.KernelIdeal.Frame

set_option maxRecDepth 16384

noncomputable section

namespace Cert.Sage.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault, with the result buffer at the last boundary's contents
    and the eleven arguments as launched. -/
theorem run_value : θ_run defs (onTc (τ := τ) (main (F := F))) ⟨m, fun _ => 0, ρ⟩ (fun r => ∀ c : Dev nD,
      r.2.mem ((c.tc : Thread nD τ).loc main_v97) = W10 m ρ c (Proc.devRef .tc main_v97)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v97 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c)⟩)

end Cert.Sage.KRun

end
-- ==== Proof.LibDense.lean ====
/-
  Dense layers read as functions of rows, at the ideal values.

  A dense layer of an MLP takes an [A, K] matrix of rows, a [K, N] weight matrix and an [N] bias to the [A, N]
  matrix whose entry (r, n) is  sum_k x(r, k) * w(k, n) + b(n).  Entry (r, n) depends on row r of x only, so the
  layer applied to a block of rows is the block of the layer applied to all rows; that is what lets a kernel
  that walks over row blocks be compared with a reference that multiplies whole matrices.

  Two spellings of the layer are read to this one function: the kernel's (the operands narrowed to bf16, which
  changes nothing at the ideal values; a matrix product accumulated into a zero splat; the bias cast to one row
  and broadcast down the rows) and the host's (a dot_general; the bias broadcast to one row, then down the rows).
  Likewise the tanh form of gelu,  x * (1/2 * (1 + tanh (c1 * (x + c0 * x^3)))),  is read pointwise in the
  kernel's spelling (x^3 as x * (x * x), splatted scalars) and the host's (x^3 as (x * x) * x, broadcast
  constants); the two cubes agree because multiplication of extended reals is commutative.  All of it is generic in the extents.
-/
import Idealize.ShloMosaic.Lib.KernelVsHost
import Idealize.ShloMosaic.Lib.ValueIdx
import Idealize.ShloMosaic.Lib.Pipeline.Value
import Idealize.ShloMosaic.PureOps.Ideal.Laws

noncomputable section

open scoped BigOperators

namespace Cert.LibDense

open Idealize.ShloMosaic Idealize.ShloMosaic.ValueIdx

/-! ## The contraction of a plain matrix product as a sum over the shared axis -/

/-- For the plain dimension numbers (rows x contraction times contraction x columns) the contraction index is
    its one coordinate, and the operand indices at output (r, n) and contraction k are (r, k) and (k, n). -/
theorem plain_sum (A K N : Nat) (l : (⟨2, ![A, K]⟩ : Shape).Idx → EReal) (r : (⟨2, ![K, N]⟩ : Shape).Idx → EReal)
    (j : (⟨2, ![A, N]⟩ : Shape).Idx) :
    ∑ k : (DotDims.plain A K N).contr.Idx, l ((DotDims.plain A K N).lhsIdx j k) * r ((DotDims.plain A K N).rhsIdx j k)
      = ∑ k : Fin K, l (ix2 (j 0 : Fin A) k) * r (ix2 k (j 1 : Fin N)) := by
  rw [← Equiv.sum_comp (contrEquiv1 (DotDims.plain A K N) K rfl rfl).symm]
  refine Finset.sum_congr rfl fun k _ => ?_
  have hk := contrEquiv1_symm_val (DotDims.plain A K N) K rfl rfl k
  have el : (DotDims.plain A K N).lhsIdx j ((contrEquiv1 (DotDims.plain A K N) K rfl rfl).symm k) = ix2 (j 0 : Fin A) k := by
    funext a
    match a with
    | ⟨0, _⟩ => rfl
    | ⟨1, _⟩ => exact Fin.ext hk
  have er : (DotDims.plain A K N).rhsIdx j ((contrEquiv1 (DotDims.plain A K N) K rfl rfl).symm k) = ix2 k (j 1 : Fin N) := by
    funext a
    match a with
    | ⟨0, _⟩ => exact Fin.ext hk
    | ⟨1, _⟩ => rfl
  exact congrArg₂ (· * ·) (congrArg l el) (congrArg r er)

/-! ## The bias laid along every row -/

/-- The kernel's spelling: the bias cast to one row and broadcast down the rows reads the bias at the column. -/
theorem bias_rows_kernel {A N : Nat} {α : Type} (b : (⟨1, ![N]⟩ : Shape).Idx → α)
    (h1 : (⟨1, ![N]⟩ : Shape).ShapeCasts ⟨2, ![1, N]⟩) (hb : (⟨2, ![1, N]⟩ : Shape).Broadcasts ⟨2, ![A, N]⟩)
    (i : (⟨2, ![A, N]⟩ : Shape).Idx) :
    broadcastTo ⟨2, ![A, N]⟩ (shapeCast ⟨2, ![1, N]⟩ b h1) hb i = b (ix1 (i 1 : Fin N)) := by
  have e1 := broadcastTo_apply (shapeCast ⟨2, ![1, N]⟩ b h1) hb i (ix2 (0 : Fin 1) (i 1 : Fin N)) (by
    intro a
    match a with
    | ⟨0, _⟩ => rfl
    | ⟨1, _⟩ =>
      show (i 1).val = if N = 1 then 0 else (i 1).val
      split
      · have := (i 1).isLt; have e : (i 1).val < N := this; omega
      · rfl)
  have e2 := shapeCast_apply b h1 (ix2 (0 : Fin 1) (i 1 : Fin N)) (ix1 (i 1 : Fin N)) (by
    rw [Shape.rowMajor_val_two, Shape.rowMajor_val_one]; show (i 1).val = 0 * N + (i 1).val; omega)
  exact e1.trans e2

/-- The host's spelling: the bias broadcast to one row along axis 1, then down the rows, reads the bias at the column. -/
theorem bias_rows_host_ix {A N : Nat} {α : Type} (b : (⟨1, ![N]⟩ : Shape).Idx → α)
    (hd : (⟨1, ![N]⟩ : Shape).BroadcastsInDim ⟨2, ![1, N]⟩ ![1])
    (hbc : (⟨2, ![1, N]⟩ : Shape).BroadcastsInDim ⟨2, ![A, N]⟩ ![0, 1]) (p : Fin A) (q : Fin N) :
    broadcastInDim ⟨2, ![A, N]⟩ ![0, 1] hbc (broadcastInDim ⟨2, ![1, N]⟩ ![1] hd b) (ix2 p q) = b (ix1 q) := by
  rw [broadcastInDim_oneRow_apply hbc _ p q]
  refine broadcastInDim_apply ![1] hd b (ix2 (0 : Fin 1) q) (ix1 q) ?_
  intro a
  match a with
  | ⟨0, _⟩ =>
    show q.val = if N = 1 then 0 else q.val
    split
    · have := q.isLt; omega
    · rfl

/-- The same at any index. -/
theorem bias_rows_host {A N : Nat} {α : Type} (b : (⟨1, ![N]⟩ : Shape).Idx → α)
    (hd : (⟨1, ![N]⟩ : Shape).BroadcastsInDim ⟨2, ![1, N]⟩ ![1])
    (hbc : (⟨2, ![1, N]⟩ : Shape).BroadcastsInDim ⟨2, ![A, N]⟩ ![0, 1])
    (i : (⟨2, ![A, N]⟩ : Shape).Idx) :
    broadcastInDim ⟨2, ![A, N]⟩ ![0, 1] hbc (broadcastInDim ⟨2, ![1, N]⟩ ![1] hd b) i = b (ix1 (i 1 : Fin N)) := by
  obtain ⟨p, q, rfl⟩ : ∃ (p : Fin A) (q : Fin N), i = ix2 p q := ⟨i 0, i 1, eq_ix2 i⟩
  exact bias_rows_host_ix b hd hbc p q

/-! ## The dense layer -/

/-- The dense layer on rows: entry (r, n) is the sum over k of x(r, k) * w(k, n), plus b(n). -/
def dense (A K N : Nat) (x : (⟨2, ![A, K]⟩ : Shape).Idx → EReal) (w : (⟨2, ![K, N]⟩ : Shape).Idx → EReal)
    (b : (⟨1, ![N]⟩ : Shape).Idx → EReal) : (⟨2, ![A, N]⟩ : Shape).Idx → EReal :=
  fun j => (∑ k : Fin K, x (ix2 (j 0 : Fin A) k) * w (ix2 k (j 1 : Fin N))) + b (ix1 (j 1 : Fin N))

/-- The kernel's layer (bf16 operands, zero accumulator, bias cast and broadcast) is the dense layer. -/
theorem dense_kernel {A K N : Nat} (x : FVec Ideal ⟨2, ![A, K]⟩ .f32) (w : FVec Ideal ⟨2, ![K, N]⟩ .f32)
    (b : FVec Ideal ⟨1, ![N]⟩ .f32) (hlt : FTy.bits .bf16 < FTy.bits .f32)
    (h1 : (⟨1, ![N]⟩ : Shape).ShapeCasts ⟨2, ![1, N]⟩) (hb : (⟨2, ![1, N]⟩ : Shape).Broadcasts ⟨2, ![A, N]⟩) :
    addf (matmul (DotDims.plain A K N) none (truncf .bf16 x hlt) (truncf .bf16 w hlt) (constant ⟨2, ![A, N]⟩ .f32 0x00000000#32))
      (broadcastTo ⟨2, ![A, N]⟩ (shapeCast ⟨2, ![1, N]⟩ b h1) hb) = dense A K N x w b := by
  funext j
  rw [addf_apply, bias_rows_kernel b h1 hb j]
  refine congrArg (· + b (ix1 (j 1 : Fin N))) ?_
  refine (Ideal.matmul_constant_zero_apply (DotDims.plain A K N) none (truncf .bf16 x hlt) (truncf .bf16 w hlt) j).trans ?_
  exact plain_sum A K N x w j

/-- The host's layer (dot_general, bias broadcast twice) is the dense layer. -/
theorem dense_host {A K N : Nat} (x : FVec Ideal ⟨2, ![A, K]⟩ .f32) (w : FVec Ideal ⟨2, ![K, N]⟩ .f32)
    (b : FVec Ideal ⟨1, ![N]⟩ .f32)
    (hd : (⟨1, ![N]⟩ : Shape).BroadcastsInDim ⟨2, ![1, N]⟩ ![1])
    (hbc : (⟨2, ![1, N]⟩ : Shape).BroadcastsInDim ⟨2, ![A, N]⟩ ![0, 1]) :
    addf (Host.dotGeneral (DotDims.plain A K N) none x w)
      (broadcastInDim ⟨2, ![A, N]⟩ ![0, 1] hbc (broadcastInDim ⟨2, ![1, N]⟩ ![1] hd b)) = dense A K N x w b := by
  funext j
  rw [addf_apply, bias_rows_host b hd hbc j]
  refine congrArg (· + b (ix1 (j 1 : Fin N))) ?_
  refine (Ideal.dotGeneral_apply (DotDims.plain A K N) none _ x w j).trans ?_
  exact plain_sum A K N x w j

/-- Entry (p, q) of the layer depends on row p only: two matrices that agree on a row give the same entry there. -/
theorem dense_row {A A' K N : Nat} (x : (⟨2, ![A, K]⟩ : Shape).Idx → EReal) (x' : (⟨2, ![A', K]⟩ : Shape).Idx → EReal)
    (w : (⟨2, ![K, N]⟩ : Shape).Idx → EReal) (b : (⟨1, ![N]⟩ : Shape).Idx → EReal) (p : Fin A) (r : Fin A') (q : Fin N)
    (h : ∀ k : Fin K, x (ix2 p k) = x' (ix2 r k)) :
    dense A K N x w b (ix2 p q) = dense A' K N x' w b (ix2 r q) := by
  show (∑ k : Fin K, x (ix2 p k) * w (ix2 k q)) + b (ix1 q) = (∑ k : Fin K, x' (ix2 r k) * w (ix2 k q)) + b (ix1 q)
  rw [Finset.sum_congr rfl fun k _ => by rw [h k]]

/-! ## gelu, tanh form -/

/-- gelu's tanh approximation on one extended real, the four f32 constants at their binary values. -/
def gelu (x : EReal) : EReal :=
  x * (Ideal.ofBits .f32 0x3F000000#32 * (Ideal.ofBits .f32 0x3F800000#32
    + Ideal.tanh (Ideal.ofBits .f32 0x3F4C422A#32 * (x + Ideal.ofBits .f32 0x3D372713#32 * (x * (x * x))))))

/-- The kernel's spelling, pointwise: splatted scalars, the cube as x * (x * x). -/
theorem gelu_kernel {s : Shape} (v : FVec Ideal s .f32) :
    mulf v (mulf (broadcast s (Scalar.ofBits (F := Ideal) .f32 0x3F000000#32))
      (addf (broadcast s (Scalar.ofBits (F := Ideal) .f32 0x3F800000#32))
        (tanh (mulf (broadcast s (Scalar.ofBits (F := Ideal) .f32 0x3F4C422A#32))
          (addf v (mulf (broadcast s (Scalar.ofBits (F := Ideal) .f32 0x3D372713#32)) (mulf v (mulf v v))))))))
      = fun j => gelu (v j) := rfl

/-- The host's spelling, pointwise: broadcast constants, the cube as (x * x) * x. -/
theorem gelu_host {s : Shape} (v : FVec Ideal s .f32) (hS : (⟨0, ![]⟩ : Shape).BroadcastsInDim s (![] : Fin 0 → Fin s.rank)) :
    mulf v (mulf (broadcastInDim s ![] hS (constant (F := Ideal) ⟨0, ![]⟩ .f32 0x3F000000#32))
      (addf (broadcastInDim s ![] hS (constant (F := Ideal) ⟨0, ![]⟩ .f32 0x3F800000#32))
        (Host.tanh (mulf (broadcastInDim s ![] hS (constant (F := Ideal) ⟨0, ![]⟩ .f32 0x3F4C422A#32))
          (addf v (mulf (broadcastInDim s ![] hS (constant (F := Ideal) ⟨0, ![]⟩ .f32 0x3D372713#32)) (mulf (mulf v v) v)))))))
      = fun j => gelu (v j) := by
  funext j
  show v j * (Ideal.ofBits .f32 0x3F000000#32 * (Ideal.ofBits .f32 0x3F800000#32
    + Ideal.tanh (Ideal.ofBits .f32 0x3F4C422A#32 * (v j + Ideal.ofBits .f32 0x3D372713#32 * ((v j * v j) * v j))))) = gelu (v j)
  rw [mul_comm (v j * v j) (v j)]
  rfl

end Cert.LibDense

end
-- ==== Proof.LibLayout.lean ====
/-
  Layout operations of small shapes read at an index written by its coordinates: a vector viewed as a column, a column
  repeated along each row, and the row-major regrouping of an array's two leading axes into one axis and back.
  Each is the library's general reading of the operation (equal row-major positions for a cast, trailing coordinates
  for a broadcast) with the two positions worked out for the shapes at hand.
-/
import Idealize.ShloMosaic.Lib.Pipeline.Value
import Idealize.ShloMosaic.Lib.ValueIdx

namespace Cert.LibLayout

open Idealize.ShloMosaic Idealize.ShloMosaic.ValueIdx

variable {α : Type}

/-- An `[a]` array cast to the column `[a, 1]` reads, at `(i, u)`, the operand at `i`: position `i · 1 + 0` is `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[n0, n1, n2]` array with its two leading axes regrouped into one of extent `N` reads, at `(r, c)` with
    `r = s · n1 + b`, the operand at `(s, b, c)`: both sit at row-major position `(s · n1 + b) · n2 + c`. -/
theorem shapeCast_abc_dc_apply {n0 n1 n2 N : ℕ} (x : (⟨3, ![n0, n1, n2]⟩ : Shape).Idx → α)
    (h : (⟨3, ![n0, n1, n2]⟩ : Shape).ShapeCasts ⟨2, ![N, n2]⟩) (r : Fin N) (c : Fin n2) (s : Fin n0) (b : Fin n1)
    (hr : r.val = s.val * n1 + b.val) :
    shapeCast ⟨2, ![N, n2]⟩ x h (ix2 r c) = x (ix3 s b c) :=
  shapeCast_apply x h _ _ (by
    rw [Shape.rowMajor_val_three, Shape.rowMajor_val_two]
    show (s.val * n1 + b.val) * n2 + c.val = r.val * n2 + c.val
    rw [hr])

/-- The way back: an `[N, n2]` array with its leading axis split into `[n0, n1]` reads, at `(s, b, c)`, the operand at
    `(r, c)` for `r = s · n1 + b`. -/
theorem shapeCast_dc_abc_apply {n0 n1 n2 N : ℕ} (x : (⟨2, ![N, n2]⟩ : Shape).Idx → α)
    (h : (⟨2, ![N, n2]⟩ : Shape).ShapeCasts ⟨3, ![n0, n1, n2]⟩) (s : Fin n0) (b : Fin n1) (c : Fin n2) (r : Fin N)
    (hr : r.val = s.val * n1 + b.val) :
    shapeCast ⟨3, ![n0, n1, n2]⟩ x h (ix3 s b c) = x (ix2 r c) :=
  shapeCast_apply x h _ _ (by
    rw [Shape.rowMajor_val_three, Shape.rowMajor_val_two]
    show r.val * n2 + c.val = (s.val * n1 + b.val) * n2 + c.val
    rw [hr])

end Cert.LibLayout
-- ==== Proof.LibLayers.lean ====
/-
  The layers of a three-layer graph network's node update, read as functions of rows at the ideal values.

  After the neighbours' rows have been summed into each node, a layer is a dense map of the node's row,
  sum_k x(r, k) * w(k, n) + b(n), followed either by relu, max(., 0), or, in the last layer, by the log-softmax of
  the row:  y(r, n) - m(r) - log (sum_k exp (y(r, k) - m(r)))  with m(r) the largest entry of row r.  Every entry of
  a layer's result depends on one row of its input only; that is what lets a kernel that walks over blocks of rows be
  compared with a reference that treats all rows at once.

  Each layer is read to its row function in two spellings: the kernel's (operands narrowed to bf16, which is the
  identity at the ideal values; a matrix product into a zero splat; lane reductions that carry their neutral element;
  a vector cast to a column and repeated along the rows) and the host's (dot_general; reductions with an initial
  value; broadcasts in two steps; one more maximum against -inf, which is the identity because -inf is the least
  extended real).  No law of arithmetic beyond 0 + x = x and max (-inf) x = x is used, so nothing here needs the
  inputs to be finite.  All of it is generic in the extents.  (The dense map itself, `dense`, and the two column readings
  come from the two lemma files imported first: a copy of this file needs copies of those beside it.)
-/
import proofs.«121075_j4492535791673_1_alg».proof.Proof.LibDense
import proofs.«121075_j4492535791673_1_alg».proof.Proof.LibLayout
import Idealize.ShloMosaic.Lib.KernelVsHost
import Idealize.ShloMosaic.Lib.ValueIdx
import Idealize.ShloMosaic.Lib.Pipeline.Value
import Idealize.ShloMosaic.PureOps.Ideal.Laws

noncomputable section

open scoped BigOperators

namespace Cert.LibLayers

open Idealize.ShloMosaic Idealize.ShloMosaic.ValueIdx Cert.LibDense

/-! ## Pointwise readings -/

theorem exp_apply {s : Shape} {φ : FTy} (x : FVec Ideal s φ) (i : s.Idx) : exp x i = Ideal.exp (x i) := rfl
theorem log_apply {s : Shape} {φ : FTy} (x : FVec Ideal s φ) (i : s.Idx) : log x i = Ideal.log (x i) := rfl
theorem hostExp_apply {s : Shape} {φ : FTy} (x : FVec Ideal s φ) (i : s.Idx) : Host.exp x i = Ideal.exp (x i) := rfl
theorem hostLog_apply {s : Shape} {φ : FTy} (x : FVec Ideal s φ) (i : s.Idx) : Host.log x i = Ideal.log (x i) := rfl

/-! ## relu -/

/-- relu on every entry: the larger of the entry and the f32 zero. -/
def relu {s : Shape} (y : s.Idx → EReal) : s.Idx → EReal := fun j => max (y j) (Ideal.ofBits .f32 0x00000000#32)

/-- The kernel's spelling: the maximum with a splatted zero. -/
theorem relu_kernel {s : Shape} (y : FVec Ideal s .f32) :
    maximumf y (broadcast s (Scalar.ofBits (F := Ideal) .f32 0x00000000#32)) = relu y := rfl

/-- The host's spelling: the maximum with a broadcast zero constant. -/
theorem relu_host {s : Shape} (y : FVec Ideal s .f32) (hS : (⟨0, ![]⟩ : Shape).BroadcastsInDim s (![] : Fin 0 → Fin s.rank)) :
    maximumf y (broadcastInDim s ![] hS (constant (F := Ideal) ⟨0, ![]⟩ .f32 0x00000000#32)) = relu y := by
  funext j
  show max (y j) (Ideal.ofBits .f32 0x00000000#32) = relu y j
  rfl

/-- relu of an entry depends on that entry only. -/
theorem relu_congr {s s' : Shape} (y : s.Idx → EReal) (y' : s'.Idx → EReal) (j : s.Idx) (j' : s'.Idx) (h : y j = y' j') :
    relu y j = relu y' j' := by
  show max (y j) _ = max (y' j') _
  rw [h]

/-! ## The dense layer with its bias given as one row -/

/-- A [1, N] row read as the [N] vector of its entries. -/
def rowVec {N : Nat} (b1 : (⟨2, ![1, N]⟩ : Shape).Idx → EReal) : (⟨1, ![N]⟩ : Shape).Idx → EReal :=
  fun i => b1 (ix2 (0 : Fin 1) (i 0 : Fin N))

/-- A vector cast to one row, read back as a vector, is the vector. -/
theorem rowVec_shapeCast {N : Nat} (b : (⟨1, ![N]⟩ : Shape).Idx → EReal) (h : (⟨1, ![N]⟩ : Shape).ShapeCasts ⟨2, ![1, N]⟩) :
    rowVec (shapeCast ⟨2, ![1, N]⟩ b h) = b := by
  funext i
  obtain ⟨q, rfl⟩ : ∃ q : Fin N, i = ix1 q := ⟨i 0, eq_ix1 i⟩
  exact shapeCast_apply b h (ix2 (0 : Fin 1) q) (ix1 q) (by
    rw [Shape.rowMajor_val_two, Shape.rowMajor_val_one]; show q.val = 0 * N + q.val; omega)

/-- The kernel's dense layer when the bias arrives as one row: both operands pass through an identity cast and a
    narrowing to bf16, the product accumulates into a zero splat, the row is cast to itself and repeated down the rows. -/
theorem dense_kernel_row {A K N : Nat} (x : FVec Ideal ⟨2, ![A, K]⟩ .f32) (w : FVec Ideal ⟨2, ![K, N]⟩ .f32)
    (b1 : FVec Ideal ⟨2, ![1, N]⟩ .f32) (hlt : FTy.bits .bf16 < FTy.bits .f32)
    (hx : (⟨2, ![A, K]⟩ : Shape).ShapeCasts ⟨2, ![A, K]⟩)
    (h1 : (⟨2, ![1, N]⟩ : Shape).ShapeCasts ⟨2, ![1, N]⟩) (hb : (⟨2, ![1, N]⟩ : Shape).Broadcasts ⟨2, ![A, N]⟩) :
    addf (matmul (DotDims.plain A K N) none (truncf .bf16 (shapeCast ⟨2, ![A, K]⟩ x hx) hlt) (truncf .bf16 w hlt)
        (constant ⟨2, ![A, N]⟩ .f32 0x00000000#32))
      (broadcastTo ⟨2, ![A, N]⟩ (shapeCast ⟨2, ![1, N]⟩ b1 h1) hb) = dense A K N x w (rowVec b1) := by
  rw [shapeCast_self x hx, shapeCast_self b1 h1]
  funext j
  rw [addf_apply]
  have eb : broadcastTo ⟨2, ![A, N]⟩ b1 hb j = b1 (ix2 (0 : Fin 1) (j 1 : Fin N)) :=
    broadcastTo_apply b1 hb j (ix2 (0 : Fin 1) (j 1 : Fin N)) (by
      intro a
      match a with
      | ⟨0, _⟩ => rfl
      | ⟨1, _⟩ =>
        show (j 1).val = if N = 1 then 0 else (j 1).val
        split
        · have := (j 1).isLt; have e : (j 1).val < N := this; omega
        · rfl)
  rw [eb]
  refine congrArg (· + b1 (ix2 (0 : Fin 1) (j 1 : Fin N))) ?_
  refine (Ideal.matmul_constant_zero_apply (DotDims.plain A K N) none (truncf .bf16 x hlt) (truncf .bf16 w hlt) j).trans ?_
  exact plain_sum A K N x w j

/-! ## The host's column layouts -/

/-- A column broadcast along the rows reads the column's entry of the row. -/
theorem col2_host {A N : Nat} {α : Type} (hbc : (⟨2, ![A, 1]⟩ : Shape).BroadcastsInDim ⟨2, ![A, N]⟩ ![0, 1])
    (u : (⟨2, ![A, 1]⟩ : Shape).Idx → α) (p : Fin A) (q : Fin N) :
    broadcastInDim ⟨2, ![A, N]⟩ ![0, 1] hbc u (ix2 p q) = u (ix2 p (0 : Fin 1)) := by
  refine broadcastInDim_apply ![0, 1] hbc u (ix2 p q) (ix2 p (0 : Fin 1)) ?_
  intro a
  match a with
  | ⟨0, _⟩ =>
    show p.val = if A = 1 then 0 else p.val
    split
    · have := p.isLt; omega
    · rfl
  | ⟨1, _⟩ => rfl

/-- A vector broadcast to a column along axis 0 reads the vector at the row. -/
theorem col1_host {A : Nat} {α : Type} (hd : (⟨1, ![A]⟩ : Shape).BroadcastsInDim ⟨2, ![A, 1]⟩ ![0])
    (v : (⟨1, ![A]⟩ : Shape).Idx → α) (p : Fin A) (z : Fin 1) :
    broadcastInDim ⟨2, ![A, 1]⟩ ![0] hd v (ix2 p z) = v (ix1 p) := by
  refine broadcastInDim_apply ![0] hd v (ix2 p z) (ix1 p) ?_
  intro a
  match a with
  | ⟨0, _⟩ =>
    show p.val = if A = 1 then 0 else p.val
    split
    · have := p.isLt; omega
    · rfl

/-- The two steps together: a vector laid out as a column and repeated along the rows reads the vector at the row. -/
theorem col_host {A N : Nat} {α : Type} (hd : (⟨1, ![A]⟩ : Shape).BroadcastsInDim ⟨2, ![A, 1]⟩ ![0])
    (hbc : (⟨2, ![A, 1]⟩ : Shape).BroadcastsInDim ⟨2, ![A, N]⟩ ![0, 1]) (v : (⟨1, ![A]⟩ : Shape).Idx → α)
    (p : Fin A) (q : Fin N) :
    broadcastInDim ⟨2, ![A, N]⟩ ![0, 1] hbc (broadcastInDim ⟨2, ![A, 1]⟩ ![0] hd v) (ix2 p q) = v (ix1 p) :=
  (col2_host hbc _ p q).trans (col1_host hd v p 0)

/-! ## The log-softmax of every row -/

/-- The largest entry of row p, starting from -inf. -/
def rowMax {A N : Nat} (y : (⟨2, ![A, N]⟩ : Shape).Idx → EReal) (p : Fin A) : EReal :=
  (Finset.univ : Finset (Fin N)).fold max (Ideal.ofBits .f32 0xFF800000#32) fun k => y (ix2 p k)

/-- The log-softmax of each row: the entry less the row's maximum, less the logarithm of the row's sum of the
    exponentials of such differences. -/
def logSoftmax {A N : Nat} (y : (⟨2, ![A, N]⟩ : Shape).Idx → EReal) : (⟨2, ![A, N]⟩ : Shape).Idx → EReal :=
  fun j => (y j - rowMax y (j 0 : Fin A))
    - Ideal.log (∑ k : Fin N, Ideal.exp (y (ix2 (j 0 : Fin A) k) - rowMax y (j 0 : Fin A)))

/-- Two matrices that agree on a row have the same maximum there. -/
theorem rowMax_congr {A A' N : Nat} (y : (⟨2, ![A, N]⟩ : Shape).Idx → EReal) (y' : (⟨2, ![A', N]⟩ : Shape).Idx → EReal)
    (p : Fin A) (r : Fin A') (h : ∀ k : Fin N, y (ix2 p k) = y' (ix2 r k)) : rowMax y p = rowMax y' r := by
  unfold rowMax
  exact congrArg (fun f => (Finset.univ : Finset (Fin N)).fold max (Ideal.ofBits .f32 0xFF800000#32) f) (funext h)

/-- Entry (p, q) of the log-softmax depends on row p only. -/
theorem logSoftmax_row {A A' N : Nat} (y : (⟨2, ![A, N]⟩ : Shape).Idx → EReal) (y' : (⟨2, ![A', N]⟩ : Shape).Idx → EReal)
    (p : Fin A) (r : Fin A') (q : Fin N) (h : ∀ k : Fin N, y (ix2 p k) = y' (ix2 r k)) :
    logSoftmax y (ix2 p q) = logSoftmax y' (ix2 r q) := by
  have hm := rowMax_congr y y' p r h
  show (y (ix2 p q) - rowMax y p) - Ideal.log (∑ k : Fin N, Ideal.exp (y (ix2 p k) - rowMax y p))
    = (y' (ix2 r q) - rowMax y' r) - Ideal.log (∑ k : Fin N, Ideal.exp (y' (ix2 r k) - rowMax y' r))
  rw [hm, h q, Finset.sum_congr rfl fun k _ => by rw [h k]]

/-- The kernel's row maximum, cast to a column and repeated along the rows, reads the row's maximum. -/
theorem rowMax_kernel {A N : Nat} (y : FVec Ideal ⟨2, ![A, N]⟩ .f32)
    (hr : (⟨2, ![A, N]⟩ : Shape).Reduces [1] ⟨1, ![A]⟩) (hφ : FKind.Formats .f32)
    (hm : (0xFF800000#32 : BitVec 32) = FKind.maximumf.neutral .f32 hφ)
    (hc : (⟨1, ![A]⟩ : Shape).ShapeCasts ⟨2, ![A, 1]⟩) (hb : (⟨2, ![A, 1]⟩ : Shape).Broadcasts ⟨2, ![A, N]⟩)
    (p : Fin A) (q : Fin N) :
    broadcastTo ⟨2, ![A, N]⟩ (shapeCast ⟨2, ![A, 1]⟩ (multiReduction .maximumf [1] ⟨1, ![A]⟩ y 0xFF800000#32 hr hφ hm) hc) hb (ix2 p q)
      = rowMax y p := by
  rw [LibLayout.broadcastTo_a1_ab_apply, LibLayout.shapeCast_a_a1_apply]
  refine (Ideal.multiReduction_maximumf_single y _ hr hφ hm (ix1 p)).trans ?_
  show (Finset.univ : Finset (Fin N)).fold max (Ideal.ofBits .f32 0xFF800000#32) (y ∘ hr.lift (ix1 p)) = rowMax y p
  unfold rowMax
  refine congrArg (fun f => (Finset.univ : Finset (Fin N)).fold max (Ideal.ofBits .f32 0xFF800000#32) f) (funext fun k => ?_)
  exact congrArg y (funext fun c => Fin.ext (by
    match c with
    | ⟨0, _⟩ => rfl
    | ⟨1, _⟩ => rfl))

/-- The kernel's log-softmax of a tile of rows is the log-softmax of each of its rows. -/
theorem logSoftmax_kernel {A N : Nat} (y : FVec Ideal ⟨2, ![A, N]⟩ .f32)
    (hr : (⟨2, ![A, N]⟩ : Shape).Reduces [1] ⟨1, ![A]⟩) (hφ : FKind.Formats .f32)
    (hm : (0xFF800000#32 : BitVec 32) = FKind.maximumf.neutral .f32 hφ)
    (ha : (0x00000000#32 : BitVec 32) = FKind.add.neutral .f32 hφ)
    (hc : (⟨1, ![A]⟩ : Shape).ShapeCasts ⟨2, ![A, 1]⟩) (hb : (⟨2, ![A, 1]⟩ : Shape).Broadcasts ⟨2, ![A, N]⟩) :
    subf (subf y (broadcastTo ⟨2, ![A, N]⟩ (shapeCast ⟨2, ![A, 1]⟩ (multiReduction .maximumf [1] ⟨1, ![A]⟩ y 0xFF800000#32 hr hφ hm) hc) hb))
      (broadcastTo ⟨2, ![A, N]⟩ (log (shapeCast ⟨2, ![A, 1]⟩ (multiReduction .add [1] ⟨1, ![A]⟩
        (exp (subf y (broadcastTo ⟨2, ![A, N]⟩ (shapeCast ⟨2, ![A, 1]⟩ (multiReduction .maximumf [1] ⟨1, ![A]⟩ y 0xFF800000#32 hr hφ hm) hc) hb)))
        0x00000000#32 hr hφ ha) hc)) hb)
      = logSoftmax y := by
  have hsh : subf y (broadcastTo ⟨2, ![A, N]⟩ (shapeCast ⟨2, ![A, 1]⟩ (multiReduction .maximumf [1] ⟨1, ![A]⟩ y 0xFF800000#32 hr hφ hm) hc) hb)
      = fun j => y j - rowMax y (j 0 : Fin A) := by
    funext j
    obtain ⟨p, q, rfl⟩ : ∃ (p : Fin A) (q : Fin N), j = ix2 p q := ⟨j 0, j 1, eq_ix2 j⟩
    rw [subf_apply, rowMax_kernel y hr hφ hm hc hb p q]
    rfl
  rw [hsh]
  funext j
  obtain ⟨p, q, rfl⟩ : ∃ (p : Fin A) (q : Fin N), j = ix2 p q := ⟨j 0, j 1, eq_ix2 j⟩
  rw [subf_apply, LibLayout.broadcastTo_a1_ab_apply, log_apply, LibLayout.shapeCast_a_a1_apply]
  show (y (ix2 p q) - rowMax y p) - Ideal.log _ = (y (ix2 p q) - rowMax y p) - Ideal.log _
  refine congrArg (fun s => (y (ix2 p q) - rowMax y p) - Ideal.log s) ?_
  refine (Ideal.multiReduction_add_single _ _ hr hφ ha (ix1 p)).trans ?_
  show ∑ k : Fin N, _ = ∑ k : Fin N, _
  refine Finset.sum_congr rfl fun k _ => ?_
  have el : hr.lift (ix1 p) k = ix2 p k := funext fun c => Fin.ext (by
    match c with
    | ⟨0, _⟩ => rfl
    | ⟨1, _⟩ => rfl)
  rw [el, exp_apply]
  rfl

/-- The host's row maximum (a reduce from -inf, then one more maximum against a splat of -inf), laid out as a column
    and repeated along the rows, reads the row's maximum. -/
theorem rowMax_host {A N : Nat} (y : FVec Ideal ⟨2, ![A, N]⟩ .f32)
    (h' : (⟨2, ![A, N]⟩ : Shape).ReducesTo [1] ⟨1, ![A]⟩) (hr : (⟨2, ![A, N]⟩ : Shape).Reduces [1] ⟨1, ![A]⟩)
    (hu : 0 < (⟨0, ![]⟩ : Shape).numel)
    (hS : (⟨0, ![]⟩ : Shape).BroadcastsInDim ⟨1, ![A]⟩ (![] : Fin 0 → Fin 1))
    (hd : (⟨1, ![A]⟩ : Shape).BroadcastsInDim ⟨2, ![A, 1]⟩ ![0])
    (hbc : (⟨2, ![A, 1]⟩ : Shape).BroadcastsInDim ⟨2, ![A, N]⟩ ![0, 1]) (p : Fin A) (q : Fin N) :
    broadcastInDim ⟨2, ![A, N]⟩ ![0, 1] hbc (broadcastInDim ⟨2, ![A, 1]⟩ ![0] hd
        (maximumf (broadcastInDim ⟨1, ![A]⟩ ![] hS (constant (F := Ideal) ⟨0, ![]⟩ .f32 0xFF800000#32))
          (Host.reduce FloatOps.maximumf y (constant (F := Ideal) ⟨0, ![]⟩ .f32 0xFF800000#32) h' hu))) (ix2 p q)
      = rowMax y p := by
  rw [col_host hd hbc _ p q, maximumf_apply]
  show max (Ideal.ofBits .f32 0xFF800000#32) _ = _
  rw [Host.reduce_eq_fold_single FloatOps.maximumf y _ h' hr hu (ix1 p)]
  have hbot : Ideal.ofBits .f32 0xFF800000#32 = (⊥ : EReal) := by simp [Ideal.ofBits, Ideal.ieee]
  show max (Ideal.ofBits .f32 0xFF800000#32)
      ((Finset.univ : Finset (Fin N)).fold max (Ideal.ofBits .f32 0xFF800000#32) (y ∘ hr.lift (ix1 p))) = rowMax y p
  rw [hbot, max_eq_right bot_le, ← hbot]
  unfold rowMax
  refine congrArg (fun f => (Finset.univ : Finset (Fin N)).fold max (Ideal.ofBits .f32 0xFF800000#32) f) (funext fun k => ?_)
  exact congrArg y (funext fun c => Fin.ext (by
    match c with
    | ⟨0, _⟩ => rfl
    | ⟨1, _⟩ => rfl))

/-- The host's log-softmax of all rows is the log-softmax of each row. -/
theorem logSoftmax_host {A N : Nat} (y : FVec Ideal ⟨2, ![A, N]⟩ .f32)
    (h' : (⟨2, ![A, N]⟩ : Shape).ReducesTo [1] ⟨1, ![A]⟩) (hr : (⟨2, ![A, N]⟩ : Shape).Reduces [1] ⟨1, ![A]⟩)
    (hu : 0 < (⟨0, ![]⟩ : Shape).numel)
    (hS : (⟨0, ![]⟩ : Shape).BroadcastsInDim ⟨1, ![A]⟩ (![] : Fin 0 → Fin 1))
    (hd : (⟨1, ![A]⟩ : Shape).BroadcastsInDim ⟨2, ![A, 1]⟩ ![0])
    (hbc : (⟨2, ![A, 1]⟩ : Shape).BroadcastsInDim ⟨2, ![A, N]⟩ ![0, 1]) :
    subf (subf y (broadcastInDim ⟨2, ![A, N]⟩ ![0, 1] hbc (broadcastInDim ⟨2, ![A, 1]⟩ ![0] hd
        (maximumf (broadcastInDim ⟨1, ![A]⟩ ![] hS (constant (F := Ideal) ⟨0, ![]⟩ .f32 0xFF800000#32))
          (Host.reduce FloatOps.maximumf y (constant (F := Ideal) ⟨0, ![]⟩ .f32 0xFF800000#32) h' hu)))))
      (broadcastInDim ⟨2, ![A, N]⟩ ![0, 1] hbc (Host.log (broadcastInDim ⟨2, ![A, 1]⟩ ![0] hd
        (Host.reduceAdd (Host.exp (subf y (broadcastInDim ⟨2, ![A, N]⟩ ![0, 1] hbc (broadcastInDim ⟨2, ![A, 1]⟩ ![0] hd
          (maximumf (broadcastInDim ⟨1, ![A]⟩ ![] hS (constant (F := Ideal) ⟨0, ![]⟩ .f32 0xFF800000#32))
            (Host.reduce FloatOps.maximumf y (constant (F := Ideal) ⟨0, ![]⟩ .f32 0xFF800000#32) h' hu))))))
          (constant (F := Ideal) ⟨0, ![]⟩ .f32 0x00000000#32) h' hu))))
      = logSoftmax y := by
  have hsh : subf y (broadcastInDim ⟨2, ![A, N]⟩ ![0, 1] hbc (broadcastInDim ⟨2, ![A, 1]⟩ ![0] hd
        (maximumf (broadcastInDim ⟨1, ![A]⟩ ![] hS (constant (F := Ideal) ⟨0, ![]⟩ .f32 0xFF800000#32))
          (Host.reduce FloatOps.maximumf y (constant (F := Ideal) ⟨0, ![]⟩ .f32 0xFF800000#32) h' hu))))
      = fun j => y j - rowMax y (j 0 : Fin A) := by
    funext j
    obtain ⟨p, q, rfl⟩ : ∃ (p : Fin A) (q : Fin N), j = ix2 p q := ⟨j 0, j 1, eq_ix2 j⟩
    rw [subf_apply, rowMax_host y h' hr hu hS hd hbc p q]
    rfl
  rw [hsh]
  funext j
  obtain ⟨p, q, rfl⟩ : ∃ (p : Fin A) (q : Fin N), j = ix2 p q := ⟨j 0, j 1, eq_ix2 j⟩
  rw [subf_apply, col2_host hbc _ p q, hostLog_apply, col1_host hd _ p 0]
  show (y (ix2 p q) - rowMax y p) - Ideal.log _ = (y (ix2 p q) - rowMax y p) - Ideal.log _
  refine congrArg (fun s => (y (ix2 p q) - rowMax y p) - Ideal.log s) ?_
  show Ideal.hostReduceAdd h' (Host.exp fun j => y j - rowMax y (j 0 : Fin A)) (Ideal.ofBits .f32 0x00000000#32) (ix1 p) = _
  rw [Ideal.hostReduceAdd_single h' hr, Ideal.ofBits_zero_f32, zero_add]
  show ∑ k : Fin N, _ = ∑ k : Fin N, _
  refine Finset.sum_congr rfl fun k _ => ?_
  have el : hr.lift (ix1 p) k = ix2 p k := funext fun c => Fin.ext (by
    match c with
    | ⟨0, _⟩ => rfl
    | ⟨1, _⟩ => rfl)
  rw [el, hostExp_apply]
  rfl

/-! ## The layers -/

/-- A hidden layer: relu of the dense map of each row. -/
def reluDense (A K N : Nat) (x : (⟨2, ![A, K]⟩ : Shape).Idx → EReal) (w : (⟨2, ![K, N]⟩ : Shape).Idx → EReal)
    (b : (⟨1, ![N]⟩ : Shape).Idx → EReal) : (⟨2, ![A, N]⟩ : Shape).Idx → EReal := relu (dense A K N x w b)

/-- The last layer: the log-softmax of the dense map of each row. -/
def lsmDense (A K N : Nat) (x : (⟨2, ![A, K]⟩ : Shape).Idx → EReal) (w : (⟨2, ![K, N]⟩ : Shape).Idx → EReal)
    (b : (⟨1, ![N]⟩ : Shape).Idx → EReal) : (⟨2, ![A, N]⟩ : Shape).Idx → EReal := logSoftmax (dense A K N x w b)

/-- Entry (p, q) of a hidden layer depends on row p of its input only. -/
theorem reluDense_row {A A' K N : Nat} (x : (⟨2, ![A, K]⟩ : Shape).Idx → EReal) (x' : (⟨2, ![A', K]⟩ : Shape).Idx → EReal)
    (w : (⟨2, ![K, N]⟩ : Shape).Idx → EReal) (b : (⟨1, ![N]⟩ : Shape).Idx → EReal) (p : Fin A) (r : Fin A') (q : Fin N)
    (h : ∀ k : Fin K, x (ix2 p k) = x' (ix2 r k)) :
    reluDense A K N x w b (ix2 p q) = reluDense A' K N x' w b (ix2 r q) :=
  relu_congr _ _ _ _ (dense_row x x' w b p r q h)

/-- Entry (p, q) of the last layer depends on row p of its input only. -/
theorem lsmDense_row {A A' K N : Nat} (x : (⟨2, ![A, K]⟩ : Shape).Idx → EReal) (x' : (⟨2, ![A', K]⟩ : Shape).Idx → EReal)
    (w : (⟨2, ![K, N]⟩ : Shape).Idx → EReal) (b : (⟨1, ![N]⟩ : Shape).Idx → EReal) (p : Fin A) (r : Fin A') (q : Fin N)
    (h : ∀ k : Fin K, x (ix2 p k) = x' (ix2 r k)) :
    lsmDense A K N x w b (ix2 p q) = lsmDense A' K N x' w b (ix2 r q) :=
  logSoftmax_row _ _ p r q fun k => dense_row x x' w b p r k h

/-- The host's hidden layer (dot_general, the bias broadcast twice, the maximum with a broadcast zero) is relu of the
    dense map of each row. -/
theorem reluDense_host {A K N : Nat} (x : FVec Ideal ⟨2, ![A, K]⟩ .f32) (w : FVec Ideal ⟨2, ![K, N]⟩ .f32)
    (b : FVec Ideal ⟨1, ![N]⟩ .f32)
    (hd : (⟨1, ![N]⟩ : Shape).BroadcastsInDim ⟨2, ![1, N]⟩ ![1])
    (hbc : (⟨2, ![1, N]⟩ : Shape).BroadcastsInDim ⟨2, ![A, N]⟩ ![0, 1])
    (hS : (⟨0, ![]⟩ : Shape).BroadcastsInDim ⟨2, ![A, N]⟩ (![] : Fin 0 → Fin 2)) :
    maximumf (addf (Host.dotGeneral (DotDims.plain A K N) none x w)
        (broadcastInDim ⟨2, ![A, N]⟩ ![0, 1] hbc (broadcastInDim ⟨2, ![1, N]⟩ ![1] hd b)))
      (broadcastInDim ⟨2, ![A, N]⟩ ![] hS (constant (F := Ideal) ⟨0, ![]⟩ .f32 0x00000000#32)) = reluDense A K N x w b := by
  rw [dense_host x w b hd hbc]
  exact relu_host _ hS

/-- The host's last layer: the log-softmax spelt over the dense map y is the log-softmax of the dense map of each row. -/
theorem lsmDense_host {A K N : Nat} (x : FVec Ideal ⟨2, ![A, K]⟩ .f32) (w : FVec Ideal ⟨2, ![K, N]⟩ .f32)
    (b : FVec Ideal ⟨1, ![N]⟩ .f32) (y : FVec Ideal ⟨2, ![A, N]⟩ .f32)
    (hd1 : (⟨1, ![N]⟩ : Shape).BroadcastsInDim ⟨2, ![1, N]⟩ ![1])
    (hbc1 : (⟨2, ![1, N]⟩ : Shape).BroadcastsInDim ⟨2, ![A, N]⟩ ![0, 1])
    (hy : y = addf (Host.dotGeneral (DotDims.plain A K N) none x w)
      (broadcastInDim ⟨2, ![A, N]⟩ ![0, 1] hbc1 (broadcastInDim ⟨2, ![1, N]⟩ ![1] hd1 b)))
    (h' : (⟨2, ![A, N]⟩ : Shape).ReducesTo [1] ⟨1, ![A]⟩) (hr : (⟨2, ![A, N]⟩ : Shape).Reduces [1] ⟨1, ![A]⟩)
    (hu : 0 < (⟨0, ![]⟩ : Shape).numel)
    (hS : (⟨0, ![]⟩ : Shape).BroadcastsInDim ⟨1, ![A]⟩ (![] : Fin 0 → Fin 1))
    (hd : (⟨1, ![A]⟩ : Shape).BroadcastsInDim ⟨2, ![A, 1]⟩ ![0])
    (hbc : (⟨2, ![A, 1]⟩ : Shape).BroadcastsInDim ⟨2, ![A, N]⟩ ![0, 1]) :
    subf (subf y (broadcastInDim ⟨2, ![A, N]⟩ ![0, 1] hbc (broadcastInDim ⟨2, ![A, 1]⟩ ![0] hd
        (maximumf (broadcastInDim ⟨1, ![A]⟩ ![] hS (constant (F := Ideal) ⟨0, ![]⟩ .f32 0xFF800000#32))
          (Host.reduce FloatOps.maximumf y (constant (F := Ideal) ⟨0, ![]⟩ .f32 0xFF800000#32) h' hu)))))
      (broadcastInDim ⟨2, ![A, N]⟩ ![0, 1] hbc (Host.log (broadcastInDim ⟨2, ![A, 1]⟩ ![0] hd
        (Host.reduceAdd (Host.exp (subf y (broadcastInDim ⟨2, ![A, N]⟩ ![0, 1] hbc (broadcastInDim ⟨2, ![A, 1]⟩ ![0] hd
          (maximumf (broadcastInDim ⟨1, ![A]⟩ ![] hS (constant (F := Ideal) ⟨0, ![]⟩ .f32 0xFF800000#32))
            (Host.reduce FloatOps.maximumf y (constant (F := Ideal) ⟨0, ![]⟩ .f32 0xFF800000#32) h' hu))))))
          (constant (F := Ideal) ⟨0, ![]⟩ .f32 0x00000000#32) h' hu))))
      = lsmDense A K N x w b := by
  rw [logSoftmax_host y h' hr hu hS hd hbc, hy, dense_host x w b hd1 hbc1]
  rfl

/-- The kernel's hidden layer on a tile of rows. -/
theorem reluDense_kernel {A K N : Nat} (x : FVec Ideal ⟨2, ![A, K]⟩ .f32) (w : FVec Ideal ⟨2, ![K, N]⟩ .f32)
    (b1 : FVec Ideal ⟨2, ![1, N]⟩ .f32) (hlt : FTy.bits .bf16 < FTy.bits .f32)
    (hx : (⟨2, ![A, K]⟩ : Shape).ShapeCasts ⟨2, ![A, K]⟩)
    (h1 : (⟨2, ![1, N]⟩ : Shape).ShapeCasts ⟨2, ![1, N]⟩) (hb : (⟨2, ![1, N]⟩ : Shape).Broadcasts ⟨2, ![A, N]⟩) :
    maximumf (addf (matmul (DotDims.plain A K N) none (truncf .bf16 (shapeCast ⟨2, ![A, K]⟩ x hx) hlt) (truncf .bf16 w hlt)
        (constant ⟨2, ![A, N]⟩ .f32 0x00000000#32))
      (broadcastTo ⟨2, ![A, N]⟩ (shapeCast ⟨2, ![1, N]⟩ b1 h1) hb))
      (broadcast ⟨2, ![A, N]⟩ (Scalar.ofBits (F := Ideal) .f32 0x00000000#32)) = reluDense A K N x w (rowVec b1) := by
  rw [dense_kernel_row x w b1 hlt hx h1 hb]
  exact relu_kernel _

/-- The kernel's last layer on a tile of rows: the log-softmax spelt over its dense map y. -/
theorem lsmDense_kernel {A K N : Nat} (x : FVec Ideal ⟨2, ![A, K]⟩ .f32) (w : FVec Ideal ⟨2, ![K, N]⟩ .f32)
    (b1 : FVec Ideal ⟨2, ![1, N]⟩ .f32) (y : FVec Ideal ⟨2, ![A, N]⟩ .f32) (hlt : FTy.bits .bf16 < FTy.bits .f32)
    (hx : (⟨2, ![A, K]⟩ : Shape).ShapeCasts ⟨2, ![A, K]⟩)
    (h1 : (⟨2, ![1, N]⟩ : Shape).ShapeCasts ⟨2, ![1, N]⟩) (hb : (⟨2, ![1, N]⟩ : Shape).Broadcasts ⟨2, ![A, N]⟩)
    (hy : y = addf (matmul (DotDims.plain A K N) none (truncf .bf16 (shapeCast ⟨2, ![A, K]⟩ x hx) hlt) (truncf .bf16 w hlt)
        (constant ⟨2, ![A, N]⟩ .f32 0x00000000#32))
      (broadcastTo ⟨2, ![A, N]⟩ (shapeCast ⟨2, ![1, N]⟩ b1 h1) hb))
    (hr : (⟨2, ![A, N]⟩ : Shape).Reduces [1] ⟨1, ![A]⟩) (hφ : FKind.Formats .f32)
    (hm : (0xFF800000#32 : BitVec 32) = FKind.maximumf.neutral .f32 hφ)
    (ha : (0x00000000#32 : BitVec 32) = FKind.add.neutral .f32 hφ)
    (hc : (⟨1, ![A]⟩ : Shape).ShapeCasts ⟨2, ![A, 1]⟩) (hbc : (⟨2, ![A, 1]⟩ : Shape).Broadcasts ⟨2, ![A, N]⟩) :
    subf (subf y (broadcastTo ⟨2, ![A, N]⟩ (shapeCast ⟨2, ![A, 1]⟩ (multiReduction .maximumf [1] ⟨1, ![A]⟩ y 0xFF800000#32 hr hφ hm) hc) hbc))
      (broadcastTo ⟨2, ![A, N]⟩ (log (shapeCast ⟨2, ![A, 1]⟩ (multiReduction .add [1] ⟨1, ![A]⟩
        (exp (subf y (broadcastTo ⟨2, ![A, N]⟩ (shapeCast ⟨2, ![A, 1]⟩ (multiReduction .maximumf [1] ⟨1, ![A]⟩ y 0xFF800000#32 hr hφ hm) hc) hbc)))
        0x00000000#32 hr hφ ha) hc)) hbc)
      = lsmDense A K N x w (rowVec b1) := by
  rw [logSoftmax_kernel y hr hφ hm ha hc hbc, hy, dense_kernel_row x w b1 hlt hx h1 hb]
  rfl

end Cert.LibLayers

end
-- ==== Proof.Spec.lean ====
/-
  The network that both programs compute, written once as functions of rows over the extended reals.

  A node's features are a row of 128 numbers.  One layer takes the mean of the neighbours' rows (`mean`) and the
  node's own row (`h`) to
      y    = mean * Wl + bl + h * Wr                      (two products of a row with a 128 x 128 matrix)
      mu   = (sum of y over the row) / 128
      var  = (sum of (y - mu)^2 over the row) / 128
      out  = max ((y - mu) * rsqrt (var + eps) * g + b, 0) + h .
  Entry (r, n) of every one of these depends on row r of `mean` and of `h` only, so a layer applied to a block of
  rows is that block of the layer applied to all rows: this is what lets a program that walks over blocks of 2000
  rows be compared with one that works on all 100000 rows at once.  The last step multiplies the three layers'
  rows with the three 128 x 16 blocks of the output matrix and adds the bias.  Everything is generic in the number
  of rows.
-/
import proofs.«121075_j4492535791673_1_alg».proof.Proof.LibDense
import proofs.«121075_j4492535791673_1_alg».proof.Proof.LibLayers

noncomputable section

open scoped BigOperators

namespace Cert.Sage

open Idealize.ShloMosaic Idealize.ShloMosaic.ValueIdx Cert.LibDense Cert.LibLayers

/-- A matrix of extended reals with `A` rows and `B` columns. -/
abbrev Mat (A B : Nat) := (⟨2, ![A, B]⟩ : Shape).Idx → EReal
/-- A vector of extended reals of length `N`. -/
abbrev Row (N : Nat) := (⟨1, ![N]⟩ : Shape).Idx → EReal

/-- The row length 128 as an f32 word. -/
abbrev c128 : EReal := Ideal.ofBits .f32 0x43000000#32
/-- The normalisation's epsilon as an f32 word. -/
abbrev eps : EReal := Ideal.ofBits .f32 0x3727C5AC#32
/-- The f32 zero word. -/
abbrev z32 : EReal := Ideal.ofBits .f32 0x00000000#32

/-- A row of `x` times the matrix `w`, at column `n`. -/
def rowMul {A K N : Nat} (x : Mat A K) (w : Mat K N) (p : Fin A) (n : Fin N) : EReal :=
  ∑ k : Fin K, x (ix2 p k) * w (ix2 k n)

theorem rowMul_row {A A' K N : Nat} (x : Mat A K) (x' : Mat A' K) (w : Mat K N) (p : Fin A) (r : Fin A') (n : Fin N)
    (h : ∀ k : Fin K, x (ix2 p k) = x' (ix2 r k)) : rowMul x w p n = rowMul x' w r n := by
  unfold rowMul
  exact Finset.sum_congr rfl fun k _ => by rw [h k]

/-- The layer before normalisation: mean * Wl + bl + h * Wr. -/
def pre (A : Nat) (mean h : Mat A 128) (Wl Wr : Mat 128 128) (bl : Row 128) : Mat A 128 := fun j =>
  dense A 128 128 mean Wl bl j + rowMul h Wr (j 0 : Fin A) (j 1 : Fin 128)

theorem pre_row {A A' : Nat} (mean h : Mat A 128) (mean' h' : Mat A' 128) (Wl Wr : Mat 128 128) (bl : Row 128)
    (p : Fin A) (r : Fin A') (q : Fin 128)
    (hm : ∀ k : Fin 128, mean (ix2 p k) = mean' (ix2 r k)) (hh : ∀ k : Fin 128, h (ix2 p k) = h' (ix2 r k)) :
    pre A mean h Wl Wr bl (ix2 p q) = pre A' mean' h' Wl Wr bl (ix2 r q) := by
  show dense A 128 128 mean Wl bl (ix2 p q) + rowMul h Wr p q = dense A' 128 128 mean' Wl bl (ix2 r q) + rowMul h' Wr r q
  rw [dense_row mean mean' Wl bl p r q hm, rowMul_row h h' Wr p r q hh]

/-- A row's mean. -/
def mu {A : Nat} (y : Mat A 128) (p : Fin A) : EReal := Ideal.div (∑ c : Fin 128, y (ix2 p c)) c128

/-- A row's variance about its mean. -/
def var {A : Nat} (y : Mat A 128) (p : Fin A) : EReal :=
  Ideal.div (∑ c : Fin 128, (y (ix2 p c) - mu y p) * (y (ix2 p c) - mu y p)) c128

theorem mu_row {A A' : Nat} (y : Mat A 128) (y' : Mat A' 128) (p : Fin A) (r : Fin A')
    (h : ∀ k : Fin 128, y (ix2 p k) = y' (ix2 r k)) : mu y p = mu y' r := by
  unfold mu
  rw [Finset.sum_congr rfl fun k _ => h k]

theorem var_row {A A' : Nat} (y : Mat A 128) (y' : Mat A' 128) (p : Fin A) (r : Fin A')
    (h : ∀ k : Fin 128, y (ix2 p k) = y' (ix2 r k)) : var y p = var y' r := by
  unfold var
  rw [mu_row y y' p r h, Finset.sum_congr rfl fun k _ => by rw [h k]]

/-- The normalised row, scaled by `g` and shifted by `b`. -/
def norm {A : Nat} (y : Mat A 128) (g b : Row 128) : Mat A 128 := fun j =>
  ((y j - mu y (j 0 : Fin A)) * Ideal.rsqrt (var y (j 0 : Fin A) + eps)) * g (ix1 (j 1 : Fin 128)) + b (ix1 (j 1 : Fin 128))

theorem norm_row {A A' : Nat} (y : Mat A 128) (y' : Mat A' 128) (g b : Row 128) (p : Fin A) (r : Fin A') (q : Fin 128)
    (h : ∀ k : Fin 128, y (ix2 p k) = y' (ix2 r k)) : norm y g b (ix2 p q) = norm y' g b (ix2 r q) := by
  show ((y (ix2 p q) - mu y p) * Ideal.rsqrt (var y p + eps)) * g (ix1 q) + b (ix1 q)
     = ((y' (ix2 r q) - mu y' r) * Ideal.rsqrt (var y' r + eps)) * g (ix1 q) + b (ix1 q)
  rw [h q, mu_row y y' p r h, var_row y y' p r h]

/-- One layer: normalise, clip at zero, add the node's own row. -/
def combine (A : Nat) (mean h : Mat A 128) (Wl Wr : Mat 128 128) (bl g b : Row 128) : Mat A 128 := fun j =>
  max (norm (pre A mean h Wl Wr bl) g b j) z32 + h j

theorem combine_row {A A' : Nat} (mean h : Mat A 128) (mean' h' : Mat A' 128) (Wl Wr : Mat 128 128) (bl g b : Row 128)
    (p : Fin A) (r : Fin A') (q : Fin 128)
    (hm : ∀ k : Fin 128, mean (ix2 p k) = mean' (ix2 r k)) (hh : ∀ k : Fin 128, h (ix2 p k) = h' (ix2 r k)) :
    combine A mean h Wl Wr bl g b (ix2 p q) = combine A' mean' h' Wl Wr bl g b (ix2 r q) := by
  show max (norm (pre A mean h Wl Wr bl) g b (ix2 p q)) z32 + h (ix2 p q)
     = max (norm (pre A' mean' h' Wl Wr bl) g b (ix2 r q)) z32 + h' (ix2 r q)
  rw [norm_row (pre A mean h Wl Wr bl) (pre A' mean' h' Wl Wr bl) g b p r q
        (fun k => pre_row mean h mean' h' Wl Wr bl p r k hm hh), hh q]

/-- The output step: the three layers' rows times the three blocks of the output matrix, plus the bias. -/
def outProj (A : Nat) (x0 x1 x2 : Mat A 128) (w0 w1 w2 : Mat 128 16) (b : Row 16) : Mat A 16 := fun j =>
  ((rowMul x0 w0 (j 0 : Fin A) (j 1 : Fin 16) + rowMul x1 w1 (j 0 : Fin A) (j 1 : Fin 16))
    + rowMul x2 w2 (j 0 : Fin A) (j 1 : Fin 16)) + b (ix1 (j 1 : Fin 16))

theorem outProj_row {A A' : Nat} (x0 x1 x2 : Mat A 128) (x0' x1' x2' : Mat A' 128) (w0 w1 w2 : Mat 128 16) (b : Row 16)
    (p : Fin A) (r : Fin A') (q : Fin 16)
    (h0 : ∀ k : Fin 128, x0 (ix2 p k) = x0' (ix2 r k)) (h1 : ∀ k : Fin 128, x1 (ix2 p k) = x1' (ix2 r k))
    (h2 : ∀ k : Fin 128, x2 (ix2 p k) = x2' (ix2 r k)) :
    outProj A x0 x1 x2 w0 w1 w2 b (ix2 p q) = outProj A' x0' x1' x2' w0 w1 w2 b (ix2 r q) := by
  show ((rowMul x0 w0 p q + rowMul x1 w1 p q) + rowMul x2 w2 p q) + b (ix1 q)
     = ((rowMul x0' w0 r q + rowMul x1' w1 r q) + rowMul x2' w2 r q) + b (ix1 q)
  rw [rowMul_row x0 x0' w0 p r q h0, rowMul_row x1 x1' w1 p r q h1, rowMul_row x2 x2' w2 p r q h2]

/-! ## The whole network -/

/-- Layer `i`'s 128 x 128 matrix out of a stack of three. -/
def mat3 (W : (⟨3, ![3, 128, 128]⟩ : Shape).Idx → EReal) (i : Fin 3) : Mat 128 128 := fun j => W (ix3 i (j 0 : Fin 128) (j 1 : Fin 128))
/-- Layer `i`'s vector out of a stack of three. -/
def vec3 (v : (⟨2, ![3, 128]⟩ : Shape).Idx → EReal) (i : Fin 3) : Row 128 := fun j => v (ix2 i (j 0 : Fin 128))
/-- Block `i` of the 384 x 16 output matrix. -/
def blk3 (W : Mat 384 16) (i : Fin 3) : Mat 128 16 := fun j =>
  W (ix2 (⟨i.val * 128 + (j 0 : Fin 128).val, by
    have hj : (j 0 : Fin 128).val < 128 := (j 0 : Fin 128).isLt
    have hi : i.val < 3 := i.isLt
    omega⟩ : Fin 384) (j 1 : Fin 16))

/-- The neighbours' sum scaled to a mean: every row times the reciprocal of its (clipped) neighbour count. -/
def scale {A : Nat} (s : Mat A 128) (cm : Fin A → EReal) : Mat A 128 := fun j => s j * Ideal.div 1 (cm (j 0 : Fin A))

/-- The network on `A` nodes, given the aggregation `agg` (rows summed over incoming edges) and the clipped
    neighbour counts `cm`. -/
def net (A : Nat) (agg : Mat A 128 → Mat A 128) (cm : Fin A → EReal) (x : Mat A 128) (Win : Mat 128 128) (bin : Row 128)
    (Wl : (⟨3, ![3, 128, 128]⟩ : Shape).Idx → EReal) (bl : (⟨2, ![3, 128]⟩ : Shape).Idx → EReal)
    (Wr : (⟨3, ![3, 128, 128]⟩ : Shape).Idx → EReal) (g b : (⟨2, ![3, 128]⟩ : Shape).Idx → EReal)
    (Wout : Mat 384 16) (bout : Row 16) : Mat A 16 :=
  let h0 := reluDense A 128 128 x Win bin
  let h1 := combine A (scale (agg h0) cm) h0 (mat3 Wl 0) (mat3 Wr 0) (vec3 bl 0) (vec3 g 0) (vec3 b 0)
  let h2 := combine A (scale (agg h1) cm) h1 (mat3 Wl 1) (mat3 Wr 1) (vec3 bl 1) (vec3 g 1) (vec3 b 1)
  let h3 := combine A (scale (agg h2) cm) h2 (mat3 Wl 2) (mat3 Wr 2) (vec3 bl 2) (vec3 g 2) (vec3 b 2)
  outProj A h1 h2 h3 (blk3 Wout 0) (blk3 Wout 1) (blk3 Wout 2) bout

/-- Dividing by a real that is at least one is multiplying by its reciprocal, on every extended real. -/
theorem div_eq_mul_recip (a : EReal) (c : ℝ) (hc : 1 ≤ c) : Ideal.div a (c : EReal) = a * Ideal.div 1 (c : EReal) := by
  have h0 : c ≠ 0 := by intro h; rw [h] at hc; norm_num at hc
  rw [Ideal.div_coe h0, Ideal.div_coe h0, one_mul]

end Cert.Sage

end
-- ==== Proof.KGraph.lean ====
/-
  The graph side of the kernel's host stretches, named.

  From the edge list (two rows of 1600000 ids: sources, then destinations) the host computes, once, the number of
  edges arriving at every node, clips it below at one and takes its reciprocal; and, before every layer, the sum
  over arriving edges of the source nodes' rows, which it multiplies by that reciprocal.  The operations are kept
  as the program prints them; what is proved here is only that the product with the broadcast reciprocal is, entry
  by entry, the row sum times the reciprocal of the node's clipped count.
-/
import proofs.«121075_j4492535791673_1_alg».proof.KernelIdeal
import proofs.«121075_j4492535791673_1_alg».proof.Proof.Gen.KernelIdeal
import proofs.«121075_j4492535791673_1_alg».proof.Proof.Spec
import proofs.«121075_j4492535791673_1_alg».proof.Proof.LibLayout
import Idealize.ShloMosaic.Lib.Pipeline.Value
import Idealize.ShloMosaic.Lib.ValueIdx
import Idealize.ShloMosaic.Lib.IdealHost

noncomputable section

namespace Cert.Sage.K

open Cert.KernelIdeal.Facts₀ Cert.KernelIdeal.Facts
open Cert.KernelIdeal Idealize.ShloMosaic Idealize.ShloMosaic.ValueIdx

/-- The edge list's contents. -/
abbrev Edges := (⟨S2x1600000, .i32⟩ : BufTy).Contents (Elt Ideal)

/-- The source ids: row 0 of the edge list, flattened. -/
def srcK (e : Edges) : (⟨S1600000, .i32⟩ : BufTy).Contents (Elt Ideal) :=
  shapeCast S1600000 (extractStridedSlice S1x1600000 ![0, 0] e slices_S2x1600000_S1x1600000_0_0) shapeCasts_S1x1600000_S1600000

/-- The destination ids: row 1 of the edge list, flattened. -/
def dstK (e : Edges) : (⟨S1600000, .i32⟩ : BufTy).Contents (Elt Ideal) :=
  shapeCast S1600000 (extractStridedSlice S1x1600000 ![1, 0] e slices_S2x1600000_S1x1600000_1_0) shapeCasts_S1x1600000_S1600000

/-- A negative id counted from the end: `s + 100000` where `s` is negative as a signed word, else `s`. -/
def wrapK (s : (⟨S1600000, .i32⟩ : BufTy).Contents (Elt Ideal)) : (⟨S1600000, .i32⟩ : BufTy).Contents (Elt Ideal) :=
  select (cmpi .slt s (broadcastInDim S1600000 ![] bcast_S_S1600000 (constantI S_ 32 0#32)))
    (addi s (broadcastInDim S1600000 ![] bcast_S_S1600000 (constantI S_ 32 100000#32))) s

/-- The rows of `h` at the (wrapped) source ids `s`, summed into the rows of the destination ids `d`. -/
def aggI (s d : (⟨S1600000, .i32⟩ : BufTy).Contents (Elt Ideal)) (h : FVec Ideal S100000x128 .f32) : FVec Ideal S100000x128 .f32 :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 d)
    (Host.gather gather_S100000x128_S1600000x1_S1600000x128_1_0_n_n_0_1_1128 h
      (broadcastInDim S1600000x1 ![0] bcast_S1600000_S1600000x1_0 (wrapK s)))

/-- The same from the edge list: the rows of `h` at the edges' sources, summed into the edges' destinations. -/
def aggK (e : Edges) (h : FVec Ideal S100000x128 .f32) : FVec Ideal S100000x128 .f32 := aggI (srcK e) (dstK e) h

/-- The number of edges arriving at every node, clipped below at one. -/
def clipK (e : Edges) : FVec Ideal S100000 .f32 :=
  maximumf
    (Host.scatterAdd (F := Ideal) scatter_S100000_S1600000x1_S1600000_n_0_0_1
      (broadcastInDim S100000 ![] bcast_S_S100000 (constant (F := Ideal) S_ .f32 0x00000000#32))
      (broadcastInDim S1600000x1 ![0] bcast_S1600000_S1600000x1_0 (dstK e))
      (broadcastInDim S1600000 ![] bcast_S_S1600000 (constant (F := Ideal) S_ .f32 0x3F800000#32)))
    (broadcastInDim S100000 ![] bcast_S_S100000 (constant (F := Ideal) S_ .f32 0x3F800000#32))

/-- Its reciprocal, as a column. -/
def invK (e : Edges) : FVec Ideal S100000x1 .f32 :=
  shapeCast S100000x1
    (Host.divf (broadcastInDim S100000 ![] bcast_S_S100000 (constant (F := Ideal) S_ .f32 0x3F800000#32)) (clipK e))
    shapeCasts_S100000_S100000x1

/-- Node `r`'s clipped count. -/
def cmK (e : Edges) (r : Fin 100000) : EReal := clipK e (ix1 r)

/-- For ANY vector `k` of counts: the row sums times the broadcast column of reciprocals `1 / k` have entry
    (p, q) equal to the sum times the reciprocal of `k p`.  (Stated over a variable so that nothing about how the
    counts are computed is ever opened.) -/
theorem mean_gen (k : FVec Ideal S100000 .f32) (s : FVec Ideal S100000x128 .f32) :
    mulf s (broadcastInDim S100000x128 ![0, 1] bcast_S100000x1_S100000x128_0_1
      (shapeCast S100000x1
        (Host.divf (broadcastInDim S100000 ![] bcast_S_S100000 (constant (F := Ideal) S_ .f32 0x3F800000#32)) k)
        shapeCasts_S100000_S100000x1))
      = Cert.Sage.scale s (fun r => k (ix1 r)) := by
  funext j
  obtain ⟨p, q, rfl⟩ : ∃ (p : Fin 100000) (q : Fin 128), j = ix2 p q := ⟨j 0, j 1, eq_ix2 j⟩
  have hb : broadcastInDim S100000x128 ![0, 1] bcast_S100000x1_S100000x128_0_1
      (shapeCast S100000x1
        (Host.divf (broadcastInDim S100000 ![] bcast_S_S100000 (constant (F := Ideal) S_ .f32 0x3F800000#32)) k)
        shapeCasts_S100000_S100000x1) (ix2 p q) = Ideal.div 1 (k (ix1 p)) := by
    rw [Cert.LibLayers.col2_host bcast_S100000x1_S100000x128_0_1 _ p q,
      Cert.LibLayout.shapeCast_a_a1_apply _ shapeCasts_S100000_S100000x1 p (0 : Fin 1)]
    exact congrArg (fun t => Ideal.div t (k (ix1 p))) Ideal.ofBits_one_f32
  exact congrArg (fun t => s (ix2 p q) * t) hb

/-- The row sums times the broadcast reciprocal column: entry (p, q) is the sum times the reciprocal of node p's
    clipped count. -/
theorem mean_eq (e : Edges) (s : FVec Ideal S100000x128 .f32) :
    mulf s (broadcastInDim S100000x128 ![0, 1] bcast_S100000x1_S100000x128_0_1 (invK e)) = Cert.Sage.scale s (cmK e) :=
  mean_gen (clipK e) s

end Cert.Sage.K

end
-- ==== Proof.LibTailOps.lean ====
import Idealize.ShloMosaic.Lib.Pipeline.FrameSuffix

/-!
# Straight lines of host operations that each write one buffer of their own

A stretch of host operations in which every operation allocates nothing and writes exactly one buffer, and that
buffer lies in a class `P` of references (for instance "declared at position eleven or later"), leaves every
reference outside `P` as it found it. The per-operation fact is stated so that it is closed by `rfl` and
`decide` on a literal operation, and a whole literal list by walking its cons cells once; what follows from it is
proved once, for any list and any length.
-/

namespace Cert.LibTailOps

open Idealize.ShloMosaic Idealize.ShloMosaic.StableHlo Idealize.ShloMosaic.TcCoe

variable {τ : Topo} {sig : RefSig} {Val : EltTy → Type}

/-- The operation allocates nothing and writes exactly one buffer, a TensorCore reference of class `P`. -/
def WritesOne (P : Ref sig .tc → Prop) (op : HloOp τ sig Val) : Prop :=
  op.fresh = ∅ ∧ ∃ y : Ref sig .tc, P y ∧ op.writes = {Proc.devRef .tc y}

/-- Such an operation writes no reference outside the class. -/
theorem WritesOne.not_mem {P : Ref sig .tc → Prop} {op : HloOp τ sig Val} (h : WritesOne P op)
    {r : Ref sig .tc} (hr : ¬ P r) : Proc.devRef (τ := τ) .tc r ∉ op.writes := by
  obtain ⟨-, y, hy, hw⟩ := h
  rw [hw, Finset.mem_singleton]
  intro e
  exact hr (Proc.devRef_injective _ e ▸ hy)

/-- A reference outside the class keeps its contents through a line of such operations. -/
theorem after_keeps {P : Ref sig .tc → Prop} (ops : List (HloOp τ sig Val)) (V : Valuation τ sig Val)
    (h : ops.Forall (WritesOne P)) {r : Ref sig .tc} (hr : ¬ P r) :
    after ops V (Proc.devRef .tc r) = V (Proc.devRef .tc r) :=
  after_of_forall_not_mem ops V fun op hop => ((List.forall_iff_forall_mem.mp h) op hop).not_mem hr

/-- Several lines, one after the other: every operation of every line has the property. -/
theorem forall_flatten {P : Ref sig .tc → Prop} :
    ∀ (opss : List (List (HloOp τ sig Val))), (opss.Forall fun ops => ops.Forall (WritesOne P)) →
      opss.flatten.Forall (WritesOne P) := by
  intro opss h
  rw [List.forall_iff_forall_mem] at h ⊢
  intro op hop
  obtain ⟨ops, hops, hop'⟩ := List.mem_flatten.mp hop
  exact (List.forall_iff_forall_mem.mp (h ops hops)) op hop'

/-- None of them allocates. -/
theorem fresh_of {P : Ref sig .tc → Prop} (opss : List (List (HloOp τ sig Val)))
    (h : opss.Forall fun ops => ops.Forall (WritesOne P)) :
    ∀ ops ∈ opss, ∀ op ∈ ops, op.fresh = ∅ := fun ops hops op hop =>
  ((List.forall_iff_forall_mem.mp ((List.forall_iff_forall_mem.mp h) ops hops)) op hop).1

/-- None of them writes a reference outside the class. -/
theorem keeps_of {P : Ref sig .tc → Prop} (opss : List (List (HloOp τ sig Val)))
    (h : opss.Forall fun ops => ops.Forall (WritesOne P)) {r : Ref sig .tc} (hr : ¬ P r) :
    ∀ ops ∈ opss, ∀ op ∈ ops, Proc.devRef (τ := τ) .tc r ∉ op.writes := fun ops hops op hop =>
  ((List.forall_iff_forall_mem.mp ((List.forall_iff_forall_mem.mp h) ops hops)) op hop).not_mem hr

/-- Walks a literal list of operations once, closing each operation's `WritesOne` by `rfl` (what it writes, what it
    allocates) and `decide` (the written reference's class). -/
macro "writes_one_each" : tactic =>
  `(tactic| repeat (first
      | exact ⟨rfl, _, by decide, rfl⟩
      | refine And.intro ⟨rfl, _, by decide, rfl⟩ ?_
      | exact True.intro))

end Cert.LibTailOps
-- ==== Proof.KHost.lean ====
/-
  The kernel's host stretches, read at the buffers the regions take.

  Each stretch is a straight line of host operations from the contents `W` it is entered with.  The first computes
  the id arrays, the reciprocal of the clipped neighbour counts and the input bias as a row; each of the next three
  computes one layer's neighbour means and cuts that layer's matrices and rows out of the stacked weights; the last
  cuts the output matrix into its three blocks.  Every stretch writes only buffers declared in a range of its own,
  so every buffer outside that range keeps its contents through it.
-/
import proofs.«121075_j4492535791673_1_alg».proof.Proof.Gen.KernelIdeal.Launch
import proofs.«121075_j4492535791673_1_alg».proof.Proof.KGraph
import proofs.«121075_j4492535791673_1_alg».proof.Proof.LibTailOps
import Idealize.ShloMosaic.Lib.StableHlo.Run

set_option maxRecDepth 16384

noncomputable section

namespace Cert.Sage.K

open Cert.KernelIdeal.Facts₀ Cert.KernelIdeal.Facts
open Cert.KernelIdeal Idealize.ShloMosaic Idealize.ShloMosaic.StableHlo Idealize.ShloMosaic.TcCoe
open Cert.KernelIdeal.Gen (hostOps0 hostOps1 hostOps2 hostOps3 hostOps4)
open Cert.LibTailOps

/-- The reference is declared at a position between `lo` and `hi`. -/
def inRange (lo hi : Nat) (r : Ref sig .tc) : Prop := lo ≤ r.idx.val ∧ r.idx.val ≤ hi

instance (lo hi : Nat) : DecidablePred (inRange lo hi) := fun r => by unfold inRange; infer_instance

variable (W : Valuation τ sig (Elt Ideal))

/-! ## What each stretch writes -/

theorem host0_writes : (hostOps0 : List (HloOp τ sig (Elt Ideal))).Forall (WritesOne (inRange 11 28)) := by writes_one_each
theorem host1_writes : (hostOps1 : List (HloOp τ sig (Elt Ideal))).Forall (WritesOne (inRange 30 57)) := by writes_one_each
theorem host2_writes : (hostOps2 : List (HloOp τ sig (Elt Ideal))).Forall (WritesOne (inRange 59 86)) := by writes_one_each
theorem host3_writes : (hostOps3 : List (HloOp τ sig (Elt Ideal))).Forall (WritesOne (inRange 88 115)) := by writes_one_each
theorem host4_writes : (hostOps4 : List (HloOp τ sig (Elt Ideal))).Forall (WritesOne (inRange 117 120)) := by writes_one_each

theorem keep0 (r : Ref sig .tc) (hr : ¬ inRange 11 28 r) : after hostOps0 W (Proc.devRef .tc r) = W (Proc.devRef .tc r) :=
  after_keeps _ W host0_writes hr
theorem keep1 (r : Ref sig .tc) (hr : ¬ inRange 30 57 r) : after hostOps1 W (Proc.devRef .tc r) = W (Proc.devRef .tc r) :=
  after_keeps _ W host1_writes hr
theorem keep2 (r : Ref sig .tc) (hr : ¬ inRange 59 86 r) : after hostOps2 W (Proc.devRef .tc r) = W (Proc.devRef .tc r) :=
  after_keeps _ W host2_writes hr
theorem keep3 (r : Ref sig .tc) (hr : ¬ inRange 88 115 r) : after hostOps3 W (Proc.devRef .tc r) = W (Proc.devRef .tc r) :=
  after_keeps _ W host3_writes hr
theorem keep4 (r : Ref sig .tc) (hr : ¬ inRange 117 120 r) : after hostOps4 W (Proc.devRef .tc r) = W (Proc.devRef .tc r) :=
  after_keeps _ W host4_writes hr

/-! ## The first stretch -/

theorem host0_src : after hostOps0 W (Proc.devRef .tc main_v1) = srcK (W (Proc.devRef .tc main_arg1)) := by
  after_results; rfl

theorem host0_dst : after hostOps0 W (Proc.devRef .tc main_v3) = dstK (W (Proc.devRef .tc main_arg1)) := by
  after_results; rfl

theorem host0_inv : after hostOps0 W (Proc.devRef .tc main_v12) = invK (W (Proc.devRef .tc main_arg1)) := by
  after_results; rfl

theorem host0_bias : after hostOps0 W (Proc.devRef .tc main_v13)
    = shapeCast S1x128 (W (Proc.devRef .tc main_arg3) : FVec Ideal S128 .f32) shapeCasts_S128_S1x128 := by
  after_results; rfl

end Cert.Sage.K

end
-- ==== Proof.KHostLayers.lean ====
/-
  The three layer stretches and the last stretch, read at the buffers the regions take.

  A layer's stretch leaves, from the contents `W` it is entered with: the neighbours' row sums of the previous
  layer's output times the broadcast reciprocal column; that layer's two matrices (a slice of the stack, reshaped);
  and its three vectors, each a slice of the stack reshaped to a vector and laid as a [1, 128] row.  The last
  stretch leaves the output matrix's three row blocks and the output bias as a [1, 16] row.
-/
import proofs.«121075_j4492535791673_1_alg».proof.Proof.KHost

set_option maxRecDepth 16384

noncomputable section

namespace Cert.Sage.K

open Cert.KernelIdeal.Facts₀ Cert.KernelIdeal.Facts
open Cert.KernelIdeal Idealize.ShloMosaic Idealize.ShloMosaic.StableHlo Idealize.ShloMosaic.TcCoe
open Cert.KernelIdeal.Gen (hostOps0 hostOps1 hostOps2 hostOps3 hostOps4)

variable (W : Valuation τ sig (Elt Ideal))

/-! ## Layer 1's stretch -/

theorem host1_mean : after hostOps1 W (Proc.devRef .tc main_v26)
    = mulf (aggI (W (Proc.devRef .tc main_v1)) (W (Proc.devRef .tc main_v3)) (W (Proc.devRef .tc main_v14)))
        (broadcastInDim S100000x128 ![0, 1] bcast_S100000x1_S100000x128_0_1 (W (Proc.devRef .tc main_v12) : FVec Ideal S100000x1 .f32)) := by
  after_results_simp
  rfl

theorem host1_Wl : after hostOps1 W (Proc.devRef .tc main_v28) = shapeCast S128x128 (extractStridedSlice S1x128x128 ![0, 0, 0] (W (Proc.devRef .tc main_arg4) : FVec Ideal S3x128x128 .f32) slices_S3x128x128_S1x128x128_0_0_0) shapeCasts_S1x128x128_S128x128 := by
  after_results; rfl

theorem host1_Wr : after hostOps1 W (Proc.devRef .tc main_v32) = shapeCast S128x128 (extractStridedSlice S1x128x128 ![0, 0, 0] (W (Proc.devRef .tc main_arg6) : FVec Ideal S3x128x128 .f32) slices_S3x128x128_S1x128x128_0_0_0) shapeCasts_S1x128x128_S128x128 := by
  after_results; rfl

theorem host1_bl : after hostOps1 W (Proc.devRef .tc main_v37) = shapeCast S1x128 (shapeCast S128 (extractStridedSlice S1x128 ![0, 0] (W (Proc.devRef .tc main_arg5) : FVec Ideal S3x128 .f32) slices_S3x128_S1x128_0_0) shapeCasts_S1x128_S128) shapeCasts_S128_S1x128 := by
  after_results; rfl

theorem host1_g : after hostOps1 W (Proc.devRef .tc main_v38) = shapeCast S1x128 (shapeCast S128 (extractStridedSlice S1x128 ![0, 0] (W (Proc.devRef .tc main_arg7) : FVec Ideal S3x128 .f32) slices_S3x128_S1x128_0_0) shapeCasts_S1x128_S128) shapeCasts_S128_S1x128 := by
  after_results; rfl

theorem host1_b : after hostOps1 W (Proc.devRef .tc main_v39) = shapeCast S1x128 (shapeCast S128 (extractStridedSlice S1x128 ![0, 0] (W (Proc.devRef .tc main_arg8) : FVec Ideal S3x128 .f32) slices_S3x128_S1x128_0_0) shapeCasts_S1x128_S128) shapeCasts_S128_S1x128 := by
  after_results; rfl

/-! ## Layer 2's stretch -/

theorem host2_mean : after hostOps2 W (Proc.devRef .tc main_v52)
    = mulf (aggI (W (Proc.devRef .tc main_v1)) (W (Proc.devRef .tc main_v3)) (W (Proc.devRef .tc main_v40)))
        (broadcastInDim S100000x128 ![0, 1] bcast_S100000x1_S100000x128_0_1 (W (Proc.devRef .tc main_v12) : FVec Ideal S100000x1 .f32)) := by
  after_results_simp
  rfl

theorem host2_Wl : after hostOps2 W (Proc.devRef .tc main_v54) = shapeCast S128x128 (extractStridedSlice S1x128x128 ![1, 0, 0] (W (Proc.devRef .tc main_arg4) : FVec Ideal S3x128x128 .f32) slices_S3x128x128_S1x128x128_1_0_0) shapeCasts_S1x128x128_S128x128 := by
  after_results; rfl

theorem host2_Wr : after hostOps2 W (Proc.devRef .tc main_v58) = shapeCast S128x128 (extractStridedSlice S1x128x128 ![1, 0, 0] (W (Proc.devRef .tc main_arg6) : FVec Ideal S3x128x128 .f32) slices_S3x128x128_S1x128x128_1_0_0) shapeCasts_S1x128x128_S128x128 := by
  after_results; rfl

theorem host2_bl : after hostOps2 W (Proc.devRef .tc main_v63) = shapeCast S1x128 (shapeCast S128 (extractStridedSlice S1x128 ![1, 0] (W (Proc.devRef .tc main_arg5) : FVec Ideal S3x128 .f32) slices_S3x128_S1x128_1_0) shapeCasts_S1x128_S128) shapeCasts_S128_S1x128 := by
  after_results; rfl

theorem host2_g : after hostOps2 W (Proc.devRef .tc main_v64) = shapeCast S1x128 (shapeCast S128 (extractStridedSlice S1x128 ![1, 0] (W (Proc.devRef .tc main_arg7) : FVec Ideal S3x128 .f32) slices_S3x128_S1x128_1_0) shapeCasts_S1x128_S128) shapeCasts_S128_S1x128 := by
  after_results; rfl

theorem host2_b : after hostOps2 W (Proc.devRef .tc main_v65) = shapeCast S1x128 (shapeCast S128 (extractStridedSlice S1x128 ![1, 0] (W (Proc.devRef .tc main_arg8) : FVec Ideal S3x128 .f32) slices_S3x128_S1x128_1_0) shapeCasts_S1x128_S128) shapeCasts_S128_S1x128 := by
  after_results; rfl

/-! ## Layer 3's stretch -/

theorem host3_mean : after hostOps3 W (Proc.devRef .tc main_v78)
    = mulf (aggI (W (Proc.devRef .tc main_v1)) (W (Proc.devRef .tc main_v3)) (W (Proc.devRef .tc main_v66)))
        (broadcastInDim S100000x128 ![0, 1] bcast_S100000x1_S100000x128_0_1 (W (Proc.devRef .tc main_v12) : FVec Ideal S100000x1 .f32)) := by
  after_results_simp
  rfl

theorem host3_Wl : after hostOps3 W (Proc.devRef .tc main_v80) = shapeCast S128x128 (extractStridedSlice S1x128x128 ![2, 0, 0] (W (Proc.devRef .tc main_arg4) : FVec Ideal S3x128x128 .f32) slices_S3x128x128_S1x128x128_2_0_0) shapeCasts_S1x128x128_S128x128 := by
  after_results; rfl

theorem host3_Wr : after hostOps3 W (Proc.devRef .tc main_v84) = shapeCast S128x128 (extractStridedSlice S1x128x128 ![2, 0, 0] (W (Proc.devRef .tc main_arg6) : FVec Ideal S3x128x128 .f32) slices_S3x128x128_S1x128x128_2_0_0) shapeCasts_S1x128x128_S128x128 := by
  after_results; rfl

theorem host3_bl : after hostOps3 W (Proc.devRef .tc main_v89) = shapeCast S1x128 (shapeCast S128 (extractStridedSlice S1x128 ![2, 0] (W (Proc.devRef .tc main_arg5) : FVec Ideal S3x128 .f32) slices_S3x128_S1x128_2_0) shapeCasts_S1x128_S128) shapeCasts_S128_S1x128 := by
  after_results; rfl

theorem host3_g : after hostOps3 W (Proc.devRef .tc main_v90) = shapeCast S1x128 (shapeCast S128 (extractStridedSlice S1x128 ![2, 0] (W (Proc.devRef .tc main_arg7) : FVec Ideal S3x128 .f32) slices_S3x128_S1x128_2_0) shapeCasts_S1x128_S128) shapeCasts_S128_S1x128 := by
  after_results; rfl

theorem host3_b : after hostOps3 W (Proc.devRef .tc main_v91) = shapeCast S1x128 (shapeCast S128 (extractStridedSlice S1x128 ![2, 0] (W (Proc.devRef .tc main_arg8) : FVec Ideal S3x128 .f32) slices_S3x128_S1x128_2_0) shapeCasts_S1x128_S128) shapeCasts_S128_S1x128 := by
  after_results; rfl

/-! ## The last stretch -/

theorem host4_w0 : after hostOps4 W (Proc.devRef .tc main_v93)
    = extractStridedSlice S128x16 ![0, 0] (W (Proc.devRef .tc main_arg9) : FVec Ideal S384x16 .f32) slices_S384x16_S128x16_0_0 := by
  after_results

theorem host4_w1 : after hostOps4 W (Proc.devRef .tc main_v94)
    = extractStridedSlice S128x16 ![128, 0] (W (Proc.devRef .tc main_arg9) : FVec Ideal S384x16 .f32) slices_S384x16_S128x16_128_0 := by
  after_results

theorem host4_w2 : after hostOps4 W (Proc.devRef .tc main_v95)
    = extractStridedSlice S128x16 ![256, 0] (W (Proc.devRef .tc main_arg9) : FVec Ideal S384x16 .f32) slices_S384x16_S128x16_256_0 := by
  after_results

theorem host4_bias : after hostOps4 W (Proc.devRef .tc main_v96)
    = shapeCast S1x16 (W (Proc.devRef .tc main_arg10) : FVec Ideal S16 .f32) shapeCasts_S16_S1x16 := by
  after_results; rfl

end Cert.Sage.K

end
-- ==== Proof.KFold0.lean ====
/-
  The contents at the segment boundaries: what persists.

  The two id arrays and the reciprocal column are written by the first stretch and never again; the arguments are
  never written; a layer's output is written by its region and later only read (through input windows, which leave
  their arrays as they were).  A region leaves every buffer that is not one of its arrays and a stretch every buffer
  outside its own range, so each of these has, at every later boundary, the contents it had where it was written.
-/
import proofs.«121075_j4492535791673_1_alg».proof.Proof.Gen.KernelIdeal.Frame
import proofs.«121075_j4492535791673_1_alg».proof.Proof.KHostLayers

set_option maxRecDepth 16384

noncomputable section

namespace Cert.Sage.K

open Cert.KernelIdeal Cert.KernelIdeal.Gen Idealize.ShloMosaic Idealize.ShloMosaic.StableHlo Idealize.ShloMosaic.TcCoe
open Idealize.SL.Sem Cert.LibLayers

variable (m : (ℓ : Loc nD τ sig) → Buf (Elt Ideal) ℓ) (ρ : Dev nD → PrngReg) (c : Dev nD)

/-- A buffer's contents at launch. -/
abbrev at0 (b : Ref sig .tc) : Buf (Elt Ideal) ((c : Thread nD τ).loc b) := m ((c : Thread nD τ).loc b)

/-! ## A buffer that the stretch does not write and the region after it does not own keeps its contents -/

theorem W2_keep (b : Ref sig .tc) (h0 : ∀ w, Pipeline.arrRef spec0 w ≠ b) (h : ¬ inRange 11 28 b) :
    W2 m ρ c (Proc.devRef .tc b) = W0 m ρ c (Proc.devRef .tc b) :=
  (W2_of_ne m ρ c b h0).trans (keep0 (W0 m ρ c) b h)

theorem W4_keep (b : Ref sig .tc) (h0 : ∀ w, Pipeline.arrRef spec1 w ≠ b) (h : ¬ inRange 30 57 b) :
    W4 m ρ c (Proc.devRef .tc b) = W2 m ρ c (Proc.devRef .tc b) :=
  (W4_of_ne m ρ c b h0).trans (keep1 (W2 m ρ c) b h)

theorem W6_keep (b : Ref sig .tc) (h0 : ∀ w, Pipeline.arrRef spec2 w ≠ b) (h : ¬ inRange 59 86 b) :
    W6 m ρ c (Proc.devRef .tc b) = W4 m ρ c (Proc.devRef .tc b) :=
  (W6_of_ne m ρ c b h0).trans (keep2 (W4 m ρ c) b h)

theorem W8_keep (b : Ref sig .tc) (h0 : ∀ w, Pipeline.arrRef spec3 w ≠ b) (h : ¬ inRange 88 115 b) :
    W8 m ρ c (Proc.devRef .tc b) = W6 m ρ c (Proc.devRef .tc b) :=
  (W8_of_ne m ρ c b h0).trans (keep3 (W6 m ρ c) b h)

/-! ## The id arrays and the reciprocal column, at the entry of every layer's stretch -/

theorem src2 : W2 m ρ c (Proc.devRef .tc main_v1) = srcK (at0 m c main_arg1) :=
  (W2_of_ne m ρ c main_v1 (by decide)).trans (host0_src (W0 m ρ c))
theorem dst2 : W2 m ρ c (Proc.devRef .tc main_v3) = dstK (at0 m c main_arg1) :=
  (W2_of_ne m ρ c main_v3 (by decide)).trans (host0_dst (W0 m ρ c))
theorem inv2 : W2 m ρ c (Proc.devRef .tc main_v12) = invK (at0 m c main_arg1) :=
  (W2_of_ne m ρ c main_v12 (by decide)).trans (host0_inv (W0 m ρ c))

theorem src4 : W4 m ρ c (Proc.devRef .tc main_v1) = srcK (at0 m c main_arg1) :=
  (W4_keep m ρ c main_v1 (by decide) (by decide)).trans (src2 m ρ c)
theorem dst4 : W4 m ρ c (Proc.devRef .tc main_v3) = dstK (at0 m c main_arg1) :=
  (W4_keep m ρ c main_v3 (by decide) (by decide)).trans (dst2 m ρ c)
theorem inv4 : W4 m ρ c (Proc.devRef .tc main_v12) = invK (at0 m c main_arg1) :=
  (W4_keep m ρ c main_v12 (by decide) (by decide)).trans (inv2 m ρ c)

theorem src6 : W6 m ρ c (Proc.devRef .tc main_v1) = srcK (at0 m c main_arg1) :=
  (W6_keep m ρ c main_v1 (by decide) (by decide)).trans (src4 m ρ c)
theorem dst6 : W6 m ρ c (Proc.devRef .tc main_v3) = dstK (at0 m c main_arg1) :=
  (W6_keep m ρ c main_v3 (by decide) (by decide)).trans (dst4 m ρ c)
theorem inv6 : W6 m ρ c (Proc.devRef .tc main_v12) = invK (at0 m c main_arg1) :=
  (W6_keep m ρ c main_v12 (by decide) (by decide)).trans (inv4 m ρ c)

/-! ## The arguments at every region's exit -/

theorem arg2 (b : Ref sig .tc) (h0 : ∀ w, Pipeline.arrRef spec0 w ≠ b) (h : ¬ inRange 11 28 b) :
    W2 m ρ c (Proc.devRef .tc b) = at0 m c b := W2_keep m ρ c b h0 h

theorem arg4 (b : Ref sig .tc) (h0 : ∀ w, Pipeline.arrRef spec0 w ≠ b) (h : ¬ inRange 11 28 b)
    (h1 : ∀ w, Pipeline.arrRef spec1 w ≠ b) (g1 : ¬ inRange 30 57 b) :
    W4 m ρ c (Proc.devRef .tc b) = at0 m c b :=
  (W4_keep m ρ c b h1 g1).trans (arg2 m ρ c b h0 h)

theorem arg6 (b : Ref sig .tc) (h0 : ∀ w, Pipeline.arrRef spec0 w ≠ b) (h : ¬ inRange 11 28 b)
    (h1 : ∀ w, Pipeline.arrRef spec1 w ≠ b) (g1 : ¬ inRange 30 57 b) (h2 : ∀ w, Pipeline.arrRef spec2 w ≠ b) (g2 : ¬ inRange 59 86 b) :
    W6 m ρ c (Proc.devRef .tc b) = at0 m c b :=
  (W6_keep m ρ c b h2 g2).trans (arg4 m ρ c b h0 h h1 g1)

theorem arg8 (b : Ref sig .tc) (h0 : ∀ w, Pipeline.arrRef spec0 w ≠ b) (h : ¬ inRange 11 28 b)
    (h1 : ∀ w, Pipeline.arrRef spec1 w ≠ b) (g1 : ¬ inRange 30 57 b) (h2 : ∀ w, Pipeline.arrRef spec2 w ≠ b) (g2 : ¬ inRange 59 86 b)
    (h3 : ∀ w, Pipeline.arrRef spec3 w ≠ b) (g3 : ¬ inRange 88 115 b) :
    W8 m ρ c (Proc.devRef .tc b) = at0 m c b :=
  (W8_keep m ρ c b h3 g3).trans (arg6 m ρ c b h0 h h1 g1 h2 g2)

/-- One argument at one boundary, for each of the seven arguments the later stretches read. -/
theorem a4_2 : W2 m ρ c (Proc.devRef .tc main_arg4) = at0 m c main_arg4 := arg2 m ρ c main_arg4 (by decide) (by decide)
theorem a4_4 : W4 m ρ c (Proc.devRef .tc main_arg4) = at0 m c main_arg4 := arg4 m ρ c main_arg4 (by decide) (by decide) (by decide) (by decide)
theorem a4_6 : W6 m ρ c (Proc.devRef .tc main_arg4) = at0 m c main_arg4 := arg6 m ρ c main_arg4 (by decide) (by decide) (by decide) (by decide) (by decide) (by decide)
theorem a4_8 : W8 m ρ c (Proc.devRef .tc main_arg4) = at0 m c main_arg4 :=
  arg8 m ρ c main_arg4 (by decide) (by decide) (by decide) (by decide) (by decide) (by decide) (by decide) (by decide)
theorem a5_2 : W2 m ρ c (Proc.devRef .tc main_arg5) = at0 m c main_arg5 := arg2 m ρ c main_arg5 (by decide) (by decide)
theorem a5_4 : W4 m ρ c (Proc.devRef .tc main_arg5) = at0 m c main_arg5 := arg4 m ρ c main_arg5 (by decide) (by decide) (by decide) (by decide)
theorem a5_6 : W6 m ρ c (Proc.devRef .tc main_arg5) = at0 m c main_arg5 := arg6 m ρ c main_arg5 (by decide) (by decide) (by decide) (by decide) (by decide) (by decide)
theorem a5_8 : W8 m ρ c (Proc.devRef .tc main_arg5) = at0 m c main_arg5 :=
  arg8 m ρ c main_arg5 (by decide) (by decide) (by decide) (by decide) (by decide) (by decide) (by decide) (by decide)
theorem a6_2 : W2 m ρ c (Proc.devRef .tc main_arg6) = at0 m c main_arg6 := arg2 m ρ c main_arg6 (by decide) (by decide)
theorem a6_4 : W4 m ρ c (Proc.devRef .tc main_arg6) = at0 m c main_arg6 := arg4 m ρ c main_arg6 (by decide) (by decide) (by decide) (by decide)
theorem a6_6 : W6 m ρ c (Proc.devRef .tc main_arg6) = at0 m c main_arg6 := arg6 m ρ c main_arg6 (by decide) (by decide) (by decide) (by decide) (by decide) (by decide)
theorem a6_8 : W8 m ρ c (Proc.devRef .tc main_arg6) = at0 m c main_arg6 :=
  arg8 m ρ c main_arg6 (by decide) (by decide) (by decide) (by decide) (by decide) (by decide) (by decide) (by decide)
theorem a7_2 : W2 m ρ c (Proc.devRef .tc main_arg7) = at0 m c main_arg7 := arg2 m ρ c main_arg7 (by decide) (by decide)
theorem a7_4 : W4 m ρ c (Proc.devRef .tc main_arg7) = at0 m c main_arg7 := arg4 m ρ c main_arg7 (by decide) (by decide) (by decide) (by decide)
theorem a7_6 : W6 m ρ c (Proc.devRef .tc main_arg7) = at0 m c main_arg7 := arg6 m ρ c main_arg7 (by decide) (by decide) (by decide) (by decide) (by decide) (by decide)
theorem a7_8 : W8 m ρ c (Proc.devRef .tc main_arg7) = at0 m c main_arg7 :=
  arg8 m ρ c main_arg7 (by decide) (by decide) (by decide) (by decide) (by decide) (by decide) (by decide) (by decide)
theorem a8_2 : W2 m ρ c (Proc.devRef .tc main_arg8) = at0 m c main_arg8 := arg2 m ρ c main_arg8 (by decide) (by decide)
theorem a8_4 : W4 m ρ c (Proc.devRef .tc main_arg8) = at0 m c main_arg8 := arg4 m ρ c main_arg8 (by decide) (by decide) (by decide) (by decide)
theorem a8_6 : W6 m ρ c (Proc.devRef .tc main_arg8) = at0 m c main_arg8 := arg6 m ρ c main_arg8 (by decide) (by decide) (by decide) (by decide) (by decide) (by decide)
theorem a8_8 : W8 m ρ c (Proc.devRef .tc main_arg8) = at0 m c main_arg8 :=
  arg8 m ρ c main_arg8 (by decide) (by decide) (by decide) (by decide) (by decide) (by decide) (by decide) (by decide)
theorem a9_2 : W2 m ρ c (Proc.devRef .tc main_arg9) = at0 m c main_arg9 := arg2 m ρ c main_arg9 (by decide) (by decide)
theorem a9_4 : W4 m ρ c (Proc.devRef .tc main_arg9) = at0 m c main_arg9 := arg4 m ρ c main_arg9 (by decide) (by decide) (by decide) (by decide)
theorem a9_6 : W6 m ρ c (Proc.devRef .tc main_arg9) = at0 m c main_arg9 := arg6 m ρ c main_arg9 (by decide) (by decide) (by decide) (by decide) (by decide) (by decide)
theorem a9_8 : W8 m ρ c (Proc.devRef .tc main_arg9) = at0 m c main_arg9 :=
  arg8 m ρ c main_arg9 (by decide) (by decide) (by decide) (by decide) (by decide) (by decide) (by decide) (by decide)
theorem a10_2 : W2 m ρ c (Proc.devRef .tc main_arg10) = at0 m c main_arg10 := arg2 m ρ c main_arg10 (by decide) (by decide)
theorem a10_4 : W4 m ρ c (Proc.devRef .tc main_arg10) = at0 m c main_arg10 := arg4 m ρ c main_arg10 (by decide) (by decide) (by decide) (by decide)
theorem a10_6 : W6 m ρ c (Proc.devRef .tc main_arg10) = at0 m c main_arg10 := arg6 m ρ c main_arg10 (by decide) (by decide) (by decide) (by decide) (by decide) (by decide)
theorem a10_8 : W8 m ρ c (Proc.devRef .tc main_arg10) = at0 m c main_arg10 :=
  arg8 m ρ c main_arg10 (by decide) (by decide) (by decide) (by decide) (by decide) (by decide) (by decide) (by decide)

/-! ## The layers' outputs when region 4 is entered -/

/-- Layer 1's output: region 2 read it through an input window, region 3 does not own it, no stretch writes it. -/
theorem keep_h1 (hp : FVec Ideal S100000x128 .f32) (h : (W4 m ρ c (Proc.devRef .tc main_v40) : S100000x128.Idx → EReal) = hp) :
    (V9 m ρ c main_v40 : S100000x128.Idx → EReal) = hp :=
  (keep4 (W8 m ρ c) main_v40 (by decide)).trans
    ((W8_keep m ρ c main_v40 (by decide) (by decide)).trans
      (((W6_arr m ρ c 1).trans (((dat2 (V5 m ρ) c).arrAt_in 1 rfl _).trans (A_eq2 (V5 m ρ) c 1))).trans
        ((keep2 (W4 m ρ c) main_v40 (by decide)).trans h)))

/-- Layer 2's output: region 3 read it through an input window. -/
theorem keep_h2 (hp : FVec Ideal S100000x128 .f32) (h : (W6 m ρ c (Proc.devRef .tc main_v66) : S100000x128.Idx → EReal) = hp) :
    (V9 m ρ c main_v66 : S100000x128.Idx → EReal) = hp :=
  (keep4 (W8 m ρ c) main_v66 (by decide)).trans
    (((W8_arr m ρ c 1).trans (((dat3 (V7 m ρ) c).arrAt_in 1 rfl _).trans (A_eq3 (V7 m ρ) c 1))).trans
      ((keep3 (W6 m ρ c) main_v66 (by decide)).trans h))

/-- Layer 3's output. -/
theorem keep_h3 (hp : FVec Ideal S100000x128 .f32) (h : (W8 m ρ c (Proc.devRef .tc main_v92) : S100000x128.Idx → EReal) = hp) :
    (V9 m ρ c main_v92 : S100000x128.Idx → EReal) = hp :=
  (keep4 (W8 m ρ c) main_v92 (by decide)).trans h

end Cert.Sage.K

end
-- ==== Proof.KProjBodies.lean ====
/-
  The input and the output projection, one tile of rows at a time, read as functions of rows.

  The input projection takes a tile of 2000 rows x, the 128 x 128 matrix W and the bias b given as one row to
      max (x W + b, 0),
  which is the hidden layer `reluDense` of the tile.  The output projection takes three tiles of rows x0, x1, x2, the
  three 128 x 16 blocks w0, w1, w2 of the output matrix and the bias as one row to
      ((x0 w0 + x1 w1) + x2 w2) + b,
  the three products added from the left, which is `outProj` of the tiles.  In both, an operand is narrowed to bf16 on
  its way into the product (the identity on the extended reals), a product is accumulated into a zero splat
  (0 + s = s), a cast of a tile to its own shape is the identity, and the bias row repeated down the rows reads the
  row's entry of the column.  No law of arithmetic beyond 0 + s = s is used, so nothing here needs finite inputs.
-/
import proofs.«121075_j4492535791673_1_alg».proof.Proof.Spec
import proofs.«121075_j4492535791673_1_alg».proof.Proof.Gen.KernelIdeal.Skeleton

noncomputable section

open scoped BigOperators

namespace Cert.Sage.K

open Cert.KernelIdeal Cert.KernelIdeal.Gen
open Idealize.ShloMosaic Idealize.ShloMosaic.ValueIdx Cert.LibDense Cert.LibLayers

/-- The dimension numbers of the input projection's product are the plain ones: rows x contraction times
    contraction x columns. -/
theorem dot128_plain : dot_S2000x128_S128x128_S2000x128_1_0_0_1_n_n = DotDims.plain 2000 128 128 := rfl

/-- So are those of the output projection's three products. -/
theorem dot16_plain : dot_S2000x128_S128x16_S2000x16_1_0_0_1_n_n = DotDims.plain 2000 128 16 := rfl

/-! ## The input projection -/

/-- The input projection of a tile of rows is the hidden layer of the tile: relu of the dense map of each row. -/
theorem pay0_eq (x0 : FVec Ideal S2000x128 .f32) (x1 : FVec Ideal S128x128 .f32) (x2 : FVec Ideal S1x128 .f32) :
    k0_pay1 (F := Ideal) x0 x1 x2 = reluDense 2000 128 128 x0 x1 (rowVec x2) := by
  have e := reluDense_kernel (A := 2000) (K := 128) (N := 128) x0 x1 x2 bitsLt_bf16_f32 shapeCasts_S2000x128_S2000x128
    shapeCasts_S1x128_S1x128 broadcasts_S1x128_S2000x128
  rw [shapeCast_self x0 shapeCasts_S2000x128_S2000x128] at e
  unfold k0_pay1
  rw [dot128_plain]
  exact e

/-! ## The output projection -/

/-- One product of a tile of rows with a 128 x 16 block, accumulated into a zero splat, at an entry: the row times
    the block's column. -/
theorem mm16_apply (x : FVec Ideal S2000x128 .f32) (w : FVec Ideal S128x16 .f32) (j : S2000x16.Idx) :
    matmul dot_S2000x128_S128x16_S2000x16_1_0_0_1_n_n none (truncf .bf16 x bitsLt_bf16_f32) (truncf .bf16 w bitsLt_bf16_f32)
      (constant (F := Ideal) S2000x16 .f32 0x00000000#32) j = rowMul x w (j 0 : Fin 2000) (j 1 : Fin 16) := by
  rw [dot16_plain]
  refine (Ideal.matmul_constant_zero_apply (DotDims.plain 2000 128 16) none (truncf .bf16 x bitsLt_bf16_f32)
    (truncf .bf16 w bitsLt_bf16_f32) j).trans ?_
  exact plain_sum 2000 128 16 x w j

/-- A [1, N] row repeated down the rows reads the row's entry of the column. -/
theorem rowBroadcast_apply {A N : Nat} (b1 : (⟨2, ![1, N]⟩ : Shape).Idx → EReal)
    (hb : (⟨2, ![1, N]⟩ : Shape).Broadcasts ⟨2, ![A, N]⟩) (j : (⟨2, ![A, N]⟩ : Shape).Idx) :
    broadcastTo ⟨2, ![A, N]⟩ b1 hb j = rowVec b1 (ix1 (j 1 : Fin N)) :=
  broadcastTo_apply b1 hb j (ix2 (0 : Fin 1) (j 1 : Fin N)) (by
    intro a
    match a with
    | ⟨0, _⟩ => rfl
    | ⟨1, _⟩ =>
      show (j 1).val = if N = 1 then 0 else (j 1).val
      split
      · have := (j 1).isLt; have e : (j 1).val < N := this; omega
      · rfl)

/-- The output projection of three tiles of rows: the three products added from the left, plus the bias. -/
theorem pay4_eq (x0 x1 x2 : FVec Ideal S2000x128 .f32) (w0 w1 w2 : FVec Ideal S128x16 .f32) (b : FVec Ideal S1x16 .f32) :
    k4_pay1 (F := Ideal) x0 x1 x2 w0 w1 w2 b = outProj 2000 x0 x1 x2 w0 w1 w2 (rowVec b) := by
  funext j
  unfold k4_pay1
  simp only [shapeCast_self]
  rw [addf_apply, addf_apply, addf_apply, mm16_apply, mm16_apply, mm16_apply, rowBroadcast_apply]
  rfl

end Cert.Sage.K

end
-- ==== Proof.KRegion0.lean ====
/-
  The input projection over all 100000 rows.

  The region walks over 50 blocks of 2000 rows.  At block t it reads rows 2000 t … 2000 t + 1999 of the input, the
  whole weight matrix and the whole bias row, and writes max (x W + b, 0) of those rows to the same rows of the
  output.  An entry of the hidden layer depends on its own row of the input only, so what block t writes is block t
  of the hidden layer of all rows; the 50 blocks cover every row (row r lies in block r / 2000), so the output array
  ends holding the hidden layer of all rows.  Everything is stated at any contents of the buffers at the region's entry.
-/
import proofs.«121075_j4492535791673_1_alg».proof.Proof.KProjBodies
import proofs.«121075_j4492535791673_1_alg».proof.Proof.Gen.KernelIdeal.Frame
import Idealize.ShloMosaic.Lib.Pipeline.Value

set_option maxRecDepth 16384

noncomputable section

open scoped BigOperators

namespace Cert.Sage.K

open Cert.KernelIdeal Cert.KernelIdeal.Gen
open Idealize.ShloMosaic Idealize.ShloMosaic.TcCoe Idealize.ShloMosaic.ValueIdx Idealize.SL.Sem
open Idealize.ShloMosaic.Pipeline (Dat)
open Cert.LibDense Cert.LibLayers

/-- The two zero offsets, however they are spelt. -/
theorem zero_offsets : (![0, 0] : Fin 2 → Nat) = fun _ => 0 := funext fun a => by fin_cases a <;> rfl

/-! ## A block of the hidden layer is the hidden layer of the block's rows -/

/-- If a tile holds rows o * 2000 … o * 2000 + 1999 of a matrix, entry (p, q) of the tile's hidden layer is entry
    (o * 2000 + p, q) of the matrix's hidden layer. -/
theorem reluDense_block (X : S100000x128.Idx → EReal) (W : S128x128.Idx → EReal) (B : S1x128.Idx → EReal)
    (x0 : S2000x128.Idx → EReal) (x1 : S128x128.Idx → EReal) (x2 : S1x128.Idx → EReal) (o : Nat)
    (h0 : ∀ (z : S2000x128.Idx) (i : S100000x128.Idx), (i 0).val = o * 2000 + (z 0).val → (i 1).val = (z 1).val → x0 z = X i)
    (h1 : x1 = W) (h2 : x2 = B)
    (y : S2000x128.Idx) (i : S100000x128.Idx) (hi0 : (i 0).val = o * 2000 + (y 0).val) (hi1 : (i 1).val = (y 1).val) :
    reluDense 2000 128 128 x0 x1 (rowVec x2) y = reluDense 100000 128 128 X W (rowVec B) i := by
  subst h1 h2
  obtain ⟨p, q, rfl⟩ : ∃ (p : Fin 2000) (q : Fin 128), y = ix2 p q := ⟨y 0, y 1, eq_ix2 y⟩
  obtain ⟨r, q', rfl⟩ : ∃ (r : Fin 100000) (q' : Fin 128), i = ix2 r q' := ⟨i 0, i 1, eq_ix2 i⟩
  obtain rfl : q' = q := Fin.ext hi1
  exact reluDense_row x0 X x1 (rowVec x2) p r q' fun k => h0 (ix2 p k) (ix2 r k) hi0 rfl

/-! ## The region -/

section Region

variable (V : (c : Dev nD) → (b : Ref sig .tc) → Buf (Elt Ideal) ((c : Thread nD τ).loc b))

/-- The hidden layer of all rows, from the three arrays as the region finds them. -/
abbrev hidden0 (c : Dev nD) : S100000x128.Idx → EReal :=
  reluDense 100000 128 128 (V c (Pipeline.arrRef spec0 0)) (V c (Pipeline.arrRef spec0 1)) (rowVec (V c (Pipeline.arrRef spec0 2)))

/-- Where the blocks sit: the input's and the output's block index is the point's on the rows and zero on the
    columns; the weight matrix and the bias row are whole at every point. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The input's block at point t holds rows 2000 t … 2000 t + 1999 of the input array. -/
theorem iblk0_0_apply (c : Dev nD) (t : Fin cfg0.N) (z : S2000x128.Idx) (i : S100000x128.Idx)
    (hi0 : (i 0).val = t.val * 2000 + (z 0).val) (hi1 : (i 1).val = (z 1).val) :
    (iblk0 (F := Ideal) V c 0 t : S2000x128.Idx → EReal) z = (V c (Pipeline.arrRef spec0 0) : S100000x128.Idx → EReal) i := by
  obtain ⟨e0, e1, -⟩ := idx_facts0 t
  show (V c (Pipeline.arrRef spec0 0) : S100000x128.Idx → EReal) (((cfg0.win 0).blk t).view.emb z) = _
  refine congrArg (V c (Pipeline.arrRef spec0 0) : S100000x128.Idx → EReal) ?_
  funext a
  apply Fin.ext
  match a with
  | ⟨0, _⟩ => show win0_0.index t (0 : Fin 2) * 2000 + 1 * (z 0).val = (i 0).val; rw [e0, hi0]; omega
  | ⟨1, _⟩ => show win0_0.index t (1 : Fin 2) * 128 + 1 * (z 1).val = (i 1).val; rw [e1, hi1]; omega

/-- The weight matrix's block at every point is the whole matrix. -/
theorem iblk0_1_eq (c : Dev nD) (t : Fin cfg0.N) :
    (iblk0 (F := Ideal) V c 1 t : S128x128.Idx → EReal) = (V c (Pipeline.arrRef spec0 1) : S128x128.Idx → EReal) := by
  obtain ⟨-, -, e0, e1, -⟩ := idx_facts0 t
  funext z
  show (V c (Pipeline.arrRef spec0 1) : S128x128.Idx → EReal) (((cfg0.win 1).blk t).view.emb z) = _
  refine congrArg (V c (Pipeline.arrRef spec0 1) : S128x128.Idx → EReal) ?_
  funext a
  apply Fin.ext
  match a with
  | ⟨0, _⟩ => show win0_1.index t (0 : Fin 2) * 128 + 1 * (z 0).val = (z 0).val; rw [e0]; omega
  | ⟨1, _⟩ => show win0_1.index t (1 : Fin 2) * 128 + 1 * (z 1).val = (z 1).val; rw [e1]; omega

/-- The bias row's block at every point is the whole row. -/
theorem iblk0_2_eq (c : Dev nD) (t : Fin cfg0.N) :
    (iblk0 (F := Ideal) V c 2 t : S1x128.Idx → EReal) = (V c (Pipeline.arrRef spec0 2) : S1x128.Idx → EReal) := by
  obtain ⟨-, -, -, -, e0, e1, -⟩ := idx_facts0 t
  funext z
  show (V c (Pipeline.arrRef spec0 2) : S1x128.Idx → EReal) (((cfg0.win 2).blk t).view.emb z) = _
  refine congrArg (V c (Pipeline.arrRef spec0 2) : S1x128.Idx → EReal) ?_
  funext a
  apply Fin.ext
  match a with
  | ⟨0, _⟩ => show win0_2.index t (0 : Fin 2) * 1 + 1 * (z 0).val = (z 0).val; rw [e0]; omega
  | ⟨1, _⟩ => show win0_2.index t (1 : Fin 2) * 128 + 1 * (z 1).val = (z 1).val; rw [e1]; omega

/-- What point t writes back is block t of the hidden layer of all rows. -/
theorem flushed0_eq (c : Dev nD) (t : Fin cfg0.N) :
    (dat0 (F := Ideal) V c).flushed 3 t = ((cfg0.win 3).blk t).view.read (Elt Ideal) (hidden0 V c) := by
  show (cfg0.win 3).cut (grid0.coords t) ((dat0 (F := Ideal) V c).after 3 t) = _
  rw [after0_3]
  unfold out0_3
  rw [View.canon_unit_zero zero_offsets]
  simp only [View.ld_unit_zero (S := S2000x128) zero_offsets, View.ld_unit_zero (S := S128x128) zero_offsets,
    View.ld_unit_zero (S := S1x128) zero_offsets]
  obtain ⟨-, -, -, -, -, -, e0, e1⟩ := idx_facts0 t
  funext y
  show k0_pay1 (F := Ideal) (iblk0 V c 0 t) (iblk0 V c 1 t) (iblk0 V c 2 t) y = hidden0 V c (((cfg0.win 3).blk t).view.emb y)
  refine (congrFun (pay0_eq (iblk0 V c 0 t) (iblk0 V c 1 t) (iblk0 V c 2 t)) y).trans ?_
  refine reluDense_block (V c (Pipeline.arrRef spec0 0)) (V c (Pipeline.arrRef spec0 1)) (V c (Pipeline.arrRef spec0 2))
    (iblk0 V c 0 t) (iblk0 V c 1 t) (iblk0 V c 2 t) t.val (fun z i h0 h1 => iblk0_0_apply V c t z i h0 h1)
    (iblk0_1_eq V c t) (iblk0_2_eq V c t) y _ ?_ ?_
  · show win0_3.index t (0 : Fin 2) * 2000 + 1 * (y 0).val = t.val * 2000 + (y 0).val; rw [e0]; omega
  · show win0_3.index t (1 : Fin 2) * 128 + 1 * (y 1).val = (y 1).val; rw [e1]; omega

/-- An index of the output array is in point t's block iff each coordinate is in the block's range on its axis. -/
theorem mem_blk0 (t : Fin cfg0.N) (i : S100000x128.Idx) :
    i ∈ ((cfg0.win 3).blk t).view.set ↔ ∀ a : Fin 2, win0_3.index t a * S2000x128.size a ≤ (i a).val
      ∧ (i a).val < win0_3.index t a * S2000x128.size a + S2000x128.size a := by
  show i ∈ ((View.whole main_v14).slice (win0_3.rect t)).set ↔ _
  rw [View.set_slice_whole, Rect.mem_set_unit]
  exact Iff.rfl

/-- Row r lies in the block of point r / 2000. -/
theorem cover0 (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 50 := N_0
  have ht : (i 0).val / 2000 < cfg0.N := by rw [hN]; omega
  obtain ⟨-, -, -, -, -, -, e0, e1⟩ := idx_facts0 ⟨(i 0).val / 2000, ht⟩
  refine ⟨⟨(i 0).val / 2000, ht⟩, flush0_3 _, ?_⟩
  rw [mem_blk0]
  intro a
  match a with
  | ⟨0, _⟩ =>
    show win0_3.index ⟨(i 0).val / 2000, ht⟩ (0 : Fin 2) * 2000 ≤ (i 0).val
      ∧ (i 0).val < win0_3.index ⟨(i 0).val / 2000, ht⟩ (0 : Fin 2) * 2000 + 2000
    rw [e0]
    show (i 0).val / 2000 * 2000 ≤ (i 0).val ∧ (i 0).val < (i 0).val / 2000 * 2000 + 2000
    omega
  | ⟨1, _⟩ =>
    show win0_3.index ⟨(i 0).val / 2000, ht⟩ (1 : Fin 2) * 128 ≤ (i 1).val
      ∧ (i 1).val < win0_3.index ⟨(i 0).val / 2000, ht⟩ (1 : Fin 2) * 128 + 128
    rw [e1]
    omega

/-- After the region the output array holds the hidden layer of all rows. -/
theorem region0_final (c : Dev nD) :
    ((dat0 (F := Ideal) V c).arrAt 3 cfg0.N : S100000x128.Idx → EReal)
      = reluDense 100000 128 128 (V c (Pipeline.arrRef spec0 0)) (V c (Pipeline.arrRef spec0 1))
          (rowVec (V c (Pipeline.arrRef spec0 2))) :=
  (dat0 (F := Ideal) V c).arrAt_eq_of_cover 3 (hidden0 V c) (fun t _ => flushed0_eq V c t) cover0

end Region

end Cert.Sage.K

end
-- ==== Proof.KFoldS0.lean ====
/-
  Region 0's output is relu (x W_in + b_in).

  Region 0 takes the node features and the input matrix as they were launched (the first stretch writes neither)
  and the input bias laid as a [1, 128] row by the first stretch.
-/
import proofs.«121075_j4492535791673_1_alg».proof.Proof.KFold0
import proofs.«121075_j4492535791673_1_alg».proof.Proof.KRegion0

set_option maxRecDepth 16384

noncomputable section

namespace Cert.Sage.K

open Cert.KernelIdeal Cert.KernelIdeal.Gen Idealize.ShloMosaic Idealize.ShloMosaic.StableHlo Idealize.ShloMosaic.TcCoe
open Idealize.SL.Sem Cert.LibLayers

variable (m : (ℓ : Loc nD τ sig) → Buf (Elt Ideal) ℓ) (ρ : Dev nD → PrngReg) (c : Dev nD)

theorem S0_w0 : (V1 m ρ c (Pipeline.arrRef spec0 0) : S100000x128.Idx → EReal) = at0 m c main_arg0 :=
  keep0 (W0 m ρ c) main_arg0 (by decide)

theorem S0_w1 : (V1 m ρ c (Pipeline.arrRef spec0 1) : S128x128.Idx → EReal) = at0 m c main_arg2 :=
  keep0 (W0 m ρ c) main_arg2 (by decide)

theorem S0_w2 : rowVec (V1 m ρ c (Pipeline.arrRef spec0 2) : S1x128.Idx → EReal) = at0 m c main_arg3 := by
  rw [show (V1 m ρ c (Pipeline.arrRef spec0 2) : S1x128.Idx → EReal) = _ from host0_bias (W0 m ρ c)]
  exact rowVec_shapeCast _ _

/-- Region 0 leaves relu (x W_in + b_in). -/
theorem h0_eq : (W2 m ρ c (Proc.devRef .tc main_v14) : S100000x128.Idx → EReal)
    = reluDense 100000 128 128 (at0 m c main_arg0) (at0 m c main_arg2) (at0 m c main_arg3) := by
  refine ((W2_arr m ρ c 3).trans (region0_final (V1 m ρ) c)).trans ?_
  rw [S0_w0 m ρ c, S0_w1 m ρ c, S0_w2 m ρ c]

end Cert.Sage.K

end
-- ==== Proof.KSlices.lean ====
/-
  Cutting one layer's weights out of the stacks.

  The three layers' 128 x 128 matrices are stacked in one [3, 128, 128] array and their vectors in one [3, 128]
  array; the output matrix is [384, 16], three blocks of 128 rows.  A program takes layer i's matrix as a slice
  [i : i + 1, :, :] reshaped to [128, 128], layer i's vector as a slice [i : i + 1, :] reshaped to [128] (and then
  back to a [1, 128] row), and block i as the slice [128 i : 128 i + 128, :].  Read at an index these are the
  entries (i, p, q), (i, q) and (128 i + p, q) of the stacks.
-/
import proofs.«121075_j4492535791673_1_alg».proof.Proof.Spec
import Idealize.ShloMosaic.Lib.Pipeline.Value
import Idealize.ShloMosaic.Lib.ValueIdx

noncomputable section

namespace Cert.Sage

open Idealize.ShloMosaic Idealize.ShloMosaic.ValueIdx Cert.LibLayers

/-- Slice [i : i + 1, :, :] of the stack, reshaped to a matrix, is layer i's matrix. -/
theorem mat3_slice (A : (⟨3, ![3, 128, 128]⟩ : Shape).Idx → EReal) (i : Fin 3) (off : Fin 3 → Nat) (hoff : off = ![i.val, 0, 0])
    (hs : (⟨3, ![3, 128, 128]⟩ : Shape).Slices off ⟨3, ![1, 128, 128]⟩)
    (hc : (⟨3, ![1, 128, 128]⟩ : Shape).ShapeCasts ⟨2, ![128, 128]⟩) :
    shapeCast ⟨2, ![128, 128]⟩ (extractStridedSlice ⟨3, ![1, 128, 128]⟩ off A hs) hc = mat3 A i := by
  subst hoff
  funext j
  obtain ⟨p, q, rfl⟩ : ∃ (p : Fin 128) (q : Fin 128), j = ix2 p q := ⟨j 0, j 1, eq_ix2 j⟩
  rw [shapeCast_apply _ hc (ix2 p q) (ix3 (0 : Fin 1) p q) (by
    rw [Shape.rowMajor_val_three, Shape.rowMajor_val_two]
    show (0 * 128 + p.val) * 128 + q.val = p.val * 128 + q.val
    omega)]
  exact extractStridedSlice_apply _ A hs (ix3 (0 : Fin 1) p q) (ix3 i p q) (fun a => match a with
    | ⟨0, _⟩ => by show i.val = i.val + 0; omega
    | ⟨1, _⟩ => by show p.val = 0 + p.val; omega
    | ⟨2, _⟩ => by show q.val = 0 + q.val; omega)

/-- Slice [i : i + 1, :] of the stack, reshaped to a vector, is layer i's vector. -/
theorem vec3_slice (v : (⟨2, ![3, 128]⟩ : Shape).Idx → EReal) (i : Fin 3) (off : Fin 2 → Nat) (hoff : off = ![i.val, 0])
    (hs : (⟨2, ![3, 128]⟩ : Shape).Slices off ⟨2, ![1, 128]⟩)
    (hc : (⟨2, ![1, 128]⟩ : Shape).ShapeCasts ⟨1, ![128]⟩) :
    shapeCast ⟨1, ![128]⟩ (extractStridedSlice ⟨2, ![1, 128]⟩ off v hs) hc = vec3 v i := by
  subst hoff
  funext j
  obtain ⟨q, rfl⟩ : ∃ q : Fin 128, j = ix1 q := ⟨j 0, eq_ix1 j⟩
  rw [shapeCast_apply _ hc (ix1 q) (ix2 (0 : Fin 1) q) (by
    rw [Shape.rowMajor_val_two, Shape.rowMajor_val_one]
    show 0 * 128 + q.val = q.val
    omega)]
  exact extractStridedSlice_apply _ v hs (ix2 (0 : Fin 1) q) (ix2 i q) (fun a => match a with
    | ⟨0, _⟩ => by show i.val = i.val + 0; omega
    | ⟨1, _⟩ => by show q.val = 0 + q.val; omega)

/-- The same vector laid as a [1, 128] row and read back as a vector. -/
theorem vec3_row (v : (⟨2, ![3, 128]⟩ : Shape).Idx → EReal) (i : Fin 3) (off : Fin 2 → Nat) (hoff : off = ![i.val, 0])
    (hs : (⟨2, ![3, 128]⟩ : Shape).Slices off ⟨2, ![1, 128]⟩)
    (hc : (⟨2, ![1, 128]⟩ : Shape).ShapeCasts ⟨1, ![128]⟩) (hr : (⟨1, ![128]⟩ : Shape).ShapeCasts ⟨2, ![1, 128]⟩) :
    rowVec (shapeCast ⟨2, ![1, 128]⟩ (shapeCast ⟨1, ![128]⟩ (extractStridedSlice ⟨2, ![1, 128]⟩ off v hs) hc) hr) = vec3 v i := by
  rw [rowVec_shapeCast, vec3_slice v i off hoff hs hc]

/-- Rows 128 i … 128 i + 127 of the output matrix are block i. -/
theorem blk3_slice (Wo : Mat 384 16) (i : Fin 3) (off : Fin 2 → Nat) (hoff : off = ![i.val * 128, 0])
    (hs : (⟨2, ![384, 16]⟩ : Shape).Slices off ⟨2, ![128, 16]⟩) :
    extractStridedSlice ⟨2, ![128, 16]⟩ off Wo hs = blk3 Wo i := by
  subst hoff
  funext j
  obtain ⟨p, q, rfl⟩ : ∃ (p : Fin 128) (q : Fin 16), j = ix2 p q := ⟨j 0, j 1, eq_ix2 j⟩
  exact extractStridedSlice_apply _ Wo hs (ix2 p q)
    (ix2 (⟨i.val * 128 + p.val, by have := p.isLt; have := i.isLt; omega⟩ : Fin 384) q) (fun a => match a with
    | ⟨0, _⟩ => by show i.val * 128 + p.val = i.val * 128 + p.val; rfl
    | ⟨1, _⟩ => by show q.val = 0 + q.val; omega)

end Cert.Sage

end
-- ==== Proof.KLayerBody.lean ====
/-
  One layer of the network as a tile of rows goes through it in the kernel's spelling, read to the row functions
  of the specification.

  The tile's two matrix products accumulate into zero splats with their operands narrowed to bf16, which changes
  nothing at the ideal values; the bias, the scale and the shift arrive as one row each and are repeated down the
  rows; a row's mean and variance are lane sums divided by the splatted row length 128, cast to a column and repeated
  along the row.  Read entry by entry these are the specification's  pre, mu, var, norm  and  combine  on the tile.
  Nothing here needs the values to be finite: only 0 + x = x is used.
-/
import proofs.«121075_j4492535791673_1_alg».proof.Proof.Spec
import proofs.«121075_j4492535791673_1_alg».proof.Proof.LibLayout

noncomputable section

open scoped BigOperators

namespace Cert.Sage.K

open Idealize.ShloMosaic Idealize.ShloMosaic.ValueIdx Cert.LibDense Cert.LibLayers Cert.LibLayout

variable {A : Nat}

/-! ## The kernel's spelling, piece by piece -/

/-- mean * Wl + bl + h * Wr on a tile: two products into zero splats, the bias row repeated down the rows. -/
def preK (x0 x1 : FVec Ideal ⟨2, ![A, 128]⟩ .f32) (x2 x4 : FVec Ideal ⟨2, ![128, 128]⟩ .f32) (x3 : FVec Ideal ⟨2, ![1, 128]⟩ .f32)
    (hlt : FTy.bits .bf16 < FTy.bits .f32) (hx : (⟨2, ![A, 128]⟩ : Shape).ShapeCasts ⟨2, ![A, 128]⟩)
    (hw : (⟨2, ![128, 128]⟩ : Shape).ShapeCasts ⟨2, ![128, 128]⟩)
    (h1 : (⟨2, ![1, 128]⟩ : Shape).ShapeCasts ⟨2, ![1, 128]⟩) (hb : (⟨2, ![1, 128]⟩ : Shape).Broadcasts ⟨2, ![A, 128]⟩) :
    FVec Ideal ⟨2, ![A, 128]⟩ .f32 :=
  addf (addf (matmul (DotDims.plain A 128 128) none (truncf .bf16 (shapeCast ⟨2, ![A, 128]⟩ x0 hx) hlt)
        (truncf .bf16 (shapeCast ⟨2, ![128, 128]⟩ x2 hw) hlt) (constant ⟨2, ![A, 128]⟩ .f32 0x00000000#32))
      (broadcastTo ⟨2, ![A, 128]⟩ (shapeCast ⟨2, ![1, 128]⟩ x3 h1) hb))
    (matmul (DotDims.plain A 128 128) none (truncf .bf16 (shapeCast ⟨2, ![A, 128]⟩ x1 hx) hlt)
        (truncf .bf16 (shapeCast ⟨2, ![128, 128]⟩ x4 hw) hlt) (constant ⟨2, ![A, 128]⟩ .f32 0x00000000#32))

/-- A row's lane sum divided by 128, as a column. -/
def colMean (y : FVec Ideal ⟨2, ![A, 128]⟩ .f32) (hr : (⟨2, ![A, 128]⟩ : Shape).Reduces [1] ⟨1, ![A]⟩) (hφ : FKind.Formats .f32)
    (ha : (0x00000000#32 : BitVec 32) = FKind.add.neutral .f32 hφ) (hc : (⟨1, ![A]⟩ : Shape).ShapeCasts ⟨2, ![A, 1]⟩) :
    FVec Ideal ⟨2, ![A, 1]⟩ .f32 :=
  divf (shapeCast ⟨2, ![A, 1]⟩ (multiReduction .add [1] ⟨1, ![A]⟩ y 0x00000000#32 hr hφ ha) hc)
    (broadcast ⟨2, ![A, 1]⟩ (Scalar.ofBits (F := Ideal) .f32 0x43000000#32))

/-- Every entry less its row's mean. -/
def centred (y : FVec Ideal ⟨2, ![A, 128]⟩ .f32) (hr : (⟨2, ![A, 128]⟩ : Shape).Reduces [1] ⟨1, ![A]⟩) (hφ : FKind.Formats .f32)
    (ha : (0x00000000#32 : BitVec 32) = FKind.add.neutral .f32 hφ) (hc : (⟨1, ![A]⟩ : Shape).ShapeCasts ⟨2, ![A, 1]⟩)
    (hbc : (⟨2, ![A, 1]⟩ : Shape).Broadcasts ⟨2, ![A, 128]⟩) : FVec Ideal ⟨2, ![A, 128]⟩ .f32 :=
  subf y (broadcastTo ⟨2, ![A, 128]⟩ (colMean y hr hφ ha hc) hbc)

/-- The centred entries times the reciprocal root of the row's variance plus epsilon. -/
def normK (y : FVec Ideal ⟨2, ![A, 128]⟩ .f32) (hr : (⟨2, ![A, 128]⟩ : Shape).Reduces [1] ⟨1, ![A]⟩) (hφ : FKind.Formats .f32)
    (ha : (0x00000000#32 : BitVec 32) = FKind.add.neutral .f32 hφ) (hc : (⟨1, ![A]⟩ : Shape).ShapeCasts ⟨2, ![A, 1]⟩)
    (hbc : (⟨2, ![A, 1]⟩ : Shape).Broadcasts ⟨2, ![A, 128]⟩) : FVec Ideal ⟨2, ![A, 128]⟩ .f32 :=
  mulf (centred y hr hφ ha hc hbc)
    (broadcastTo ⟨2, ![A, 128]⟩
      (rsqrt (addf (colMean (mulf (centred y hr hφ ha hc hbc) (centred y hr hφ ha hc hbc)) hr hφ ha hc)
        (broadcast ⟨2, ![A, 1]⟩ (Scalar.ofBits (F := Ideal) .f32 0x3727C5AC#32)))) hbc)

/-- The whole layer on a tile: normalise, scale by the row g, shift by the row b, clip at zero, add the tile of h. -/
def layerK (x0 x1 : FVec Ideal ⟨2, ![A, 128]⟩ .f32) (x2 x4 : FVec Ideal ⟨2, ![128, 128]⟩ .f32) (x3 x5 x6 : FVec Ideal ⟨2, ![1, 128]⟩ .f32)
    (hlt : FTy.bits .bf16 < FTy.bits .f32) (hx : (⟨2, ![A, 128]⟩ : Shape).ShapeCasts ⟨2, ![A, 128]⟩)
    (hw : (⟨2, ![128, 128]⟩ : Shape).ShapeCasts ⟨2, ![128, 128]⟩)
    (h1 : (⟨2, ![1, 128]⟩ : Shape).ShapeCasts ⟨2, ![1, 128]⟩) (hb : (⟨2, ![1, 128]⟩ : Shape).Broadcasts ⟨2, ![A, 128]⟩)
    (hr : (⟨2, ![A, 128]⟩ : Shape).Reduces [1] ⟨1, ![A]⟩) (hφ : FKind.Formats .f32)
    (ha : (0x00000000#32 : BitVec 32) = FKind.add.neutral .f32 hφ) (hc : (⟨1, ![A]⟩ : Shape).ShapeCasts ⟨2, ![A, 1]⟩)
    (hbc : (⟨2, ![A, 1]⟩ : Shape).Broadcasts ⟨2, ![A, 128]⟩) : FVec Ideal ⟨2, ![A, 128]⟩ .f32 :=
  addf (maximumf
      (addf (mulf (normK (preK x0 x1 x2 x4 x3 hlt hx hw h1 hb) hr hφ ha hc hbc)
          (broadcastTo ⟨2, ![A, 128]⟩ (shapeCast ⟨2, ![1, 128]⟩ x5 h1) hb))
        (broadcastTo ⟨2, ![A, 128]⟩ (shapeCast ⟨2, ![1, 128]⟩ x6 h1) hb))
      (broadcast ⟨2, ![A, 128]⟩ (Scalar.ofBits (F := Ideal) .f32 0x00000000#32)))
    (shapeCast ⟨2, ![A, 128]⟩ x1 hx)

/-! ## Read entry by entry -/

/-- A [1, 128] row repeated down the rows reads, at (p, q), the row's entry q. -/
theorem rowRepeat_apply (b1 : FVec Ideal ⟨2, ![1, 128]⟩ .f32) (hb : (⟨2, ![1, 128]⟩ : Shape).Broadcasts ⟨2, ![A, 128]⟩)
    (p : Fin A) (q : Fin 128) : broadcastTo ⟨2, ![A, 128]⟩ b1 hb (ix2 p q) = b1 (ix2 (0 : Fin 1) q) :=
  broadcastTo_apply b1 hb (ix2 p q) (ix2 (0 : Fin 1) q) (by
    intro a
    match a with
    | ⟨0, _⟩ => rfl
    | ⟨1, _⟩ => rfl)

/-- The tile before normalisation is the specification's. -/
theorem preK_eq (x0 x1 : FVec Ideal ⟨2, ![A, 128]⟩ .f32) (x2 x4 : FVec Ideal ⟨2, ![128, 128]⟩ .f32) (x3 : FVec Ideal ⟨2, ![1, 128]⟩ .f32)
    (hlt : FTy.bits .bf16 < FTy.bits .f32) (hx : (⟨2, ![A, 128]⟩ : Shape).ShapeCasts ⟨2, ![A, 128]⟩)
    (hw : (⟨2, ![128, 128]⟩ : Shape).ShapeCasts ⟨2, ![128, 128]⟩)
    (h1 : (⟨2, ![1, 128]⟩ : Shape).ShapeCasts ⟨2, ![1, 128]⟩) (hb : (⟨2, ![1, 128]⟩ : Shape).Broadcasts ⟨2, ![A, 128]⟩) :
    preK x0 x1 x2 x4 x3 hlt hx hw h1 hb = pre A x0 x1 x2 x4 (rowVec x3) := by
  unfold preK
  rw [shapeCast_self x2 hw, shapeCast_self x4 hw, shapeCast_self x1 hx, dense_kernel_row x0 x2 x3 hlt hx h1 hb]
  funext j
  rw [addf_apply]
  show dense A 128 128 x0 x2 (rowVec x3) j + _ = dense A 128 128 x0 x2 (rowVec x3) j + rowMul x1 x4 (j 0 : Fin A) (j 1 : Fin 128)
  refine congrArg (dense A 128 128 x0 x2 (rowVec x3) j + ·) ?_
  refine (Ideal.matmul_constant_zero_apply (DotDims.plain A 128 128) none (truncf .bf16 x1 hlt) (truncf .bf16 x4 hlt) j).trans ?_
  exact plain_sum A 128 128 x1 x4 j

/-- The column of row means reads, at row p, the sum of the row divided by 128. -/
theorem colMean_apply (y : FVec Ideal ⟨2, ![A, 128]⟩ .f32) (hr : (⟨2, ![A, 128]⟩ : Shape).Reduces [1] ⟨1, ![A]⟩) (hφ : FKind.Formats .f32)
    (ha : (0x00000000#32 : BitVec 32) = FKind.add.neutral .f32 hφ) (hc : (⟨1, ![A]⟩ : Shape).ShapeCasts ⟨2, ![A, 1]⟩)
    (p : Fin A) (u : Fin 1) :
    colMean y hr hφ ha hc (ix2 p u) = Ideal.div (∑ c : Fin 128, y (ix2 p c)) c128 := by
  unfold colMean
  rw [divf_apply, shapeCast_a_a1_apply, broadcast_apply]
  refine congrArg (fun s => Ideal.div s c128) ?_
  refine (Ideal.multiReduction_add_single y _ hr hφ ha (ix1 p)).trans ?_
  show ∑ k : Fin 128, _ = ∑ k : Fin 128, _
  refine Finset.sum_congr rfl fun k _ => ?_
  exact congrArg y (funext fun c => Fin.ext (by
    match c with
    | ⟨0, _⟩ => rfl
    | ⟨1, _⟩ => rfl))

/-- The centred tile: every entry less the specification's mean of its row. -/
theorem centred_eq (y : FVec Ideal ⟨2, ![A, 128]⟩ .f32) (hr : (⟨2, ![A, 128]⟩ : Shape).Reduces [1] ⟨1, ![A]⟩) (hφ : FKind.Formats .f32)
    (ha : (0x00000000#32 : BitVec 32) = FKind.add.neutral .f32 hφ) (hc : (⟨1, ![A]⟩ : Shape).ShapeCasts ⟨2, ![A, 1]⟩)
    (hbc : (⟨2, ![A, 1]⟩ : Shape).Broadcasts ⟨2, ![A, 128]⟩) :
    centred y hr hφ ha hc hbc = fun j => y j - mu y (j 0 : Fin A) := by
  funext j
  obtain ⟨p, q, rfl⟩ : ∃ (p : Fin A) (q : Fin 128), j = ix2 p q := ⟨j 0, j 1, eq_ix2 j⟩
  unfold centred
  rw [subf_apply, broadcastTo_a1_ab_apply, colMean_apply]
  rfl

/-- The normalised tile: the centred entry times the reciprocal root of its row's variance plus epsilon. -/
theorem normK_eq (y : FVec Ideal ⟨2, ![A, 128]⟩ .f32) (hr : (⟨2, ![A, 128]⟩ : Shape).Reduces [1] ⟨1, ![A]⟩) (hφ : FKind.Formats .f32)
    (ha : (0x00000000#32 : BitVec 32) = FKind.add.neutral .f32 hφ) (hc : (⟨1, ![A]⟩ : Shape).ShapeCasts ⟨2, ![A, 1]⟩)
    (hbc : (⟨2, ![A, 1]⟩ : Shape).Broadcasts ⟨2, ![A, 128]⟩) :
    normK y hr hφ ha hc hbc = fun j => (y j - mu y (j 0 : Fin A)) * Ideal.rsqrt (var y (j 0 : Fin A) + eps) := by
  unfold normK
  rw [centred_eq y hr hφ ha hc hbc]
  funext j
  obtain ⟨p, q, rfl⟩ : ∃ (p : Fin A) (q : Fin 128), j = ix2 p q := ⟨j 0, j 1, eq_ix2 j⟩
  rw [mulf_apply, broadcastTo_a1_ab_apply]
  show (y (ix2 p q) - mu y p)
      * Ideal.rsqrt (colMean (mulf (fun j => y j - mu y (j 0 : Fin A)) (fun j => y j - mu y (j 0 : Fin A))) hr hφ ha hc (ix2 p (0 : Fin 1)) + eps)
    = (y (ix2 p q) - mu y p) * Ideal.rsqrt (var y p + eps)
  rw [colMean_apply]
  rfl

/-- The kernel's layer on a tile is the specification's layer on that tile. -/
theorem layerK_eq (x0 x1 : FVec Ideal ⟨2, ![A, 128]⟩ .f32) (x2 x4 : FVec Ideal ⟨2, ![128, 128]⟩ .f32) (x3 x5 x6 : FVec Ideal ⟨2, ![1, 128]⟩ .f32)
    (hlt : FTy.bits .bf16 < FTy.bits .f32) (hx : (⟨2, ![A, 128]⟩ : Shape).ShapeCasts ⟨2, ![A, 128]⟩)
    (hw : (⟨2, ![128, 128]⟩ : Shape).ShapeCasts ⟨2, ![128, 128]⟩)
    (h1 : (⟨2, ![1, 128]⟩ : Shape).ShapeCasts ⟨2, ![1, 128]⟩) (hb : (⟨2, ![1, 128]⟩ : Shape).Broadcasts ⟨2, ![A, 128]⟩)
    (hr : (⟨2, ![A, 128]⟩ : Shape).Reduces [1] ⟨1, ![A]⟩) (hφ : FKind.Formats .f32)
    (ha : (0x00000000#32 : BitVec 32) = FKind.add.neutral .f32 hφ) (hc : (⟨1, ![A]⟩ : Shape).ShapeCasts ⟨2, ![A, 1]⟩)
    (hbc : (⟨2, ![A, 1]⟩ : Shape).Broadcasts ⟨2, ![A, 128]⟩) :
    layerK x0 x1 x2 x4 x3 x5 x6 hlt hx hw h1 hb hr hφ ha hc hbc
      = combine A x0 x1 x2 x4 (rowVec x3) (rowVec x5) (rowVec x6) := by
  unfold layerK
  rw [preK_eq x0 x1 x2 x4 x3 hlt hx hw h1 hb, normK_eq _ hr hφ ha hc hbc, shapeCast_self x1 hx, shapeCast_self x5 h1,
    shapeCast_self x6 h1]
  funext j
  obtain ⟨p, q, rfl⟩ : ∃ (p : Fin A) (q : Fin 128), j = ix2 p q := ⟨j 0, j 1, eq_ix2 j⟩
  rw [addf_apply, maximumf_apply, addf_apply, mulf_apply, rowRepeat_apply x5 hb p q, rowRepeat_apply x6 hb p q]
  rfl

end Cert.Sage.K

end
-- ==== Proof.KRegion1.lean ====
/-
  Layer 1 of the network as the kernel computes it: fifty blocks of 2000 rows, each through the layer's body.

  At grid point t the two row windows (the neighbours' mean and the node's own row) hold rows 2000 t … 2000 t + 1999
  of their arrays and the five parameter windows hold their whole arrays; the body leaves the specification's layer
  of those 2000 rows in the output window, which is written back over the same rows of the output array.  An entry
  of the layer depends on its own row only, so the block written at point t is rows 2000 t … 2000 t + 1999 of the
  layer applied to all 100000 rows; row r is written at point r / 2000, so after the last point the output array
  is the layer of the whole arrays.  All of it for any contents of the buffers when the region is entered.
-/
import proofs.«121075_j4492535791673_1_alg».proof.Proof.KLayerBody
import proofs.«121075_j4492535791673_1_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.Sage.K

open Cert.KernelIdeal Cert.KernelIdeal.Gen Cert.LibLayers

variable (V : (c : Dev nD) → (b : Ref sig .tc) → Buf (Elt Ideal) ((c : Thread nD τ).loc b))

/-! ## The body's stored value -/

/-- What the body stores, as a function of what it loads, is the specification's layer on the 2000 loaded rows. -/
theorem body1_eq (x0 x1 : Vec Ideal S2000x128 .f32) (x2 x4 : Vec Ideal S128x128 .f32) (x3 x5 x6 : Vec Ideal S1x128 .f32) :
    k1_pay1 (F := Ideal) (k1_pay2 x1) (k1_pay3 x0 x1 x2 x4 x3) (k1_pay4 x5) x6
      = Cert.Sage.combine 2000 x0 x1 x2 x4 (rowVec x3) (rowVec x5) (rowVec x6) :=
  layerK_eq (A := 2000) x0 x1 x2 x4 x3 x5 x6 bitsLt_bf16_f32 shapeCasts_S2000x128_S2000x128 shapeCasts_S128x128_S128x128
    shapeCasts_S1x128_S1x128 broadcasts_S1x128_S2000x128 reduces_S2000x128_S2000 (.inl rfl) rfl shapeCasts_S2000_S2000x1
    broadcasts_S2000x1_S2000x128

/-! ## Where each window's block sits at a grid point -/

theorem hz1 : (![0, 0] : Fin 2 → Nat) = fun _ => 0 := funext fun a => by fin_cases a <;> rfl

/-- The block indices, decided over the fifty points: the row windows and the output are at block t of the rows,
    the parameter windows at their one block. -/
theorem idx1 : ∀ t : Fin cfg1.N,
    win1_0.index t (0 : Fin 2) = t.val ∧ win1_0.index t (1 : Fin 2) = 0
  ∧ win1_1.index t (0 : Fin 2) = t.val ∧ win1_1.index t (1 : Fin 2) = 0
  ∧ win1_7.index t (0 : Fin 2) = t.val ∧ win1_7.index t (1 : Fin 2) = 0
  ∧ win1_2.index t (0 : Fin 2) = 0 ∧ win1_2.index t (1 : Fin 2) = 0
  ∧ win1_3.index t (0 : Fin 2) = 0 ∧ win1_3.index t (1 : Fin 2) = 0
  ∧ win1_4.index t (0 : Fin 2) = 0 ∧ win1_4.index t (1 : Fin 2) = 0
  ∧ win1_5.index t (0 : Fin 2) = 0 ∧ win1_5.index t (1 : Fin 2) = 0
  ∧ win1_6.index t (0 : Fin 2) = 0 ∧ win1_6.index t (1 : Fin 2) = 0 :=
  (by decide +kernel : ∀ t : Fin grid1.N, _)

/-- Row p of window 0's block at point t is row 2000 t + p of its array. -/
theorem rows1_0 (c : Dev nD) (t : Fin cfg1.N) (p : Fin 2000) (k : Fin 128) (r : Fin 100000) (hr : r.val = t.val * 2000 + p.val) :
    (iblk1 V c 0 t : Vec Ideal S2000x128 .f32) (ix2 p k) = (V c (Pipeline.arrRef spec1 0) : S100000x128.Idx → EReal) (ix2 r k) := by
  obtain ⟨e0, e1, -⟩ := idx1 t
  unfold iblk1
  rw [View.read_apply]
  show (V c (Pipeline.arrRef spec1 0) : S100000x128.Idx → EReal) _ = _
  refine congrArg (V c (Pipeline.arrRef spec1 0) : S100000x128.Idx → EReal) ?_
  funext a
  apply Fin.ext
  match a with
  | ⟨0, _⟩ => show win1_0.index t (0 : Fin 2) * 2000 + 1 * p.val = r.val; omega
  | ⟨1, _⟩ => show win1_0.index t (1 : Fin 2) * 128 + 1 * k.val = k.val; omega

/-- Row p of window 1's block at point t is row 2000 t + p of its array. -/
theorem rows1_1 (c : Dev nD) (t : Fin cfg1.N) (p : Fin 2000) (k : Fin 128) (r : Fin 100000) (hr : r.val = t.val * 2000 + p.val) :
    (iblk1 V c 1 t : Vec Ideal S2000x128 .f32) (ix2 p k) = (V c (Pipeline.arrRef spec1 1) : S100000x128.Idx → EReal) (ix2 r k) := by
  obtain ⟨-, -, e0, e1, -⟩ := idx1 t
  unfold iblk1
  rw [View.read_apply]
  show (V c (Pipeline.arrRef spec1 1) : S100000x128.Idx → EReal) _ = _
  refine congrArg (V c (Pipeline.arrRef spec1 1) : S100000x128.Idx → EReal) ?_
  funext a
  apply Fin.ext
  match a with
  | ⟨0, _⟩ => show win1_1.index t (0 : Fin 2) * 2000 + 1 * p.val = r.val; omega
  | ⟨1, _⟩ => show win1_1.index t (1 : Fin 2) * 128 + 1 * k.val = k.val; omega

/-- Window 2's block is its whole array at every point. -/
theorem whole1_2 (c : Dev nD) (t : Fin cfg1.N) :
    (iblk1 V c 2 t : Vec Ideal S128x128 .f32) = (V c (Pipeline.arrRef spec1 2) : S128x128.Idx → EReal) := by
  obtain ⟨-, -, -, -, -, -, e0, e1, -⟩ := idx1 t
  funext y
  unfold iblk1
  rw [View.read_apply]
  show (V c (Pipeline.arrRef spec1 2) : S128x128.Idx → EReal) _ = _
  refine congrArg (V c (Pipeline.arrRef spec1 2) : S128x128.Idx → EReal) ?_
  funext a
  apply Fin.ext
  match a with
  | ⟨0, _⟩ => show win1_2.index t (0 : Fin 2) * 128 + 1 * (y 0).val = (y 0).val; omega
  | ⟨1, _⟩ => show win1_2.index t (1 : Fin 2) * 128 + 1 * (y 1).val = (y 1).val; omega

/-- Window 3's block is its whole array at every point. -/
theorem whole1_3 (c : Dev nD) (t : Fin cfg1.N) :
    (iblk1 V c 3 t : Vec Ideal S1x128 .f32) = (V c (Pipeline.arrRef spec1 3) : S1x128.Idx → EReal) := by
  obtain ⟨-, -, -, -, -, -, -, -, e0, e1, -⟩ := idx1 t
  funext y
  unfold iblk1
  rw [View.read_apply]
  show (V c (Pipeline.arrRef spec1 3) : S1x128.Idx → EReal) _ = _
  refine congrArg (V c (Pipeline.arrRef spec1 3) : S1x128.Idx → EReal) ?_
  funext a
  apply Fin.ext
  match a with
  | ⟨0, _⟩ => show win1_3.index t (0 : Fin 2) * 1 + 1 * (y 0).val = (y 0).val; omega
  | ⟨1, _⟩ => show win1_3.index t (1 : Fin 2) * 128 + 1 * (y 1).val = (y 1).val; omega

/-- Window 4's block is its whole array at every point. -/
theorem whole1_4 (c : Dev nD) (t : Fin cfg1.N) :
    (iblk1 V c 4 t : Vec Ideal S128x128 .f32) = (V c (Pipeline.arrRef spec1 4) : S128x128.Idx → EReal) := by
  obtain ⟨-, -, -, -, -, -, -, -, -, -, e0, e1, -⟩ := idx1 t
  funext y
  unfold iblk1
  rw [View.read_apply]
  show (V c (Pipeline.arrRef spec1 4) : S128x128.Idx → EReal) _ = _
  refine congrArg (V c (Pipeline.arrRef spec1 4) : S128x128.Idx → EReal) ?_
  funext a
  apply Fin.ext
  match a with
  | ⟨0, _⟩ => show win1_4.index t (0 : Fin 2) * 128 + 1 * (y 0).val = (y 0).val; omega
  | ⟨1, _⟩ => show win1_4.index t (1 : Fin 2) * 128 + 1 * (y 1).val = (y 1).val; omega

/-- Window 5's block is its whole array at every point. -/
theorem whole1_5 (c : Dev nD) (t : Fin cfg1.N) :
    (iblk1 V c 5 t : Vec Ideal S1x128 .f32) = (V c (Pipeline.arrRef spec1 5) : S1x128.Idx → EReal) := by
  obtain ⟨-, -, -, -, -, -, -, -, -, -, -, -, e0, e1, -⟩ := idx1 t
  funext y
  unfold iblk1
  rw [View.read_apply]
  show (V c (Pipeline.arrRef spec1 5) : S1x128.Idx → EReal) _ = _
  refine congrArg (V c (Pipeline.arrRef spec1 5) : S1x128.Idx → EReal) ?_
  funext a
  apply Fin.ext
  match a with
  | ⟨0, _⟩ => show win1_5.index t (0 : Fin 2) * 1 + 1 * (y 0).val = (y 0).val; omega
  | ⟨1, _⟩ => show win1_5.index t (1 : Fin 2) * 128 + 1 * (y 1).val = (y 1).val; omega

/-- Window 6's block is its whole array at every point. -/
theorem whole1_6 (c : Dev nD) (t : Fin cfg1.N) :
    (iblk1 V c 6 t : Vec Ideal S1x128 .f32) = (V c (Pipeline.arrRef spec1 6) : S1x128.Idx → EReal) := by
  obtain ⟨-, -, -, -, -, -, -, -, -, -, -, -, -, -, e0, e1⟩ := idx1 t
  funext y
  unfold iblk1
  rw [View.read_apply]
  show (V c (Pipeline.arrRef spec1 6) : S1x128.Idx → EReal) _ = _
  refine congrArg (V c (Pipeline.arrRef spec1 6) : S1x128.Idx → EReal) ?_
  funext a
  apply Fin.ext
  match a with
  | ⟨0, _⟩ => show win1_6.index t (0 : Fin 2) * 1 + 1 * (y 0).val = (y 0).val; omega
  | ⟨1, _⟩ => show win1_6.index t (1 : Fin 2) * 128 + 1 * (y 1).val = (y 1).val; omega

/-! ## What a point writes back, and the array after the last point -/

/-- The layer of the whole arrays as the region finds them. -/
abbrev layer1 (c : Dev nD) : S100000x128.Idx → EReal :=
  Cert.Sage.combine 100000 (V c (Pipeline.arrRef spec1 0)) (V c (Pipeline.arrRef spec1 1)) (V c (Pipeline.arrRef spec1 2))
    (V c (Pipeline.arrRef spec1 4)) (rowVec (V c (Pipeline.arrRef spec1 3))) (rowVec (V c (Pipeline.arrRef spec1 5)))
    (rowVec (V c (Pipeline.arrRef spec1 6)))

/-- The layer of a block of 2000 rows is that block of the layer of all rows, when the block's rows are rows
    2000 t … 2000 t + 1999 of the arrays. -/
theorem block1_eq (t : Fin cfg1.N) (x0 x1 : Vec Ideal S2000x128 .f32) (a0 a1 : S100000x128.Idx → EReal)
    (w2 w4 : S128x128.Idx → EReal) (w3 w5 w6 : S1x128.Idx → EReal)
    (h0 : ∀ (p : Fin 2000) (k : Fin 128) (r : Fin 100000), r.val = t.val * 2000 + p.val → x0 (ix2 p k) = a0 (ix2 r k))
    (h1 : ∀ (p : Fin 2000) (k : Fin 128) (r : Fin 100000), r.val = t.val * 2000 + p.val → x1 (ix2 p k) = a1 (ix2 r k)) :
    (cfg1.win 7).cut (grid1.coords t) (Cert.Sage.combine 2000 x0 x1 w2 w4 (rowVec w3) (rowVec w5) (rowVec w6))
      = ((cfg1.win 7).blk t).view.read (Elt Ideal) (Cert.Sage.combine 100000 a0 a1 w2 w4 (rowVec w3) (rowVec w5) (rowVec w6)) := by
  obtain ⟨-, -, -, -, e0, e1, -⟩ := idx1 t
  have hN : grid1.N = 50 := N_1
  have ht : t.val < grid1.N := t.isLt
  rw [hN] at ht
  funext j
  show Cert.Sage.combine 2000 x0 x1 w2 w4 (rowVec w3) (rowVec w5) (rowVec w6) ((cfg1.win 7).xinj (grid1.coords t) j)
    = Cert.Sage.combine 100000 a0 a1 w2 w4 (rowVec w3) (rowVec w5) (rowVec w6) (((cfg1.win 7).blk t).view.emb j)
  have hx : (cfg1.win 7).xinj (grid1.coords t) j = ix2 (j 0 : Fin 2000) (j 1 : Fin 128) := by
    funext a
    match a with
    | ⟨0, _⟩ => rfl
    | ⟨1, _⟩ => rfl
  have hj0 : (j 0 : Fin 2000).val < 2000 := (j 0 : Fin 2000).isLt
  have hemb : ((cfg1.win 7).blk t).view.emb j
      = ix2 (⟨t.val * 2000 + (j 0 : Fin 2000).val, by omega⟩ : Fin 100000) (j 1 : Fin 128) := by
    funext a
    apply Fin.ext
    match a with
    | ⟨0, _⟩ => show win1_7.index t (0 : Fin 2) * 2000 + 1 * (j 0).val = t.val * 2000 + (j 0).val; omega
    | ⟨1, _⟩ => show win1_7.index t (1 : Fin 2) * 128 + 1 * (j 1).val = (j 1).val; omega
  rw [hx, hemb]
  exact Cert.Sage.combine_row x0 x1 a0 a1 w2 w4 (rowVec w3) (rowVec w5) (rowVec w6) (j 0 : Fin 2000)
    (⟨t.val * 2000 + (j 0 : Fin 2000).val, by omega⟩ : Fin 100000) (j 1 : Fin 128)
    (fun k => h0 _ k _ rfl) (fun k => h1 _ k _ rfl)

/-- What point t writes back is block t of the layer of the whole arrays. -/
theorem flushed1_eq (c : Dev nD) (t : Fin cfg1.N) :
    (dat1 V c).flushed 7 t = ((cfg1.win 7).blk t).view.read (Elt Ideal) (layer1 V c) := by
  show (cfg1.win 7).cut (grid1.coords t) ((dat1 V c).after 7 t) = _
  rw [after1_7]
  unfold out1_7
  rw [View.canon_unit_zero hz1]
  simp only [View.ld_unit_zero (S := S2000x128) hz1, View.ld_unit_zero (S := S128x128) hz1, View.ld_unit_zero (S := S1x128) hz1]
  rw [body1_eq (iblk1 V c 0 t) (iblk1 V c 1 t) (iblk1 V c 2 t) (iblk1 V c 4 t) (iblk1 V c 3 t) (iblk1 V c 5 t) (iblk1 V c 6 t),
    whole1_2 V c t, whole1_3 V c t, whole1_4 V c t, whole1_5 V c t, whole1_6 V c t]
  exact block1_eq t (iblk1 V c 0 t) (iblk1 V c 1 t) (V c (Pipeline.arrRef spec1 0)) (V c (Pipeline.arrRef spec1 1))
    (V c (Pipeline.arrRef spec1 2)) (V c (Pipeline.arrRef spec1 4)) (V c (Pipeline.arrRef spec1 3)) (V c (Pipeline.arrRef spec1 5))
    (V c (Pipeline.arrRef spec1 6)) (rows1_0 V c t) (rows1_1 V c t)

/-- An index of the output array is in point t's block iff each coordinate is in the block's range on its axis. -/
theorem mem_blk1 (t : Fin cfg1.N) (i : S100000x128.Idx) :
    i ∈ ((cfg1.win 7).blk t).view.set ↔ ∀ a : Fin 2, win1_7.index t a * S2000x128.size a ≤ (i a).val
      ∧ (i a).val < win1_7.index t a * S2000x128.size a + S2000x128.size a := by
  show i ∈ ((View.whole (Pipeline.arrRef spec1 7)).slice (win1_7.rect t)).set ↔ _
  rw [View.set_slice_whole, Rect.mem_set_unit]
  exact Iff.rfl

/-- Row r of the output array is written at point r / 2000. -/
theorem cover1 (i : S100000x128.Idx) :
    ∃ t : Fin cfg1.N, (cfg1.win 7).flush t = true ∧ i ∈ ((cfg1.win 7).blk t).view.set := by
  have h0 : (i 0).val < 100000 := (i 0).isLt
  have h1 : (i 1).val < 128 := (i 1).isLt
  have hN : grid1.N = 50 := N_1
  obtain ⟨t, ht⟩ : ∃ t : Fin cfg1.N, t.val = (i 0).val / 2000 :=
    ⟨⟨(i 0).val / 2000, by show _ < grid1.N; rw [hN]; omega⟩, rfl⟩
  obtain ⟨-, -, -, -, e0, e1, -⟩ := idx1 t
  refine ⟨t, flush1_7 t, ?_⟩
  rw [mem_blk1]
  intro a
  match a with
  | ⟨0, _⟩ =>
    show win1_7.index t (0 : Fin 2) * 2000 ≤ (i 0).val ∧ (i 0).val < win1_7.index t (0 : Fin 2) * 2000 + 2000
    omega
  | ⟨1, _⟩ =>
    show win1_7.index t (1 : Fin 2) * 128 ≤ (i 1).val ∧ (i 1).val < win1_7.index t (1 : Fin 2) * 128 + 128
    omega

/-- After the region the output array holds the layer of the arrays as the region found them. -/
theorem region1_final (c : Dev nD) :
    ((dat1 (F := Ideal) V c).arrAt 7 cfg1.N : S100000x128.Idx → EReal) = layer1 V c :=
  (dat1 V c).arrAt_eq_of_cover 7 (layer1 V c) (fun t _ => flushed1_eq V c t) cover1

end Cert.Sage.K

end
-- ==== Proof.KFoldL1.lean ====
/-
  Region 1's output is layer 1 of the network, as a function of the previous layer's output and the arguments.

  Window by window, what region 1 finds: the neighbours' means of the previous output (the row sums over arriving
  edges times the reciprocal of the clipped counts); the previous output itself; and layer 1's two matrices and
  three vectors, cut out of the stacked arguments.
-/
import proofs.«121075_j4492535791673_1_alg».proof.Proof.KFold0
import proofs.«121075_j4492535791673_1_alg».proof.Proof.KSlices
import proofs.«121075_j4492535791673_1_alg».proof.Proof.KRegion1

set_option maxRecDepth 16384

noncomputable section

namespace Cert.Sage.K

open Cert.KernelIdeal Cert.KernelIdeal.Gen Idealize.ShloMosaic Idealize.ShloMosaic.StableHlo Idealize.ShloMosaic.TcCoe
open Idealize.SL.Sem Cert.LibLayers

variable (m : (ℓ : Loc nD τ sig) → Buf (Elt Ideal) ℓ) (ρ : Dev nD → PrngReg) (c : Dev nD)

variable (hp : FVec Ideal S100000x128 .f32)
  (hprev : (W2 m ρ c (Proc.devRef .tc main_v14) : S100000x128.Idx → EReal) = hp)

include hprev in
theorem L1_w0 : (V3 m ρ c (Pipeline.arrRef spec1 0) : S100000x128.Idx → EReal)
    = Cert.Sage.scale (aggK (at0 m c main_arg1) hp) (cmK (at0 m c main_arg1)) := by
  refine (host1_mean (W2 m ρ c)).trans ?_
  rw [src2 m ρ c, dst2 m ρ c, inv2 m ρ c, hprev]
  exact mean_eq (at0 m c main_arg1) _

include hprev in
theorem L1_w1 : (V3 m ρ c (Pipeline.arrRef spec1 1) : S100000x128.Idx → EReal) = hp :=
  (keep1 (W2 m ρ c) main_v14 (by decide)).trans hprev

theorem L1_w2 : (V3 m ρ c (Pipeline.arrRef spec1 2) : S128x128.Idx → EReal) = Cert.Sage.mat3 (at0 m c main_arg4) 0 := by
  refine (host1_Wl (W2 m ρ c)).trans ?_
  rw [a4_2 m ρ c]
  exact Cert.Sage.mat3_slice _ 0 _ rfl _ _

theorem L1_w4 : (V3 m ρ c (Pipeline.arrRef spec1 4) : S128x128.Idx → EReal) = Cert.Sage.mat3 (at0 m c main_arg6) 0 := by
  refine (host1_Wr (W2 m ρ c)).trans ?_
  rw [a6_2 m ρ c]
  exact Cert.Sage.mat3_slice _ 0 _ rfl _ _

theorem L1_w3 : rowVec (V3 m ρ c (Pipeline.arrRef spec1 3) : S1x128.Idx → EReal) = Cert.Sage.vec3 (at0 m c main_arg5) 0 := by
  rw [show (V3 m ρ c (Pipeline.arrRef spec1 3) : S1x128.Idx → EReal) = _ from host1_bl (W2 m ρ c), a5_2 m ρ c]
  exact Cert.Sage.vec3_row _ 0 _ rfl _ _ _

theorem L1_w5 : rowVec (V3 m ρ c (Pipeline.arrRef spec1 5) : S1x128.Idx → EReal) = Cert.Sage.vec3 (at0 m c main_arg7) 0 := by
  rw [show (V3 m ρ c (Pipeline.arrRef spec1 5) : S1x128.Idx → EReal) = _ from host1_g (W2 m ρ c), a7_2 m ρ c]
  exact Cert.Sage.vec3_row _ 0 _ rfl _ _ _

theorem L1_w6 : rowVec (V3 m ρ c (Pipeline.arrRef spec1 6) : S1x128.Idx → EReal) = Cert.Sage.vec3 (at0 m c main_arg8) 0 := by
  rw [show (V3 m ρ c (Pipeline.arrRef spec1 6) : S1x128.Idx → EReal) = _ from host1_b (W2 m ρ c), a8_2 m ρ c]
  exact Cert.Sage.vec3_row _ 0 _ rfl _ _ _

include hprev in
/-- Region 1 leaves layer 1's output. -/
theorem layer1_eq : (W4 m ρ c (Proc.devRef .tc main_v40) : S100000x128.Idx → EReal)
    = Cert.Sage.combine 100000 (Cert.Sage.scale (aggK (at0 m c main_arg1) hp) (cmK (at0 m c main_arg1))) hp
        (Cert.Sage.mat3 (at0 m c main_arg4) 0) (Cert.Sage.mat3 (at0 m c main_arg6) 0)
        (Cert.Sage.vec3 (at0 m c main_arg5) 0) (Cert.Sage.vec3 (at0 m c main_arg7) 0) (Cert.Sage.vec3 (at0 m c main_arg8) 0) := by
  refine ((W4_arr m ρ c 7).trans (region1_final (V3 m ρ) c)).trans ?_
  unfold layer1
  rw [L1_w0 m ρ c hp hprev, L1_w1 m ρ c hp hprev, L1_w2 m ρ c, L1_w4 m ρ c, L1_w3 m ρ c, L1_w5 m ρ c, L1_w6 m ρ c]

end Cert.Sage.K

end
-- ==== Proof.KRegion2.lean ====
/-
  Layer 2 of the network as the kernel computes it: fifty blocks of 2000 rows, each through the layer's body.

  At grid point t the two row windows (the neighbours' mean and the node's own row) hold rows 2000 t … 2000 t + 1999
  of their arrays and the five parameter windows hold their whole arrays; the body leaves the specification's layer
  of those 2000 rows in the output window, which is written back over the same rows of the output array.  An entry
  of the layer depends on its own row only, so the block written at point t is rows 2000 t … 2000 t + 1999 of the
  layer applied to all 100000 rows; row r is written at point r / 2000, so after the last point the output array
  is the layer of the whole arrays.  All of it for any contents of the buffers when the region is entered.
-/
import proofs.«121075_j4492535791673_1_alg».proof.Proof.KLayerBody
import proofs.«121075_j4492535791673_1_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.Sage.K

open Cert.KernelIdeal Cert.KernelIdeal.Gen Cert.LibLayers

variable (V : (c : Dev nD) → (b : Ref sig .tc) → Buf (Elt Ideal) ((c : Thread nD τ).loc b))

/-! ## The body's stored value -/

/-- What the body stores, as a function of what it loads, is the specification's layer on the 2000 loaded rows. -/
theorem body2_eq (x0 x1 : Vec Ideal S2000x128 .f32) (x2 x4 : Vec Ideal S128x128 .f32) (x3 x5 x6 : Vec Ideal S1x128 .f32) :
    k2_pay1 (F := Ideal) (k2_pay2 x1) (k2_pay3 x0 x1 x2 x4 x3) (k2_pay4 x5) x6
      = Cert.Sage.combine 2000 x0 x1 x2 x4 (rowVec x3) (rowVec x5) (rowVec x6) :=
  layerK_eq (A := 2000) x0 x1 x2 x4 x3 x5 x6 bitsLt_bf16_f32 shapeCasts_S2000x128_S2000x128 shapeCasts_S128x128_S128x128
    shapeCasts_S1x128_S1x128 broadcasts_S1x128_S2000x128 reduces_S2000x128_S2000 (.inl rfl) rfl shapeCasts_S2000_S2000x1
    broadcasts_S2000x1_S2000x128

/-! ## Where each window's block sits at a grid point -/

theorem hz2 : (![0, 0] : Fin 2 → Nat) = fun _ => 0 := funext fun a => by fin_cases a <;> rfl

/-- The block indices, decided over the fifty points: the row windows and the output are at block t of the rows,
    the parameter windows at their one block. -/
theorem idx2 : ∀ t : Fin cfg2.N,
    win2_0.index t (0 : Fin 2) = t.val ∧ win2_0.index t (1 : Fin 2) = 0
  ∧ win2_1.index t (0 : Fin 2) = t.val ∧ win2_1.index t (1 : Fin 2) = 0
  ∧ win2_7.index t (0 : Fin 2) = t.val ∧ win2_7.index t (1 : Fin 2) = 0
  ∧ win2_2.index t (0 : Fin 2) = 0 ∧ win2_2.index t (1 : Fin 2) = 0
  ∧ win2_3.index t (0 : Fin 2) = 0 ∧ win2_3.index t (1 : Fin 2) = 0
  ∧ win2_4.index t (0 : Fin 2) = 0 ∧ win2_4.index t (1 : Fin 2) = 0
  ∧ win2_5.index t (0 : Fin 2) = 0 ∧ win2_5.index t (1 : Fin 2) = 0
  ∧ win2_6.index t (0 : Fin 2) = 0 ∧ win2_6.index t (1 : Fin 2) = 0 :=
  (by decide +kernel : ∀ t : Fin grid2.N, _)

/-- Row p of window 0's block at point t is row 2000 t + p of its array. -/
theorem rows2_0 (c : Dev nD) (t : Fin cfg2.N) (p : Fin 2000) (k : Fin 128) (r : Fin 100000) (hr : r.val = t.val * 2000 + p.val) :
    (iblk2 V c 0 t : Vec Ideal S2000x128 .f32) (ix2 p k) = (V c (Pipeline.arrRef spec2 0) : S100000x128.Idx → EReal) (ix2 r k) := by
  obtain ⟨e0, e1, -⟩ := idx2 t
  unfold iblk2
  rw [View.read_apply]
  show (V c (Pipeline.arrRef spec2 0) : S100000x128.Idx → EReal) _ = _
  refine congrArg (V c (Pipeline.arrRef spec2 0) : S100000x128.Idx → EReal) ?_
  funext a
  apply Fin.ext
  match a with
  | ⟨0, _⟩ => show win2_0.index t (0 : Fin 2) * 2000 + 1 * p.val = r.val; omega
  | ⟨1, _⟩ => show win2_0.index t (1 : Fin 2) * 128 + 1 * k.val = k.val; omega

/-- Row p of window 1's block at point t is row 2000 t + p of its array. -/
theorem rows2_1 (c : Dev nD) (t : Fin cfg2.N) (p : Fin 2000) (k : Fin 128) (r : Fin 100000) (hr : r.val = t.val * 2000 + p.val) :
    (iblk2 V c 1 t : Vec Ideal S2000x128 .f32) (ix2 p k) = (V c (Pipeline.arrRef spec2 1) : S100000x128.Idx → EReal) (ix2 r k) := by
  obtain ⟨-, -, e0, e1, -⟩ := idx2 t
  unfold iblk2
  rw [View.read_apply]
  show (V c (Pipeline.arrRef spec2 1) : S100000x128.Idx → EReal) _ = _
  refine congrArg (V c (Pipeline.arrRef spec2 1) : S100000x128.Idx → EReal) ?_
  funext a
  apply Fin.ext
  match a with
  | ⟨0, _⟩ => show win2_1.index t (0 : Fin 2) * 2000 + 1 * p.val = r.val; omega
  | ⟨1, _⟩ => show win2_1.index t (1 : Fin 2) * 128 + 1 * k.val = k.val; omega

/-- Window 2's block is its whole array at every point. -/
theorem whole2_2 (c : Dev nD) (t : Fin cfg2.N) :
    (iblk2 V c 2 t : Vec Ideal S128x128 .f32) = (V c (Pipeline.arrRef spec2 2) : S128x128.Idx → EReal) := by
  obtain ⟨-, -, -, -, -, -, e0, e1, -⟩ := idx2 t
  funext y
  unfold iblk2
  rw [View.read_apply]
  show (V c (Pipeline.arrRef spec2 2) : S128x128.Idx → EReal) _ = _
  refine congrArg (V c (Pipeline.arrRef spec2 2) : S128x128.Idx → EReal) ?_
  funext a
  apply Fin.ext
  match a with
  | ⟨0, _⟩ => show win2_2.index t (0 : Fin 2) * 128 + 1 * (y 0).val = (y 0).val; omega
  | ⟨1, _⟩ => show win2_2.index t (1 : Fin 2) * 128 + 1 * (y 1).val = (y 1).val; omega

/-- Window 3's block is its whole array at every point. -/
theorem whole2_3 (c : Dev nD) (t : Fin cfg2.N) :
    (iblk2 V c 3 t : Vec Ideal S1x128 .f32) = (V c (Pipeline.arrRef spec2 3) : S1x128.Idx → EReal) := by
  obtain ⟨-, -, -, -, -, -, -, -, e0, e1, -⟩ := idx2 t
  funext y
  unfold iblk2
  rw [View.read_apply]
  show (V c (Pipeline.arrRef spec2 3) : S1x128.Idx → EReal) _ = _
  refine congrArg (V c (Pipeline.arrRef spec2 3) : S1x128.Idx → EReal) ?_
  funext a
  apply Fin.ext
  match a with
  | ⟨0, _⟩ => show win2_3.index t (0 : Fin 2) * 1 + 1 * (y 0).val = (y 0).val; omega
  | ⟨1, _⟩ => show win2_3.index t (1 : Fin 2) * 128 + 1 * (y 1).val = (y 1).val; omega

/-- Window 4's block is its whole array at every point. -/
theorem whole2_4 (c : Dev nD) (t : Fin cfg2.N) :
    (iblk2 V c 4 t : Vec Ideal S128x128 .f32) = (V c (Pipeline.arrRef spec2 4) : S128x128.Idx → EReal) := by
  obtain ⟨-, -, -, -, -, -, -, -, -, -, e0, e1, -⟩ := idx2 t
  funext y
  unfold iblk2
  rw [View.read_apply]
  show (V c (Pipeline.arrRef spec2 4) : S128x128.Idx → EReal) _ = _
  refine congrArg (V c (Pipeline.arrRef spec2 4) : S128x128.Idx → EReal) ?_
  funext a
  apply Fin.ext
  match a with
  | ⟨0, _⟩ => show win2_4.index t (0 : Fin 2) * 128 + 1 * (y 0).val = (y 0).val; omega
  | ⟨1, _⟩ => show win2_4.index t (1 : Fin 2) * 128 + 1 * (y 1).val = (y 1).val; omega

/-- Window 5's block is its whole array at every point. -/
theorem whole2_5 (c : Dev nD) (t : Fin cfg2.N) :
    (iblk2 V c 5 t : Vec Ideal S1x128 .f32) = (V c (Pipeline.arrRef spec2 5) : S1x128.Idx → EReal) := by
  obtain ⟨-, -, -, -, -, -, -, -, -, -, -, -, e0, e1, -⟩ := idx2 t
  funext y
  unfold iblk2
  rw [View.read_apply]
  show (V c (Pipeline.arrRef spec2 5) : S1x128.Idx → EReal) _ = _
  refine congrArg (V c (Pipeline.arrRef spec2 5) : S1x128.Idx → EReal) ?_
  funext a
  apply Fin.ext
  match a with
  | ⟨0, _⟩ => show win2_5.index t (0 : Fin 2) * 1 + 1 * (y 0).val = (y 0).val; omega
  | ⟨1, _⟩ => show win2_5.index t (1 : Fin 2) * 128 + 1 * (y 1).val = (y 1).val; omega

/-- Window 6's block is its whole array at every point. -/
theorem whole2_6 (c : Dev nD) (t : Fin cfg2.N) :
    (iblk2 V c 6 t : Vec Ideal S1x128 .f32) = (V c (Pipeline.arrRef spec2 6) : S1x128.Idx → EReal) := by
  obtain ⟨-, -, -, -, -, -, -, -, -, -, -, -, -, -, e0, e1⟩ := idx2 t
  funext y
  unfold iblk2
  rw [View.read_apply]
  show (V c (Pipeline.arrRef spec2 6) : S1x128.Idx → EReal) _ = _
  refine congrArg (V c (Pipeline.arrRef spec2 6) : S1x128.Idx → EReal) ?_
  funext a
  apply Fin.ext
  match a with
  | ⟨0, _⟩ => show win2_6.index t (0 : Fin 2) * 1 + 1 * (y 0).val = (y 0).val; omega
  | ⟨1, _⟩ => show win2_6.index t (1 : Fin 2) * 128 + 1 * (y 1).val = (y 1).val; omega

/-! ## What a point writes back, and the array after the last point -/

/-- The layer of the whole arrays as the region finds them. -/
abbrev layer2 (c : Dev nD) : S100000x128.Idx → EReal :=
  Cert.Sage.combine 100000 (V c (Pipeline.arrRef spec2 0)) (V c (Pipeline.arrRef spec2 1)) (V c (Pipeline.arrRef spec2 2))
    (V c (Pipeline.arrRef spec2 4)) (rowVec (V c (Pipeline.arrRef spec2 3))) (rowVec (V c (Pipeline.arrRef spec2 5)))
    (rowVec (V c (Pipeline.arrRef spec2 6)))

/-- The layer of a block of 2000 rows is that block of the layer of all rows, when the block's rows are rows
    2000 t … 2000 t + 1999 of the arrays. -/
theorem block2_eq (t : Fin cfg2.N) (x0 x1 : Vec Ideal S2000x128 .f32) (a0 a1 : S100000x128.Idx → EReal)
    (w2 w4 : S128x128.Idx → EReal) (w3 w5 w6 : S1x128.Idx → EReal)
    (h0 : ∀ (p : Fin 2000) (k : Fin 128) (r : Fin 100000), r.val = t.val * 2000 + p.val → x0 (ix2 p k) = a0 (ix2 r k))
    (h1 : ∀ (p : Fin 2000) (k : Fin 128) (r : Fin 100000), r.val = t.val * 2000 + p.val → x1 (ix2 p k) = a1 (ix2 r k)) :
    (cfg2.win 7).cut (grid2.coords t) (Cert.Sage.combine 2000 x0 x1 w2 w4 (rowVec w3) (rowVec w5) (rowVec w6))
      = ((cfg2.win 7).blk t).view.read (Elt Ideal) (Cert.Sage.combine 100000 a0 a1 w2 w4 (rowVec w3) (rowVec w5) (rowVec w6)) := by
  obtain ⟨-, -, -, -, e0, e1, -⟩ := idx2 t
  have hN : grid2.N = 50 := N_2
  have ht : t.val < grid2.N := t.isLt
  rw [hN] at ht
  funext j
  show Cert.Sage.combine 2000 x0 x1 w2 w4 (rowVec w3) (rowVec w5) (rowVec w6) ((cfg2.win 7).xinj (grid2.coords t) j)
    = Cert.Sage.combine 100000 a0 a1 w2 w4 (rowVec w3) (rowVec w5) (rowVec w6) (((cfg2.win 7).blk t).view.emb j)
  have hx : (cfg2.win 7).xinj (grid2.coords t) j = ix2 (j 0 : Fin 2000) (j 1 : Fin 128) := by
    funext a
    match a with
    | ⟨0, _⟩ => rfl
    | ⟨1, _⟩ => rfl
  have hj0 : (j 0 : Fin 2000).val < 2000 := (j 0 : Fin 2000).isLt
  have hemb : ((cfg2.win 7).blk t).view.emb j
      = ix2 (⟨t.val * 2000 + (j 0 : Fin 2000).val, by omega⟩ : Fin 100000) (j 1 : Fin 128) := by
    funext a
    apply Fin.ext
    match a with
    | ⟨0, _⟩ => show win2_7.index t (0 : Fin 2) * 2000 + 1 * (j 0).val = t.val * 2000 + (j 0).val; omega
    | ⟨1, _⟩ => show win2_7.index t (1 : Fin 2) * 128 + 1 * (j 1).val = (j 1).val; omega
  rw [hx, hemb]
  exact Cert.Sage.combine_row x0 x1 a0 a1 w2 w4 (rowVec w3) (rowVec w5) (rowVec w6) (j 0 : Fin 2000)
    (⟨t.val * 2000 + (j 0 : Fin 2000).val, by omega⟩ : Fin 100000) (j 1 : Fin 128)
    (fun k => h0 _ k _ rfl) (fun k => h1 _ k _ rfl)

/-- What point t writes back is block t of the layer of the whole arrays. -/
theorem flushed2_eq (c : Dev nD) (t : Fin cfg2.N) :
    (dat2 V c).flushed 7 t = ((cfg2.win 7).blk t).view.read (Elt Ideal) (layer2 V c) := by
  show (cfg2.win 7).cut (grid2.coords t) ((dat2 V c).after 7 t) = _
  rw [after2_7]
  unfold out2_7
  rw [View.canon_unit_zero hz2]
  simp only [View.ld_unit_zero (S := S2000x128) hz2, View.ld_unit_zero (S := S128x128) hz2, View.ld_unit_zero (S := S1x128) hz2]
  rw [body2_eq (iblk2 V c 0 t) (iblk2 V c 1 t) (iblk2 V c 2 t) (iblk2 V c 4 t) (iblk2 V c 3 t) (iblk2 V c 5 t) (iblk2 V c 6 t),
    whole2_2 V c t, whole2_3 V c t, whole2_4 V c t, whole2_5 V c t, whole2_6 V c t]
  exact block2_eq t (iblk2 V c 0 t) (iblk2 V c 1 t) (V c (Pipeline.arrRef spec2 0)) (V c (Pipeline.arrRef spec2 1))
    (V c (Pipeline.arrRef spec2 2)) (V c (Pipeline.arrRef spec2 4)) (V c (Pipeline.arrRef spec2 3)) (V c (Pipeline.arrRef spec2 5))
    (V c (Pipeline.arrRef spec2 6)) (rows2_0 V c t) (rows2_1 V c t)

/-- An index of the output array is in point t's block iff each coordinate is in the block's range on its axis. -/
theorem mem_blk2 (t : Fin cfg2.N) (i : S100000x128.Idx) :
    i ∈ ((cfg2.win 7).blk t).view.set ↔ ∀ a : Fin 2, win2_7.index t a * S2000x128.size a ≤ (i a).val
      ∧ (i a).val < win2_7.index t a * S2000x128.size a + S2000x128.size a := by
  show i ∈ ((View.whole (Pipeline.arrRef spec2 7)).slice (win2_7.rect t)).set ↔ _
  rw [View.set_slice_whole, Rect.mem_set_unit]
  exact Iff.rfl

/-- Row r of the output array is written at point r / 2000. -/
theorem cover2 (i : S100000x128.Idx) :
    ∃ t : Fin cfg2.N, (cfg2.win 7).flush t = true ∧ i ∈ ((cfg2.win 7).blk t).view.set := by
  have h0 : (i 0).val < 100000 := (i 0).isLt
  have h1 : (i 1).val < 128 := (i 1).isLt
  have hN : grid2.N = 50 := N_2
  obtain ⟨t, ht⟩ : ∃ t : Fin cfg2.N, t.val = (i 0).val / 2000 :=
    ⟨⟨(i 0).val / 2000, by show _ < grid2.N; rw [hN]; omega⟩, rfl⟩
  obtain ⟨-, -, -, -, e0, e1, -⟩ := idx2 t
  refine ⟨t, flush2_7 t, ?_⟩
  rw [mem_blk2]
  intro a
  match a with
  | ⟨0, _⟩ =>
    show win2_7.index t (0 : Fin 2) * 2000 ≤ (i 0).val ∧ (i 0).val < win2_7.index t (0 : Fin 2) * 2000 + 2000
    omega
  | ⟨1, _⟩ =>
    show win2_7.index t (1 : Fin 2) * 128 ≤ (i 1).val ∧ (i 1).val < win2_7.index t (1 : Fin 2) * 128 + 128
    omega

/-- After the region the output array holds the layer of the arrays as the region found them. -/
theorem region2_final (c : Dev nD) :
    ((dat2 (F := Ideal) V c).arrAt 7 cfg2.N : S100000x128.Idx → EReal) = layer2 V c :=
  (dat2 V c).arrAt_eq_of_cover 7 (layer2 V c) (fun t _ => flushed2_eq V c t) cover2

end Cert.Sage.K

end
-- ==== Proof.KFoldL2.lean ====
/-
  Region 2's output is layer 2 of the network, as a function of the previous layer's output and the arguments.

  Window by window, what region 2 finds: the neighbours' means of the previous output (the row sums over arriving
  edges times the reciprocal of the clipped counts); the previous output itself; and layer 2's two matrices and
  three vectors, cut out of the stacked arguments.
-/
import proofs.«121075_j4492535791673_1_alg».proof.Proof.KFold0
import proofs.«121075_j4492535791673_1_alg».proof.Proof.KSlices
import proofs.«121075_j4492535791673_1_alg».proof.Proof.KRegion2

set_option maxRecDepth 16384

noncomputable section

namespace Cert.Sage.K

open Cert.KernelIdeal Cert.KernelIdeal.Gen Idealize.ShloMosaic Idealize.ShloMosaic.StableHlo Idealize.ShloMosaic.TcCoe
open Idealize.SL.Sem Cert.LibLayers

variable (m : (ℓ : Loc nD τ sig) → Buf (Elt Ideal) ℓ) (ρ : Dev nD → PrngReg) (c : Dev nD)

variable (hp : FVec Ideal S100000x128 .f32)
  (hprev : (W4 m ρ c (Proc.devRef .tc main_v40) : S100000x128.Idx → EReal) = hp)

include hprev in
theorem L2_w0 : (V5 m ρ c (Pipeline.arrRef spec2 0) : S100000x128.Idx → EReal)
    = Cert.Sage.scale (aggK (at0 m c main_arg1) hp) (cmK (at0 m c main_arg1)) := by
  refine (host2_mean (W4 m ρ c)).trans ?_
  rw [src4 m ρ c, dst4 m ρ c, inv4 m ρ c, hprev]
  exact mean_eq (at0 m c main_arg1) _

include hprev in
theorem L2_w1 : (V5 m ρ c (Pipeline.arrRef spec2 1) : S100000x128.Idx → EReal) = hp :=
  (keep2 (W4 m ρ c) main_v40 (by decide)).trans hprev

theorem L2_w2 : (V5 m ρ c (Pipeline.arrRef spec2 2) : S128x128.Idx → EReal) = Cert.Sage.mat3 (at0 m c main_arg4) 1 := by
  refine (host2_Wl (W4 m ρ c)).trans ?_
  rw [a4_4 m ρ c]
  exact Cert.Sage.mat3_slice _ 1 _ rfl _ _

theorem L2_w4 : (V5 m ρ c (Pipeline.arrRef spec2 4) : S128x128.Idx → EReal) = Cert.Sage.mat3 (at0 m c main_arg6) 1 := by
  refine (host2_Wr (W4 m ρ c)).trans ?_
  rw [a6_4 m ρ c]
  exact Cert.Sage.mat3_slice _ 1 _ rfl _ _

theorem L2_w3 : rowVec (V5 m ρ c (Pipeline.arrRef spec2 3) : S1x128.Idx → EReal) = Cert.Sage.vec3 (at0 m c main_arg5) 1 := by
  rw [show (V5 m ρ c (Pipeline.arrRef spec2 3) : S1x128.Idx → EReal) = _ from host2_bl (W4 m ρ c), a5_4 m ρ c]
  exact Cert.Sage.vec3_row _ 1 _ rfl _ _ _

theorem L2_w5 : rowVec (V5 m ρ c (Pipeline.arrRef spec2 5) : S1x128.Idx → EReal) = Cert.Sage.vec3 (at0 m c main_arg7) 1 := by
  rw [show (V5 m ρ c (Pipeline.arrRef spec2 5) : S1x128.Idx → EReal) = _ from host2_g (W4 m ρ c), a7_4 m ρ c]
  exact Cert.Sage.vec3_row _ 1 _ rfl _ _ _

theorem L2_w6 : rowVec (V5 m ρ c (Pipeline.arrRef spec2 6) : S1x128.Idx → EReal) = Cert.Sage.vec3 (at0 m c main_arg8) 1 := by
  rw [show (V5 m ρ c (Pipeline.arrRef spec2 6) : S1x128.Idx → EReal) = _ from host2_b (W4 m ρ c), a8_4 m ρ c]
  exact Cert.Sage.vec3_row _ 1 _ rfl _ _ _

include hprev in
/-- Region 2 leaves layer 2's output. -/
theorem layer2_eq : (W6 m ρ c (Proc.devRef .tc main_v66) : S100000x128.Idx → EReal)
    = Cert.Sage.combine 100000 (Cert.Sage.scale (aggK (at0 m c main_arg1) hp) (cmK (at0 m c main_arg1))) hp
        (Cert.Sage.mat3 (at0 m c main_arg4) 1) (Cert.Sage.mat3 (at0 m c main_arg6) 1)
        (Cert.Sage.vec3 (at0 m c main_arg5) 1) (Cert.Sage.vec3 (at0 m c main_arg7) 1) (Cert.Sage.vec3 (at0 m c main_arg8) 1) := by
  refine ((W6_arr m ρ c 7).trans (region2_final (V5 m ρ) c)).trans ?_
  unfold layer2
  rw [L2_w0 m ρ c hp hprev, L2_w1 m ρ c hp hprev, L2_w2 m ρ c, L2_w4 m ρ c, L2_w3 m ρ c, L2_w5 m ρ c, L2_w6 m ρ c]

end Cert.Sage.K

end
-- ==== Proof.KRegion3.lean ====
/-
  Layer 3 of the network as the kernel computes it: fifty blocks of 2000 rows, each through the layer's body.

  At grid point t the two row windows (the neighbours' mean and the node's own row) hold rows 2000 t … 2000 t + 1999
  of their arrays and the five parameter windows hold their whole arrays; the body leaves the specification's layer
  of those 2000 rows in the output window, which is written back over the same rows of the output array.  An entry
  of the layer depends on its own row only, so the block written at point t is rows 2000 t … 2000 t + 1999 of the
  layer applied to all 100000 rows; row r is written at point r / 2000, so after the last point the output array
  is the layer of the whole arrays.  All of it for any contents of the buffers when the region is entered.
-/
import proofs.«121075_j4492535791673_1_alg».proof.Proof.KLayerBody
import proofs.«121075_j4492535791673_1_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.Sage.K

open Cert.KernelIdeal Cert.KernelIdeal.Gen Cert.LibLayers

variable (V : (c : Dev nD) → (b : Ref sig .tc) → Buf (Elt Ideal) ((c : Thread nD τ).loc b))

/-! ## The body's stored value -/

/-- What the body stores, as a function of what it loads, is the specification's layer on the 2000 loaded rows. -/
theorem body3_eq (x0 x1 : Vec Ideal S2000x128 .f32) (x2 x4 : Vec Ideal S128x128 .f32) (x3 x5 x6 : Vec Ideal S1x128 .f32) :
    k3_pay1 (F := Ideal) (k3_pay2 x1) (k3_pay3 x0 x1 x2 x4 x3) (k3_pay4 x5) x6
      = Cert.Sage.combine 2000 x0 x1 x2 x4 (rowVec x3) (rowVec x5) (rowVec x6) :=
  layerK_eq (A := 2000) x0 x1 x2 x4 x3 x5 x6 bitsLt_bf16_f32 shapeCasts_S2000x128_S2000x128 shapeCasts_S128x128_S128x128
    shapeCasts_S1x128_S1x128 broadcasts_S1x128_S2000x128 reduces_S2000x128_S2000 (.inl rfl) rfl shapeCasts_S2000_S2000x1
    broadcasts_S2000x1_S2000x128

/-! ## Where each window's block sits at a grid point -/

theorem hz3 : (![0, 0] : Fin 2 → Nat) = fun _ => 0 := funext fun a => by fin_cases a <;> rfl

/-- The block indices, decided over the fifty points: the row windows and the output are at block t of the rows,
    the parameter windows at their one block. -/
theorem idx3 : ∀ t : Fin cfg3.N,
    win3_0.index t (0 : Fin 2) = t.val ∧ win3_0.index t (1 : Fin 2) = 0
  ∧ win3_1.index t (0 : Fin 2) = t.val ∧ win3_1.index t (1 : Fin 2) = 0
  ∧ win3_7.index t (0 : Fin 2) = t.val ∧ win3_7.index t (1 : Fin 2) = 0
  ∧ win3_2.index t (0 : Fin 2) = 0 ∧ win3_2.index t (1 : Fin 2) = 0
  ∧ win3_3.index t (0 : Fin 2) = 0 ∧ win3_3.index t (1 : Fin 2) = 0
  ∧ win3_4.index t (0 : Fin 2) = 0 ∧ win3_4.index t (1 : Fin 2) = 0
  ∧ win3_5.index t (0 : Fin 2) = 0 ∧ win3_5.index t (1 : Fin 2) = 0
  ∧ win3_6.index t (0 : Fin 2) = 0 ∧ win3_6.index t (1 : Fin 2) = 0 :=
  (by decide +kernel : ∀ t : Fin grid3.N, _)

/-- Row p of window 0's block at point t is row 2000 t + p of its array. -/
theorem rows3_0 (c : Dev nD) (t : Fin cfg3.N) (p : Fin 2000) (k : Fin 128) (r : Fin 100000) (hr : r.val = t.val * 2000 + p.val) :
    (iblk3 V c 0 t : Vec Ideal S2000x128 .f32) (ix2 p k) = (V c (Pipeline.arrRef spec3 0) : S100000x128.Idx → EReal) (ix2 r k) := by
  obtain ⟨e0, e1, -⟩ := idx3 t
  unfold iblk3
  rw [View.read_apply]
  show (V c (Pipeline.arrRef spec3 0) : S100000x128.Idx → EReal) _ = _
  refine congrArg (V c (Pipeline.arrRef spec3 0) : S100000x128.Idx → EReal) ?_
  funext a
  apply Fin.ext
  match a with
  | ⟨0, _⟩ => show win3_0.index t (0 : Fin 2) * 2000 + 1 * p.val = r.val; omega
  | ⟨1, _⟩ => show win3_0.index t (1 : Fin 2) * 128 + 1 * k.val = k.val; omega

/-- Row p of window 1's block at point t is row 2000 t + p of its array. -/
theorem rows3_1 (c : Dev nD) (t : Fin cfg3.N) (p : Fin 2000) (k : Fin 128) (r : Fin 100000) (hr : r.val = t.val * 2000 + p.val) :
    (iblk3 V c 1 t : Vec Ideal S2000x128 .f32) (ix2 p k) = (V c (Pipeline.arrRef spec3 1) : S100000x128.Idx → EReal) (ix2 r k) := by
  obtain ⟨-, -, e0, e1, -⟩ := idx3 t
  unfold iblk3
  rw [View.read_apply]
  show (V c (Pipeline.arrRef spec3 1) : S100000x128.Idx → EReal) _ = _
  refine congrArg (V c (Pipeline.arrRef spec3 1) : S100000x128.Idx → EReal) ?_
  funext a
  apply Fin.ext
  match a with
  | ⟨0, _⟩ => show win3_1.index t (0 : Fin 2) * 2000 + 1 * p.val = r.val; omega
  | ⟨1, _⟩ => show win3_1.index t (1 : Fin 2) * 128 + 1 * k.val = k.val; omega

/-- Window 2's block is its whole array at every point. -/
theorem whole3_2 (c : Dev nD) (t : Fin cfg3.N) :
    (iblk3 V c 2 t : Vec Ideal S128x128 .f32) = (V c (Pipeline.arrRef spec3 2) : S128x128.Idx → EReal) := by
  obtain ⟨-, -, -, -, -, -, e0, e1, -⟩ := idx3 t
  funext y
  unfold iblk3
  rw [View.read_apply]
  show (V c (Pipeline.arrRef spec3 2) : S128x128.Idx → EReal) _ = _
  refine congrArg (V c (Pipeline.arrRef spec3 2) : S128x128.Idx → EReal) ?_
  funext a
  apply Fin.ext
  match a with
  | ⟨0, _⟩ => show win3_2.index t (0 : Fin 2) * 128 + 1 * (y 0).val = (y 0).val; omega
  | ⟨1, _⟩ => show win3_2.index t (1 : Fin 2) * 128 + 1 * (y 1).val = (y 1).val; omega

/-- Window 3's block is its whole array at every point. -/
theorem whole3_3 (c : Dev nD) (t : Fin cfg3.N) :
    (iblk3 V c 3 t : Vec Ideal S1x128 .f32) = (V c (Pipeline.arrRef spec3 3) : S1x128.Idx → EReal) := by
  obtain ⟨-, -, -, -, -, -, -, -, e0, e1, -⟩ := idx3 t
  funext y
  unfold iblk3
  rw [View.read_apply]
  show (V c (Pipeline.arrRef spec3 3) : S1x128.Idx → EReal) _ = _
  refine congrArg (V c (Pipeline.arrRef spec3 3) : S1x128.Idx → EReal) ?_
  funext a
  apply Fin.ext
  match a with
  | ⟨0, _⟩ => show win3_3.index t (0 : Fin 2) * 1 + 1 * (y 0).val = (y 0).val; omega
  | ⟨1, _⟩ => show win3_3.index t (1 : Fin 2) * 128 + 1 * (y 1).val = (y 1).val; omega

/-- Window 4's block is its whole array at every point. -/
theorem whole3_4 (c : Dev nD) (t : Fin cfg3.N) :
    (iblk3 V c 4 t : Vec Ideal S128x128 .f32) = (V c (Pipeline.arrRef spec3 4) : S128x128.Idx → EReal) := by
  obtain ⟨-, -, -, -, -, -, -, -, -, -, e0, e1, -⟩ := idx3 t
  funext y
  unfold iblk3
  rw [View.read_apply]
  show (V c (Pipeline.arrRef spec3 4) : S128x128.Idx → EReal) _ = _
  refine congrArg (V c (Pipeline.arrRef spec3 4) : S128x128.Idx → EReal) ?_
  funext a
  apply Fin.ext
  match a with
  | ⟨0, _⟩ => show win3_4.index t (0 : Fin 2) * 128 + 1 * (y 0).val = (y 0).val; omega
  | ⟨1, _⟩ => show win3_4.index t (1 : Fin 2) * 128 + 1 * (y 1).val = (y 1).val; omega

/-- Window 5's block is its whole array at every point. -/
theorem whole3_5 (c : Dev nD) (t : Fin cfg3.N) :
    (iblk3 V c 5 t : Vec Ideal S1x128 .f32) = (V c (Pipeline.arrRef spec3 5) : S1x128.Idx → EReal) := by
  obtain ⟨-, -, -, -, -, -, -, -, -, -, -, -, e0, e1, -⟩ := idx3 t
  funext y
  unfold iblk3
  rw [View.read_apply]
  show (V c (Pipeline.arrRef spec3 5) : S1x128.Idx → EReal) _ = _
  refine congrArg (V c (Pipeline.arrRef spec3 5) : S1x128.Idx → EReal) ?_
  funext a
  apply Fin.ext
  match a with
  | ⟨0, _⟩ => show win3_5.index t (0 : Fin 2) * 1 + 1 * (y 0).val = (y 0).val; omega
  | ⟨1, _⟩ => show win3_5.index t (1 : Fin 2) * 128 + 1 * (y 1).val = (y 1).val; omega

/-- Window 6's block is its whole array at every point. -/
theorem whole3_6 (c : Dev nD) (t : Fin cfg3.N) :
    (iblk3 V c 6 t : Vec Ideal S1x128 .f32) = (V c (Pipeline.arrRef spec3 6) : S1x128.Idx → EReal) := by
  obtain ⟨-, -, -, -, -, -, -, -, -, -, -, -, -, -, e0, e1⟩ := idx3 t
  funext y
  unfold iblk3
  rw [View.read_apply]
  show (V c (Pipeline.arrRef spec3 6) : S1x128.Idx → EReal) _ = _
  refine congrArg (V c (Pipeline.arrRef spec3 6) : S1x128.Idx → EReal) ?_
  funext a
  apply Fin.ext
  match a with
  | ⟨0, _⟩ => show win3_6.index t (0 : Fin 2) * 1 + 1 * (y 0).val = (y 0).val; omega
  | ⟨1, _⟩ => show win3_6.index t (1 : Fin 2) * 128 + 1 * (y 1).val = (y 1).val; omega

/-! ## What a point writes back, and the array after the last point -/

/-- The layer of the whole arrays as the region finds them. -/
abbrev layer3 (c : Dev nD) : S100000x128.Idx → EReal :=
  Cert.Sage.combine 100000 (V c (Pipeline.arrRef spec3 0)) (V c (Pipeline.arrRef spec3 1)) (V c (Pipeline.arrRef spec3 2))
    (V c (Pipeline.arrRef spec3 4)) (rowVec (V c (Pipeline.arrRef spec3 3))) (rowVec (V c (Pipeline.arrRef spec3 5)))
    (rowVec (V c (Pipeline.arrRef spec3 6)))

/-- The layer of a block of 2000 rows is that block of the layer of all rows, when the block's rows are rows
    2000 t … 2000 t + 1999 of the arrays. -/
theorem block3_eq (t : Fin cfg3.N) (x0 x1 : Vec Ideal S2000x128 .f32) (a0 a1 : S100000x128.Idx → EReal)
    (w2 w4 : S128x128.Idx → EReal) (w3 w5 w6 : S1x128.Idx → EReal)
    (h0 : ∀ (p : Fin 2000) (k : Fin 128) (r : Fin 100000), r.val = t.val * 2000 + p.val → x0 (ix2 p k) = a0 (ix2 r k))
    (h1 : ∀ (p : Fin 2000) (k : Fin 128) (r : Fin 100000), r.val = t.val * 2000 + p.val → x1 (ix2 p k) = a1 (ix2 r k)) :
    (cfg3.win 7).cut (grid3.coords t) (Cert.Sage.combine 2000 x0 x1 w2 w4 (rowVec w3) (rowVec w5) (rowVec w6))
      = ((cfg3.win 7).blk t).view.read (Elt Ideal) (Cert.Sage.combine 100000 a0 a1 w2 w4 (rowVec w3) (rowVec w5) (rowVec w6)) := by
  obtain ⟨-, -, -, -, e0, e1, -⟩ := idx3 t
  have hN : grid3.N = 50 := N_3
  have ht : t.val < grid3.N := t.isLt
  rw [hN] at ht
  funext j
  show Cert.Sage.combine 2000 x0 x1 w2 w4 (rowVec w3) (rowVec w5) (rowVec w6) ((cfg3.win 7).xinj (grid3.coords t) j)
    = Cert.Sage.combine 100000 a0 a1 w2 w4 (rowVec w3) (rowVec w5) (rowVec w6) (((cfg3.win 7).blk t).view.emb j)
  have hx : (cfg3.win 7).xinj (grid3.coords t) j = ix2 (j 0 : Fin 2000) (j 1 : Fin 128) := by
    funext a
    match a with
    | ⟨0, _⟩ => rfl
    | ⟨1, _⟩ => rfl
  have hj0 : (j 0 : Fin 2000).val < 2000 := (j 0 : Fin 2000).isLt
  have hemb : ((cfg3.win 7).blk t).view.emb j
      = ix2 (⟨t.val * 2000 + (j 0 : Fin 2000).val, by omega⟩ : Fin 100000) (j 1 : Fin 128) := by
    funext a
    apply Fin.ext
    match a with
    | ⟨0, _⟩ => show win3_7.index t (0 : Fin 2) * 2000 + 1 * (j 0).val = t.val * 2000 + (j 0).val; omega
    | ⟨1, _⟩ => show win3_7.index t (1 : Fin 2) * 128 + 1 * (j 1).val = (j 1).val; omega
  rw [hx, hemb]
  exact Cert.Sage.combine_row x0 x1 a0 a1 w2 w4 (rowVec w3) (rowVec w5) (rowVec w6) (j 0 : Fin 2000)
    (⟨t.val * 2000 + (j 0 : Fin 2000).val, by omega⟩ : Fin 100000) (j 1 : Fin 128)
    (fun k => h0 _ k _ rfl) (fun k => h1 _ k _ rfl)

/-- What point t writes back is block t of the layer of the whole arrays. -/
theorem flushed3_eq (c : Dev nD) (t : Fin cfg3.N) :
    (dat3 V c).flushed 7 t = ((cfg3.win 7).blk t).view.read (Elt Ideal) (layer3 V c) := by
  show (cfg3.win 7).cut (grid3.coords t) ((dat3 V c).after 7 t) = _
  rw [after3_7]
  unfold out3_7
  rw [View.canon_unit_zero hz3]
  simp only [View.ld_unit_zero (S := S2000x128) hz3, View.ld_unit_zero (S := S128x128) hz3, View.ld_unit_zero (S := S1x128) hz3]
  rw [body3_eq (iblk3 V c 0 t) (iblk3 V c 1 t) (iblk3 V c 2 t) (iblk3 V c 4 t) (iblk3 V c 3 t) (iblk3 V c 5 t) (iblk3 V c 6 t),
    whole3_2 V c t, whole3_3 V c t, whole3_4 V c t, whole3_5 V c t, whole3_6 V c t]
  exact block3_eq t (iblk3 V c 0 t) (iblk3 V c 1 t) (V c (Pipeline.arrRef spec3 0)) (V c (Pipeline.arrRef spec3 1))
    (V c (Pipeline.arrRef spec3 2)) (V c (Pipeline.arrRef spec3 4)) (V c (Pipeline.arrRef spec3 3)) (V c (Pipeline.arrRef spec3 5))
    (V c (Pipeline.arrRef spec3 6)) (rows3_0 V c t) (rows3_1 V c t)

/-- An index of the output array is in point t's block iff each coordinate is in the block's range on its axis. -/
theorem mem_blk3 (t : Fin cfg3.N) (i : S100000x128.Idx) :
    i ∈ ((cfg3.win 7).blk t).view.set ↔ ∀ a : Fin 2, win3_7.index t a * S2000x128.size a ≤ (i a).val
      ∧ (i a).val < win3_7.index t a * S2000x128.size a + S2000x128.size a := by
  show i ∈ ((View.whole (Pipeline.arrRef spec3 7)).slice (win3_7.rect t)).set ↔ _
  rw [View.set_slice_whole, Rect.mem_set_unit]
  exact Iff.rfl

/-- Row r of the output array is written at point r / 2000. -/
theorem cover3 (i : S100000x128.Idx) :
    ∃ t : Fin cfg3.N, (cfg3.win 7).flush t = true ∧ i ∈ ((cfg3.win 7).blk t).view.set := by
  have h0 : (i 0).val < 100000 := (i 0).isLt
  have h1 : (i 1).val < 128 := (i 1).isLt
  have hN : grid3.N = 50 := N_3
  obtain ⟨t, ht⟩ : ∃ t : Fin cfg3.N, t.val = (i 0).val / 2000 :=
    ⟨⟨(i 0).val / 2000, by show _ < grid3.N; rw [hN]; omega⟩, rfl⟩
  obtain ⟨-, -, -, -, e0, e1, -⟩ := idx3 t
  refine ⟨t, flush3_7 t, ?_⟩
  rw [mem_blk3]
  intro a
  match a with
  | ⟨0, _⟩ =>
    show win3_7.index t (0 : Fin 2) * 2000 ≤ (i 0).val ∧ (i 0).val < win3_7.index t (0 : Fin 2) * 2000 + 2000
    omega
  | ⟨1, _⟩ =>
    show win3_7.index t (1 : Fin 2) * 128 ≤ (i 1).val ∧ (i 1).val < win3_7.index t (1 : Fin 2) * 128 + 128
    omega

/-- After the region the output array holds the layer of the arrays as the region found them. -/
theorem region3_final (c : Dev nD) :
    ((dat3 (F := Ideal) V c).arrAt 7 cfg3.N : S100000x128.Idx → EReal) = layer3 V c :=
  (dat3 V c).arrAt_eq_of_cover 7 (layer3 V c) (fun t _ => flushed3_eq V c t) cover3

end Cert.Sage.K

end
-- ==== Proof.KFoldL3.lean ====
/-
  Region 3's output is layer 3 of the network, as a function of the previous layer's output and the arguments.

  Window by window, what region 3 finds: the neighbours' means of the previous output (the row sums over arriving
  edges times the reciprocal of the clipped counts); the previous output itself; and layer 3's two matrices and
  three vectors, cut out of the stacked arguments.
-/
import proofs.«121075_j4492535791673_1_alg».proof.Proof.KFold0
import proofs.«121075_j4492535791673_1_alg».proof.Proof.KSlices
import proofs.«121075_j4492535791673_1_alg».proof.Proof.KRegion3

set_option maxRecDepth 16384

noncomputable section

namespace Cert.Sage.K

open Cert.KernelIdeal Cert.KernelIdeal.Gen Idealize.ShloMosaic Idealize.ShloMosaic.StableHlo Idealize.ShloMosaic.TcCoe
open Idealize.SL.Sem Cert.LibLayers

variable (m : (ℓ : Loc nD τ sig) → Buf (Elt Ideal) ℓ) (ρ : Dev nD → PrngReg) (c : Dev nD)

variable (hp : FVec Ideal S100000x128 .f32)
  (hprev : (W6 m ρ c (Proc.devRef .tc main_v66) : S100000x128.Idx → EReal) = hp)

include hprev in
theorem L3_w0 : (V7 m ρ c (Pipeline.arrRef spec3 0) : S100000x128.Idx → EReal)
    = Cert.Sage.scale (aggK (at0 m c main_arg1) hp) (cmK (at0 m c main_arg1)) := by
  refine (host3_mean (W6 m ρ c)).trans ?_
  rw [src6 m ρ c, dst6 m ρ c, inv6 m ρ c, hprev]
  exact mean_eq (at0 m c main_arg1) _

include hprev in
theorem L3_w1 : (V7 m ρ c (Pipeline.arrRef spec3 1) : S100000x128.Idx → EReal) = hp :=
  (keep3 (W6 m ρ c) main_v66 (by decide)).trans hprev

theorem L3_w2 : (V7 m ρ c (Pipeline.arrRef spec3 2) : S128x128.Idx → EReal) = Cert.Sage.mat3 (at0 m c main_arg4) 2 := by
  refine (host3_Wl (W6 m ρ c)).trans ?_
  rw [a4_6 m ρ c]
  exact Cert.Sage.mat3_slice _ 2 _ rfl _ _

theorem L3_w4 : (V7 m ρ c (Pipeline.arrRef spec3 4) : S128x128.Idx → EReal) = Cert.Sage.mat3 (at0 m c main_arg6) 2 := by
  refine (host3_Wr (W6 m ρ c)).trans ?_
  rw [a6_6 m ρ c]
  exact Cert.Sage.mat3_slice _ 2 _ rfl _ _

theorem L3_w3 : rowVec (V7 m ρ c (Pipeline.arrRef spec3 3) : S1x128.Idx → EReal) = Cert.Sage.vec3 (at0 m c main_arg5) 2 := by
  rw [show (V7 m ρ c (Pipeline.arrRef spec3 3) : S1x128.Idx → EReal) = _ from host3_bl (W6 m ρ c), a5_6 m ρ c]
  exact Cert.Sage.vec3_row _ 2 _ rfl _ _ _

theorem L3_w5 : rowVec (V7 m ρ c (Pipeline.arrRef spec3 5) : S1x128.Idx → EReal) = Cert.Sage.vec3 (at0 m c main_arg7) 2 := by
  rw [show (V7 m ρ c (Pipeline.arrRef spec3 5) : S1x128.Idx → EReal) = _ from host3_g (W6 m ρ c), a7_6 m ρ c]
  exact Cert.Sage.vec3_row _ 2 _ rfl _ _ _

theorem L3_w6 : rowVec (V7 m ρ c (Pipeline.arrRef spec3 6) : S1x128.Idx → EReal) = Cert.Sage.vec3 (at0 m c main_arg8) 2 := by
  rw [show (V7 m ρ c (Pipeline.arrRef spec3 6) : S1x128.Idx → EReal) = _ from host3_b (W6 m ρ c), a8_6 m ρ c]
  exact Cert.Sage.vec3_row _ 2 _ rfl _ _ _

include hprev in
/-- Region 3 leaves layer 3's output. -/
theorem layer3_eq : (W8 m ρ c (Proc.devRef .tc main_v92) : S100000x128.Idx → EReal)
    = Cert.Sage.combine 100000 (Cert.Sage.scale (aggK (at0 m c main_arg1) hp) (cmK (at0 m c main_arg1))) hp
        (Cert.Sage.mat3 (at0 m c main_arg4) 2) (Cert.Sage.mat3 (at0 m c main_arg6) 2)
        (Cert.Sage.vec3 (at0 m c main_arg5) 2) (Cert.Sage.vec3 (at0 m c main_arg7) 2) (Cert.Sage.vec3 (at0 m c main_arg8) 2) := by
  refine ((W8_arr m ρ c 7).trans (region3_final (V7 m ρ) c)).trans ?_
  unfold layer3
  rw [L3_w0 m ρ c hp hprev, L3_w1 m ρ c hp hprev, L3_w2 m ρ c, L3_w4 m ρ c, L3_w3 m ρ c, L3_w5 m ρ c, L3_w6 m ρ c]

end Cert.Sage.K

end
-- ==== Proof.KRegion4.lean ====
/-
  The output projection over all 100000 rows.

  The region walks over 50 blocks of 2000 rows.  At block t it reads rows 2000 t … 2000 t + 1999 of the three layers'
  outputs, the three whole 128 x 16 blocks of the output matrix and the whole bias row, and writes
  ((x0 w0 + x1 w1) + x2 w2) + b  of those rows to the same rows of the result.  An entry of that sum depends on its own
  row of the three inputs only, so what block t writes is block t of the output step applied to all rows; the 50 blocks
  cover every row (row r lies in block r / 2000), so the result array ends holding the output step of all rows.
  Everything is stated at any contents of the buffers at the region's entry.
-/
import proofs.«121075_j4492535791673_1_alg».proof.Proof.KProjBodies
import proofs.«121075_j4492535791673_1_alg».proof.Proof.Gen.KernelIdeal.Frame
import Idealize.ShloMosaic.Lib.Pipeline.Value

set_option maxRecDepth 16384

noncomputable section

open scoped BigOperators

namespace Cert.Sage.K

open Cert.KernelIdeal Cert.KernelIdeal.Gen
open Idealize.ShloMosaic Idealize.ShloMosaic.TcCoe Idealize.ShloMosaic.ValueIdx Idealize.SL.Sem
open Idealize.ShloMosaic.Pipeline (Dat)
open Cert.LibDense Cert.LibLayers

/-- The two zero offsets, however they are spelt. -/
theorem zero_offsets4 : (![0, 0] : Fin 2 → Nat) = fun _ => 0 := funext fun a => by fin_cases a <;> rfl

/-! ## A block of the output step is the output step of the block's rows -/

/-- If three tiles hold rows o * 2000 … o * 2000 + 1999 of three matrices, entry (p, q) of the tiles' output step is
    entry (o * 2000 + p, q) of the matrices' output step. -/
theorem outProj_block (X0 X1 X2 : S100000x128.Idx → EReal) (W0 W1 W2 : S128x16.Idx → EReal) (B : S1x16.Idx → EReal)
    (x0 x1 x2 : S2000x128.Idx → EReal) (w0 w1 w2 : S128x16.Idx → EReal) (b : S1x16.Idx → EReal) (o : Nat)
    (h0 : ∀ (z : S2000x128.Idx) (i : S100000x128.Idx), (i 0).val = o * 2000 + (z 0).val → (i 1).val = (z 1).val → x0 z = X0 i)
    (h1 : ∀ (z : S2000x128.Idx) (i : S100000x128.Idx), (i 0).val = o * 2000 + (z 0).val → (i 1).val = (z 1).val → x1 z = X1 i)
    (h2 : ∀ (z : S2000x128.Idx) (i : S100000x128.Idx), (i 0).val = o * 2000 + (z 0).val → (i 1).val = (z 1).val → x2 z = X2 i)
    (hw0 : w0 = W0) (hw1 : w1 = W1) (hw2 : w2 = W2) (hb : b = B)
    (y : S2000x16.Idx) (i : S100000x16.Idx) (hi0 : (i 0).val = o * 2000 + (y 0).val) (hi1 : (i 1).val = (y 1).val) :
    outProj 2000 x0 x1 x2 w0 w1 w2 (rowVec b) y = outProj 100000 X0 X1 X2 W0 W1 W2 (rowVec B) i := by
  subst hw0 hw1 hw2 hb
  obtain ⟨p, q, rfl⟩ : ∃ (p : Fin 2000) (q : Fin 16), y = ix2 p q := ⟨y 0, y 1, eq_ix2 y⟩
  obtain ⟨r, q', rfl⟩ : ∃ (r : Fin 100000) (q' : Fin 16), i = ix2 r q' := ⟨i 0, i 1, eq_ix2 i⟩
  obtain rfl : q' = q := Fin.ext hi1
  exact outProj_row x0 x1 x2 X0 X1 X2 w0 w1 w2 (rowVec b) p r q'
    (fun k => h0 (ix2 p k) (ix2 r k) hi0 rfl) (fun k => h1 (ix2 p k) (ix2 r k) hi0 rfl) (fun k => h2 (ix2 p k) (ix2 r k) hi0 rfl)

/-! ## The region -/

section Region

variable (V : (c : Dev nD) → (b : Ref sig .tc) → Buf (Elt Ideal) ((c : Thread nD τ).loc b))

/-- The output step of all rows, from the seven arrays as the region finds them. -/
abbrev result4 (c : Dev nD) : S100000x16.Idx → EReal :=
  outProj 100000 (V c (Pipeline.arrRef spec4 0)) (V c (Pipeline.arrRef spec4 1)) (V c (Pipeline.arrRef spec4 2))
    (V c (Pipeline.arrRef spec4 3)) (V c (Pipeline.arrRef spec4 4)) (V c (Pipeline.arrRef spec4 5))
    (rowVec (V c (Pipeline.arrRef spec4 6)))

/-- Where the blocks sit: the three inputs' and the result's block index is the point's on the rows and zero on the
    columns; the three blocks of the output matrix and the bias row are whole at every point. -/
theorem idx_facts4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 2) = t.val ∧ win4_7.index t (1 : Fin 2) = 0 :=
  (by decide +kernel : ∀ t : Fin grid4.N, _)

/-- The first input's block at point t holds rows 2000 t … 2000 t + 1999 of its array. -/
theorem iblk4_0_apply (c : Dev nD) (t : Fin cfg4.N) (z : S2000x128.Idx) (i : S100000x128.Idx)
    (hi0 : (i 0).val = t.val * 2000 + (z 0).val) (hi1 : (i 1).val = (z 1).val) :
    (iblk4 (F := Ideal) V c 0 t : S2000x128.Idx → EReal) z = (V c (Pipeline.arrRef spec4 0) : S100000x128.Idx → EReal) i := by
  obtain ⟨e0, e1, -⟩ := idx_facts4 t
  show (V c (Pipeline.arrRef spec4 0) : S100000x128.Idx → EReal) (((cfg4.win 0).blk t).view.emb z) = _
  refine congrArg (V c (Pipeline.arrRef spec4 0) : S100000x128.Idx → EReal) ?_
  funext a
  apply Fin.ext
  match a with
  | ⟨0, _⟩ => show win4_0.index t (0 : Fin 2) * 2000 + 1 * (z 0).val = (i 0).val; rw [e0, hi0]; omega
  | ⟨1, _⟩ => show win4_0.index t (1 : Fin 2) * 128 + 1 * (z 1).val = (i 1).val; rw [e1, hi1]; omega

/-- The second input's block at point t holds rows 2000 t … 2000 t + 1999 of its array. -/
theorem iblk4_1_apply (c : Dev nD) (t : Fin cfg4.N) (z : S2000x128.Idx) (i : S100000x128.Idx)
    (hi0 : (i 0).val = t.val * 2000 + (z 0).val) (hi1 : (i 1).val = (z 1).val) :
    (iblk4 (F := Ideal) V c 1 t : S2000x128.Idx → EReal) z = (V c (Pipeline.arrRef spec4 1) : S100000x128.Idx → EReal) i := by
  obtain ⟨-, -, e0, e1, -⟩ := idx_facts4 t
  show (V c (Pipeline.arrRef spec4 1) : S100000x128.Idx → EReal) (((cfg4.win 1).blk t).view.emb z) = _
  refine congrArg (V c (Pipeline.arrRef spec4 1) : S100000x128.Idx → EReal) ?_
  funext a
  apply Fin.ext
  match a with
  | ⟨0, _⟩ => show win4_1.index t (0 : Fin 2) * 2000 + 1 * (z 0).val = (i 0).val; rw [e0, hi0]; omega
  | ⟨1, _⟩ => show win4_1.index t (1 : Fin 2) * 128 + 1 * (z 1).val = (i 1).val; rw [e1, hi1]; omega

/-- The third input's block at point t holds rows 2000 t … 2000 t + 1999 of its array. -/
theorem iblk4_2_apply (c : Dev nD) (t : Fin cfg4.N) (z : S2000x128.Idx) (i : S100000x128.Idx)
    (hi0 : (i 0).val = t.val * 2000 + (z 0).val) (hi1 : (i 1).val = (z 1).val) :
    (iblk4 (F := Ideal) V c 2 t : S2000x128.Idx → EReal) z = (V c (Pipeline.arrRef spec4 2) : S100000x128.Idx → EReal) i := by
  obtain ⟨-, -, -, -, e0, e1, -⟩ := idx_facts4 t
  show (V c (Pipeline.arrRef spec4 2) : S100000x128.Idx → EReal) (((cfg4.win 2).blk t).view.emb z) = _
  refine congrArg (V c (Pipeline.arrRef spec4 2) : S100000x128.Idx → EReal) ?_
  funext a
  apply Fin.ext
  match a with
  | ⟨0, _⟩ => show win4_2.index t (0 : Fin 2) * 2000 + 1 * (z 0).val = (i 0).val; rw [e0, hi0]; omega
  | ⟨1, _⟩ => show win4_2.index t (1 : Fin 2) * 128 + 1 * (z 1).val = (i 1).val; rw [e1, hi1]; omega

/-- The first block of the output matrix is whole at every point. -/
theorem iblk4_3_eq (c : Dev nD) (t : Fin cfg4.N) :
    (iblk4 (F := Ideal) V c 3 t : S128x16.Idx → EReal) = (V c (Pipeline.arrRef spec4 3) : S128x16.Idx → EReal) := by
  obtain ⟨-, -, -, -, -, -, e0, e1, -⟩ := idx_facts4 t
  funext z
  show (V c (Pipeline.arrRef spec4 3) : S128x16.Idx → EReal) (((cfg4.win 3).blk t).view.emb z) = _
  refine congrArg (V c (Pipeline.arrRef spec4 3) : S128x16.Idx → EReal) ?_
  funext a
  apply Fin.ext
  match a with
  | ⟨0, _⟩ => show win4_3.index t (0 : Fin 2) * 128 + 1 * (z 0).val = (z 0).val; rw [e0]; omega
  | ⟨1, _⟩ => show win4_3.index t (1 : Fin 2) * 16 + 1 * (z 1).val = (z 1).val; rw [e1]; omega

/-- The second block of the output matrix is whole at every point. -/
theorem iblk4_4_eq (c : Dev nD) (t : Fin cfg4.N) :
    (iblk4 (F := Ideal) V c 4 t : S128x16.Idx → EReal) = (V c (Pipeline.arrRef spec4 4) : S128x16.Idx → EReal) := by
  obtain ⟨-, -, -, -, -, -, -, -, e0, e1, -⟩ := idx_facts4 t
  funext z
  show (V c (Pipeline.arrRef spec4 4) : S128x16.Idx → EReal) (((cfg4.win 4).blk t).view.emb z) = _
  refine congrArg (V c (Pipeline.arrRef spec4 4) : S128x16.Idx → EReal) ?_
  funext a
  apply Fin.ext
  match a with
  | ⟨0, _⟩ => show win4_4.index t (0 : Fin 2) * 128 + 1 * (z 0).val = (z 0).val; rw [e0]; omega
  | ⟨1, _⟩ => show win4_4.index t (1 : Fin 2) * 16 + 1 * (z 1).val = (z 1).val; rw [e1]; omega

/-- The third block of the output matrix is whole at every point. -/
theorem iblk4_5_eq (c : Dev nD) (t : Fin cfg4.N) :
    (iblk4 (F := Ideal) V c 5 t : S128x16.Idx → EReal) = (V c (Pipeline.arrRef spec4 5) : S128x16.Idx → EReal) := by
  obtain ⟨-, -, -, -, -, -, -, -, -, -, e0, e1, -⟩ := idx_facts4 t
  funext z
  show (V c (Pipeline.arrRef spec4 5) : S128x16.Idx → EReal) (((cfg4.win 5).blk t).view.emb z) = _
  refine congrArg (V c (Pipeline.arrRef spec4 5) : S128x16.Idx → EReal) ?_
  funext a
  apply Fin.ext
  match a with
  | ⟨0, _⟩ => show win4_5.index t (0 : Fin 2) * 128 + 1 * (z 0).val = (z 0).val; rw [e0]; omega
  | ⟨1, _⟩ => show win4_5.index t (1 : Fin 2) * 16 + 1 * (z 1).val = (z 1).val; rw [e1]; omega

/-- The bias row is whole at every point. -/
theorem iblk4_6_eq (c : Dev nD) (t : Fin cfg4.N) :
    (iblk4 (F := Ideal) V c 6 t : S1x16.Idx → EReal) = (V c (Pipeline.arrRef spec4 6) : S1x16.Idx → EReal) := by
  obtain ⟨-, -, -, -, -, -, -, -, -, -, -, -, e0, e1, -⟩ := idx_facts4 t
  funext z
  show (V c (Pipeline.arrRef spec4 6) : S1x16.Idx → EReal) (((cfg4.win 6).blk t).view.emb z) = _
  refine congrArg (V c (Pipeline.arrRef spec4 6) : S1x16.Idx → EReal) ?_
  funext a
  apply Fin.ext
  match a with
  | ⟨0, _⟩ => show win4_6.index t (0 : Fin 2) * 1 + 1 * (z 0).val = (z 0).val; rw [e0]; omega
  | ⟨1, _⟩ => show win4_6.index t (1 : Fin 2) * 16 + 1 * (z 1).val = (z 1).val; rw [e1]; omega

/-- What point t writes back is block t of the output step of all rows. -/
theorem flushed4_eq (c : Dev nD) (t : Fin cfg4.N) :
    (dat4 (F := Ideal) V c).flushed 7 t = ((cfg4.win 7).blk t).view.read (Elt Ideal) (result4 V c) := by
  show (cfg4.win 7).cut (grid4.coords t) ((dat4 (F := Ideal) V c).after 7 t) = _
  rw [after4_7]
  unfold out4_7
  rw [View.canon_unit_zero zero_offsets4]
  simp only [View.ld_unit_zero (S := S2000x128) zero_offsets4, View.ld_unit_zero (S := S128x16) zero_offsets4,
    View.ld_unit_zero (S := S1x16) zero_offsets4]
  obtain ⟨-, -, -, -, -, -, -, -, -, -, -, -, -, -, e0, e1⟩ := idx_facts4 t
  funext y
  show k4_pay1 (F := Ideal) (iblk4 V c 0 t) (iblk4 V c 1 t) (iblk4 V c 2 t) (iblk4 V c 3 t) (iblk4 V c 4 t) (iblk4 V c 5 t)
      (iblk4 V c 6 t) y = result4 V c (((cfg4.win 7).blk t).view.emb y)
  refine (congrFun (pay4_eq (iblk4 V c 0 t) (iblk4 V c 1 t) (iblk4 V c 2 t) (iblk4 V c 3 t) (iblk4 V c 4 t) (iblk4 V c 5 t)
    (iblk4 V c 6 t)) y).trans ?_
  refine outProj_block (V c (Pipeline.arrRef spec4 0)) (V c (Pipeline.arrRef spec4 1)) (V c (Pipeline.arrRef spec4 2))
    (V c (Pipeline.arrRef spec4 3)) (V c (Pipeline.arrRef spec4 4)) (V c (Pipeline.arrRef spec4 5)) (V c (Pipeline.arrRef spec4 6))
    (iblk4 V c 0 t) (iblk4 V c 1 t) (iblk4 V c 2 t) (iblk4 V c 3 t) (iblk4 V c 4 t) (iblk4 V c 5 t) (iblk4 V c 6 t) t.val
    (fun z i h0 h1 => iblk4_0_apply V c t z i h0 h1) (fun z i h0 h1 => iblk4_1_apply V c t z i h0 h1)
    (fun z i h0 h1 => iblk4_2_apply V c t z i h0 h1)
    (iblk4_3_eq V c t) (iblk4_4_eq V c t) (iblk4_5_eq V c t) (iblk4_6_eq V c t) y _ ?_ ?_
  · show win4_7.index t (0 : Fin 2) * 2000 + 1 * (y 0).val = t.val * 2000 + (y 0).val; rw [e0]; omega
  · show win4_7.index t (1 : Fin 2) * 16 + 1 * (y 1).val = (y 1).val; rw [e1]; omega

/-- An index of the result array is in point t's block iff each coordinate is in the block's range on its axis. -/
theorem mem_blk4 (t : Fin cfg4.N) (i : S100000x16.Idx) :
    i ∈ ((cfg4.win 7).blk t).view.set ↔ ∀ a : Fin 2, win4_7.index t a * S2000x16.size a ≤ (i a).val
      ∧ (i a).val < win4_7.index t a * S2000x16.size a + S2000x16.size a := by
  show i ∈ ((View.whole main_v97).slice (win4_7.rect t)).set ↔ _
  rw [View.set_slice_whole, Rect.mem_set_unit]
  exact Iff.rfl

/-- Row r lies in the block of point r / 2000. -/
theorem cover4 (i : S100000x16.Idx) :
    ∃ t : Fin cfg4.N, (cfg4.win 7).flush t = true ∧ i ∈ ((cfg4.win 7).blk t).view.set := by
  have hi0 : (i 0).val < 100000 := (i 0).isLt
  have hi1 : (i 1).val < 16 := (i 1).isLt
  have hN : cfg4.N = 50 := N_4
  have ht : (i 0).val / 2000 < cfg4.N := by rw [hN]; omega
  obtain ⟨-, -, -, -, -, -, -, -, -, -, -, -, -, -, e0, e1⟩ := idx_facts4 ⟨(i 0).val / 2000, ht⟩
  refine ⟨⟨(i 0).val / 2000, ht⟩, flush4_7 _, ?_⟩
  rw [mem_blk4]
  intro a
  match a with
  | ⟨0, _⟩ =>
    show win4_7.index ⟨(i 0).val / 2000, ht⟩ (0 : Fin 2) * 2000 ≤ (i 0).val
      ∧ (i 0).val < win4_7.index ⟨(i 0).val / 2000, ht⟩ (0 : Fin 2) * 2000 + 2000
    rw [e0]
    show (i 0).val / 2000 * 2000 ≤ (i 0).val ∧ (i 0).val < (i 0).val / 2000 * 2000 + 2000
    omega
  | ⟨1, _⟩ =>
    show win4_7.index ⟨(i 0).val / 2000, ht⟩ (1 : Fin 2) * 16 ≤ (i 1).val
      ∧ (i 1).val < win4_7.index ⟨(i 0).val / 2000, ht⟩ (1 : Fin 2) * 16 + 16
    rw [e1]
    omega

/-- After the region the result array holds the output step of all rows. -/
theorem region4_final (c : Dev nD) :
    ((dat4 (F := Ideal) V c).arrAt 7 cfg4.N : S100000x16.Idx → EReal)
      = outProj 100000 (V c (Pipeline.arrRef spec4 0)) (V c (Pipeline.arrRef spec4 1)) (V c (Pipeline.arrRef spec4 2))
          (V c (Pipeline.arrRef spec4 3)) (V c (Pipeline.arrRef spec4 4)) (V c (Pipeline.arrRef spec4 5))
          (rowVec (V c (Pipeline.arrRef spec4 6))) :=
  (dat4 (F := Ideal) V c).arrAt_eq_of_cover 7 (result4 V c) (fun t _ => flushed4_eq V c t) cover4

end Region

end Cert.Sage.K

end
-- ==== Proof.KFoldOut.lean ====
/-
  Region 4's output is the output step of the network, as a function of the three layers' outputs and the arguments.

  Region 4 finds the three layers' outputs still in place, the output matrix's three row blocks cut by the last
  stretch, and the output bias laid as a [1, 16] row.
-/
import proofs.«121075_j4492535791673_1_alg».proof.Proof.KFold0
import proofs.«121075_j4492535791673_1_alg».proof.Proof.KSlices
import proofs.«121075_j4492535791673_1_alg».proof.Proof.KRegion4

set_option maxRecDepth 16384

noncomputable section

namespace Cert.Sage.K

open Cert.KernelIdeal Cert.KernelIdeal.Gen Idealize.ShloMosaic Idealize.ShloMosaic.StableHlo Idealize.ShloMosaic.TcCoe
open Idealize.SL.Sem Cert.LibLayers

variable (m : (ℓ : Loc nD τ sig) → Buf (Elt Ideal) ℓ) (ρ : Dev nD → PrngReg) (c : Dev nD)

theorem S4_w3 : (V9 m ρ c (Pipeline.arrRef spec4 3) : S128x16.Idx → EReal) = Cert.Sage.blk3 (at0 m c main_arg9) 0 := by
  refine (host4_w0 (W8 m ρ c)).trans ?_
  rw [a9_8 m ρ c]
  exact Cert.Sage.blk3_slice _ 0 _ rfl _

theorem S4_w4 : (V9 m ρ c (Pipeline.arrRef spec4 4) : S128x16.Idx → EReal) = Cert.Sage.blk3 (at0 m c main_arg9) 1 := by
  refine (host4_w1 (W8 m ρ c)).trans ?_
  rw [a9_8 m ρ c]
  exact Cert.Sage.blk3_slice _ 1 _ rfl _

theorem S4_w5 : (V9 m ρ c (Pipeline.arrRef spec4 5) : S128x16.Idx → EReal) = Cert.Sage.blk3 (at0 m c main_arg9) 2 := by
  refine (host4_w2 (W8 m ρ c)).trans ?_
  rw [a9_8 m ρ c]
  exact Cert.Sage.blk3_slice _ 2 _ rfl _

theorem S4_w6 : rowVec (V9 m ρ c (Pipeline.arrRef spec4 6) : S1x16.Idx → EReal) = at0 m c main_arg10 := by
  rw [show (V9 m ρ c (Pipeline.arrRef spec4 6) : S1x16.Idx → EReal) = _ from host4_bias (W8 m ρ c), a10_8 m ρ c]
  exact rowVec_shapeCast _ _

theorem S4_w0 (h1 : FVec Ideal S100000x128 .f32) (e1 : (W4 m ρ c (Proc.devRef .tc main_v40) : S100000x128.Idx → EReal) = h1) :
    (V9 m ρ c (Pipeline.arrRef spec4 0) : S100000x128.Idx → EReal) = h1 := keep_h1 m ρ c h1 e1

theorem S4_w1 (h2 : FVec Ideal S100000x128 .f32) (e2 : (W6 m ρ c (Proc.devRef .tc main_v66) : S100000x128.Idx → EReal) = h2) :
    (V9 m ρ c (Pipeline.arrRef spec4 1) : S100000x128.Idx → EReal) = h2 := keep_h2 m ρ c h2 e2

theorem S4_w2 (h3 : FVec Ideal S100000x128 .f32) (e3 : (W8 m ρ c (Proc.devRef .tc main_v92) : S100000x128.Idx → EReal) = h3) :
    (V9 m ρ c (Pipeline.arrRef spec4 2) : S100000x128.Idx → EReal) = h3 := keep_h3 m ρ c h3 e3

set_option maxHeartbeats 1600000 in
/-- Region 4 leaves the output step of the three layers' outputs. -/
theorem out_eq (h1 h2 h3 : FVec Ideal S100000x128 .f32)
    (e1 : (W4 m ρ c (Proc.devRef .tc main_v40) : S100000x128.Idx → EReal) = h1)
    (e2 : (W6 m ρ c (Proc.devRef .tc main_v66) : S100000x128.Idx → EReal) = h2)
    (e3 : (W8 m ρ c (Proc.devRef .tc main_v92) : S100000x128.Idx → EReal) = h3) :
    (W10 m ρ c (Proc.devRef .tc main_v97) : S100000x16.Idx → EReal)
      = Cert.Sage.outProj 100000 h1 h2 h3 (Cert.Sage.blk3 (at0 m c main_arg9) 0) (Cert.Sage.blk3 (at0 m c main_arg9) 1)
          (Cert.Sage.blk3 (at0 m c main_arg9) 2) (at0 m c main_arg10) := by
  refine ((W10_arr m ρ c 7).trans (region4_final (V9 m ρ) c)).trans ?_
  rw [S4_w0 m ρ c h1 e1, S4_w1 m ρ c h2 e2, S4_w2 m ρ c h3 e3, S4_w3 m ρ c, S4_w4 m ρ c, S4_w5 m ρ c, S4_w6 m ρ c]

end Cert.Sage.K

end
-- ==== Proof.KFoldAll.lean ====
/-
  The kernel's result is the network of the eleven arguments.

  Layer by layer: region 0's output feeds layer 1, each layer's output the next, and the three layers' outputs the
  output step; composing the five readings gives the last boundary's contents at the result buffer.
-/
import proofs.«121075_j4492535791673_1_alg».proof.Proof.KFoldS0
import proofs.«121075_j4492535791673_1_alg».proof.Proof.KFoldL1
import proofs.«121075_j4492535791673_1_alg».proof.Proof.KFoldL2
import proofs.«121075_j4492535791673_1_alg».proof.Proof.KFoldL3
import proofs.«121075_j4492535791673_1_alg».proof.Proof.KFoldOut

set_option maxRecDepth 16384

noncomputable section

namespace Cert.Sage.K

open Cert.KernelIdeal Cert.KernelIdeal.Gen Idealize.ShloMosaic Idealize.ShloMosaic.StableHlo Idealize.ShloMosaic.TcCoe
open Idealize.SL.Sem Cert.LibLayers

variable (m : (ℓ : Loc nD τ sig) → Buf (Elt Ideal) ℓ) (ρ : Dev nD → PrngReg) (c : Dev nD)

/-- THE KERNEL'S RESULT. -/
theorem result_eq : (W10 m ρ c (Proc.devRef .tc main_v97) : S100000x16.Idx → EReal)
    = Cert.Sage.net 100000 (aggK (at0 m c main_arg1)) (cmK (at0 m c main_arg1)) (at0 m c main_arg0) (at0 m c main_arg2) (at0 m c main_arg3)
        (at0 m c main_arg4) (at0 m c main_arg5) (at0 m c main_arg6) (at0 m c main_arg7) (at0 m c main_arg8) (at0 m c main_arg9) (at0 m c main_arg10) :=
  out_eq m ρ c _ _ _
    (layer1_eq m ρ c _ (h0_eq m ρ c))
    (layer2_eq m ρ c _ (layer1_eq m ρ c _ (h0_eq m ρ c)))
    (layer3_eq m ρ c _ (layer2_eq m ρ c _ (layer1_eq m ρ c _ (h0_eq m ρ c))))

end Cert.Sage.K

end
-- ==== Proof.LibSegmentSum.lean ====
/-
  An accumulating scatter of a flat list of updates into a flat array, read at an index — the form a
  segment sum `out[seg[k]] += data[k]` takes — in its two spellings: updates and result as flat arrays
  (`[e]` into `[n]`), and as one-column matrices (`[e, 1]` into `[n, 1]`, the column a window axis).
  In both the result at position `i` is the operand there plus the sum, over the update rows `k` whose
  segment id (the index array's entry `[k, 0]`, read as a signed integer) equals `i`, of update `k`;
  an id outside `[0, n)` names no position and its update is dropped. So the two spellings are one
  function, up to the reshaping of a column into a flat array.
-/
import Idealize.ShloMosaic.PureOps.Ideal
import Idealize.ShloMosaic.Lib.ValueIdx
import Idealize.ShloMosaic.Lib.Pipeline.Value

noncomputable section

namespace Idealize.ShloMosaic.SegmentSum

open Idealize.ShloMosaic Idealize.ShloMosaic.ValueIdx
open scoped BigOperators

/-! ## Flat arrays and one-column matrices are indexed by their rows -/

/-- A flat array's indices are its positions. -/
def rowEquiv1 {n : Nat} : (⟨1, ![n]⟩ : Shape).Idx ≃ Fin n where
  toFun j := j 0
  invFun := ix1
  left_inv j := (eq_ix1 j).symm
  right_inv _ := rfl

/-- A one-column matrix's indices are its rows. -/
def rowEquiv2 {n : Nat} : (⟨2, ![n, 1]⟩ : Shape).Idx ≃ Fin n where
  toFun j := j 0
  invFun a := ix2 a 0
  left_inv j := by
    funext a
    match a with
    | ⟨0, _⟩ => rfl
    | ⟨1, _⟩ => exact Subsingleton.elim (α := Fin 1) _ _
  right_inv _ := rfl

/-- On the extended reals the host's accumulating scatter is the exact sum, whatever the schedule. -/
theorem scatterAdd_ideal {φ : FTy} {s si u : Shape} {w : Nat} (d : ScatterDims s si u) (x : FVec Ideal s φ)
    (idx : IVec si w) (upd : FVec Ideal u φ) :
    Host.scatterAdd (F := Ideal) d x idx upd = Ideal.hostScatterAdd d x idx upd := rfl

/-! ## The layout operations around a segment sum, read at an index -/

/-- The ids `[n]` broadcast to the index array `[n, 1]` read, at `(k, 0)`, id `k`. -/
theorem ids_apply {α : Type} {n : Nat} (h : (⟨1, ![n]⟩ : Shape).BroadcastsInDim ⟨2, ![n, 1]⟩ ![0]) (hn : n ≠ 1)
    (x : (⟨1, ![n]⟩ : Shape).Idx → α) (k : Fin n) :
    broadcastInDim ⟨2, ![n, 1]⟩ ![0] h x (ix2 k (0 : Fin 1)) = x (ix1 k) :=
  broadcastInDim_apply _ h x (ix2 k 0) (ix1 k) (fun b => match b with
    | ⟨0, _⟩ => by show k.val = if n = 1 then 0 else k.val; rw [if_neg hn])

/-- A one-column matrix `[n, 1]` reshaped to the flat array `[n]` reads, at `k`, entry `(k, 0)`. -/
theorem flatten_apply {α : Type} {n : Nat} (h : (⟨2, ![n, 1]⟩ : Shape).ShapeCasts ⟨1, ![n]⟩)
    (y : (⟨2, ![n, 1]⟩ : Shape).Idx → α) (k : Fin n) :
    shapeCast ⟨1, ![n]⟩ y h (ix1 k) = y (ix2 k (0 : Fin 1)) :=
  shapeCast_apply y h (ix1 k) (ix2 k 0) (by
    rw [Shape.rowMajor_val_two, Shape.rowMajor_val_one]; show k.val * 1 + 0 = k.val; omega)

/-! ## The flat spelling -/

/-- The dimension numbers of a scatter of flat updates `[e]` into a flat operand `[n]` at indices `[e, 1]`:
    no window axis, the operand's one axis inserted and indexed by the index vector's one component. -/
abbrev flatDims (n e : Nat) (wf : ScatterDims.WF ⟨1, ![n]⟩ ⟨2, ![e, 1]⟩ ⟨1, ![e]⟩ [] [0] [0] 1) :
    ScatterDims ⟨1, ![n]⟩ ⟨2, ![e, 1]⟩ ⟨1, ![e]⟩ where
  updateWindowDims := []
  insertedWindowDims := [0]
  scatterDimsToOperandDims := [0]
  indexVectorDim := 1
  wf := wf

section Flat
variable {n e w : Nat} (wf : ScatterDims.WF ⟨1, ![n]⟩ ⟨2, ![e, 1]⟩ ⟨1, ![e]⟩ [] [0] [0] 1)

/-- Update `j` starts at the segment id of its row. -/
theorem flat_start (j : (⟨1, ![e]⟩ : Shape).Idx) (idx : IVec ⟨2, ![e, 1]⟩ w) :
    (flatDims n e wf).start j idx 0 = (idx (ix2 (j 0) 0)).toInt := by
  unfold ScatterDims.start
  rw [dif_pos (show (0 : Fin 1) ∈ (flatDims n e wf).scatterDimsToOperandDims from List.mem_singleton.mpr rfl)]
  have hsi : (flatDims n e wf).siIdx j ⟨List.idxOf (0 : Fin 1) (flatDims n e wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- There is no window: the only operand axis is inserted. -/
theorem flat_window (j : (⟨1, ![e]⟩ : Shape).Idx) : (flatDims n e wf).window j 0 = 0 := by
  unfold ScatterDims.window
  rw [dif_neg (fun h => by
    have h2 := (List.mem_filter.mp h).2
    simp at h2)]

/-- Update `j` lands on position `i` exactly when its row's segment id is `i`. -/
theorem flat_resultIdx (j : (⟨1, ![e]⟩ : Shape).Idx) (idx : IVec ⟨2, ![e, 1]⟩ w) (i : (⟨1, ![n]⟩ : Shape).Idx) :
    (flatDims n e wf).resultIdx? j idx = some i ↔ (idx (ix2 (j 0) 0)).toInt = ((i 0).val : ℤ) := by
  unfold ScatterDims.resultIdx?
  split_ifs with h
  · rw [Option.some.injEq]
    constructor
    · intro hi
      have h0 := (h 0).1
      rw [← hi]
      show _ = (((flatDims n e wf).start j idx 0 + ((flatDims n e wf).window j 0 : ℕ)).toNat : ℤ)
      rw [Int.toNat_of_nonneg h0, flat_start, flat_window]; simp
    · intro hi
      funext a
      obtain rfl : a = 0 := Subsingleton.elim _ _
      refine Fin.ext ?_
      show ((flatDims n e wf).start j idx 0 + ((flatDims n e wf).window j 0 : ℕ)).toNat = (i 0).val
      rw [flat_start, flat_window, hi]; simp
  · constructor
    · intro hi; exact absurd hi (by simp)
    · intro hi
      exfalso; apply h
      intro a
      obtain rfl : a = 0 := Subsingleton.elim _ _
      rw [flat_start, flat_window, hi]
      have := (i 0).isLt
      constructor <;> omega

/-- THE FLAT SCATTER READ AT `i`: the operand there plus the updates of the rows whose segment id is `i`. -/
theorem flat_apply (x : (⟨1, ![n]⟩ : Shape).Idx → EReal) (idx : IVec ⟨2, ![e, 1]⟩ w)
    (upd : (⟨1, ![e]⟩ : Shape).Idx → EReal) (i : (⟨1, ![n]⟩ : Shape).Idx) :
    Ideal.hostScatterAdd (flatDims n e wf) x idx upd i
      = x i + ∑ k : Fin e, if (idx (ix2 k 0)).toInt = ((i 0).val : ℤ) then upd (ix1 k) else 0 := by
  unfold Ideal.hostScatterAdd
  refine congrArg (x i + ·) ?_
  rw [Finset.sum_filter]
  refine Fintype.sum_equiv rowEquiv1 _ _ fun j => ?_
  show _ = if (idx (ix2 (j 0) 0)).toInt = ((i 0).val : ℤ) then upd (ix1 (j 0)) else 0
  by_cases h : (idx (ix2 (j 0) 0)).toInt = ((i 0).val : ℤ)
  · rw [if_pos ((flat_resultIdx wf j idx i).mpr h), if_pos h]
    exact congrArg upd (eq_ix1 j)
  · rw [if_neg (mt (flat_resultIdx wf j idx i).mp h), if_neg h]

end Flat

/-! ## The one-column spelling -/

/-- The dimension numbers of a scatter of one-column updates `[e, 1]` into a one-column operand `[n, 1]` at
    indices `[e, 1]`: the column is the window axis, the operand's row axis inserted and indexed. -/
abbrev colDims (n e : Nat) (wf : ScatterDims.WF ⟨2, ![n, 1]⟩ ⟨2, ![e, 1]⟩ ⟨2, ![e, 1]⟩ [1] [0] [0] 1) :
    ScatterDims ⟨2, ![n, 1]⟩ ⟨2, ![e, 1]⟩ ⟨2, ![e, 1]⟩ where
  updateWindowDims := [1]
  insertedWindowDims := [0]
  scatterDimsToOperandDims := [0]
  indexVectorDim := 1
  wf := wf

section Col
variable {n e w : Nat} (wf : ScatterDims.WF ⟨2, ![n, 1]⟩ ⟨2, ![e, 1]⟩ ⟨2, ![e, 1]⟩ [1] [0] [0] 1)

/-- On the row axis update `j` starts at the segment id of its row; -/
theorem col_start0 (j : (⟨2, ![e, 1]⟩ : Shape).Idx) (idx : IVec ⟨2, ![e, 1]⟩ w) :
    (colDims n e wf).start j idx 0 = (idx (ix2 (j 0) 0)).toInt := by
  unfold ScatterDims.start
  rw [dif_pos (show (0 : Fin 2) ∈ (colDims n e wf).scatterDimsToOperandDims from List.mem_singleton.mpr rfl)]
  have hsi : (colDims n e wf).siIdx j ⟨List.idxOf (0 : Fin 2) (colDims n e wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- on the column axis at `0`. -/
theorem col_start1 (j : (⟨2, ![e, 1]⟩ : Shape).Idx) (idx : IVec ⟨2, ![e, 1]⟩ w) :
    (colDims n e wf).start j idx 1 = 0 := by
  unfold ScatterDims.start
  rw [dif_neg (show ¬ (1 : Fin 2) ∈ ([0] : List (Fin 2)) by decide)]

/-- The row axis is inserted: no window coordinate there; -/
theorem col_window0 (j : (⟨2, ![e, 1]⟩ : Shape).Idx) : (colDims n e wf).window j 0 = 0 := by
  unfold ScatterDims.window
  rw [dif_neg (fun h => by
    have h2 := (List.mem_filter.mp h).2
    simp at h2)]

/-- the column axis carries the update's column coordinate. -/
theorem col_window1 (j : (⟨2, ![e, 1]⟩ : Shape).Idx) : (colDims n e wf).window j 1 = (j 1).val := by
  unfold ScatterDims.window
  rw [dif_pos (show (1 : Fin 2) ∈ (colDims n e wf).sKept from
    List.mem_filter.mpr ⟨List.mem_finRange _, by simp⟩)]
  rfl

/-- Update `j` lands on position `i` exactly when its row's segment id is `i`'s row (the columns, of width
    one, always agree). -/
theorem col_resultIdx (j : (⟨2, ![e, 1]⟩ : Shape).Idx) (idx : IVec ⟨2, ![e, 1]⟩ w) (i : (⟨2, ![n, 1]⟩ : Shape).Idx) :
    (colDims n e wf).resultIdx? j idx = some i ↔ (idx (ix2 (j 0) 0)).toInt = ((i 0).val : ℤ) := by
  have hj1 : (j 1).val = 0 := by have : (j 1).val < 1 := (j 1).isLt; omega
  have hi1 : (i 1).val = 0 := by have : (i 1).val < 1 := (i 1).isLt; omega
  unfold ScatterDims.resultIdx?
  split_ifs with h
  · rw [Option.some.injEq]
    constructor
    · intro hi
      have h0 := (h 0).1
      rw [← hi]
      show _ = (((colDims n e wf).start j idx 0 + ((colDims n e wf).window j 0 : ℕ)).toNat : ℤ)
      rw [Int.toNat_of_nonneg h0, col_start0, col_window0]; simp
    · intro hi
      funext a
      refine Fin.ext ?_
      match a with
      | ⟨0, _⟩ =>
        show ((colDims n e wf).start j idx 0 + ((colDims n e wf).window j 0 : ℕ)).toNat = (i 0).val
        rw [col_start0, col_window0, hi]; simp
      | ⟨1, _⟩ =>
        show ((colDims n e wf).start j idx 1 + ((colDims n e wf).window j 1 : ℕ)).toNat = (i 1).val
        rw [col_start1, col_window1, hj1, hi1]; simp
  · constructor
    · intro hi; exact absurd hi (by simp)
    · intro hi
      exfalso; apply h
      intro a
      match a with
      | ⟨0, _⟩ =>
        show 0 ≤ (colDims n e wf).start j idx 0 + ((colDims n e wf).window j 0 : ℕ)
          ∧ (colDims n e wf).start j idx 0 + ((colDims n e wf).window j 0 : ℕ) < ((⟨2, ![n, 1]⟩ : Shape).size 0 : ℕ)
        rw [col_start0, col_window0, hi]
        have := (i 0).isLt
        constructor <;> omega
      | ⟨1, _⟩ =>
        show 0 ≤ (colDims n e wf).start j idx 1 + ((colDims n e wf).window j 1 : ℕ)
          ∧ (colDims n e wf).start j idx 1 + ((colDims n e wf).window j 1 : ℕ) < ((⟨2, ![n, 1]⟩ : Shape).size 1 : ℕ)
        rw [col_start1, col_window1, hj1]
        have : ((⟨2, ![n, 1]⟩ : Shape).size 1 : ℕ) = 1 := rfl
        constructor <;> omega

/-- THE ONE-COLUMN SCATTER READ AT `i`: the operand there plus the updates of the rows whose segment id is
    `i`'s row. -/
theorem col_apply (x : (⟨2, ![n, 1]⟩ : Shape).Idx → EReal) (idx : IVec ⟨2, ![e, 1]⟩ w)
    (upd : (⟨2, ![e, 1]⟩ : Shape).Idx → EReal) (i : (⟨2, ![n, 1]⟩ : Shape).Idx) :
    Ideal.hostScatterAdd (colDims n e wf) x idx upd i
      = x i + ∑ k : Fin e, if (idx (ix2 k 0)).toInt = ((i 0).val : ℤ) then upd (ix2 k 0) else 0 := by
  unfold Ideal.hostScatterAdd
  refine congrArg (x i + ·) ?_
  rw [Finset.sum_filter]
  refine Fintype.sum_equiv rowEquiv2 _ _ fun j => ?_
  show _ = if (idx (ix2 (j 0) 0)).toInt = ((i 0).val : ℤ) then upd (ix2 (j 0) 0) else 0
  have hj : ix2 (j 0) (0 : Fin 1) = j := rowEquiv2.left_inv j
  by_cases h : (idx (ix2 (j 0) 0)).toInt = ((i 0).val : ℤ)
  · rw [if_pos ((col_resultIdx wf j idx i).mpr h), if_pos h]
    exact congrArg upd hj.symm
  · rw [if_neg (mt (col_resultIdx wf j idx i).mp h), if_neg h]

end Col

end Idealize.ShloMosaic.SegmentSum

end
-- ==== Proof.RefGraph.lean ====
/-
  The graph part of the reference network: which rows are summed into a node, and how many.

  The reference keeps its edges as a 2 x 1600000 array of node ids: row 0 the source of each edge, row 1 its
  destination.  Each layer gathers the rows of the current features at the source ids (an id below zero is first
  wrapped by adding the number of nodes) and adds them up at the destination ids, starting from zeros; and it
  counts, for every node, the edges that arrive there, as a sum of ones into zeros, clipped below at one.  Both
  are functions of the edge array alone, and all three layers build them from the same operations of that array,
  so the network has ONE aggregation map and ONE vector of clipped counts.  A count is zero plus finitely many
  ones, hence a real number, and after the clip a real number that is at least one: that is what makes dividing
  by it the same as multiplying by its reciprocal, on every extended real.
-/
import proofs.«121075_j4492535791673_1_alg».proof.Proof.RefRead
import proofs.«121075_j4492535791673_1_alg».proof.Proof.Spec
import proofs.«121075_j4492535791673_1_alg».proof.Proof.LibSegmentSum
import Idealize.ShloMosaic.Lib.IdealHost

noncomputable section

open scoped BigOperators

namespace Cert.Sage.Ref

open Idealize.ShloMosaic Idealize.ShloMosaic.ValueIdx Idealize.ShloMosaic.TcCoe Idealize.SL.Sem Idealize.ShloMosaic.StableHlo
open Cert.ReferenceIdeal Cert.ReferenceIdeal.Gen Cert.ReferenceIdeal.ReadP

/-- The edge array: row 0 the source ids, row 1 the destination ids. -/
abbrev Edges := (⟨S2x1600000, .i32⟩ : BufTy).Contents (Elt Ideal)
/-- The argument arrays of the network, by shape. -/
abbrev Nodes := (⟨S100000x128, .f32⟩ : BufTy).Contents (Elt Ideal)
abbrev Sq := (⟨S128x128, .f32⟩ : BufTy).Contents (Elt Ideal)
abbrev Vec := (⟨S128, .f32⟩ : BufTy).Contents (Elt Ideal)
abbrev Sq3 := (⟨S3x128x128, .f32⟩ : BufTy).Contents (Elt Ideal)
abbrev Vec3 := (⟨S3x128, .f32⟩ : BufTy).Contents (Elt Ideal)

/-- The aggregation of one layer, as the reference spells it: gather the rows of `h` at the (wrapped) source ids,
    then add them up at the destination ids, into zeros. -/
def aggR (x1 : Edges) : Cert.Sage.Mat 100000 128 → Cert.Sage.Mat 100000 128 := fun h =>
  Host.scatterAdd (F := Ideal) (φ := .f32) scatter_S100000x128_S1600000x1_S1600000x128_1_0_0_1 (val_main_v22 (F := Ideal))
    (val_main_v23 (F := Ideal) x1)
    (Host.gather gather_S100000x128_S1600000x1_S1600000x128_1_0_n_n_0_1_1128 h (val_main_v20 (F := Ideal) x1))

/-- The number of edges arriving at node `r`, clipped below at one. -/
def cmR (x1 : Edges) : Fin 100000 → EReal := fun r => val_main_v30 (F := Ideal) x1 (ix2 r (0 : Fin 1))

/-! ## The three layers aggregate alike -/

/-- Layer 1 sums the rows of the projected input. -/
theorem agg_layer1 (x0 : Nodes) (x1 : Edges) (x2 : Sq) (x3 : Vec) :
    val_main_v24 (F := Ideal) x0 x1 x2 x3 = aggR x1 (val_main_v8 (F := Ideal) x0 x2 x3) := rfl

/-- Layer 2 sums the rows of layer 1's result, over the same edges. -/
theorem agg_layer2 (x0 : Nodes) (x1 : Edges) (x2 : Sq) (x3 : Vec) (x4 : Sq3) (x5 : Vec3) (x6 : Sq3) (x7 x8 : Vec3) :
    val_main_v84 (F := Ideal) x0 x1 x2 x3 x4 x5 x6 x7 x8
      = aggR x1 (val_main_v68 (F := Ideal) x0 x1 x2 x3 x4 x5 x6 x7 x8) := rfl

/-- Layer 3 sums the rows of layer 2's result, over the same edges. -/
theorem agg_layer3 (x0 : Nodes) (x1 : Edges) (x2 : Sq) (x3 : Vec) (x4 : Sq3) (x5 : Vec3) (x6 : Sq3) (x7 x8 : Vec3) :
    val_main_v144 (F := Ideal) x0 x1 x2 x3 x4 x5 x6 x7 x8
      = aggR x1 (val_main_v128 (F := Ideal) x0 x1 x2 x3 x4 x5 x6 x7 x8) := rfl

/-- Layer 2 wraps the source ids, lays out the destination ids and starts from zeros exactly as layer 1 does. -/
theorem src_layer2 (x1 : Edges) : val_main_v80 (F := Ideal) x1 = val_main_v20 (F := Ideal) x1 := rfl
theorem dst_layer2 (x1 : Edges) : val_main_v83 (F := Ideal) x1 = val_main_v23 (F := Ideal) x1 := rfl
theorem zero_layer2 : val_main_v82 (F := Ideal) = val_main_v22 (F := Ideal) := rfl
/-- Layer 2 counts the arriving edges exactly as layer 1 does. -/
theorem count_layer2 (x1 : Edges) : val_main_v90 (F := Ideal) x1 = val_main_v30 (F := Ideal) x1 := rfl

/-- Layer 3 likewise. -/
theorem src_layer3 (x1 : Edges) : val_main_v140 (F := Ideal) x1 = val_main_v20 (F := Ideal) x1 := rfl
theorem dst_layer3 (x1 : Edges) : val_main_v143 (F := Ideal) x1 = val_main_v23 (F := Ideal) x1 := rfl
theorem zero_layer3 : val_main_v142 (F := Ideal) = val_main_v22 (F := Ideal) := rfl
theorem count_layer3 (x1 : Edges) : val_main_v150 (F := Ideal) x1 = val_main_v30 (F := Ideal) x1 := rfl

/-! ## The clipped count is a real number that is at least one -/

/-- A finite sum of ones and zeros is a real number, and not negative. -/
theorem sum_indicator_real {ι : Type} (s : Finset ι) (P : ι → Prop) [DecidablePred P] :
    ∃ c : ℝ, 0 ≤ c ∧ (∑ k ∈ s, if P k then (1 : EReal) else 0) = (c : EReal) := by
  classical
  refine Finset.induction_on s ⟨0, le_refl 0, by simp⟩ ?_
  intro a s ha ih
  obtain ⟨c, hc, e⟩ := ih
  rw [Finset.sum_insert ha, e]
  by_cases h : P a
  · rw [if_pos h]; exact ⟨1 + c, by linarith, by rw [EReal.coe_add, EReal.coe_one]⟩
  · rw [if_neg h, zero_add]; exact ⟨c, hc, rfl⟩

/-- The same with the sum over any finite index type, started from a number that is zero, of updates that are one. -/
theorem count_abstract {ι : Type} [Fintype ι] (p : ι → Prop) [DecidablePred p] (x0 : EReal) (upd : ι → EReal)
    (hx : x0 = 0) (hu : ∀ k, upd k = 1) :
    ∃ c : ℝ, 0 ≤ c ∧ x0 + ∑ k : ι, (if p k then upd k else 0) = (c : EReal) := by
  obtain ⟨c, hc, e⟩ := sum_indicator_real (Finset.univ : Finset ι) p
  refine ⟨c, hc, ?_⟩
  rw [hx, zero_add, ← e]
  exact Finset.sum_congr rfl fun k _ => by rw [hu k]

/-- The count's scatter has the dimension numbers of a one-column segment sum. -/
theorem count_dims : scatter_S100000x1_S1600000x1_S1600000x1_1_0_0_1
    = SegmentSum.colDims 100000 1600000 scatter_S100000x1_S1600000x1_S1600000x1_1_0_0_1_wf := rfl

/-- The count of node `r` before the clip: zero plus one for every edge whose destination id is `r`. -/
theorem count_real (x1 : Edges) (r : Fin 100000) :
    ∃ c : ℝ, 0 ≤ c ∧ val_main_v28 (F := Ideal) x1 (ix2 r (0 : Fin 1)) = (c : EReal) := by
  unfold val_main_v28
  rw [SegmentSum.scatterAdd_ideal, count_dims, SegmentSum.col_apply]
  refine count_abstract _ _ _ ?_ ?_
  · rw [val_main_v26_apply, val_main_cst_2_apply, Ideal.ofBits_def, Ideal.ofBits_zero_f32]
  · intro k
    rw [val_main_v25_apply, val_main_cst_1_apply, Ideal.ofBits_def, Ideal.ofBits_one_f32]

/-- The clipped count of layer 1 is a real number that is at least one. -/
theorem count1_real (x1 : Edges) (r : Fin 100000) :
    ∃ c : ℝ, 1 ≤ c ∧ val_main_v30 (F := Ideal) x1 (ix2 r (0 : Fin 1)) = (c : EReal) := by
  obtain ⟨c, _, e⟩ := count_real x1 r
  refine ⟨max c 1, le_max_right c 1, ?_⟩
  unfold val_main_v30
  rw [maximumf_apply, e, val_main_v29_apply, val_main_cst_3_apply, Ideal.ofBits_def, Ideal.ofBits_one_f32]
  exact (EReal.coe_strictMono.monotone.map_max (a := c) (b := 1)).symm

/-- So are layer 2's and layer 3's, being the same count. -/
theorem count2_real (x1 : Edges) (r : Fin 100000) :
    ∃ c : ℝ, 1 ≤ c ∧ val_main_v90 (F := Ideal) x1 (ix2 r (0 : Fin 1)) = (c : EReal) := by
  rw [count_layer2]
  exact count1_real x1 r
theorem count3_real (x1 : Edges) (r : Fin 100000) :
    ∃ c : ℝ, 1 ≤ c ∧ val_main_v150 (F := Ideal) x1 (ix2 r (0 : Fin 1)) = (c : EReal) := by
  rw [count_layer3]
  exact count1_real x1 r

/-- The clipped count is a real number that is at least one. -/
theorem cmR_real (x1 : Edges) (r : Fin 100000) : ∃ c : ℝ, 1 ≤ c ∧ cmR x1 r = (c : EReal) :=
  count1_real x1 r

end Cert.Sage.Ref

end
-- ==== Proof.RefLayer.lean ====
/-
  One layer of the network in the host's spelling, read to its row function.

  The host program writes a layer as whole-array operations.  With `s` the rows summed over incoming edges, `cnt`
  the column of clipped neighbour counts and `h` the layer's input:
      mean = s / cnt                      (the column repeated along every row)
      y    = (mean * Wl + bl) + h * Wr     (two matrix products; the bias laid along every row)
      m    = (sum of y over each row) / 128              (a column)
      d    = y - m                                      (the column repeated along the row)
      v    = (sum of d * d over each row) / 128          (a column)
      out  = max ((d * rsqrt (v + eps)) * g + b, 0) + h .
  Read at an entry (p, q) every step touches row p only: a sum over a row is zero plus the sum of the row's 128
  entries; a column repeated along the rows reads the column at row p; a vector laid along every row reads the
  vector at column q.  So the host's layer is the row function `combine`.  The only law of arithmetic used is that
  dividing by a real number that is at least one is multiplying by its reciprocal, which holds on every extended
  real; nothing asks the inputs to be finite.  Generic in the number of rows.
-/
import proofs.«121075_j4492535791673_1_alg».proof.Proof.Spec
import proofs.«121075_j4492535791673_1_alg».proof.Proof.LibDense
import proofs.«121075_j4492535791673_1_alg».proof.Proof.LibLayers
import Idealize.ShloMosaic.Lib.ValueIdx
import Idealize.ShloMosaic.Lib.Pipeline.Value
import Idealize.ShloMosaic.PureOps.Ideal.Laws

noncomputable section

open scoped BigOperators

namespace Cert.Sage.Ref

open Idealize.ShloMosaic Idealize.ShloMosaic.ValueIdx Cert.LibDense Cert.LibLayers

section Layer

variable {A : Nat}
  (hcol : (⟨2, ![A, 1]⟩ : Shape).BroadcastsInDim ⟨2, ![A, 128]⟩ ![0, 1])
  (hrow1 : (⟨1, ![128]⟩ : Shape).BroadcastsInDim ⟨2, ![1, 128]⟩ ![1])
  (hrow2 : (⟨2, ![1, 128]⟩ : Shape).BroadcastsInDim ⟨2, ![A, 128]⟩ ![0, 1])
  (hvec : (⟨1, ![A]⟩ : Shape).BroadcastsInDim ⟨2, ![A, 1]⟩ ![0])
  (hs1 : (⟨0, ![]⟩ : Shape).BroadcastsInDim ⟨2, ![A, 1]⟩ (![] : Fin 0 → Fin 2))
  (hs2 : (⟨0, ![]⟩ : Shape).BroadcastsInDim ⟨2, ![A, 128]⟩ (![] : Fin 0 → Fin 2))
  (hred : (⟨2, ![A, 128]⟩ : Shape).ReducesTo [1] ⟨1, ![A]⟩)
  (hu : 0 < (⟨0, ![]⟩ : Shape).numel)

/-! ## The host's terms -/

/-- The mean of the neighbours' rows: the sums divided by the column of counts, repeated along every row. -/
def meanH (s : FVec Ideal ⟨2, ![A, 128]⟩ .f32) (cnt : FVec Ideal ⟨2, ![A, 1]⟩ .f32) : FVec Ideal ⟨2, ![A, 128]⟩ .f32 :=
  Host.divf s (broadcastInDim ⟨2, ![A, 128]⟩ ![0, 1] hcol cnt)

/-- The layer before normalisation. -/
def preH (mean h : FVec Ideal ⟨2, ![A, 128]⟩ .f32) (Wl Wr : FVec Ideal ⟨2, ![128, 128]⟩ .f32) (bl : FVec Ideal ⟨1, ![128]⟩ .f32) :
    FVec Ideal ⟨2, ![A, 128]⟩ .f32 :=
  addf (addf (Host.dotGeneral (DotDims.plain A 128 128) none mean Wl)
      (broadcastInDim ⟨2, ![A, 128]⟩ ![0, 1] hrow2 (broadcastInDim ⟨2, ![1, 128]⟩ ![1] hrow1 bl)))
    (Host.dotGeneral (DotDims.plain A 128 128) none h Wr)

/-- The column of row sums, starting from the f32 zero. -/
def rowSumH (y : FVec Ideal ⟨2, ![A, 128]⟩ .f32) : FVec Ideal ⟨2, ![A, 1]⟩ .f32 :=
  broadcastInDim ⟨2, ![A, 1]⟩ ![0] hvec (Host.reduceAdd y (constant (F := Ideal) ⟨0, ![]⟩ .f32 0x00000000#32) hred hu)

/-- The column of row means. -/
def muH (y : FVec Ideal ⟨2, ![A, 128]⟩ .f32) : FVec Ideal ⟨2, ![A, 1]⟩ .f32 :=
  Host.divf (rowSumH hvec hred hu y) (broadcastInDim ⟨2, ![A, 1]⟩ ![] hs1 (constant (F := Ideal) ⟨0, ![]⟩ .f32 0x43000000#32))

/-- Every entry less its row's mean. -/
def devH (y : FVec Ideal ⟨2, ![A, 128]⟩ .f32) : FVec Ideal ⟨2, ![A, 128]⟩ .f32 :=
  subf y (broadcastInDim ⟨2, ![A, 128]⟩ ![0, 1] hcol (muH hvec hs1 hred hu y))

/-- The column of row variances. -/
def varH (y : FVec Ideal ⟨2, ![A, 128]⟩ .f32) : FVec Ideal ⟨2, ![A, 1]⟩ .f32 :=
  Host.divf (rowSumH hvec hred hu (mulf (devH hcol hvec hs1 hred hu y) (devH hcol hvec hs1 hred hu y)))
    (broadcastInDim ⟨2, ![A, 1]⟩ ![] hs1 (constant (F := Ideal) ⟨0, ![]⟩ .f32 0x43000000#32))

/-- The normalised rows, scaled and shifted. -/
def normH (y : FVec Ideal ⟨2, ![A, 128]⟩ .f32) (g b : FVec Ideal ⟨1, ![128]⟩ .f32) : FVec Ideal ⟨2, ![A, 128]⟩ .f32 :=
  addf (mulf (mulf (devH hcol hvec hs1 hred hu y)
      (broadcastInDim ⟨2, ![A, 128]⟩ ![0, 1] hcol (Host.rsqrt (addf (varH hcol hvec hs1 hred hu y)
        (broadcastInDim ⟨2, ![A, 1]⟩ ![] hs1 (constant (F := Ideal) ⟨0, ![]⟩ .f32 0x3727C5AC#32))))))
      (broadcastInDim ⟨2, ![A, 128]⟩ ![0, 1] hrow2 (broadcastInDim ⟨2, ![1, 128]⟩ ![1] hrow1 g)))
    (broadcastInDim ⟨2, ![A, 128]⟩ ![0, 1] hrow2 (broadcastInDim ⟨2, ![1, 128]⟩ ![1] hrow1 b))

/-- The whole layer. -/
def layerH (s h : FVec Ideal ⟨2, ![A, 128]⟩ .f32) (cnt : FVec Ideal ⟨2, ![A, 1]⟩ .f32)
    (Wl Wr : FVec Ideal ⟨2, ![128, 128]⟩ .f32) (bl g b : FVec Ideal ⟨1, ![128]⟩ .f32) : FVec Ideal ⟨2, ![A, 128]⟩ .f32 :=
  addf (maximumf (normH hcol hrow1 hrow2 hvec hs1 hred hu (preH hrow1 hrow2 (meanH hcol s cnt) h Wl Wr bl) g b)
      (broadcastInDim ⟨2, ![A, 128]⟩ ![] hs2 (constant (F := Ideal) ⟨0, ![]⟩ .f32 0x00000000#32))) h

/-! ## Each term at an entry -/

/-- Dividing the sums by the repeated column of counts scales every row by the reciprocal of its count, when every
    count is a real number that is at least one. -/
theorem meanH_eq (s : FVec Ideal ⟨2, ![A, 128]⟩ .f32) (cnt : FVec Ideal ⟨2, ![A, 1]⟩ .f32)
    (hc : ∀ r : Fin A, ∃ c : ℝ, 1 ≤ c ∧ cnt (ix2 r (0 : Fin 1)) = (c : EReal)) :
    meanH hcol s cnt = scale s (fun r => cnt (ix2 r (0 : Fin 1))) := by
  funext j
  obtain ⟨p, q, rfl⟩ : ∃ (p : Fin A) (q : Fin 128), j = ix2 p q := ⟨j 0, j 1, eq_ix2 j⟩
  show Ideal.div (s (ix2 p q)) (broadcastInDim ⟨2, ![A, 128]⟩ ![0, 1] hcol cnt (ix2 p q))
    = s (ix2 p q) * Ideal.div 1 (cnt (ix2 p (0 : Fin 1)))
  rw [col2_host hcol cnt p q]
  obtain ⟨c, hc1, e⟩ := hc p
  rw [e]
  exact div_eq_mul_recip _ c hc1

/-- The two products and the bias are the row function `pre`. -/
theorem preH_eq (mean h : FVec Ideal ⟨2, ![A, 128]⟩ .f32) (Wl Wr : FVec Ideal ⟨2, ![128, 128]⟩ .f32)
    (bl : FVec Ideal ⟨1, ![128]⟩ .f32) : preH hrow1 hrow2 mean h Wl Wr bl = pre A mean h Wl Wr bl := by
  unfold preH
  rw [dense_host mean Wl bl hrow1 hrow2]
  funext j
  rw [addf_apply]
  show dense A 128 128 mean Wl bl j + _ = dense A 128 128 mean Wl bl j + rowMul h Wr (j 0 : Fin A) (j 1 : Fin 128)
  refine congrArg (dense A 128 128 mean Wl bl j + ·) ?_
  exact (Ideal.dotGeneral_apply (DotDims.plain A 128 128) none _ h Wr j).trans (plain_sum A 128 128 h Wr j)

/-- A row sum, laid out as a column, reads the sum of the row's entries. -/
theorem rowSumH_apply (hred' : (⟨2, ![A, 128]⟩ : Shape).Reduces [1] ⟨1, ![A]⟩) (y : FVec Ideal ⟨2, ![A, 128]⟩ .f32)
    (p : Fin A) (z : Fin 1) : rowSumH hvec hred hu y (ix2 p z) = ∑ c : Fin 128, y (ix2 p c) := by
  unfold rowSumH
  rw [col1_host hvec _ p z]
  show Ideal.hostReduceAdd hred y (Ideal.ofBits .f32 0x00000000#32) (ix1 p) = _
  rw [Ideal.hostReduceAdd_single hred hred', Ideal.ofBits_zero_f32, zero_add]
  show ∑ k : Fin 128, _ = ∑ k : Fin 128, _
  refine Finset.sum_congr rfl fun k _ => congrArg y (funext fun c => Fin.ext (by
    match c with
    | ⟨0, _⟩ => rfl
    | ⟨1, _⟩ => rfl))

/-- The column of means reads the row's mean. -/
theorem muH_apply (hred' : (⟨2, ![A, 128]⟩ : Shape).Reduces [1] ⟨1, ![A]⟩) (y : FVec Ideal ⟨2, ![A, 128]⟩ .f32)
    (p : Fin A) (z : Fin 1) : muH hvec hs1 hred hu y (ix2 p z) = mu y p := by
  show Ideal.div (rowSumH hvec hred hu y (ix2 p z)) (Ideal.ofBits .f32 0x43000000#32) = Ideal.div _ c128
  rw [rowSumH_apply hvec hred hu hred' y p z]

/-- An entry less its row's mean. -/
theorem devH_apply (hred' : (⟨2, ![A, 128]⟩ : Shape).Reduces [1] ⟨1, ![A]⟩) (y : FVec Ideal ⟨2, ![A, 128]⟩ .f32)
    (p : Fin A) (q : Fin 128) : devH hcol hvec hs1 hred hu y (ix2 p q) = y (ix2 p q) - mu y p := by
  show y (ix2 p q) - broadcastInDim ⟨2, ![A, 128]⟩ ![0, 1] hcol (muH hvec hs1 hred hu y) (ix2 p q) = _
  rw [col2_host hcol _ p q, muH_apply hvec hs1 hred hu hred' y p 0]

/-- The column of variances reads the row's variance. -/
theorem varH_apply (hred' : (⟨2, ![A, 128]⟩ : Shape).Reduces [1] ⟨1, ![A]⟩) (y : FVec Ideal ⟨2, ![A, 128]⟩ .f32)
    (p : Fin A) (z : Fin 1) : varH hcol hvec hs1 hred hu y (ix2 p z) = var y p := by
  show Ideal.div (rowSumH hvec hred hu (mulf (devH hcol hvec hs1 hred hu y) (devH hcol hvec hs1 hred hu y)) (ix2 p z))
    (Ideal.ofBits .f32 0x43000000#32) = Ideal.div _ c128
  rw [rowSumH_apply hvec hred hu hred' _ p z]
  refine congrArg (Ideal.div · c128) (Finset.sum_congr rfl fun c _ => ?_)
  rw [mulf_apply, devH_apply hcol hvec hs1 hred hu hred' y p c]

/-- The host's normalisation is the row function `norm`. -/
theorem normH_eq (hred' : (⟨2, ![A, 128]⟩ : Shape).Reduces [1] ⟨1, ![A]⟩) (y : FVec Ideal ⟨2, ![A, 128]⟩ .f32)
    (g b : FVec Ideal ⟨1, ![128]⟩ .f32) : normH hcol hrow1 hrow2 hvec hs1 hred hu y g b = norm y g b := by
  funext j
  obtain ⟨p, q, rfl⟩ : ∃ (p : Fin A) (q : Fin 128), j = ix2 p q := ⟨j 0, j 1, eq_ix2 j⟩
  show (devH hcol hvec hs1 hred hu y (ix2 p q)
        * broadcastInDim ⟨2, ![A, 128]⟩ ![0, 1] hcol (Host.rsqrt (addf (varH hcol hvec hs1 hred hu y)
            (broadcastInDim ⟨2, ![A, 1]⟩ ![] hs1 (constant (F := Ideal) ⟨0, ![]⟩ .f32 0x3727C5AC#32)))) (ix2 p q))
      * broadcastInDim ⟨2, ![A, 128]⟩ ![0, 1] hrow2 (broadcastInDim ⟨2, ![1, 128]⟩ ![1] hrow1 g) (ix2 p q)
      + broadcastInDim ⟨2, ![A, 128]⟩ ![0, 1] hrow2 (broadcastInDim ⟨2, ![1, 128]⟩ ![1] hrow1 b) (ix2 p q)
    = ((y (ix2 p q) - mu y p) * Ideal.rsqrt (var y p + eps)) * g (ix1 q) + b (ix1 q)
  rw [devH_apply hcol hvec hs1 hred hu hred' y p q, col2_host hcol _ p q, bias_rows_host_ix g hrow1 hrow2 p q,
    bias_rows_host_ix b hrow1 hrow2 p q]
  show ((y (ix2 p q) - mu y p) * Ideal.rsqrt (varH hcol hvec hs1 hred hu y (ix2 p 0) + eps)) * g (ix1 q) + b (ix1 q) = _
  rw [varH_apply hcol hvec hs1 hred hu hred' y p 0]

/-- THE HOST'S LAYER IS THE ROW FUNCTION: with the counts real and at least one, the layer built from the sums `s`,
    the counts `cnt` and the input `h` is `combine` of the scaled sums and `h`. -/
theorem layerH_eq (hred' : (⟨2, ![A, 128]⟩ : Shape).Reduces [1] ⟨1, ![A]⟩)
    (s h : FVec Ideal ⟨2, ![A, 128]⟩ .f32) (cnt : FVec Ideal ⟨2, ![A, 1]⟩ .f32)
    (Wl Wr : FVec Ideal ⟨2, ![128, 128]⟩ .f32) (bl g b : FVec Ideal ⟨1, ![128]⟩ .f32)
    (hc : ∀ r : Fin A, ∃ c : ℝ, 1 ≤ c ∧ cnt (ix2 r (0 : Fin 1)) = (c : EReal)) :
    layerH hcol hrow1 hrow2 hvec hs1 hs2 hred hu s h cnt Wl Wr bl g b
      = combine A (scale s (fun r => cnt (ix2 r (0 : Fin 1)))) h Wl Wr bl g b := by
  unfold layerH
  rw [normH_eq hcol hrow1 hrow2 hvec hs1 hred hu hred', preH_eq hrow1 hrow2, meanH_eq hcol s cnt hc]
  funext j
  show max (norm (pre A (scale s fun r => cnt (ix2 r (0 : Fin 1))) h Wl Wr bl) g b j) (Ideal.ofBits .f32 0x00000000#32) + h j = _
  rfl

end Layer

end Cert.Sage.Ref

end
-- ==== Proof.RefParts.lean ====
/-
  The parts of the network that only move numbers: a layer's weights cut out of the stacks of three, and the output
  step over the three layers' rows laid side by side.

  The host cuts layer i's 128 x 128 matrix out of a 3 x 128 x 128 stack as the slice [i, i+1) of the first axis,
  reshaped to drop that axis; entry (a, b) of the result is entry (i, a, b) of the stack.  The same for a vector out
  of a 3 x 128 stack.

  The output step lays the three layers' rows side by side into rows of 384 numbers and multiplies with the
  384 x 16 output matrix.  Column c * 128 + k of the joined row is column k of piece c, so the sum over the 384
  columns is the sum of three sums over 128 columns, each against one 128 x 16 block of the output matrix; only the
  associativity of addition is used, which holds on the extended reals.  Generic in the number of rows.
-/
import proofs.«121075_j4492535791673_1_alg».proof.Proof.Spec
import proofs.«121075_j4492535791673_1_alg».proof.Proof.LibDense
import Idealize.ShloMosaic.Lib.ValueIdx
import Idealize.ShloMosaic.Lib.Pipeline.Value
import Idealize.ShloMosaic.PureOps.Ideal.Laws

noncomputable section

open scoped BigOperators

namespace Cert.Sage.Ref

open Idealize.ShloMosaic Idealize.ShloMosaic.ValueIdx Cert.LibDense

/-! ## Slices of the stacked weights -/

/-- Slice `i` of a stack of three matrices, with the unit axis dropped, is matrix `i`. -/
theorem mat3_slice (W : (⟨3, ![3, 128, 128]⟩ : Shape).Idx → EReal) (i : Fin 3)
    (hs : (⟨3, ![3, 128, 128]⟩ : Shape).Slices ![i.val, 0, 0] ⟨3, ![1, 128, 128]⟩)
    (hc : (⟨3, ![1, 128, 128]⟩ : Shape).ShapeCasts ⟨2, ![128, 128]⟩) :
    shapeCast ⟨2, ![128, 128]⟩ (extractStridedSlice ⟨3, ![1, 128, 128]⟩ ![i.val, 0, 0] W hs) hc = mat3 W i := by
  funext j
  obtain ⟨a, b, rfl⟩ : ∃ (a b : Fin 128), j = ix2 a b := ⟨j 0, j 1, eq_ix2 j⟩
  refine (shapeCast_apply _ hc (ix2 a b) (ix3 (0 : Fin 1) a b) ?_).trans ?_
  · rw [Shape.rowMajor_val_three, Shape.rowMajor_val_two]
    show (0 * 128 + a.val) * 128 + b.val = a.val * 128 + b.val
    omega
  · refine extractStridedSlice_apply ![i.val, 0, 0] W hs (ix3 (0 : Fin 1) a b) (ix3 i a b) ?_
    intro d
    match d with
    | ⟨0, _⟩ => show i.val = i.val + 0; omega
    | ⟨1, _⟩ => show a.val = 0 + a.val; omega
    | ⟨2, _⟩ => show b.val = 0 + b.val; omega

/-- Slice `i` of a stack of three vectors, with the unit axis dropped, is vector `i`. -/
theorem vec3_slice (v : (⟨2, ![3, 128]⟩ : Shape).Idx → EReal) (i : Fin 3)
    (hs : (⟨2, ![3, 128]⟩ : Shape).Slices ![i.val, 0] ⟨2, ![1, 128]⟩)
    (hc : (⟨2, ![1, 128]⟩ : Shape).ShapeCasts ⟨1, ![128]⟩) :
    shapeCast ⟨1, ![128]⟩ (extractStridedSlice ⟨2, ![1, 128]⟩ ![i.val, 0] v hs) hc = vec3 v i := by
  funext j
  obtain ⟨a, rfl⟩ : ∃ a : Fin 128, j = ix1 a := ⟨j 0, eq_ix1 j⟩
  refine (shapeCast_apply _ hc (ix1 a) (ix2 (0 : Fin 1) a) ?_).trans ?_
  · rw [Shape.rowMajor_val_two, Shape.rowMajor_val_one]
    show 0 * 128 + a.val = a.val
    omega
  · refine extractStridedSlice_apply ![i.val, 0] v hs (ix2 (0 : Fin 1) a) (ix2 i a) ?_
    intro d
    match d with
    | ⟨0, _⟩ => show i.val = i.val + 0; omega
    | ⟨1, _⟩ => show a.val = 0 + a.val; omega

/-! ## The output step -/

/-- A sum over 384 columns is the sum of the sums over its three blocks of 128 columns. -/
theorem sum_384 {M : Type} [AddCommMonoid M] (f : Fin 384 → M) :
    ∑ k : Fin 384, f k
      = (∑ k : Fin 128, f ⟨0 * 128 + k.val, by have := k.isLt; omega⟩
          + ∑ k : Fin 128, f ⟨1 * 128 + k.val, by have := k.isLt; omega⟩)
        + ∑ k : Fin 128, f ⟨2 * 128 + k.val, by have := k.isLt; omega⟩ := by
  have e : (∑ k : Fin 384, f k) = ∑ k : Fin (128 + 128 + 128), f k := rfl
  rw [e, Fin.sum_univ_add, Fin.sum_univ_add]
  refine congrArg₂ (· + ·) (congrArg₂ (· + ·) ?_ ?_) ?_
  · exact Finset.sum_congr rfl fun k _ => congrArg f (Fin.ext (by show k.val = 0 * 128 + k.val; omega))
  · exact Finset.sum_congr rfl fun k _ => congrArg f (Fin.ext (by show 128 + k.val = 1 * 128 + k.val; omega))
  · exact Finset.sum_congr rfl fun k _ => congrArg f (Fin.ext (by show 128 + 128 + k.val = 2 * 128 + k.val; omega))

/-- Three matrices of 128 columns joined along the columns: column `c * 128 + k` of the result is column `k` of
    piece `c`. -/
theorem cat3_apply {A : Nat} (u0 u1 u2 : (⟨2, ![A, 128]⟩ : Shape).Idx → EReal)
    (h : Shape.Concatenates [(⟨2, ![A, 128]⟩ : Shape), ⟨2, ![A, 128]⟩, ⟨2, ![A, 128]⟩] ⟨2, ![A, 384]⟩ 1)
    (p : Fin A) (c : Fin 3) (k : Fin 128) :
    concatenate (⟨2, ![A, 384]⟩ : Shape) 1
        [⟨(⟨2, ![A, 128]⟩ : Shape), u0⟩, ⟨(⟨2, ![A, 128]⟩ : Shape), u1⟩, ⟨(⟨2, ![A, 128]⟩ : Shape), u2⟩] h
        (ix2 p (⟨c.val * 128 + k.val, by have := k.isLt; have := c.isLt; omega⟩ : Fin 384))
      = (![u0, u1, u2] c) (ix2 p k) := by
  have hk := k.isLt
  have hc := c.isLt
  refine concatenate_ofFn_apply (t := (⟨2, ![A, 384]⟩ : Shape)) (s₁ := (⟨2, ![A, 128]⟩ : Shape)) 1 (![u0, u1, u2]) h rfl 128 rfl
    (ix2 p (⟨c.val * 128 + k.val, by omega⟩ : Fin 384)) c ?_ (ix2 p k) ?_ ?_
  · show (c.val * 128 + k.val) / 128 = c.val
    omega
  · show k.val = (c.val * 128 + k.val) % 128
    omega
  · intro b hb
    match b, hb with
    | ⟨0, _⟩, _ => rfl
    | ⟨1, _⟩, hb => exact absurd rfl hb

/-- A row of the joined matrix times the 384 x 16 matrix is the sum of the three pieces' rows times its three blocks. -/
theorem joined_rowMul {A : Nat} (cat : Mat A 384) (u0 u1 u2 : Mat A 128) (W : Mat 384 16) (p : Fin A) (q : Fin 16)
    (h0 : ∀ k : Fin 128, cat (ix2 p (⟨0 * 128 + k.val, by have := k.isLt; omega⟩ : Fin 384)) = u0 (ix2 p k))
    (h1 : ∀ k : Fin 128, cat (ix2 p (⟨1 * 128 + k.val, by have := k.isLt; omega⟩ : Fin 384)) = u1 (ix2 p k))
    (h2 : ∀ k : Fin 128, cat (ix2 p (⟨2 * 128 + k.val, by have := k.isLt; omega⟩ : Fin 384)) = u2 (ix2 p k)) :
    ∑ k : Fin 384, cat (ix2 p k) * W (ix2 k q)
      = (rowMul u0 (blk3 W 0) p q + rowMul u1 (blk3 W 1) p q) + rowMul u2 (blk3 W 2) p q := by
  refine (sum_384 fun k => cat (ix2 p k) * W (ix2 k q)).trans ?_
  refine congrArg₂ (· + ·) (congrArg₂ (· + ·) ?_ ?_) ?_
  · refine Finset.sum_congr rfl fun k _ => ?_
    show cat (ix2 p (⟨0 * 128 + k.val, _⟩ : Fin 384)) * _ = u0 (ix2 p k) * blk3 W 0 (ix2 k q)
    rw [h0 k]
    rfl
  · refine Finset.sum_congr rfl fun k _ => ?_
    show cat (ix2 p (⟨1 * 128 + k.val, _⟩ : Fin 384)) * _ = u1 (ix2 p k) * blk3 W 1 (ix2 k q)
    rw [h1 k]
    rfl
  · refine Finset.sum_congr rfl fun k _ => ?_
    show cat (ix2 p (⟨2 * 128 + k.val, _⟩ : Fin 384)) * _ = u2 (ix2 p k) * blk3 W 2 (ix2 k q)
    rw [h2 k]
    rfl

/-- THE HOST'S OUTPUT STEP: the three layers' rows joined, times the output matrix, plus the bias laid along every
    row, is the row function `outProj` over the three blocks of the matrix. -/
theorem outH_eq {A : Nat} (u0 u1 u2 : FVec Ideal ⟨2, ![A, 128]⟩ .f32) (W : FVec Ideal ⟨2, ![384, 16]⟩ .f32)
    (bo : FVec Ideal ⟨1, ![16]⟩ .f32)
    (hcat : Shape.Concatenates [(⟨2, ![A, 128]⟩ : Shape), ⟨2, ![A, 128]⟩, ⟨2, ![A, 128]⟩] ⟨2, ![A, 384]⟩ 1)
    (hd : (⟨1, ![16]⟩ : Shape).BroadcastsInDim ⟨2, ![1, 16]⟩ ![1])
    (hbc : (⟨2, ![1, 16]⟩ : Shape).BroadcastsInDim ⟨2, ![A, 16]⟩ ![0, 1]) :
    addf (Host.dotGeneral (DotDims.plain A 384 16) none
        (concatenate (⟨2, ![A, 384]⟩ : Shape) 1
          [⟨(⟨2, ![A, 128]⟩ : Shape), u0⟩, ⟨(⟨2, ![A, 128]⟩ : Shape), u1⟩, ⟨(⟨2, ![A, 128]⟩ : Shape), u2⟩] hcat) W)
      (broadcastInDim ⟨2, ![A, 16]⟩ ![0, 1] hbc (broadcastInDim ⟨2, ![1, 16]⟩ ![1] hd bo))
      = outProj A u0 u1 u2 (blk3 W 0) (blk3 W 1) (blk3 W 2) bo := by
  rw [dense_host _ W bo hd hbc]
  funext j
  obtain ⟨p, q, rfl⟩ : ∃ (p : Fin A) (q : Fin 16), j = ix2 p q := ⟨j 0, j 1, eq_ix2 j⟩
  show (∑ k : Fin 384, _ * W (ix2 k q)) + bo (ix1 q)
    = ((rowMul u0 (blk3 W 0) p q + rowMul u1 (blk3 W 1) p q) + rowMul u2 (blk3 W 2) p q) + bo (ix1 q)
  refine congrArg (· + bo (ix1 q)) ?_
  exact joined_rowMul _ u0 u1 u2 W p q (fun k => cat3_apply u0 u1 u2 hcat p 0 k) (fun k => cat3_apply u0 u1 u2 hcat p 1 k)
    (fun k => cat3_apply u0 u1 u2 hcat p 2 k)

end Cert.Sage.Ref

end
-- ==== Proof.RefNet.lean ====
/-
  The reference program is the network.

  Stage by stage: the input projection is relu of a dense map; each of the three layers takes the rows summed over
  incoming edges and the clipped counts — the same aggregation and the same counts in every layer, since they are
  built from the edge array alone — and the previous layer's rows to the row function `combine`, with its weights
  cut out of the stacks of three; the output step joins the three layers' rows and multiplies with the output
  matrix block by block.  Chaining these readings gives the whole result as `net` of the argument arrays.
-/
import proofs.«121075_j4492535791673_1_alg».proof.Proof.RefGraph
import proofs.«121075_j4492535791673_1_alg».proof.Proof.RefLayer
import proofs.«121075_j4492535791673_1_alg».proof.Proof.RefParts

noncomputable section

open scoped BigOperators

namespace Cert.Sage.Ref

open Idealize.ShloMosaic Idealize.ShloMosaic.ValueIdx Idealize.ShloMosaic.TcCoe Idealize.SL.Sem Idealize.ShloMosaic.StableHlo
open Cert.ReferenceIdeal Cert.ReferenceIdeal.Gen Cert.ReferenceIdeal.ReadP Cert.LibDense Cert.LibLayers

/-- The output matrix and bias. -/
abbrev OutW := (⟨S384x16, .f32⟩ : BufTy).Contents (Elt Ideal)
abbrev OutB := (⟨S16, .f32⟩ : BufTy).Contents (Elt Ideal)

/-! ## The input projection -/

/-- The projected input: relu of the dense map of every row. -/
theorem h0_eq (x0 : Nodes) (x2 : Sq) (x3 : Vec) :
    val_main_v8 (F := Ideal) x0 x2 x3 = reluDense 100000 128 128 x0 x2 x3 :=
  reluDense_host x0 x2 x3 bcast_S128_S1x128_1 bcast_S1x128_S100000x128_0_1 bcast_S_S100000x128

/-! ## The layers' weights -/

theorem wl0 (x4 : Sq3) : val_main_v10 (F := Ideal) x4 = mat3 x4 0 :=
  mat3_slice x4 0 slices_S3x128x128_S1x128x128_0_0_0 shapeCasts_S1x128x128_S128x128
theorem wl1 (x4 : Sq3) : val_main_v70 (F := Ideal) x4 = mat3 x4 1 :=
  mat3_slice x4 1 slices_S3x128x128_S1x128x128_1_0_0 shapeCasts_S1x128x128_S128x128
theorem wl2 (x4 : Sq3) : val_main_v130 (F := Ideal) x4 = mat3 x4 2 :=
  mat3_slice x4 2 slices_S3x128x128_S1x128x128_2_0_0 shapeCasts_S1x128x128_S128x128
theorem wr0 (x6 : Sq3) : val_main_v14 (F := Ideal) x6 = mat3 x6 0 :=
  mat3_slice x6 0 slices_S3x128x128_S1x128x128_0_0_0 shapeCasts_S1x128x128_S128x128
theorem wr1 (x6 : Sq3) : val_main_v74 (F := Ideal) x6 = mat3 x6 1 :=
  mat3_slice x6 1 slices_S3x128x128_S1x128x128_1_0_0 shapeCasts_S1x128x128_S128x128
theorem wr2 (x6 : Sq3) : val_main_v134 (F := Ideal) x6 = mat3 x6 2 :=
  mat3_slice x6 2 slices_S3x128x128_S1x128x128_2_0_0 shapeCasts_S1x128x128_S128x128
theorem bl0 (x5 : Vec3) : val_main_v12 (F := Ideal) x5 = vec3 x5 0 :=
  vec3_slice x5 0 slices_S3x128_S1x128_0_0 shapeCasts_S1x128_S128
theorem bl1 (x5 : Vec3) : val_main_v72 (F := Ideal) x5 = vec3 x5 1 :=
  vec3_slice x5 1 slices_S3x128_S1x128_1_0 shapeCasts_S1x128_S128
theorem bl2 (x5 : Vec3) : val_main_v132 (F := Ideal) x5 = vec3 x5 2 :=
  vec3_slice x5 2 slices_S3x128_S1x128_2_0 shapeCasts_S1x128_S128
theorem g0 (x7 : Vec3) : val_main_v40 (F := Ideal) x7 = vec3 x7 0 :=
  vec3_slice x7 0 slices_S3x128_S1x128_0_0 shapeCasts_S1x128_S128
theorem g1 (x7 : Vec3) : val_main_v100 (F := Ideal) x7 = vec3 x7 1 :=
  vec3_slice x7 1 slices_S3x128_S1x128_1_0 shapeCasts_S1x128_S128
theorem g2 (x7 : Vec3) : val_main_v160 (F := Ideal) x7 = vec3 x7 2 :=
  vec3_slice x7 2 slices_S3x128_S1x128_2_0 shapeCasts_S1x128_S128
theorem b0 (x8 : Vec3) : val_main_v42 (F := Ideal) x8 = vec3 x8 0 :=
  vec3_slice x8 0 slices_S3x128_S1x128_0_0 shapeCasts_S1x128_S128
theorem b1 (x8 : Vec3) : val_main_v102 (F := Ideal) x8 = vec3 x8 1 :=
  vec3_slice x8 1 slices_S3x128_S1x128_1_0 shapeCasts_S1x128_S128
theorem b2 (x8 : Vec3) : val_main_v162 (F := Ideal) x8 = vec3 x8 2 :=
  vec3_slice x8 2 slices_S3x128_S1x128_2_0 shapeCasts_S1x128_S128

/-! ## The three layers -/

/-- Layer 1 of the reference, from its input rows. -/
theorem layer1 (x0 : Nodes) (x1 : Edges) (x2 : Sq) (x3 : Vec) (x4 : Sq3) (x5 : Vec3) (x6 : Sq3) (x7 x8 : Vec3) :
    val_main_v68 (F := Ideal) x0 x1 x2 x3 x4 x5 x6 x7 x8
      = combine 100000 (scale (aggR x1 (val_main_v8 (F := Ideal) x0 x2 x3)) (cmR x1)) (val_main_v8 (F := Ideal) x0 x2 x3)
          (mat3 x4 0) (mat3 x6 0) (vec3 x5 0) (vec3 x7 0) (vec3 x8 0) := by
  have e : val_main_v68 (F := Ideal) x0 x1 x2 x3 x4 x5 x6 x7 x8
      = layerH bcast_S100000x1_S100000x128_0_1 bcast_S128_S1x128_1 bcast_S1x128_S100000x128_0_1 bcast_S100000_S100000x1_0
          bcast_S_S100000x1 bcast_S_S100000x128 reducesTo_S100000x128_S100000_d1 h_S_
          (val_main_v24 (F := Ideal) x0 x1 x2 x3) (val_main_v8 (F := Ideal) x0 x2 x3) (val_main_v30 (F := Ideal) x1)
          (val_main_v10 (F := Ideal) x4) (val_main_v14 (F := Ideal) x6) (val_main_v12 (F := Ideal) x5) (val_main_v40 (F := Ideal) x7) (val_main_v42 (F := Ideal) x8) := rfl
  rw [e, layerH_eq _ _ _ _ _ _ _ _ (by decide) _ _ _ _ _ _ _ _ (count1_real x1), agg_layer1, wl0, wr0, bl0, g0, b0]
  rfl

/-- Layer 2 of the reference, from its input rows. -/
theorem layer2 (x0 : Nodes) (x1 : Edges) (x2 : Sq) (x3 : Vec) (x4 : Sq3) (x5 : Vec3) (x6 : Sq3) (x7 x8 : Vec3) :
    val_main_v128 (F := Ideal) x0 x1 x2 x3 x4 x5 x6 x7 x8
      = combine 100000 (scale (aggR x1 (val_main_v68 (F := Ideal) x0 x1 x2 x3 x4 x5 x6 x7 x8)) (cmR x1)) (val_main_v68 (F := Ideal) x0 x1 x2 x3 x4 x5 x6 x7 x8)
          (mat3 x4 1) (mat3 x6 1) (vec3 x5 1) (vec3 x7 1) (vec3 x8 1) := by
  have e : val_main_v128 (F := Ideal) x0 x1 x2 x3 x4 x5 x6 x7 x8
      = layerH bcast_S100000x1_S100000x128_0_1 bcast_S128_S1x128_1 bcast_S1x128_S100000x128_0_1 bcast_S100000_S100000x1_0
          bcast_S_S100000x1 bcast_S_S100000x128 reducesTo_S100000x128_S100000_d1 h_S_
          (val_main_v84 (F := Ideal) x0 x1 x2 x3 x4 x5 x6 x7 x8) (val_main_v68 (F := Ideal) x0 x1 x2 x3 x4 x5 x6 x7 x8) (val_main_v90 (F := Ideal) x1)
          (val_main_v70 (F := Ideal) x4) (val_main_v74 (F := Ideal) x6) (val_main_v72 (F := Ideal) x5) (val_main_v100 (F := Ideal) x7) (val_main_v102 (F := Ideal) x8) := rfl
  rw [e, layerH_eq _ _ _ _ _ _ _ _ (by decide) _ _ _ _ _ _ _ _ (count2_real x1), agg_layer2, wl1, wr1, bl1, g1, b1]
  rfl

/-- Layer 3 of the reference, from its input rows. -/
theorem layer3 (x0 : Nodes) (x1 : Edges) (x2 : Sq) (x3 : Vec) (x4 : Sq3) (x5 : Vec3) (x6 : Sq3) (x7 x8 : Vec3) :
    val_main_v188 (F := Ideal) x0 x1 x2 x3 x4 x5 x6 x7 x8
      = combine 100000 (scale (aggR x1 (val_main_v128 (F := Ideal) x0 x1 x2 x3 x4 x5 x6 x7 x8)) (cmR x1)) (val_main_v128 (F := Ideal) x0 x1 x2 x3 x4 x5 x6 x7 x8)
          (mat3 x4 2) (mat3 x6 2) (vec3 x5 2) (vec3 x7 2) (vec3 x8 2) := by
  have e : val_main_v188 (F := Ideal) x0 x1 x2 x3 x4 x5 x6 x7 x8
      = layerH bcast_S100000x1_S100000x128_0_1 bcast_S128_S1x128_1 bcast_S1x128_S100000x128_0_1 bcast_S100000_S100000x1_0
          bcast_S_S100000x1 bcast_S_S100000x128 reducesTo_S100000x128_S100000_d1 h_S_
          (val_main_v144 (F := Ideal) x0 x1 x2 x3 x4 x5 x6 x7 x8) (val_main_v128 (F := Ideal) x0 x1 x2 x3 x4 x5 x6 x7 x8) (val_main_v150 (F := Ideal) x1)
          (val_main_v130 (F := Ideal) x4) (val_main_v134 (F := Ideal) x6) (val_main_v132 (F := Ideal) x5) (val_main_v160 (F := Ideal) x7) (val_main_v162 (F := Ideal) x8) := rfl
  rw [e, layerH_eq _ _ _ _ _ _ _ _ (by decide) _ _ _ _ _ _ _ _ (count3_real x1), agg_layer3, wl2, wr2, bl2, g2, b2]
  rfl

/-! ## The output step and the whole network -/

/-- The result from the three layers' rows. -/
theorem out_eq (x0 : Nodes) (x1 : Edges) (x2 : Sq) (x3 : Vec) (x4 : Sq3) (x5 : Vec3) (x6 : Sq3) (x7 x8 : Vec3) (x9 : OutW) (x10 : OutB) :
    val_main_v193 (F := Ideal) x0 x1 x2 x3 x4 x5 x6 x7 x8 x9 x10
      = outProj 100000 (val_main_v68 (F := Ideal) x0 x1 x2 x3 x4 x5 x6 x7 x8) (val_main_v128 (F := Ideal) x0 x1 x2 x3 x4 x5 x6 x7 x8) (val_main_v188 (F := Ideal) x0 x1 x2 x3 x4 x5 x6 x7 x8)
          (blk3 x9 0) (blk3 x9 1) (blk3 x9 2) x10 :=
  outH_eq (val_main_v68 (F := Ideal) x0 x1 x2 x3 x4 x5 x6 x7 x8) (val_main_v128 (F := Ideal) x0 x1 x2 x3 x4 x5 x6 x7 x8) (val_main_v188 (F := Ideal) x0 x1 x2 x3 x4 x5 x6 x7 x8) x9 x10
    concatenates_S100000x128_S100000x128_S100000x128_S100000x384_d1 bcast_S16_S1x16_1 bcast_S1x16_S100000x16_0_1

/-- THE REFERENCE'S RESULT IS THE NETWORK of its argument arrays, with the reference's own aggregation and counts. -/
theorem ref_net (x0 : Nodes) (x1 : Edges) (x2 : Sq) (x3 : Vec) (x4 : Sq3) (x5 : Vec3) (x6 : Sq3) (x7 x8 : Vec3) (x9 : OutW) (x10 : OutB) :
    val_main_v193 (F := Ideal) x0 x1 x2 x3 x4 x5 x6 x7 x8 x9 x10
      = Cert.Sage.net 100000 (aggR x1) (cmR x1) x0 x2 x3 x4 x5 x6 x7 x8 x9 x10 := by
  rw [out_eq, layer3, layer2, layer1, h0_eq]
  rfl

end Cert.Sage.Ref

end
-- ==== Proof.RefChunks.lean ====
/-
  The reference program's operations, cut into five stretches: the input projection together with the two id
  arrays cut out of the edge array; layer 1; layer 2; layer 3; the output step.

  Run one after the other the stretches are the whole program, so the contents after the program are the contents
  after the last stretch, entered with the contents after the one before it, and so on back to the launch.  Every
  operation writes exactly one buffer of its own and allocates nothing, and the buffers a stretch writes are
  declared in a range of positions of its own; so each stretch leaves every buffer outside its range as it found it.
  That is what carries the arguments, the id arrays and the earlier layers' results unchanged to where they are read.
-/
import proofs.«121075_j4492535791673_1_alg».proof.Proof.RefOps
import proofs.«121075_j4492535791673_1_alg».proof.Proof.LibTailOps
import Idealize.ShloMosaic.Lib.StableHlo.Run
import Idealize.ShloMosaic.PureOps.Ideal

set_option maxRecDepth 16384

noncomputable section

namespace Cert.Sage.Ref

open Cert.ReferenceIdeal Cert.ReferenceIdeal.Gen Idealize.ShloMosaic Idealize.ShloMosaic.TcCoe Idealize.SL.Sem Idealize.ShloMosaic.StableHlo
open Cert.LibTailOps

/-! ## Two stretches run one after the other -/

/-- The contents after two lines of operations are the contents after the second, entered with those after the first. -/
theorem after_append {τ : Topo} {sig : RefSig} {Val : EltTy → Type} (a b : List (HloOp τ sig Val)) (V : Valuation τ sig Val) :
    after (a ++ b) V = after b (after a V) := by
  induction a generalizing V with
  | nil => rfl
  | cons op a ih => simp only [List.cons_append, after_cons, ih]

variable {F : FTy → Type} [FloatOps F]

/-! ## The five stretches -/

/-- The operations of the input projection and the two id arrays. -/
abbrev cA : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    binary main_arg0 main_arg2 main_v4 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg3 main_v5 (broadcastInDim S1x128 ![1] bcast_S128_S1x128_1 : (⟨S128, .f32⟩ : BufTy).Contents (Elt F) → (⟨S1x128, .f32⟩ : BufTy).Contents (Elt F)),
    unary main_v5 main_v6 (broadcastInDim S100000x128 ![0, 1] bcast_S1x128_S100000x128_0_1 : (⟨S1x128, .f32⟩ : BufTy).Contents (Elt F) → (⟨S100000x128, .f32⟩ : BufTy).Contents (Elt F)),
    binary main_v4 main_v6 main_v7 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x128, .f32⟩) main_call0_v0) (broadcastInDim S100000x128 ![] bcast_S_S100000x128),
    TRef.binary (TRef.of (T := ⟨S100000x128, .f32⟩) main_v7) (TRef.of (T := ⟨S100000x128, .f32⟩) main_call0_v0) (TRef.of (T := ⟨S100000x128, .f32⟩) main_v8) maximumf ]

/-- The operations of layer 1. -/
abbrev c1 : List (HloOp τ sig (Elt F)) :=
  [ unary main_arg4 main_v9 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v9 main_v10 rfl shapeCasts_S1x128x128_S128x128,
    unary main_arg5 main_v11 ((extractStridedSlice S1x128 ![0, 0] · slices_S3x128_S1x128_0_0) : (⟨S3x128, .f32⟩ : BufTy).Contents (Elt F) → (⟨S1x128, .f32⟩ : BufTy).Contents (Elt F)),
    reshape main_v11 main_v12 rfl shapeCasts_S1x128_S128,
    unary main_arg6 main_v13 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v13 main_v14 rfl shapeCasts_S1x128x128_S128x128,
    nullary main_c (constantI S_ 32 0#32),
    unary main_c main_v15 (broadcastInDim S1600000 ![] bcast_S_S1600000 : (⟨S_, .i32⟩ : BufTy).Contents (Elt F) → (⟨S1600000, .i32⟩ : BufTy).Contents (Elt F)),
    binary main_v1 main_v15 main_v16 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v17 (broadcastInDim S1600000 ![] bcast_S_S1600000 : (⟨S_, .i32⟩ : BufTy).Contents (Elt F) → (⟨S1600000, .i32⟩ : BufTy).Contents (Elt F)),
    binary main_v1 main_v17 main_v18 (addi : (⟨S1600000, .i32⟩ : BufTy).Contents (Elt F) → (⟨S1600000, .i32⟩ : BufTy).Contents (Elt F) → (⟨S1600000, .i32⟩ : BufTy).Contents (Elt F)),
    ternary main_v16 main_v18 main_v1 main_v19 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v19 main_v20 (broadcastInDim S1600000x1 ![0] bcast_S1600000_S1600000x1_0 : (⟨S1600000, .i32⟩ : BufTy).Contents (Elt F) → (⟨S1600000x1, .i32⟩ : BufTy).Contents (Elt F)),
    binary main_v8 main_v20 main_v21 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst (constant S_ .f32 0x00000000#32),
    unary main_cst main_v22 (broadcastInDim S100000x128 ![] bcast_S_S100000x128 : (⟨S_, .f32⟩ : BufTy).Contents (Elt F) → (⟨S100000x128, .f32⟩ : BufTy).Contents (Elt F)),
    unary main_v3 main_v23 (broadcastInDim S1600000x1 ![0] bcast_S1600000_S1600000x1_0 : (⟨S1600000, .i32⟩ : BufTy).Contents (Elt F) → (⟨S1600000x1, .i32⟩ : BufTy).Contents (Elt F)),
    ternary main_v22 main_v23 main_v21 main_v24 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    nullary main_cst_1 (constant S_ .f32 0x3F800000#32),
    unary main_cst_1 main_v25 (broadcastInDim S1600000x1 ![] bcast_S_S1600000x1 : (⟨S_, .f32⟩ : BufTy).Contents (Elt F) → (⟨S1600000x1, .f32⟩ : BufTy).Contents (Elt F)),
    nullary main_cst_2 (constant S_ .f32 0x00000000#32),
    unary main_cst_2 main_v26 (broadcastInDim S100000x1 ![] bcast_S_S100000x1 : (⟨S_, .f32⟩ : BufTy).Contents (Elt F) → (⟨S100000x1, .f32⟩ : BufTy).Contents (Elt F)),
    unary main_v3 main_v27 (broadcastInDim S1600000x1 ![0] bcast_S1600000_S1600000x1_0 : (⟨S1600000, .i32⟩ : BufTy).Contents (Elt F) → (⟨S1600000x1, .i32⟩ : BufTy).Contents (Elt F)),
    ternary main_v26 main_v27 main_v25 main_v28 ((fun x i u => Host.scatterAdd scatter_S100000x1_S1600000x1_S1600000x1_1_0_0_1 x i u) : (⟨S100000x1, .f32⟩ : BufTy).Contents (Elt F) → (⟨S1600000x1, .i32⟩ : BufTy).Contents (Elt F) → (⟨S1600000x1, .f32⟩ : BufTy).Contents (Elt F) → (⟨S100000x1, .f32⟩ : BufTy).Contents (Elt F)),
    nullary main_cst_3 (constant S_ .f32 0x3F800000#32),
    unary main_cst_3 main_v29 (broadcastInDim S100000x1 ![] bcast_S_S100000x1 : (⟨S_, .f32⟩ : BufTy).Contents (Elt F) → (⟨S100000x1, .f32⟩ : BufTy).Contents (Elt F)),
    binary main_v28 main_v29 main_v30 (maximumf : (⟨S100000x1, .f32⟩ : BufTy).Contents (Elt F) → (⟨S100000x1, .f32⟩ : BufTy).Contents (Elt F) → (⟨S100000x1, .f32⟩ : BufTy).Contents (Elt F)),
    unary main_v30 main_v31 (broadcastInDim S100000x128 ![0, 1] bcast_S100000x1_S100000x128_0_1 : (⟨S100000x1, .f32⟩ : BufTy).Contents (Elt F) → (⟨S100000x128, .f32⟩ : BufTy).Contents (Elt F)),
    binary main_v24 main_v31 main_v32 (Host.divf : (⟨S100000x128, .f32⟩ : BufTy).Contents (Elt F) → (⟨S100000x128, .f32⟩ : BufTy).Contents (Elt F) → (⟨S100000x128, .f32⟩ : BufTy).Contents (Elt F)),
    binary main_v32 main_v10 main_v33 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v12 main_v34 (broadcastInDim S1x128 ![1] bcast_S128_S1x128_1 : (⟨S128, .f32⟩ : BufTy).Contents (Elt F) → (⟨S1x128, .f32⟩ : BufTy).Contents (Elt F)),
    unary main_v34 main_v35 (broadcastInDim S100000x128 ![0, 1] bcast_S1x128_S100000x128_0_1 : (⟨S1x128, .f32⟩ : BufTy).Contents (Elt F) → (⟨S100000x128, .f32⟩ : BufTy).Contents (Elt F)),
    binary main_v33 main_v35 main_v36 (addf : (⟨S100000x128, .f32⟩ : BufTy).Contents (Elt F) → (⟨S100000x128, .f32⟩ : BufTy).Contents (Elt F) → (⟨S100000x128, .f32⟩ : BufTy).Contents (Elt F)),
    binary main_v8 main_v14 main_v37 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v36 main_v37 main_v38 (addf : (⟨S100000x128, .f32⟩ : BufTy).Contents (Elt F) → (⟨S100000x128, .f32⟩ : BufTy).Contents (Elt F) → (⟨S100000x128, .f32⟩ : BufTy).Contents (Elt F)),
    unary main_arg7 main_v39 ((extractStridedSlice S1x128 ![0, 0] · slices_S3x128_S1x128_0_0) : (⟨S3x128, .f32⟩ : BufTy).Contents (Elt F) → (⟨S1x128, .f32⟩ : BufTy).Contents (Elt F)),
    reshape main_v39 main_v40 rfl shapeCasts_S1x128_S128,
    unary main_arg8 main_v41 ((extractStridedSlice S1x128 ![0, 0] · slices_S3x128_S1x128_0_0) : (⟨S3x128, .f32⟩ : BufTy).Contents (Elt F) → (⟨S1x128, .f32⟩ : BufTy).Contents (Elt F)),
    reshape main_v41 main_v42 rfl shapeCasts_S1x128_S128,
    nullary main_cst_4 (constant S_ .f32 0x00000000#32),
    binary main_v38 main_cst_4 main_v43 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v43 main_v44 (broadcastInDim S100000x1 ![0] bcast_S100000_S100000x1_0 : (⟨S100000, .f32⟩ : BufTy).Contents (Elt F) → (⟨S100000x1, .f32⟩ : BufTy).Contents (Elt F)),
    nullary main_cst_5 (constant S_ .f32 0x43000000#32),
    unary main_cst_5 main_v45 (broadcastInDim S100000x1 ![] bcast_S_S100000x1 : (⟨S_, .f32⟩ : BufTy).Contents (Elt F) → (⟨S100000x1, .f32⟩ : BufTy).Contents (Elt F)),
    binary main_v44 main_v45 main_v46 (Host.divf : (⟨S100000x1, .f32⟩ : BufTy).Contents (Elt F) → (⟨S100000x1, .f32⟩ : BufTy).Contents (Elt F) → (⟨S100000x1, .f32⟩ : BufTy).Contents (Elt F)),
    unary main_v46 main_v47 (broadcastInDim S100000x128 ![0, 1] bcast_S100000x1_S100000x128_0_1 : (⟨S100000x1, .f32⟩ : BufTy).Contents (Elt F) → (⟨S100000x128, .f32⟩ : BufTy).Contents (Elt F)),
    binary main_v38 main_v47 main_v48 (subf : (⟨S100000x128, .f32⟩ : BufTy).Contents (Elt F) → (⟨S100000x128, .f32⟩ : BufTy).Contents (Elt F) → (⟨S100000x128, .f32⟩ : BufTy).Contents (Elt F)),
    binary main_v48 main_v48 main_v49 (mulf : (⟨S100000x128, .f32⟩ : BufTy).Contents (Elt F) → (⟨S100000x128, .f32⟩ : BufTy).Contents (Elt F) → (⟨S100000x128, .f32⟩ : BufTy).Contents (Elt F)),
    nullary main_cst_6 (constant S_ .f32 0x00000000#32),
    binary main_v49 main_cst_6 main_v50 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v50 main_v51 (broadcastInDim S100000x1 ![0] bcast_S100000_S100000x1_0 : (⟨S100000, .f32⟩ : BufTy).Contents (Elt F) → (⟨S100000x1, .f32⟩ : BufTy).Contents (Elt F)),
    nullary main_cst_7 (constant S_ .f32 0x43000000#32),
    unary main_cst_7 main_v52 (broadcastInDim S100000x1 ![] bcast_S_S100000x1 : (⟨S_, .f32⟩ : BufTy).Contents (Elt F) → (⟨S100000x1, .f32⟩ : BufTy).Contents (Elt F)),
    binary main_v51 main_v52 main_v53 (Host.divf : (⟨S100000x1, .f32⟩ : BufTy).Contents (Elt F) → (⟨S100000x1, .f32⟩ : BufTy).Contents (Elt F) → (⟨S100000x1, .f32⟩ : BufTy).Contents (Elt F)),
    unary main_v46 main_v54 (broadcastInDim S100000x128 ![0, 1] bcast_S100000x1_S100000x128_0_1 : (⟨S100000x1, .f32⟩ : BufTy).Contents (Elt F) → (⟨S100000x128, .f32⟩ : BufTy).Contents (Elt F)),
    binary main_v38 main_v54 main_v55 (subf : (⟨S100000x128, .f32⟩ : BufTy).Contents (Elt F) → (⟨S100000x128, .f32⟩ : BufTy).Contents (Elt F) → (⟨S100000x128, .f32⟩ : BufTy).Contents (Elt F)),
    nullary main_cst_8 (constant S_ .f32 0x3727C5AC#32),
    unary main_cst_8 main_v56 (broadcastInDim S100000x1 ![] bcast_S_S100000x1 : (⟨S_, .f32⟩ : BufTy).Contents (Elt F) → (⟨S100000x1, .f32⟩ : BufTy).Contents (Elt F)),
    binary main_v53 main_v56 main_v57 (addf : (⟨S100000x1, .f32⟩ : BufTy).Contents (Elt F) → (⟨S100000x1, .f32⟩ : BufTy).Contents (Elt F) → (⟨S100000x1, .f32⟩ : BufTy).Contents (Elt F)),
    unary main_v57 main_v58 (Host.rsqrt : (⟨S100000x1, .f32⟩ : BufTy).Contents (Elt F) → (⟨S100000x1, .f32⟩ : BufTy).Contents (Elt F)),
    unary main_v58 main_v59 (broadcastInDim S100000x128 ![0, 1] bcast_S100000x1_S100000x128_0_1 : (⟨S100000x1, .f32⟩ : BufTy).Contents (Elt F) → (⟨S100000x128, .f32⟩ : BufTy).Contents (Elt F)),
    binary main_v55 main_v59 main_v60 (mulf : (⟨S100000x128, .f32⟩ : BufTy).Contents (Elt F) → (⟨S100000x128, .f32⟩ : BufTy).Contents (Elt F) → (⟨S100000x128, .f32⟩ : BufTy).Contents (Elt F)),
    unary main_v40 main_v61 (broadcastInDim S1x128 ![1] bcast_S128_S1x128_1 : (⟨S128, .f32⟩ : BufTy).Contents (Elt F) → (⟨S1x128, .f32⟩ : BufTy).Contents (Elt F)),
    unary main_v61 main_v62 (broadcastInDim S100000x128 ![0, 1] bcast_S1x128_S100000x128_0_1 : (⟨S1x128, .f32⟩ : BufTy).Contents (Elt F) → (⟨S100000x128, .f32⟩ : BufTy).Contents (Elt F)),
    binary main_v60 main_v62 main_v63 (mulf : (⟨S100000x128, .f32⟩ : BufTy).Contents (Elt F) → (⟨S100000x128, .f32⟩ : BufTy).Contents (Elt F) → (⟨S100000x128, .f32⟩ : BufTy).Contents (Elt F)),
    unary main_v42 main_v64 (broadcastInDim S1x128 ![1] bcast_S128_S1x128_1 : (⟨S128, .f32⟩ : BufTy).Contents (Elt F) → (⟨S1x128, .f32⟩ : BufTy).Contents (Elt F)),
    unary main_v64 main_v65 (broadcastInDim S100000x128 ![0, 1] bcast_S1x128_S100000x128_0_1 : (⟨S1x128, .f32⟩ : BufTy).Contents (Elt F) → (⟨S100000x128, .f32⟩ : BufTy).Contents (Elt F)),
    binary main_v63 main_v65 main_v66 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v66) (TRef.of (T := ⟨S100000x128, .f32⟩) main_call1_v0) (TRef.of (T := ⟨S100000x128, .f32⟩) main_v67) maximumf,
    binary main_v67 main_v8 main_v68 (addf : (⟨S100000x128, .f32⟩ : BufTy).Contents (Elt F) → (⟨S100000x128, .f32⟩ : BufTy).Contents (Elt F) → (⟨S100000x128, .f32⟩ : BufTy).Contents (Elt F)) ]

/-- The operations of layer 2. -/
abbrev c2 : List (HloOp τ sig (Elt F)) :=
  [ unary main_arg4 main_v69 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v69 main_v70 rfl shapeCasts_S1x128x128_S128x128,
    unary main_arg5 main_v71 ((extractStridedSlice S1x128 ![1, 0] · slices_S3x128_S1x128_1_0) : (⟨S3x128, .f32⟩ : BufTy).Contents (Elt F) → (⟨S1x128, .f32⟩ : BufTy).Contents (Elt F)),
    reshape main_v71 main_v72 rfl shapeCasts_S1x128_S128,
    unary main_arg6 main_v73 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v73 main_v74 rfl shapeCasts_S1x128x128_S128x128,
    nullary main_c_9 (constantI S_ 32 0#32),
    unary main_c_9 main_v75 (broadcastInDim S1600000 ![] bcast_S_S1600000 : (⟨S_, .i32⟩ : BufTy).Contents (Elt F) → (⟨S1600000, .i32⟩ : BufTy).Contents (Elt F)),
    binary main_v1 main_v75 main_v76 (cmpi .slt : (⟨S1600000, .i32⟩ : BufTy).Contents (Elt F) → (⟨S1600000, .i32⟩ : BufTy).Contents (Elt F) → (⟨S1600000, .i1⟩ : BufTy).Contents (Elt F)),
    nullary main_c_10 (constantI S_ 32 100000#32),
    unary main_c_10 main_v77 (broadcastInDim S1600000 ![] bcast_S_S1600000 : (⟨S_, .i32⟩ : BufTy).Contents (Elt F) → (⟨S1600000, .i32⟩ : BufTy).Contents (Elt F)),
    binary main_v1 main_v77 main_v78 (addi : (⟨S1600000, .i32⟩ : BufTy).Contents (Elt F) → (⟨S1600000, .i32⟩ : BufTy).Contents (Elt F) → (⟨S1600000, .i32⟩ : BufTy).Contents (Elt F)),
    ternary main_v76 main_v78 main_v1 main_v79 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v79 main_v80 (broadcastInDim S1600000x1 ![0] bcast_S1600000_S1600000x1_0 : (⟨S1600000, .i32⟩ : BufTy).Contents (Elt F) → (⟨S1600000x1, .i32⟩ : BufTy).Contents (Elt F)),
    binary main_v68 main_v80 main_v81 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_11 (constant S_ .f32 0x00000000#32),
    unary main_cst_11 main_v82 (broadcastInDim S100000x128 ![] bcast_S_S100000x128 : (⟨S_, .f32⟩ : BufTy).Contents (Elt F) → (⟨S100000x128, .f32⟩ : BufTy).Contents (Elt F)),
    unary main_v3 main_v83 (broadcastInDim S1600000x1 ![0] bcast_S1600000_S1600000x1_0 : (⟨S1600000, .i32⟩ : BufTy).Contents (Elt F) → (⟨S1600000x1, .i32⟩ : BufTy).Contents (Elt F)),
    ternary main_v82 main_v83 main_v81 main_v84 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    nullary main_cst_12 (constant S_ .f32 0x3F800000#32),
    unary main_cst_12 main_v85 (broadcastInDim S1600000x1 ![] bcast_S_S1600000x1 : (⟨S_, .f32⟩ : BufTy).Contents (Elt F) → (⟨S1600000x1, .f32⟩ : BufTy).Contents (Elt F)),
    nullary main_cst_13 (constant S_ .f32 0x00000000#32),
    unary main_cst_13 main_v86 (broadcastInDim S100000x1 ![] bcast_S_S100000x1 : (⟨S_, .f32⟩ : BufTy).Contents (Elt F) → (⟨S100000x1, .f32⟩ : BufTy).Contents (Elt F)),
    unary main_v3 main_v87 (broadcastInDim S1600000x1 ![0] bcast_S1600000_S1600000x1_0 : (⟨S1600000, .i32⟩ : BufTy).Contents (Elt F) → (⟨S1600000x1, .i32⟩ : BufTy).Contents (Elt F)),
    ternary main_v86 main_v87 main_v85 main_v88 ((fun x i u => Host.scatterAdd scatter_S100000x1_S1600000x1_S1600000x1_1_0_0_1 x i u) : (⟨S100000x1, .f32⟩ : BufTy).Contents (Elt F) → (⟨S1600000x1, .i32⟩ : BufTy).Contents (Elt F) → (⟨S1600000x1, .f32⟩ : BufTy).Contents (Elt F) → (⟨S100000x1, .f32⟩ : BufTy).Contents (Elt F)),
    nullary main_cst_14 (constant S_ .f32 0x3F800000#32),
    unary main_cst_14 main_v89 (broadcastInDim S100000x1 ![] bcast_S_S100000x1 : (⟨S_, .f32⟩ : BufTy).Contents (Elt F) → (⟨S100000x1, .f32⟩ : BufTy).Contents (Elt F)),
    binary main_v88 main_v89 main_v90 (maximumf : (⟨S100000x1, .f32⟩ : BufTy).Contents (Elt F) → (⟨S100000x1, .f32⟩ : BufTy).Contents (Elt F) → (⟨S100000x1, .f32⟩ : BufTy).Contents (Elt F)),
    unary main_v90 main_v91 (broadcastInDim S100000x128 ![0, 1] bcast_S100000x1_S100000x128_0_1 : (⟨S100000x1, .f32⟩ : BufTy).Contents (Elt F) → (⟨S100000x128, .f32⟩ : BufTy).Contents (Elt F)),
    binary main_v84 main_v91 main_v92 (Host.divf : (⟨S100000x128, .f32⟩ : BufTy).Contents (Elt F) → (⟨S100000x128, .f32⟩ : BufTy).Contents (Elt F) → (⟨S100000x128, .f32⟩ : BufTy).Contents (Elt F)),
    binary main_v92 main_v70 main_v93 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v72 main_v94 (broadcastInDim S1x128 ![1] bcast_S128_S1x128_1 : (⟨S128, .f32⟩ : BufTy).Contents (Elt F) → (⟨S1x128, .f32⟩ : BufTy).Contents (Elt F)),
    unary main_v94 main_v95 (broadcastInDim S100000x128 ![0, 1] bcast_S1x128_S100000x128_0_1 : (⟨S1x128, .f32⟩ : BufTy).Contents (Elt F) → (⟨S100000x128, .f32⟩ : BufTy).Contents (Elt F)),
    binary main_v93 main_v95 main_v96 (addf : (⟨S100000x128, .f32⟩ : BufTy).Contents (Elt F) → (⟨S100000x128, .f32⟩ : BufTy).Contents (Elt F) → (⟨S100000x128, .f32⟩ : BufTy).Contents (Elt F)),
    binary main_v68 main_v74 main_v97 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v96 main_v97 main_v98 (addf : (⟨S100000x128, .f32⟩ : BufTy).Contents (Elt F) → (⟨S100000x128, .f32⟩ : BufTy).Contents (Elt F) → (⟨S100000x128, .f32⟩ : BufTy).Contents (Elt F)),
    unary main_arg7 main_v99 ((extractStridedSlice S1x128 ![1, 0] · slices_S3x128_S1x128_1_0) : (⟨S3x128, .f32⟩ : BufTy).Contents (Elt F) → (⟨S1x128, .f32⟩ : BufTy).Contents (Elt F)),
    reshape main_v99 main_v100 rfl shapeCasts_S1x128_S128,
    unary main_arg8 main_v101 ((extractStridedSlice S1x128 ![1, 0] · slices_S3x128_S1x128_1_0) : (⟨S3x128, .f32⟩ : BufTy).Contents (Elt F) → (⟨S1x128, .f32⟩ : BufTy).Contents (Elt F)),
    reshape main_v101 main_v102 rfl shapeCasts_S1x128_S128,
    nullary main_cst_15 (constant S_ .f32 0x00000000#32),
    binary main_v98 main_cst_15 main_v103 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v103 main_v104 (broadcastInDim S100000x1 ![0] bcast_S100000_S100000x1_0 : (⟨S100000, .f32⟩ : BufTy).Contents (Elt F) → (⟨S100000x1, .f32⟩ : BufTy).Contents (Elt F)),
    nullary main_cst_16 (constant S_ .f32 0x43000000#32),
    unary main_cst_16 main_v105 (broadcastInDim S100000x1 ![] bcast_S_S100000x1 : (⟨S_, .f32⟩ : BufTy).Contents (Elt F) → (⟨S100000x1, .f32⟩ : BufTy).Contents (Elt F)),
    binary main_v104 main_v105 main_v106 (Host.divf : (⟨S100000x1, .f32⟩ : BufTy).Contents (Elt F) → (⟨S100000x1, .f32⟩ : BufTy).Contents (Elt F) → (⟨S100000x1, .f32⟩ : BufTy).Contents (Elt F)),
    unary main_v106 main_v107 (broadcastInDim S100000x128 ![0, 1] bcast_S100000x1_S100000x128_0_1 : (⟨S100000x1, .f32⟩ : BufTy).Contents (Elt F) → (⟨S100000x128, .f32⟩ : BufTy).Contents (Elt F)),
    binary main_v98 main_v107 main_v108 (subf : (⟨S100000x128, .f32⟩ : BufTy).Contents (Elt F) → (⟨S100000x128, .f32⟩ : BufTy).Contents (Elt F) → (⟨S100000x128, .f32⟩ : BufTy).Contents (Elt F)),
    binary main_v108 main_v108 main_v109 (mulf : (⟨S100000x128, .f32⟩ : BufTy).Contents (Elt F) → (⟨S100000x128, .f32⟩ : BufTy).Contents (Elt F) → (⟨S100000x128, .f32⟩ : BufTy).Contents (Elt F)),
    nullary main_cst_17 (constant S_ .f32 0x00000000#32),
    binary main_v109 main_cst_17 main_v110 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v110 main_v111 (broadcastInDim S100000x1 ![0] bcast_S100000_S100000x1_0 : (⟨S100000, .f32⟩ : BufTy).Contents (Elt F) → (⟨S100000x1, .f32⟩ : BufTy).Contents (Elt F)),
    nullary main_cst_18 (constant S_ .f32 0x43000000#32),
    unary main_cst_18 main_v112 (broadcastInDim S100000x1 ![] bcast_S_S100000x1 : (⟨S_, .f32⟩ : BufTy).Contents (Elt F) → (⟨S100000x1, .f32⟩ : BufTy).Contents (Elt F)),
    binary main_v111 main_v112 main_v113 (Host.divf : (⟨S100000x1, .f32⟩ : BufTy).Contents (Elt F) → (⟨S100000x1, .f32⟩ : BufTy).Contents (Elt F) → (⟨S100000x1, .f32⟩ : BufTy).Contents (Elt F)),
    unary main_v106 main_v114 (broadcastInDim S100000x128 ![0, 1] bcast_S100000x1_S100000x128_0_1 : (⟨S100000x1, .f32⟩ : BufTy).Contents (Elt F) → (⟨S100000x128, .f32⟩ : BufTy).Contents (Elt F)),
    binary main_v98 main_v114 main_v115 (subf : (⟨S100000x128, .f32⟩ : BufTy).Contents (Elt F) → (⟨S100000x128, .f32⟩ : BufTy).Contents (Elt F) → (⟨S100000x128, .f32⟩ : BufTy).Contents (Elt F)),
    nullary main_cst_19 (constant S_ .f32 0x3727C5AC#32),
    unary main_cst_19 main_v116 (broadcastInDim S100000x1 ![] bcast_S_S100000x1 : (⟨S_, .f32⟩ : BufTy).Contents (Elt F) → (⟨S100000x1, .f32⟩ : BufTy).Contents (Elt F)),
    binary main_v113 main_v116 main_v117 (addf : (⟨S100000x1, .f32⟩ : BufTy).Contents (Elt F) → (⟨S100000x1, .f32⟩ : BufTy).Contents (Elt F) → (⟨S100000x1, .f32⟩ : BufTy).Contents (Elt F)),
    unary main_v117 main_v118 (Host.rsqrt : (⟨S100000x1, .f32⟩ : BufTy).Contents (Elt F) → (⟨S100000x1, .f32⟩ : BufTy).Contents (Elt F)),
    unary main_v118 main_v119 (broadcastInDim S100000x128 ![0, 1] bcast_S100000x1_S100000x128_0_1 : (⟨S100000x1, .f32⟩ : BufTy).Contents (Elt F) → (⟨S100000x128, .f32⟩ : BufTy).Contents (Elt F)),
    binary main_v115 main_v119 main_v120 (mulf : (⟨S100000x128, .f32⟩ : BufTy).Contents (Elt F) → (⟨S100000x128, .f32⟩ : BufTy).Contents (Elt F) → (⟨S100000x128, .f32⟩ : BufTy).Contents (Elt F)),
    unary main_v100 main_v121 (broadcastInDim S1x128 ![1] bcast_S128_S1x128_1 : (⟨S128, .f32⟩ : BufTy).Contents (Elt F) → (⟨S1x128, .f32⟩ : BufTy).Contents (Elt F)),
    unary main_v121 main_v122 (broadcastInDim S100000x128 ![0, 1] bcast_S1x128_S100000x128_0_1 : (⟨S1x128, .f32⟩ : BufTy).Contents (Elt F) → (⟨S100000x128, .f32⟩ : BufTy).Contents (Elt F)),
    binary main_v120 main_v122 main_v123 (mulf : (⟨S100000x128, .f32⟩ : BufTy).Contents (Elt F) → (⟨S100000x128, .f32⟩ : BufTy).Contents (Elt F) → (⟨S100000x128, .f32⟩ : BufTy).Contents (Elt F)),
    unary main_v102 main_v124 (broadcastInDim S1x128 ![1] bcast_S128_S1x128_1 : (⟨S128, .f32⟩ : BufTy).Contents (Elt F) → (⟨S1x128, .f32⟩ : BufTy).Contents (Elt F)),
    unary main_v124 main_v125 (broadcastInDim S100000x128 ![0, 1] bcast_S1x128_S100000x128_0_1 : (⟨S1x128, .f32⟩ : BufTy).Contents (Elt F) → (⟨S100000x128, .f32⟩ : BufTy).Contents (Elt F)),
    binary main_v123 main_v125 main_v126 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x128, .f32⟩) main_call2_v0) (broadcastInDim S100000x128 ![] bcast_S_S100000x128),
    TRef.binary (TRef.of (T := ⟨S100000x128, .f32⟩) main_v126) (TRef.of (T := ⟨S100000x128, .f32⟩) main_call2_v0) (TRef.of (T := ⟨S100000x128, .f32⟩) main_v127) maximumf,
    binary main_v127 main_v68 main_v128 (addf : (⟨S100000x128, .f32⟩ : BufTy).Contents (Elt F) → (⟨S100000x128, .f32⟩ : BufTy).Contents (Elt F) → (⟨S100000x128, .f32⟩ : BufTy).Contents (Elt F)) ]

/-- The operations of layer 3. -/
abbrev c3 : List (HloOp τ sig (Elt F)) :=
  [ unary main_arg4 main_v129 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v129 main_v130 rfl shapeCasts_S1x128x128_S128x128,
    unary main_arg5 main_v131 ((extractStridedSlice S1x128 ![2, 0] · slices_S3x128_S1x128_2_0) : (⟨S3x128, .f32⟩ : BufTy).Contents (Elt F) → (⟨S1x128, .f32⟩ : BufTy).Contents (Elt F)),
    reshape main_v131 main_v132 rfl shapeCasts_S1x128_S128,
    unary main_arg6 main_v133 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v133 main_v134 rfl shapeCasts_S1x128x128_S128x128,
    nullary main_c_20 (constantI S_ 32 0#32),
    unary main_c_20 main_v135 (broadcastInDim S1600000 ![] bcast_S_S1600000 : (⟨S_, .i32⟩ : BufTy).Contents (Elt F) → (⟨S1600000, .i32⟩ : BufTy).Contents (Elt F)),
    binary main_v1 main_v135 main_v136 (cmpi .slt : (⟨S1600000, .i32⟩ : BufTy).Contents (Elt F) → (⟨S1600000, .i32⟩ : BufTy).Contents (Elt F) → (⟨S1600000, .i1⟩ : BufTy).Contents (Elt F)),
    nullary main_c_21 (constantI S_ 32 100000#32),
    unary main_c_21 main_v137 (broadcastInDim S1600000 ![] bcast_S_S1600000 : (⟨S_, .i32⟩ : BufTy).Contents (Elt F) → (⟨S1600000, .i32⟩ : BufTy).Contents (Elt F)),
    binary main_v1 main_v137 main_v138 (addi : (⟨S1600000, .i32⟩ : BufTy).Contents (Elt F) → (⟨S1600000, .i32⟩ : BufTy).Contents (Elt F) → (⟨S1600000, .i32⟩ : BufTy).Contents (Elt F)),
    ternary main_v136 main_v138 main_v1 main_v139 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v139 main_v140 (broadcastInDim S1600000x1 ![0] bcast_S1600000_S1600000x1_0 : (⟨S1600000, .i32⟩ : BufTy).Contents (Elt F) → (⟨S1600000x1, .i32⟩ : BufTy).Contents (Elt F)),
    binary main_v128 main_v140 main_v141 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_22 (constant S_ .f32 0x00000000#32),
    unary main_cst_22 main_v142 (broadcastInDim S100000x128 ![] bcast_S_S100000x128 : (⟨S_, .f32⟩ : BufTy).Contents (Elt F) → (⟨S100000x128, .f32⟩ : BufTy).Contents (Elt F)),
    unary main_v3 main_v143 (broadcastInDim S1600000x1 ![0] bcast_S1600000_S1600000x1_0 : (⟨S1600000, .i32⟩ : BufTy).Contents (Elt F) → (⟨S1600000x1, .i32⟩ : BufTy).Contents (Elt F)),
    ternary main_v142 main_v143 main_v141 main_v144 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    nullary main_cst_23 (constant S_ .f32 0x3F800000#32),
    unary main_cst_23 main_v145 (broadcastInDim S1600000x1 ![] bcast_S_S1600000x1 : (⟨S_, .f32⟩ : BufTy).Contents (Elt F) → (⟨S1600000x1, .f32⟩ : BufTy).Contents (Elt F)),
    nullary main_cst_24 (constant S_ .f32 0x00000000#32),
    unary main_cst_24 main_v146 (broadcastInDim S100000x1 ![] bcast_S_S100000x1 : (⟨S_, .f32⟩ : BufTy).Contents (Elt F) → (⟨S100000x1, .f32⟩ : BufTy).Contents (Elt F)),
    unary main_v3 main_v147 (broadcastInDim S1600000x1 ![0] bcast_S1600000_S1600000x1_0 : (⟨S1600000, .i32⟩ : BufTy).Contents (Elt F) → (⟨S1600000x1, .i32⟩ : BufTy).Contents (Elt F)),
    ternary main_v146 main_v147 main_v145 main_v148 ((fun x i u => Host.scatterAdd scatter_S100000x1_S1600000x1_S1600000x1_1_0_0_1 x i u) : (⟨S100000x1, .f32⟩ : BufTy).Contents (Elt F) → (⟨S1600000x1, .i32⟩ : BufTy).Contents (Elt F) → (⟨S1600000x1, .f32⟩ : BufTy).Contents (Elt F) → (⟨S100000x1, .f32⟩ : BufTy).Contents (Elt F)),
    nullary main_cst_25 (constant S_ .f32 0x3F800000#32),
    unary main_cst_25 main_v149 (broadcastInDim S100000x1 ![] bcast_S_S100000x1 : (⟨S_, .f32⟩ : BufTy).Contents (Elt F) → (⟨S100000x1, .f32⟩ : BufTy).Contents (Elt F)),
    binary main_v148 main_v149 main_v150 (maximumf : (⟨S100000x1, .f32⟩ : BufTy).Contents (Elt F) → (⟨S100000x1, .f32⟩ : BufTy).Contents (Elt F) → (⟨S100000x1, .f32⟩ : BufTy).Contents (Elt F)),
    unary main_v150 main_v151 (broadcastInDim S100000x128 ![0, 1] bcast_S100000x1_S100000x128_0_1 : (⟨S100000x1, .f32⟩ : BufTy).Contents (Elt F) → (⟨S100000x128, .f32⟩ : BufTy).Contents (Elt F)),
    binary main_v144 main_v151 main_v152 (Host.divf : (⟨S100000x128, .f32⟩ : BufTy).Contents (Elt F) → (⟨S100000x128, .f32⟩ : BufTy).Contents (Elt F) → (⟨S100000x128, .f32⟩ : BufTy).Contents (Elt F)),
    binary main_v152 main_v130 main_v153 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v132 main_v154 (broadcastInDim S1x128 ![1] bcast_S128_S1x128_1 : (⟨S128, .f32⟩ : BufTy).Contents (Elt F) → (⟨S1x128, .f32⟩ : BufTy).Contents (Elt F)),
    unary main_v154 main_v155 (broadcastInDim S100000x128 ![0, 1] bcast_S1x128_S100000x128_0_1 : (⟨S1x128, .f32⟩ : BufTy).Contents (Elt F) → (⟨S100000x128, .f32⟩ : BufTy).Contents (Elt F)),
    binary main_v153 main_v155 main_v156 (addf : (⟨S100000x128, .f32⟩ : BufTy).Contents (Elt F) → (⟨S100000x128, .f32⟩ : BufTy).Contents (Elt F) → (⟨S100000x128, .f32⟩ : BufTy).Contents (Elt F)),
    binary main_v128 main_v134 main_v157 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v156 main_v157 main_v158 (addf : (⟨S100000x128, .f32⟩ : BufTy).Contents (Elt F) → (⟨S100000x128, .f32⟩ : BufTy).Contents (Elt F) → (⟨S100000x128, .f32⟩ : BufTy).Contents (Elt F)),
    unary main_arg7 main_v159 ((extractStridedSlice S1x128 ![2, 0] · slices_S3x128_S1x128_2_0) : (⟨S3x128, .f32⟩ : BufTy).Contents (Elt F) → (⟨S1x128, .f32⟩ : BufTy).Contents (Elt F)),
    reshape main_v159 main_v160 rfl shapeCasts_S1x128_S128,
    unary main_arg8 main_v161 ((extractStridedSlice S1x128 ![2, 0] · slices_S3x128_S1x128_2_0) : (⟨S3x128, .f32⟩ : BufTy).Contents (Elt F) → (⟨S1x128, .f32⟩ : BufTy).Contents (Elt F)),
    reshape main_v161 main_v162 rfl shapeCasts_S1x128_S128,
    nullary main_cst_26 (constant S_ .f32 0x00000000#32),
    binary main_v158 main_cst_26 main_v163 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v163 main_v164 (broadcastInDim S100000x1 ![0] bcast_S100000_S100000x1_0 : (⟨S100000, .f32⟩ : BufTy).Contents (Elt F) → (⟨S100000x1, .f32⟩ : BufTy).Contents (Elt F)),
    nullary main_cst_27 (constant S_ .f32 0x43000000#32),
    unary main_cst_27 main_v165 (broadcastInDim S100000x1 ![] bcast_S_S100000x1 : (⟨S_, .f32⟩ : BufTy).Contents (Elt F) → (⟨S100000x1, .f32⟩ : BufTy).Contents (Elt F)),
    binary main_v164 main_v165 main_v166 (Host.divf : (⟨S100000x1, .f32⟩ : BufTy).Contents (Elt F) → (⟨S100000x1, .f32⟩ : BufTy).Contents (Elt F) → (⟨S100000x1, .f32⟩ : BufTy).Contents (Elt F)),
    unary main_v166 main_v167 (broadcastInDim S100000x128 ![0, 1] bcast_S100000x1_S100000x128_0_1 : (⟨S100000x1, .f32⟩ : BufTy).Contents (Elt F) → (⟨S100000x128, .f32⟩ : BufTy).Contents (Elt F)),
    binary main_v158 main_v167 main_v168 (subf : (⟨S100000x128, .f32⟩ : BufTy).Contents (Elt F) → (⟨S100000x128, .f32⟩ : BufTy).Contents (Elt F) → (⟨S100000x128, .f32⟩ : BufTy).Contents (Elt F)),
    binary main_v168 main_v168 main_v169 (mulf : (⟨S100000x128, .f32⟩ : BufTy).Contents (Elt F) → (⟨S100000x128, .f32⟩ : BufTy).Contents (Elt F) → (⟨S100000x128, .f32⟩ : BufTy).Contents (Elt F)),
    nullary main_cst_28 (constant S_ .f32 0x00000000#32),
    binary main_v169 main_cst_28 main_v170 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v170 main_v171 (broadcastInDim S100000x1 ![0] bcast_S100000_S100000x1_0 : (⟨S100000, .f32⟩ : BufTy).Contents (Elt F) → (⟨S100000x1, .f32⟩ : BufTy).Contents (Elt F)),
    nullary main_cst_29 (constant S_ .f32 0x43000000#32),
    unary main_cst_29 main_v172 (broadcastInDim S100000x1 ![] bcast_S_S100000x1 : (⟨S_, .f32⟩ : BufTy).Contents (Elt F) → (⟨S100000x1, .f32⟩ : BufTy).Contents (Elt F)),
    binary main_v171 main_v172 main_v173 (Host.divf : (⟨S100000x1, .f32⟩ : BufTy).Contents (Elt F) → (⟨S100000x1, .f32⟩ : BufTy).Contents (Elt F) → (⟨S100000x1, .f32⟩ : BufTy).Contents (Elt F)),
    unary main_v166 main_v174 (broadcastInDim S100000x128 ![0, 1] bcast_S100000x1_S100000x128_0_1 : (⟨S100000x1, .f32⟩ : BufTy).Contents (Elt F) → (⟨S100000x128, .f32⟩ : BufTy).Contents (Elt F)),
    binary main_v158 main_v174 main_v175 (subf : (⟨S100000x128, .f32⟩ : BufTy).Contents (Elt F) → (⟨S100000x128, .f32⟩ : BufTy).Contents (Elt F) → (⟨S100000x128, .f32⟩ : BufTy).Contents (Elt F)),
    nullary main_cst_30 (constant S_ .f32 0x3727C5AC#32),
    unary main_cst_30 main_v176 (broadcastInDim S100000x1 ![] bcast_S_S100000x1 : (⟨S_, .f32⟩ : BufTy).Contents (Elt F) → (⟨S100000x1, .f32⟩ : BufTy).Contents (Elt F)),
    binary main_v173 main_v176 main_v177 (addf : (⟨S100000x1, .f32⟩ : BufTy).Contents (Elt F) → (⟨S100000x1, .f32⟩ : BufTy).Contents (Elt F) → (⟨S100000x1, .f32⟩ : BufTy).Contents (Elt F)),
    unary main_v177 main_v178 (Host.rsqrt : (⟨S100000x1, .f32⟩ : BufTy).Contents (Elt F) → (⟨S100000x1, .f32⟩ : BufTy).Contents (Elt F)),
    unary main_v178 main_v179 (broadcastInDim S100000x128 ![0, 1] bcast_S100000x1_S100000x128_0_1 : (⟨S100000x1, .f32⟩ : BufTy).Contents (Elt F) → (⟨S100000x128, .f32⟩ : BufTy).Contents (Elt F)),
    binary main_v175 main_v179 main_v180 (mulf : (⟨S100000x128, .f32⟩ : BufTy).Contents (Elt F) → (⟨S100000x128, .f32⟩ : BufTy).Contents (Elt F) → (⟨S100000x128, .f32⟩ : BufTy).Contents (Elt F)),
    unary main_v160 main_v181 (broadcastInDim S1x128 ![1] bcast_S128_S1x128_1 : (⟨S128, .f32⟩ : BufTy).Contents (Elt F) → (⟨S1x128, .f32⟩ : BufTy).Contents (Elt F)),
    unary main_v181 main_v182 (broadcastInDim S100000x128 ![0, 1] bcast_S1x128_S100000x128_0_1 : (⟨S1x128, .f32⟩ : BufTy).Contents (Elt F) → (⟨S100000x128, .f32⟩ : BufTy).Contents (Elt F)),
    binary main_v180 main_v182 main_v183 (mulf : (⟨S100000x128, .f32⟩ : BufTy).Contents (Elt F) → (⟨S100000x128, .f32⟩ : BufTy).Contents (Elt F) → (⟨S100000x128, .f32⟩ : BufTy).Contents (Elt F)),
    unary main_v162 main_v184 (broadcastInDim S1x128 ![1] bcast_S128_S1x128_1 : (⟨S128, .f32⟩ : BufTy).Contents (Elt F) → (⟨S1x128, .f32⟩ : BufTy).Contents (Elt F)),
    unary main_v184 main_v185 (broadcastInDim S100000x128 ![0, 1] bcast_S1x128_S100000x128_0_1 : (⟨S1x128, .f32⟩ : BufTy).Contents (Elt F) → (⟨S100000x128, .f32⟩ : BufTy).Contents (Elt F)),
    binary main_v183 main_v185 main_v186 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x128, .f32⟩) main_call3_v0) (broadcastInDim S100000x128 ![] bcast_S_S100000x128),
    TRef.binary (TRef.of (T := ⟨S100000x128, .f32⟩) main_v186) (TRef.of (T := ⟨S100000x128, .f32⟩) main_call3_v0) (TRef.of (T := ⟨S100000x128, .f32⟩) main_v187) maximumf,
    binary main_v187 main_v128 main_v188 (addf : (⟨S100000x128, .f32⟩ : BufTy).Contents (Elt F) → (⟨S100000x128, .f32⟩ : BufTy).Contents (Elt F) → (⟨S100000x128, .f32⟩ : BufTy).Contents (Elt F)) ]

/-- The operations of the output step. -/
abbrev cOut : List (HloOp τ sig (Elt F)) :=
  [ nary ![main_v68, main_v128, main_v188] main_v189 (fun u => concatenate S100000x384 1 [⟨S100000x128, u 0⟩, ⟨S100000x128, u 1⟩, ⟨S100000x128, u 2⟩] concatenates_S100000x128_S100000x128_S100000x128_S100000x384_d1),
    binary main_v189 main_arg9 main_v190 ((fun l r => Host.dotGeneral dot_S100000x384_S384x16_S100000x16_1_0_0_1_n_n none l r) : (⟨S100000x384, .f32⟩ : BufTy).Contents (Elt F) → (⟨S384x16, .f32⟩ : BufTy).Contents (Elt F) → (⟨S100000x16, .f32⟩ : BufTy).Contents (Elt F)),
    unary main_arg10 main_v191 (broadcastInDim S1x16 ![1] bcast_S16_S1x16_1 : (⟨S16, .f32⟩ : BufTy).Contents (Elt F) → (⟨S1x16, .f32⟩ : BufTy).Contents (Elt F)),
    unary main_v191 main_v192 (broadcastInDim S100000x16 ![0, 1] bcast_S1x16_S100000x16_0_1 : (⟨S1x16, .f32⟩ : BufTy).Contents (Elt F) → (⟨S100000x16, .f32⟩ : BufTy).Contents (Elt F)),
    binary main_v190 main_v192 main_v193 (addf : (⟨S100000x16, .f32⟩ : BufTy).Contents (Elt F) → (⟨S100000x16, .f32⟩ : BufTy).Contents (Elt F) → (⟨S100000x16, .f32⟩ : BufTy).Contents (Elt F)) ]

set_option maxHeartbeats 4000000 in
/-- The program is the five stretches, in order. -/
theorem ops_split : (Cert.ReferenceIdeal.OpsP.ops (F := F)) = cA ++ (c1 ++ (c2 ++ (c3 ++ cOut))) := rfl

/-! ## What each stretch writes, and what it keeps -/

/-- The reference is declared at a position between `lo` and `hi`. -/
def inRange (lo hi : Nat) (r : Ref sig .tc) : Prop := lo ≤ r.idx.val ∧ r.idx.val ≤ hi

instance (lo hi : Nat) : DecidablePred (inRange lo hi) := fun r => by unfold inRange; infer_instance

theorem cA_writes : (cA (F := F)).Forall (WritesOne (inRange 11 21)) := by writes_one_each
theorem c1_writes : (c1 (F := F)).Forall (WritesOne (inRange 22 94)) := by writes_one_each
theorem c2_writes : (c2 (F := F)).Forall (WritesOne (inRange 95 167)) := by writes_one_each
theorem c3_writes : (c3 (F := F)).Forall (WritesOne (inRange 168 240)) := by writes_one_each
theorem cOut_writes : (cOut (F := F)).Forall (WritesOne (inRange 241 245)) := by writes_one_each

variable (W : Valuation τ sig (Elt F))

theorem keepA (r : Ref sig .tc) (hr : ¬ inRange 11 21 r) : after cA W (Proc.devRef .tc r) = W (Proc.devRef .tc r) :=
  after_keeps _ W cA_writes hr
theorem keep1 (r : Ref sig .tc) (hr : ¬ inRange 22 94 r) : after c1 W (Proc.devRef .tc r) = W (Proc.devRef .tc r) :=
  after_keeps _ W c1_writes hr
theorem keep2 (r : Ref sig .tc) (hr : ¬ inRange 95 167 r) : after c2 W (Proc.devRef .tc r) = W (Proc.devRef .tc r) :=
  after_keeps _ W c2_writes hr
theorem keep3 (r : Ref sig .tc) (hr : ¬ inRange 168 240 r) : after c3 W (Proc.devRef .tc r) = W (Proc.devRef .tc r) :=
  after_keeps _ W c3_writes hr
theorem keepOut (r : Ref sig .tc) (hr : ¬ inRange 241 245 r) : after cOut W (Proc.devRef .tc r) = W (Proc.devRef .tc r) :=
  after_keeps _ W cOut_writes hr

end Cert.Sage.Ref

end
-- ==== Proof.RefRunA.lean ====
/-
  The first stretch of the reference, read at the buffers the layers take: the projected input and the two id
  arrays.  From any contents `W`, after the stretch the projected input's buffer holds relu of the dense map of the
  input array found in `W`, and the two id buffers hold the two rows of the edge array found in `W`; each is the
  stage of the same name applied to the arguments' contents.
-/
import proofs.«121075_j4492535791673_1_alg».proof.Proof.RefChunks
import proofs.«121075_j4492535791673_1_alg».proof.Proof.RefRead
import Idealize.ShloMosaic.Lib.StableHlo.Run

set_option maxRecDepth 16384

noncomputable section

namespace Cert.Sage.Ref

open Cert.ReferenceIdeal Cert.ReferenceIdeal.Gen Cert.ReferenceIdeal.ReadP
open Idealize.ShloMosaic Idealize.ShloMosaic.TcCoe Idealize.SL.Sem Idealize.ShloMosaic.StableHlo

variable (W : Valuation τ sig (Elt Ideal))

/-- The projected input after the first stretch. -/
theorem cA_h0 : after cA W (Proc.devRef .tc main_v8)
    = val_main_v8 (F := Ideal) (W (Proc.devRef .tc main_arg0)) (W (Proc.devRef .tc main_arg2)) (W (Proc.devRef .tc main_arg3)) := by
  after_results_simp
  rfl

/-- The source ids after the first stretch. -/
theorem cA_src : after cA W (Proc.devRef .tc main_v1) = val_main_v1 (F := Ideal) (W (Proc.devRef .tc main_arg1)) := by
  after_results_simp
  rfl

/-- The destination ids after the first stretch. -/
theorem cA_dst : after cA W (Proc.devRef .tc main_v3) = val_main_v3 (F := Ideal) (W (Proc.devRef .tc main_arg1)) := by
  after_results_simp
  rfl

end Cert.Sage.Ref

end
-- ==== Proof.RefRun1.lean ====
/-
  Layer 1's stretch of the reference, read at its result.  Entered with contents `W` that hold the layer's input
  rows, the two id arrays and the stacked weights, the stretch leaves in its result buffer the layer's stage of the
  argument arrays: every operation's result is its function of the buffers it reads, and following the operations
  back from the result reaches only those entering buffers.  The stretch is read in two parts: everything up to
  the normalised, scaled and shifted rows; then the clip at zero and the sum with the layer's input, which are read
  once from ANY rows, so that no reading has to look through the clip into the rows' own term.
-/
import proofs.«121075_j4492535791673_1_alg».proof.Proof.RefChunks
import proofs.«121075_j4492535791673_1_alg».proof.Proof.RefGraph
import Idealize.ShloMosaic.Lib.StableHlo.Run

set_option maxRecDepth 16384

noncomputable section

namespace Cert.Sage.Ref

open Cert.ReferenceIdeal Cert.ReferenceIdeal.Gen Cert.ReferenceIdeal.ReadP
open Idealize.ShloMosaic Idealize.ShloMosaic.TcCoe Idealize.SL.Sem Idealize.ShloMosaic.StableHlo

section Parts
variable {F : FTy → Type} [FloatOps F]

/-- The stretch up to the normalised, scaled and shifted rows. -/
abbrev c1h : List (HloOp τ sig (Elt F)) :=
  [ unary main_arg4 main_v9 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v9 main_v10 rfl shapeCasts_S1x128x128_S128x128,
    unary main_arg5 main_v11 ((extractStridedSlice S1x128 ![0, 0] · slices_S3x128_S1x128_0_0) : (⟨S3x128, .f32⟩ : BufTy).Contents (Elt F) → (⟨S1x128, .f32⟩ : BufTy).Contents (Elt F)),
    reshape main_v11 main_v12 rfl shapeCasts_S1x128_S128,
    unary main_arg6 main_v13 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v13 main_v14 rfl shapeCasts_S1x128x128_S128x128,
    nullary main_c (constantI S_ 32 0#32),
    unary main_c main_v15 (broadcastInDim S1600000 ![] bcast_S_S1600000 : (⟨S_, .i32⟩ : BufTy).Contents (Elt F) → (⟨S1600000, .i32⟩ : BufTy).Contents (Elt F)),
    binary main_v1 main_v15 main_v16 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v17 (broadcastInDim S1600000 ![] bcast_S_S1600000 : (⟨S_, .i32⟩ : BufTy).Contents (Elt F) → (⟨S1600000, .i32⟩ : BufTy).Contents (Elt F)),
    binary main_v1 main_v17 main_v18 (addi : (⟨S1600000, .i32⟩ : BufTy).Contents (Elt F) → (⟨S1600000, .i32⟩ : BufTy).Contents (Elt F) → (⟨S1600000, .i32⟩ : BufTy).Contents (Elt F)),
    ternary main_v16 main_v18 main_v1 main_v19 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v19 main_v20 (broadcastInDim S1600000x1 ![0] bcast_S1600000_S1600000x1_0 : (⟨S1600000, .i32⟩ : BufTy).Contents (Elt F) → (⟨S1600000x1, .i32⟩ : BufTy).Contents (Elt F)),
    binary main_v8 main_v20 main_v21 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst (constant S_ .f32 0x00000000#32),
    unary main_cst main_v22 (broadcastInDim S100000x128 ![] bcast_S_S100000x128 : (⟨S_, .f32⟩ : BufTy).Contents (Elt F) → (⟨S100000x128, .f32⟩ : BufTy).Contents (Elt F)),
    unary main_v3 main_v23 (broadcastInDim S1600000x1 ![0] bcast_S1600000_S1600000x1_0 : (⟨S1600000, .i32⟩ : BufTy).Contents (Elt F) → (⟨S1600000x1, .i32⟩ : BufTy).Contents (Elt F)),
    ternary main_v22 main_v23 main_v21 main_v24 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    nullary main_cst_1 (constant S_ .f32 0x3F800000#32),
    unary main_cst_1 main_v25 (broadcastInDim S1600000x1 ![] bcast_S_S1600000x1 : (⟨S_, .f32⟩ : BufTy).Contents (Elt F) → (⟨S1600000x1, .f32⟩ : BufTy).Contents (Elt F)),
    nullary main_cst_2 (constant S_ .f32 0x00000000#32),
    unary main_cst_2 main_v26 (broadcastInDim S100000x1 ![] bcast_S_S100000x1 : (⟨S_, .f32⟩ : BufTy).Contents (Elt F) → (⟨S100000x1, .f32⟩ : BufTy).Contents (Elt F)),
    unary main_v3 main_v27 (broadcastInDim S1600000x1 ![0] bcast_S1600000_S1600000x1_0 : (⟨S1600000, .i32⟩ : BufTy).Contents (Elt F) → (⟨S1600000x1, .i32⟩ : BufTy).Contents (Elt F)),
    ternary main_v26 main_v27 main_v25 main_v28 ((fun x i u => Host.scatterAdd scatter_S100000x1_S1600000x1_S1600000x1_1_0_0_1 x i u) : (⟨S100000x1, .f32⟩ : BufTy).Contents (Elt F) → (⟨S1600000x1, .i32⟩ : BufTy).Contents (Elt F) → (⟨S1600000x1, .f32⟩ : BufTy).Contents (Elt F) → (⟨S100000x1, .f32⟩ : BufTy).Contents (Elt F)),
    nullary main_cst_3 (constant S_ .f32 0x3F800000#32),
    unary main_cst_3 main_v29 (broadcastInDim S100000x1 ![] bcast_S_S100000x1 : (⟨S_, .f32⟩ : BufTy).Contents (Elt F) → (⟨S100000x1, .f32⟩ : BufTy).Contents (Elt F)),
    binary main_v28 main_v29 main_v30 (maximumf : (⟨S100000x1, .f32⟩ : BufTy).Contents (Elt F) → (⟨S100000x1, .f32⟩ : BufTy).Contents (Elt F) → (⟨S100000x1, .f32⟩ : BufTy).Contents (Elt F)),
    unary main_v30 main_v31 (broadcastInDim S100000x128 ![0, 1] bcast_S100000x1_S100000x128_0_1 : (⟨S100000x1, .f32⟩ : BufTy).Contents (Elt F) → (⟨S100000x128, .f32⟩ : BufTy).Contents (Elt F)),
    binary main_v24 main_v31 main_v32 (Host.divf : (⟨S100000x128, .f32⟩ : BufTy).Contents (Elt F) → (⟨S100000x128, .f32⟩ : BufTy).Contents (Elt F) → (⟨S100000x128, .f32⟩ : BufTy).Contents (Elt F)),
    binary main_v32 main_v10 main_v33 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v12 main_v34 (broadcastInDim S1x128 ![1] bcast_S128_S1x128_1 : (⟨S128, .f32⟩ : BufTy).Contents (Elt F) → (⟨S1x128, .f32⟩ : BufTy).Contents (Elt F)),
    unary main_v34 main_v35 (broadcastInDim S100000x128 ![0, 1] bcast_S1x128_S100000x128_0_1 : (⟨S1x128, .f32⟩ : BufTy).Contents (Elt F) → (⟨S100000x128, .f32⟩ : BufTy).Contents (Elt F)),
    binary main_v33 main_v35 main_v36 (addf : (⟨S100000x128, .f32⟩ : BufTy).Contents (Elt F) → (⟨S100000x128, .f32⟩ : BufTy).Contents (Elt F) → (⟨S100000x128, .f32⟩ : BufTy).Contents (Elt F)),
    binary main_v8 main_v14 main_v37 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v36 main_v37 main_v38 (addf : (⟨S100000x128, .f32⟩ : BufTy).Contents (Elt F) → (⟨S100000x128, .f32⟩ : BufTy).Contents (Elt F) → (⟨S100000x128, .f32⟩ : BufTy).Contents (Elt F)),
    unary main_arg7 main_v39 ((extractStridedSlice S1x128 ![0, 0] · slices_S3x128_S1x128_0_0) : (⟨S3x128, .f32⟩ : BufTy).Contents (Elt F) → (⟨S1x128, .f32⟩ : BufTy).Contents (Elt F)),
    reshape main_v39 main_v40 rfl shapeCasts_S1x128_S128,
    unary main_arg8 main_v41 ((extractStridedSlice S1x128 ![0, 0] · slices_S3x128_S1x128_0_0) : (⟨S3x128, .f32⟩ : BufTy).Contents (Elt F) → (⟨S1x128, .f32⟩ : BufTy).Contents (Elt F)),
    reshape main_v41 main_v42 rfl shapeCasts_S1x128_S128,
    nullary main_cst_4 (constant S_ .f32 0x00000000#32),
    binary main_v38 main_cst_4 main_v43 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v43 main_v44 (broadcastInDim S100000x1 ![0] bcast_S100000_S100000x1_0 : (⟨S100000, .f32⟩ : BufTy).Contents (Elt F) → (⟨S100000x1, .f32⟩ : BufTy).Contents (Elt F)),
    nullary main_cst_5 (constant S_ .f32 0x43000000#32),
    unary main_cst_5 main_v45 (broadcastInDim S100000x1 ![] bcast_S_S100000x1 : (⟨S_, .f32⟩ : BufTy).Contents (Elt F) → (⟨S100000x1, .f32⟩ : BufTy).Contents (Elt F)),
    binary main_v44 main_v45 main_v46 (Host.divf : (⟨S100000x1, .f32⟩ : BufTy).Contents (Elt F) → (⟨S100000x1, .f32⟩ : BufTy).Contents (Elt F) → (⟨S100000x1, .f32⟩ : BufTy).Contents (Elt F)),
    unary main_v46 main_v47 (broadcastInDim S100000x128 ![0, 1] bcast_S100000x1_S100000x128_0_1 : (⟨S100000x1, .f32⟩ : BufTy).Contents (Elt F) → (⟨S100000x128, .f32⟩ : BufTy).Contents (Elt F)),
    binary main_v38 main_v47 main_v48 (subf : (⟨S100000x128, .f32⟩ : BufTy).Contents (Elt F) → (⟨S100000x128, .f32⟩ : BufTy).Contents (Elt F) → (⟨S100000x128, .f32⟩ : BufTy).Contents (Elt F)),
    binary main_v48 main_v48 main_v49 (mulf : (⟨S100000x128, .f32⟩ : BufTy).Contents (Elt F) → (⟨S100000x128, .f32⟩ : BufTy).Contents (Elt F) → (⟨S100000x128, .f32⟩ : BufTy).Contents (Elt F)),
    nullary main_cst_6 (constant S_ .f32 0x00000000#32),
    binary main_v49 main_cst_6 main_v50 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v50 main_v51 (broadcastInDim S100000x1 ![0] bcast_S100000_S100000x1_0 : (⟨S100000, .f32⟩ : BufTy).Contents (Elt F) → (⟨S100000x1, .f32⟩ : BufTy).Contents (Elt F)),
    nullary main_cst_7 (constant S_ .f32 0x43000000#32),
    unary main_cst_7 main_v52 (broadcastInDim S100000x1 ![] bcast_S_S100000x1 : (⟨S_, .f32⟩ : BufTy).Contents (Elt F) → (⟨S100000x1, .f32⟩ : BufTy).Contents (Elt F)),
    binary main_v51 main_v52 main_v53 (Host.divf : (⟨S100000x1, .f32⟩ : BufTy).Contents (Elt F) → (⟨S100000x1, .f32⟩ : BufTy).Contents (Elt F) → (⟨S100000x1, .f32⟩ : BufTy).Contents (Elt F)),
    unary main_v46 main_v54 (broadcastInDim S100000x128 ![0, 1] bcast_S100000x1_S100000x128_0_1 : (⟨S100000x1, .f32⟩ : BufTy).Contents (Elt F) → (⟨S100000x128, .f32⟩ : BufTy).Contents (Elt F)),
    binary main_v38 main_v54 main_v55 (subf : (⟨S100000x128, .f32⟩ : BufTy).Contents (Elt F) → (⟨S100000x128, .f32⟩ : BufTy).Contents (Elt F) → (⟨S100000x128, .f32⟩ : BufTy).Contents (Elt F)),
    nullary main_cst_8 (constant S_ .f32 0x3727C5AC#32),
    unary main_cst_8 main_v56 (broadcastInDim S100000x1 ![] bcast_S_S100000x1 : (⟨S_, .f32⟩ : BufTy).Contents (Elt F) → (⟨S100000x1, .f32⟩ : BufTy).Contents (Elt F)),
    binary main_v53 main_v56 main_v57 (addf : (⟨S100000x1, .f32⟩ : BufTy).Contents (Elt F) → (⟨S100000x1, .f32⟩ : BufTy).Contents (Elt F) → (⟨S100000x1, .f32⟩ : BufTy).Contents (Elt F)),
    unary main_v57 main_v58 (Host.rsqrt : (⟨S100000x1, .f32⟩ : BufTy).Contents (Elt F) → (⟨S100000x1, .f32⟩ : BufTy).Contents (Elt F)),
    unary main_v58 main_v59 (broadcastInDim S100000x128 ![0, 1] bcast_S100000x1_S100000x128_0_1 : (⟨S100000x1, .f32⟩ : BufTy).Contents (Elt F) → (⟨S100000x128, .f32⟩ : BufTy).Contents (Elt F)),
    binary main_v55 main_v59 main_v60 (mulf : (⟨S100000x128, .f32⟩ : BufTy).Contents (Elt F) → (⟨S100000x128, .f32⟩ : BufTy).Contents (Elt F) → (⟨S100000x128, .f32⟩ : BufTy).Contents (Elt F)),
    unary main_v40 main_v61 (broadcastInDim S1x128 ![1] bcast_S128_S1x128_1 : (⟨S128, .f32⟩ : BufTy).Contents (Elt F) → (⟨S1x128, .f32⟩ : BufTy).Contents (Elt F)),
    unary main_v61 main_v62 (broadcastInDim S100000x128 ![0, 1] bcast_S1x128_S100000x128_0_1 : (⟨S1x128, .f32⟩ : BufTy).Contents (Elt F) → (⟨S100000x128, .f32⟩ : BufTy).Contents (Elt F)),
    binary main_v60 main_v62 main_v63 (mulf : (⟨S100000x128, .f32⟩ : BufTy).Contents (Elt F) → (⟨S100000x128, .f32⟩ : BufTy).Contents (Elt F) → (⟨S100000x128, .f32⟩ : BufTy).Contents (Elt F)),
    unary main_v42 main_v64 (broadcastInDim S1x128 ![1] bcast_S128_S1x128_1 : (⟨S128, .f32⟩ : BufTy).Contents (Elt F) → (⟨S1x128, .f32⟩ : BufTy).Contents (Elt F)),
    unary main_v64 main_v65 (broadcastInDim S100000x128 ![0, 1] bcast_S1x128_S100000x128_0_1 : (⟨S1x128, .f32⟩ : BufTy).Contents (Elt F) → (⟨S100000x128, .f32⟩ : BufTy).Contents (Elt F)),
    binary main_v63 main_v65 main_v66 (addf : (⟨S100000x128, .f32⟩ : BufTy).Contents (Elt F) → (⟨S100000x128, .f32⟩ : BufTy).Contents (Elt F) → (⟨S100000x128, .f32⟩ : BufTy).Contents (Elt F)) ]

/-- The clip at zero and the sum with the layer's input. -/
abbrev c1t : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v66) (TRef.of (T := ⟨S100000x128, .f32⟩) main_call1_v0) (TRef.of (T := ⟨S100000x128, .f32⟩) main_v67) maximumf,
    binary main_v67 main_v8 main_v68 (addf : (⟨S100000x128, .f32⟩ : BufTy).Contents (Elt F) → (⟨S100000x128, .f32⟩ : BufTy).Contents (Elt F) → (⟨S100000x128, .f32⟩ : BufTy).Contents (Elt F)) ]

/-- The stretch is its two parts. -/
theorem c1_cut : (c1 (F := F)) = c1h ++ c1t := rfl
end Parts

variable (W : Valuation τ sig (Elt Ideal))

/-- The second part from any contents: the rows found in the first buffer, clipped at zero, plus the rows found in
    the second. -/
theorem c1t_read (y h : Nodes) (hy : W (Proc.devRef .tc main_v66) = y) (hh : W (Proc.devRef .tc main_v8) = h) :
    after c1t W (Proc.devRef .tc main_v68)
      = addf (maximumf y (broadcastInDim S100000x128 ![] bcast_S_S100000x128 (constant (F := Ideal) S_ .f32 0x00000000#32))) h := by
  after_results_simp
  rw [hy, hh]
  rfl

/-- Layer 1's result after its stretch. -/
theorem c1_read (x0 : Nodes) (x1 : Edges) (x2 : Sq) (x3 : Vec) (x4 : Sq3) (x5 : Vec3) (x6 : Sq3) (x7 x8 : Vec3)
    (hin : W (Proc.devRef .tc main_v8) = val_main_v8 (F := Ideal) x0 x2 x3)
    (h1 : W (Proc.devRef .tc main_v1) = val_main_v1 (F := Ideal) x1)
    (h3 : W (Proc.devRef .tc main_v3) = val_main_v3 (F := Ideal) x1)
    (a4 : W (Proc.devRef .tc main_arg4) = x4) (a5 : W (Proc.devRef .tc main_arg5) = x5)
    (a6 : W (Proc.devRef .tc main_arg6) = x6) (a7 : W (Proc.devRef .tc main_arg7) = x7)
    (a8 : W (Proc.devRef .tc main_arg8) = x8) :
    after c1 W (Proc.devRef .tc main_v68) = val_main_v68 (F := Ideal) x0 x1 x2 x3 x4 x5 x6 x7 x8 := by
  rw [c1_cut, after_append]
  have hpre : after c1h W (Proc.devRef .tc main_v66) = val_main_v66 (F := Ideal) x0 x1 x2 x3 x4 x5 x6 x7 x8 := by
    after_results_simp
    rw [hin, h1, h3, a4, a5, a6, a7, a8]
    rfl
  have hres : after c1h W (Proc.devRef .tc main_v8) = val_main_v8 (F := Ideal) x0 x2 x3 := by
    after_results_simp
    exact hin
  exact (c1t_read (after c1h W) _ _ hpre hres).trans rfl

end Cert.Sage.Ref

end
-- ==== Proof.RefRun2.lean ====
/-
  Layer 2's stretch of the reference, read at its result.  Entered with contents `W` that hold the layer's input
  rows, the two id arrays and the stacked weights, the stretch leaves in its result buffer the layer's stage of the
  argument arrays: every operation's result is its function of the buffers it reads, and following the operations
  back from the result reaches only those entering buffers.  The stretch is read in two parts: everything up to
  the normalised, scaled and shifted rows; then the clip at zero and the sum with the layer's input, which are read
  once from ANY rows, so that no reading has to look through the clip into the rows' own term.
-/
import proofs.«121075_j4492535791673_1_alg».proof.Proof.RefChunks
import proofs.«121075_j4492535791673_1_alg».proof.Proof.RefGraph
import Idealize.ShloMosaic.Lib.StableHlo.Run

set_option maxRecDepth 16384

noncomputable section

namespace Cert.Sage.Ref

open Cert.ReferenceIdeal Cert.ReferenceIdeal.Gen Cert.ReferenceIdeal.ReadP
open Idealize.ShloMosaic Idealize.ShloMosaic.TcCoe Idealize.SL.Sem Idealize.ShloMosaic.StableHlo

section Parts
variable {F : FTy → Type} [FloatOps F]

/-- The stretch up to the normalised, scaled and shifted rows. -/
abbrev c2h : List (HloOp τ sig (Elt F)) :=
  [ unary main_arg4 main_v69 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v69 main_v70 rfl shapeCasts_S1x128x128_S128x128,
    unary main_arg5 main_v71 ((extractStridedSlice S1x128 ![1, 0] · slices_S3x128_S1x128_1_0) : (⟨S3x128, .f32⟩ : BufTy).Contents (Elt F) → (⟨S1x128, .f32⟩ : BufTy).Contents (Elt F)),
    reshape main_v71 main_v72 rfl shapeCasts_S1x128_S128,
    unary main_arg6 main_v73 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v73 main_v74 rfl shapeCasts_S1x128x128_S128x128,
    nullary main_c_9 (constantI S_ 32 0#32),
    unary main_c_9 main_v75 (broadcastInDim S1600000 ![] bcast_S_S1600000 : (⟨S_, .i32⟩ : BufTy).Contents (Elt F) → (⟨S1600000, .i32⟩ : BufTy).Contents (Elt F)),
    binary main_v1 main_v75 main_v76 (cmpi .slt : (⟨S1600000, .i32⟩ : BufTy).Contents (Elt F) → (⟨S1600000, .i32⟩ : BufTy).Contents (Elt F) → (⟨S1600000, .i1⟩ : BufTy).Contents (Elt F)),
    nullary main_c_10 (constantI S_ 32 100000#32),
    unary main_c_10 main_v77 (broadcastInDim S1600000 ![] bcast_S_S1600000 : (⟨S_, .i32⟩ : BufTy).Contents (Elt F) → (⟨S1600000, .i32⟩ : BufTy).Contents (Elt F)),
    binary main_v1 main_v77 main_v78 (addi : (⟨S1600000, .i32⟩ : BufTy).Contents (Elt F) → (⟨S1600000, .i32⟩ : BufTy).Contents (Elt F) → (⟨S1600000, .i32⟩ : BufTy).Contents (Elt F)),
    ternary main_v76 main_v78 main_v1 main_v79 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v79 main_v80 (broadcastInDim S1600000x1 ![0] bcast_S1600000_S1600000x1_0 : (⟨S1600000, .i32⟩ : BufTy).Contents (Elt F) → (⟨S1600000x1, .i32⟩ : BufTy).Contents (Elt F)),
    binary main_v68 main_v80 main_v81 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_11 (constant S_ .f32 0x00000000#32),
    unary main_cst_11 main_v82 (broadcastInDim S100000x128 ![] bcast_S_S100000x128 : (⟨S_, .f32⟩ : BufTy).Contents (Elt F) → (⟨S100000x128, .f32⟩ : BufTy).Contents (Elt F)),
    unary main_v3 main_v83 (broadcastInDim S1600000x1 ![0] bcast_S1600000_S1600000x1_0 : (⟨S1600000, .i32⟩ : BufTy).Contents (Elt F) → (⟨S1600000x1, .i32⟩ : BufTy).Contents (Elt F)),
    ternary main_v82 main_v83 main_v81 main_v84 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    nullary main_cst_12 (constant S_ .f32 0x3F800000#32),
    unary main_cst_12 main_v85 (broadcastInDim S1600000x1 ![] bcast_S_S1600000x1 : (⟨S_, .f32⟩ : BufTy).Contents (Elt F) → (⟨S1600000x1, .f32⟩ : BufTy).Contents (Elt F)),
    nullary main_cst_13 (constant S_ .f32 0x00000000#32),
    unary main_cst_13 main_v86 (broadcastInDim S100000x1 ![] bcast_S_S100000x1 : (⟨S_, .f32⟩ : BufTy).Contents (Elt F) → (⟨S100000x1, .f32⟩ : BufTy).Contents (Elt F)),
    unary main_v3 main_v87 (broadcastInDim S1600000x1 ![0] bcast_S1600000_S1600000x1_0 : (⟨S1600000, .i32⟩ : BufTy).Contents (Elt F) → (⟨S1600000x1, .i32⟩ : BufTy).Contents (Elt F)),
    ternary main_v86 main_v87 main_v85 main_v88 ((fun x i u => Host.scatterAdd scatter_S100000x1_S1600000x1_S1600000x1_1_0_0_1 x i u) : (⟨S100000x1, .f32⟩ : BufTy).Contents (Elt F) → (⟨S1600000x1, .i32⟩ : BufTy).Contents (Elt F) → (⟨S1600000x1, .f32⟩ : BufTy).Contents (Elt F) → (⟨S100000x1, .f32⟩ : BufTy).Contents (Elt F)),
    nullary main_cst_14 (constant S_ .f32 0x3F800000#32),
    unary main_cst_14 main_v89 (broadcastInDim S100000x1 ![] bcast_S_S100000x1 : (⟨S_, .f32⟩ : BufTy).Contents (Elt F) → (⟨S100000x1, .f32⟩ : BufTy).Contents (Elt F)),
    binary main_v88 main_v89 main_v90 (maximumf : (⟨S100000x1, .f32⟩ : BufTy).Contents (Elt F) → (⟨S100000x1, .f32⟩ : BufTy).Contents (Elt F) → (⟨S100000x1, .f32⟩ : BufTy).Contents (Elt F)),
    unary main_v90 main_v91 (broadcastInDim S100000x128 ![0, 1] bcast_S100000x1_S100000x128_0_1 : (⟨S100000x1, .f32⟩ : BufTy).Contents (Elt F) → (⟨S100000x128, .f32⟩ : BufTy).Contents (Elt F)),
    binary main_v84 main_v91 main_v92 (Host.divf : (⟨S100000x128, .f32⟩ : BufTy).Contents (Elt F) → (⟨S100000x128, .f32⟩ : BufTy).Contents (Elt F) → (⟨S100000x128, .f32⟩ : BufTy).Contents (Elt F)),
    binary main_v92 main_v70 main_v93 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v72 main_v94 (broadcastInDim S1x128 ![1] bcast_S128_S1x128_1 : (⟨S128, .f32⟩ : BufTy).Contents (Elt F) → (⟨S1x128, .f32⟩ : BufTy).Contents (Elt F)),
    unary main_v94 main_v95 (broadcastInDim S100000x128 ![0, 1] bcast_S1x128_S100000x128_0_1 : (⟨S1x128, .f32⟩ : BufTy).Contents (Elt F) → (⟨S100000x128, .f32⟩ : BufTy).Contents (Elt F)),
    binary main_v93 main_v95 main_v96 (addf : (⟨S100000x128, .f32⟩ : BufTy).Contents (Elt F) → (⟨S100000x128, .f32⟩ : BufTy).Contents (Elt F) → (⟨S100000x128, .f32⟩ : BufTy).Contents (Elt F)),
    binary main_v68 main_v74 main_v97 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v96 main_v97 main_v98 (addf : (⟨S100000x128, .f32⟩ : BufTy).Contents (Elt F) → (⟨S100000x128, .f32⟩ : BufTy).Contents (Elt F) → (⟨S100000x128, .f32⟩ : BufTy).Contents (Elt F)),
    unary main_arg7 main_v99 ((extractStridedSlice S1x128 ![1, 0] · slices_S3x128_S1x128_1_0) : (⟨S3x128, .f32⟩ : BufTy).Contents (Elt F) → (⟨S1x128, .f32⟩ : BufTy).Contents (Elt F)),
    reshape main_v99 main_v100 rfl shapeCasts_S1x128_S128,
    unary main_arg8 main_v101 ((extractStridedSlice S1x128 ![1, 0] · slices_S3x128_S1x128_1_0) : (⟨S3x128, .f32⟩ : BufTy).Contents (Elt F) → (⟨S1x128, .f32⟩ : BufTy).Contents (Elt F)),
    reshape main_v101 main_v102 rfl shapeCasts_S1x128_S128,
    nullary main_cst_15 (constant S_ .f32 0x00000000#32),
    binary main_v98 main_cst_15 main_v103 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v103 main_v104 (broadcastInDim S100000x1 ![0] bcast_S100000_S100000x1_0 : (⟨S100000, .f32⟩ : BufTy).Contents (Elt F) → (⟨S100000x1, .f32⟩ : BufTy).Contents (Elt F)),
    nullary main_cst_16 (constant S_ .f32 0x43000000#32),
    unary main_cst_16 main_v105 (broadcastInDim S100000x1 ![] bcast_S_S100000x1 : (⟨S_, .f32⟩ : BufTy).Contents (Elt F) → (⟨S100000x1, .f32⟩ : BufTy).Contents (Elt F)),
    binary main_v104 main_v105 main_v106 (Host.divf : (⟨S100000x1, .f32⟩ : BufTy).Contents (Elt F) → (⟨S100000x1, .f32⟩ : BufTy).Contents (Elt F) → (⟨S100000x1, .f32⟩ : BufTy).Contents (Elt F)),
    unary main_v106 main_v107 (broadcastInDim S100000x128 ![0, 1] bcast_S100000x1_S100000x128_0_1 : (⟨S100000x1, .f32⟩ : BufTy).Contents (Elt F) → (⟨S100000x128, .f32⟩ : BufTy).Contents (Elt F)),
    binary main_v98 main_v107 main_v108 (subf : (⟨S100000x128, .f32⟩ : BufTy).Contents (Elt F) → (⟨S100000x128, .f32⟩ : BufTy).Contents (Elt F) → (⟨S100000x128, .f32⟩ : BufTy).Contents (Elt F)),
    binary main_v108 main_v108 main_v109 (mulf : (⟨S100000x128, .f32⟩ : BufTy).Contents (Elt F) → (⟨S100000x128, .f32⟩ : BufTy).Contents (Elt F) → (⟨S100000x128, .f32⟩ : BufTy).Contents (Elt F)),
    nullary main_cst_17 (constant S_ .f32 0x00000000#32),
    binary main_v109 main_cst_17 main_v110 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v110 main_v111 (broadcastInDim S100000x1 ![0] bcast_S100000_S100000x1_0 : (⟨S100000, .f32⟩ : BufTy).Contents (Elt F) → (⟨S100000x1, .f32⟩ : BufTy).Contents (Elt F)),
    nullary main_cst_18 (constant S_ .f32 0x43000000#32),
    unary main_cst_18 main_v112 (broadcastInDim S100000x1 ![] bcast_S_S100000x1 : (⟨S_, .f32⟩ : BufTy).Contents (Elt F) → (⟨S100000x1, .f32⟩ : BufTy).Contents (Elt F)),
    binary main_v111 main_v112 main_v113 (Host.divf : (⟨S100000x1, .f32⟩ : BufTy).Contents (Elt F) → (⟨S100000x1, .f32⟩ : BufTy).Contents (Elt F) → (⟨S100000x1, .f32⟩ : BufTy).Contents (Elt F)),
    unary main_v106 main_v114 (broadcastInDim S100000x128 ![0, 1] bcast_S100000x1_S100000x128_0_1 : (⟨S100000x1, .f32⟩ : BufTy).Contents (Elt F) → (⟨S100000x128, .f32⟩ : BufTy).Contents (Elt F)),
    binary main_v98 main_v114 main_v115 (subf : (⟨S100000x128, .f32⟩ : BufTy).Contents (Elt F) → (⟨S100000x128, .f32⟩ : BufTy).Contents (Elt F) → (⟨S100000x128, .f32⟩ : BufTy).Contents (Elt F)),
    nullary main_cst_19 (constant S_ .f32 0x3727C5AC#32),
    unary main_cst_19 main_v116 (broadcastInDim S100000x1 ![] bcast_S_S100000x1 : (⟨S_, .f32⟩ : BufTy).Contents (Elt F) → (⟨S100000x1, .f32⟩ : BufTy).Contents (Elt F)),
    binary main_v113 main_v116 main_v117 (addf : (⟨S100000x1, .f32⟩ : BufTy).Contents (Elt F) → (⟨S100000x1, .f32⟩ : BufTy).Contents (Elt F) → (⟨S100000x1, .f32⟩ : BufTy).Contents (Elt F)),
    unary main_v117 main_v118 (Host.rsqrt : (⟨S100000x1, .f32⟩ : BufTy).Contents (Elt F) → (⟨S100000x1, .f32⟩ : BufTy).Contents (Elt F)),
    unary main_v118 main_v119 (broadcastInDim S100000x128 ![0, 1] bcast_S100000x1_S100000x128_0_1 : (⟨S100000x1, .f32⟩ : BufTy).Contents (Elt F) → (⟨S100000x128, .f32⟩ : BufTy).Contents (Elt F)),
    binary main_v115 main_v119 main_v120 (mulf : (⟨S100000x128, .f32⟩ : BufTy).Contents (Elt F) → (⟨S100000x128, .f32⟩ : BufTy).Contents (Elt F) → (⟨S100000x128, .f32⟩ : BufTy).Contents (Elt F)),
    unary main_v100 main_v121 (broadcastInDim S1x128 ![1] bcast_S128_S1x128_1 : (⟨S128, .f32⟩ : BufTy).Contents (Elt F) → (⟨S1x128, .f32⟩ : BufTy).Contents (Elt F)),
    unary main_v121 main_v122 (broadcastInDim S100000x128 ![0, 1] bcast_S1x128_S100000x128_0_1 : (⟨S1x128, .f32⟩ : BufTy).Contents (Elt F) → (⟨S100000x128, .f32⟩ : BufTy).Contents (Elt F)),
    binary main_v120 main_v122 main_v123 (mulf : (⟨S100000x128, .f32⟩ : BufTy).Contents (Elt F) → (⟨S100000x128, .f32⟩ : BufTy).Contents (Elt F) → (⟨S100000x128, .f32⟩ : BufTy).Contents (Elt F)),
    unary main_v102 main_v124 (broadcastInDim S1x128 ![1] bcast_S128_S1x128_1 : (⟨S128, .f32⟩ : BufTy).Contents (Elt F) → (⟨S1x128, .f32⟩ : BufTy).Contents (Elt F)),
    unary main_v124 main_v125 (broadcastInDim S100000x128 ![0, 1] bcast_S1x128_S100000x128_0_1 : (⟨S1x128, .f32⟩ : BufTy).Contents (Elt F) → (⟨S100000x128, .f32⟩ : BufTy).Contents (Elt F)),
    binary main_v123 main_v125 main_v126 (addf : (⟨S100000x128, .f32⟩ : BufTy).Contents (Elt F) → (⟨S100000x128, .f32⟩ : BufTy).Contents (Elt F) → (⟨S100000x128, .f32⟩ : BufTy).Contents (Elt F)) ]

/-- The clip at zero and the sum with the layer's input. -/
abbrev c2t : List (HloOp τ sig (Elt F)) :=
  [ TRef.nullary (TRef.of (T := ⟨S_, .f32⟩) main_call2_cst) (constant S_ .f32 0x00000000#32),
    TRef.unary (TRef.of (T := ⟨S_, .f32⟩) main_call2_cst) (TRef.of (T := ⟨S100000x128, .f32⟩) main_call2_v0) (broadcastInDim S100000x128 ![] bcast_S_S100000x128),
    TRef.binary (TRef.of (T := ⟨S100000x128, .f32⟩) main_v126) (TRef.of (T := ⟨S100000x128, .f32⟩) main_call2_v0) (TRef.of (T := ⟨S100000x128, .f32⟩) main_v127) maximumf,
    binary main_v127 main_v68 main_v128 (addf : (⟨S100000x128, .f32⟩ : BufTy).Contents (Elt F) → (⟨S100000x128, .f32⟩ : BufTy).Contents (Elt F) → (⟨S100000x128, .f32⟩ : BufTy).Contents (Elt F)) ]

/-- The stretch is its two parts. -/
theorem c2_cut : (c2 (F := F)) = c2h ++ c2t := rfl
end Parts

variable (W : Valuation τ sig (Elt Ideal))

/-- The second part from any contents: the rows found in the first buffer, clipped at zero, plus the rows found in
    the second. -/
theorem c2t_read (y h : Nodes) (hy : W (Proc.devRef .tc main_v126) = y) (hh : W (Proc.devRef .tc main_v68) = h) :
    after c2t W (Proc.devRef .tc main_v128)
      = addf (maximumf y (broadcastInDim S100000x128 ![] bcast_S_S100000x128 (constant (F := Ideal) S_ .f32 0x00000000#32))) h := by
  after_results_simp
  rw [hy, hh]
  rfl

/-- Layer 2's result after its stretch. -/
theorem c2_read (x0 : Nodes) (x1 : Edges) (x2 : Sq) (x3 : Vec) (x4 : Sq3) (x5 : Vec3) (x6 : Sq3) (x7 x8 : Vec3)
    (hin : W (Proc.devRef .tc main_v68) = val_main_v68 (F := Ideal) x0 x1 x2 x3 x4 x5 x6 x7 x8)
    (h1 : W (Proc.devRef .tc main_v1) = val_main_v1 (F := Ideal) x1)
    (h3 : W (Proc.devRef .tc main_v3) = val_main_v3 (F := Ideal) x1)
    (a4 : W (Proc.devRef .tc main_arg4) = x4) (a5 : W (Proc.devRef .tc main_arg5) = x5)
    (a6 : W (Proc.devRef .tc main_arg6) = x6) (a7 : W (Proc.devRef .tc main_arg7) = x7)
    (a8 : W (Proc.devRef .tc main_arg8) = x8) :
    after c2 W (Proc.devRef .tc main_v128) = val_main_v128 (F := Ideal) x0 x1 x2 x3 x4 x5 x6 x7 x8 := by
  rw [c2_cut, after_append]
  have hpre : after c2h W (Proc.devRef .tc main_v126) = val_main_v126 (F := Ideal) x0 x1 x2 x3 x4 x5 x6 x7 x8 := by
    after_results_simp
    rw [hin, h1, h3, a4, a5, a6, a7, a8]
    rfl
  have hres : after c2h W (Proc.devRef .tc main_v68) = val_main_v68 (F := Ideal) x0 x1 x2 x3 x4 x5 x6 x7 x8 := by
    after_results_simp
    exact hin
  exact (c2t_read (after c2h W) _ _ hpre hres).trans rfl

end Cert.Sage.Ref

end
-- ==== Proof.RefRun3.lean ====
/-
  Layer 3's stretch of the reference, read at its result.  Entered with contents `W` that hold the layer's input
  rows, the two id arrays and the stacked weights, the stretch leaves in its result buffer the layer's stage of the
  argument arrays: every operation's result is its function of the buffers it reads, and following the operations
  back from the result reaches only those entering buffers.  The stretch is read in two parts: everything up to
  the normalised, scaled and shifted rows; then the clip at zero and the sum with the layer's input, which are read
  once from ANY rows, so that no reading has to look through the clip into the rows' own term.
-/
import proofs.«121075_j4492535791673_1_alg».proof.Proof.RefChunks
import proofs.«121075_j4492535791673_1_alg».proof.Proof.RefGraph
import Idealize.ShloMosaic.Lib.StableHlo.Run

set_option maxRecDepth 16384

noncomputable section

namespace Cert.Sage.Ref

open Cert.ReferenceIdeal Cert.ReferenceIdeal.Gen Cert.ReferenceIdeal.ReadP
open Idealize.ShloMosaic Idealize.ShloMosaic.TcCoe Idealize.SL.Sem Idealize.ShloMosaic.StableHlo

section Parts
variable {F : FTy → Type} [FloatOps F]

/-- The stretch up to the normalised, scaled and shifted rows. -/
abbrev c3h : List (HloOp τ sig (Elt F)) :=
  [ unary main_arg4 main_v129 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v129 main_v130 rfl shapeCasts_S1x128x128_S128x128,
    unary main_arg5 main_v131 ((extractStridedSlice S1x128 ![2, 0] · slices_S3x128_S1x128_2_0) : (⟨S3x128, .f32⟩ : BufTy).Contents (Elt F) → (⟨S1x128, .f32⟩ : BufTy).Contents (Elt F)),
    reshape main_v131 main_v132 rfl shapeCasts_S1x128_S128,
    unary main_arg6 main_v133 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v133 main_v134 rfl shapeCasts_S1x128x128_S128x128,
    nullary main_c_20 (constantI S_ 32 0#32),
    unary main_c_20 main_v135 (broadcastInDim S1600000 ![] bcast_S_S1600000 : (⟨S_, .i32⟩ : BufTy).Contents (Elt F) → (⟨S1600000, .i32⟩ : BufTy).Contents (Elt F)),
    binary main_v1 main_v135 main_v136 (cmpi .slt : (⟨S1600000, .i32⟩ : BufTy).Contents (Elt F) → (⟨S1600000, .i32⟩ : BufTy).Contents (Elt F) → (⟨S1600000, .i1⟩ : BufTy).Contents (Elt F)),
    nullary main_c_21 (constantI S_ 32 100000#32),
    unary main_c_21 main_v137 (broadcastInDim S1600000 ![] bcast_S_S1600000 : (⟨S_, .i32⟩ : BufTy).Contents (Elt F) → (⟨S1600000, .i32⟩ : BufTy).Contents (Elt F)),
    binary main_v1 main_v137 main_v138 (addi : (⟨S1600000, .i32⟩ : BufTy).Contents (Elt F) → (⟨S1600000, .i32⟩ : BufTy).Contents (Elt F) → (⟨S1600000, .i32⟩ : BufTy).Contents (Elt F)),
    ternary main_v136 main_v138 main_v1 main_v139 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v139 main_v140 (broadcastInDim S1600000x1 ![0] bcast_S1600000_S1600000x1_0 : (⟨S1600000, .i32⟩ : BufTy).Contents (Elt F) → (⟨S1600000x1, .i32⟩ : BufTy).Contents (Elt F)),
    binary main_v128 main_v140 main_v141 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_22 (constant S_ .f32 0x00000000#32),
    unary main_cst_22 main_v142 (broadcastInDim S100000x128 ![] bcast_S_S100000x128 : (⟨S_, .f32⟩ : BufTy).Contents (Elt F) → (⟨S100000x128, .f32⟩ : BufTy).Contents (Elt F)),
    unary main_v3 main_v143 (broadcastInDim S1600000x1 ![0] bcast_S1600000_S1600000x1_0 : (⟨S1600000, .i32⟩ : BufTy).Contents (Elt F) → (⟨S1600000x1, .i32⟩ : BufTy).Contents (Elt F)),
    ternary main_v142 main_v143 main_v141 main_v144 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    nullary main_cst_23 (constant S_ .f32 0x3F800000#32),
    unary main_cst_23 main_v145 (broadcastInDim S1600000x1 ![] bcast_S_S1600000x1 : (⟨S_, .f32⟩ : BufTy).Contents (Elt F) → (⟨S1600000x1, .f32⟩ : BufTy).Contents (Elt F)),
    nullary main_cst_24 (constant S_ .f32 0x00000000#32),
    unary main_cst_24 main_v146 (broadcastInDim S100000x1 ![] bcast_S_S100000x1 : (⟨S_, .f32⟩ : BufTy).Contents (Elt F) → (⟨S100000x1, .f32⟩ : BufTy).Contents (Elt F)),
    unary main_v3 main_v147 (broadcastInDim S1600000x1 ![0] bcast_S1600000_S1600000x1_0 : (⟨S1600000, .i32⟩ : BufTy).Contents (Elt F) → (⟨S1600000x1, .i32⟩ : BufTy).Contents (Elt F)),
    ternary main_v146 main_v147 main_v145 main_v148 ((fun x i u => Host.scatterAdd scatter_S100000x1_S1600000x1_S1600000x1_1_0_0_1 x i u) : (⟨S100000x1, .f32⟩ : BufTy).Contents (Elt F) → (⟨S1600000x1, .i32⟩ : BufTy).Contents (Elt F) → (⟨S1600000x1, .f32⟩ : BufTy).Contents (Elt F) → (⟨S100000x1, .f32⟩ : BufTy).Contents (Elt F)),
    nullary main_cst_25 (constant S_ .f32 0x3F800000#32),
    unary main_cst_25 main_v149 (broadcastInDim S100000x1 ![] bcast_S_S100000x1 : (⟨S_, .f32⟩ : BufTy).Contents (Elt F) → (⟨S100000x1, .f32⟩ : BufTy).Contents (Elt F)),
    binary main_v148 main_v149 main_v150 (maximumf : (⟨S100000x1, .f32⟩ : BufTy).Contents (Elt F) → (⟨S100000x1, .f32⟩ : BufTy).Contents (Elt F) → (⟨S100000x1, .f32⟩ : BufTy).Contents (Elt F)),
    unary main_v150 main_v151 (broadcastInDim S100000x128 ![0, 1] bcast_S100000x1_S100000x128_0_1 : (⟨S100000x1, .f32⟩ : BufTy).Contents (Elt F) → (⟨S100000x128, .f32⟩ : BufTy).Contents (Elt F)),
    binary main_v144 main_v151 main_v152 (Host.divf : (⟨S100000x128, .f32⟩ : BufTy).Contents (Elt F) → (⟨S100000x128, .f32⟩ : BufTy).Contents (Elt F) → (⟨S100000x128, .f32⟩ : BufTy).Contents (Elt F)),
    binary main_v152 main_v130 main_v153 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v132 main_v154 (broadcastInDim S1x128 ![1] bcast_S128_S1x128_1 : (⟨S128, .f32⟩ : BufTy).Contents (Elt F) → (⟨S1x128, .f32⟩ : BufTy).Contents (Elt F)),
    unary main_v154 main_v155 (broadcastInDim S100000x128 ![0, 1] bcast_S1x128_S100000x128_0_1 : (⟨S1x128, .f32⟩ : BufTy).Contents (Elt F) → (⟨S100000x128, .f32⟩ : BufTy).Contents (Elt F)),
    binary main_v153 main_v155 main_v156 (addf : (⟨S100000x128, .f32⟩ : BufTy).Contents (Elt F) → (⟨S100000x128, .f32⟩ : BufTy).Contents (Elt F) → (⟨S100000x128, .f32⟩ : BufTy).Contents (Elt F)),
    binary main_v128 main_v134 main_v157 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v156 main_v157 main_v158 (addf : (⟨S100000x128, .f32⟩ : BufTy).Contents (Elt F) → (⟨S100000x128, .f32⟩ : BufTy).Contents (Elt F) → (⟨S100000x128, .f32⟩ : BufTy).Contents (Elt F)),
    unary main_arg7 main_v159 ((extractStridedSlice S1x128 ![2, 0] · slices_S3x128_S1x128_2_0) : (⟨S3x128, .f32⟩ : BufTy).Contents (Elt F) → (⟨S1x128, .f32⟩ : BufTy).Contents (Elt F)),
    reshape main_v159 main_v160 rfl shapeCasts_S1x128_S128,
    unary main_arg8 main_v161 ((extractStridedSlice S1x128 ![2, 0] · slices_S3x128_S1x128_2_0) : (⟨S3x128, .f32⟩ : BufTy).Contents (Elt F) → (⟨S1x128, .f32⟩ : BufTy).Contents (Elt F)),
    reshape main_v161 main_v162 rfl shapeCasts_S1x128_S128,
    nullary main_cst_26 (constant S_ .f32 0x00000000#32),
    binary main_v158 main_cst_26 main_v163 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v163 main_v164 (broadcastInDim S100000x1 ![0] bcast_S100000_S100000x1_0 : (⟨S100000, .f32⟩ : BufTy).Contents (Elt F) → (⟨S100000x1, .f32⟩ : BufTy).Contents (Elt F)),
    nullary main_cst_27 (constant S_ .f32 0x43000000#32),
    unary main_cst_27 main_v165 (broadcastInDim S100000x1 ![] bcast_S_S100000x1 : (⟨S_, .f32⟩ : BufTy).Contents (Elt F) → (⟨S100000x1, .f32⟩ : BufTy).Contents (Elt F)),
    binary main_v164 main_v165 main_v166 (Host.divf : (⟨S100000x1, .f32⟩ : BufTy).Contents (Elt F) → (⟨S100000x1, .f32⟩ : BufTy).Contents (Elt F) → (⟨S100000x1, .f32⟩ : BufTy).Contents (Elt F)),
    unary main_v166 main_v167 (broadcastInDim S100000x128 ![0, 1] bcast_S100000x1_S100000x128_0_1 : (⟨S100000x1, .f32⟩ : BufTy).Contents (Elt F) → (⟨S100000x128, .f32⟩ : BufTy).Contents (Elt F)),
    binary main_v158 main_v167 main_v168 (subf : (⟨S100000x128, .f32⟩ : BufTy).Contents (Elt F) → (⟨S100000x128, .f32⟩ : BufTy).Contents (Elt F) → (⟨S100000x128, .f32⟩ : BufTy).Contents (Elt F)),
    binary main_v168 main_v168 main_v169 (mulf : (⟨S100000x128, .f32⟩ : BufTy).Contents (Elt F) → (⟨S100000x128, .f32⟩ : BufTy).Contents (Elt F) → (⟨S100000x128, .f32⟩ : BufTy).Contents (Elt F)),
    nullary main_cst_28 (constant S_ .f32 0x00000000#32),
    binary main_v169 main_cst_28 main_v170 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v170 main_v171 (broadcastInDim S100000x1 ![0] bcast_S100000_S100000x1_0 : (⟨S100000, .f32⟩ : BufTy).Contents (Elt F) → (⟨S100000x1, .f32⟩ : BufTy).Contents (Elt F)),
    nullary main_cst_29 (constant S_ .f32 0x43000000#32),
    unary main_cst_29 main_v172 (broadcastInDim S100000x1 ![] bcast_S_S100000x1 : (⟨S_, .f32⟩ : BufTy).Contents (Elt F) → (⟨S100000x1, .f32⟩ : BufTy).Contents (Elt F)),
    binary main_v171 main_v172 main_v173 (Host.divf : (⟨S100000x1, .f32⟩ : BufTy).Contents (Elt F) → (⟨S100000x1, .f32⟩ : BufTy).Contents (Elt F) → (⟨S100000x1, .f32⟩ : BufTy).Contents (Elt F)),
    unary main_v166 main_v174 (broadcastInDim S100000x128 ![0, 1] bcast_S100000x1_S100000x128_0_1 : (⟨S100000x1, .f32⟩ : BufTy).Contents (Elt F) → (⟨S100000x128, .f32⟩ : BufTy).Contents (Elt F)),
    binary main_v158 main_v174 main_v175 (subf : (⟨S100000x128, .f32⟩ : BufTy).Contents (Elt F) → (⟨S100000x128, .f32⟩ : BufTy).Contents (Elt F) → (⟨S100000x128, .f32⟩ : BufTy).Contents (Elt F)),
    nullary main_cst_30 (constant S_ .f32 0x3727C5AC#32),
    unary main_cst_30 main_v176 (broadcastInDim S100000x1 ![] bcast_S_S100000x1 : (⟨S_, .f32⟩ : BufTy).Contents (Elt F) → (⟨S100000x1, .f32⟩ : BufTy).Contents (Elt F)),
    binary main_v173 main_v176 main_v177 (addf : (⟨S100000x1, .f32⟩ : BufTy).Contents (Elt F) → (⟨S100000x1, .f32⟩ : BufTy).Contents (Elt F) → (⟨S100000x1, .f32⟩ : BufTy).Contents (Elt F)),
    unary main_v177 main_v178 (Host.rsqrt : (⟨S100000x1, .f32⟩ : BufTy).Contents (Elt F) → (⟨S100000x1, .f32⟩ : BufTy).Contents (Elt F)),
    unary main_v178 main_v179 (broadcastInDim S100000x128 ![0, 1] bcast_S100000x1_S100000x128_0_1 : (⟨S100000x1, .f32⟩ : BufTy).Contents (Elt F) → (⟨S100000x128, .f32⟩ : BufTy).Contents (Elt F)),
    binary main_v175 main_v179 main_v180 (mulf : (⟨S100000x128, .f32⟩ : BufTy).Contents (Elt F) → (⟨S100000x128, .f32⟩ : BufTy).Contents (Elt F) → (⟨S100000x128, .f32⟩ : BufTy).Contents (Elt F)),
    unary main_v160 main_v181 (broadcastInDim S1x128 ![1] bcast_S128_S1x128_1 : (⟨S128, .f32⟩ : BufTy).Contents (Elt F) → (⟨S1x128, .f32⟩ : BufTy).Contents (Elt F)),
    unary main_v181 main_v182 (broadcastInDim S100000x128 ![0, 1] bcast_S1x128_S100000x128_0_1 : (⟨S1x128, .f32⟩ : BufTy).Contents (Elt F) → (⟨S100000x128, .f32⟩ : BufTy).Contents (Elt F)),
    binary main_v180 main_v182 main_v183 (mulf : (⟨S100000x128, .f32⟩ : BufTy).Contents (Elt F) → (⟨S100000x128, .f32⟩ : BufTy).Contents (Elt F) → (⟨S100000x128, .f32⟩ : BufTy).Contents (Elt F)),
    unary main_v162 main_v184 (broadcastInDim S1x128 ![1] bcast_S128_S1x128_1 : (⟨S128, .f32⟩ : BufTy).Contents (Elt F) → (⟨S1x128, .f32⟩ : BufTy).Contents (Elt F)),
    unary main_v184 main_v185 (broadcastInDim S100000x128 ![0, 1] bcast_S1x128_S100000x128_0_1 : (⟨S1x128, .f32⟩ : BufTy).Contents (Elt F) → (⟨S100000x128, .f32⟩ : BufTy).Contents (Elt F)),
    binary main_v183 main_v185 main_v186 (addf : (⟨S100000x128, .f32⟩ : BufTy).Contents (Elt F) → (⟨S100000x128, .f32⟩ : BufTy).Contents (Elt F) → (⟨S100000x128, .f32⟩ : BufTy).Contents (Elt F)) ]

/-- The clip at zero and the sum with the layer's input. -/
abbrev c3t : List (HloOp τ sig (Elt F)) :=
  [ TRef.nullary (TRef.of (T := ⟨S_, .f32⟩) main_call3_cst) (constant S_ .f32 0x00000000#32),
    TRef.unary (TRef.of (T := ⟨S_, .f32⟩) main_call3_cst) (TRef.of (T := ⟨S100000x128, .f32⟩) main_call3_v0) (broadcastInDim S100000x128 ![] bcast_S_S100000x128),
    TRef.binary (TRef.of (T := ⟨S100000x128, .f32⟩) main_v186) (TRef.of (T := ⟨S100000x128, .f32⟩) main_call3_v0) (TRef.of (T := ⟨S100000x128, .f32⟩) main_v187) maximumf,
    binary main_v187 main_v128 main_v188 (addf : (⟨S100000x128, .f32⟩ : BufTy).Contents (Elt F) → (⟨S100000x128, .f32⟩ : BufTy).Contents (Elt F) → (⟨S100000x128, .f32⟩ : BufTy).Contents (Elt F)) ]

/-- The stretch is its two parts. -/
theorem c3_cut : (c3 (F := F)) = c3h ++ c3t := rfl
end Parts

variable (W : Valuation τ sig (Elt Ideal))

/-- The second part from any contents: the rows found in the first buffer, clipped at zero, plus the rows found in
    the second. -/
theorem c3t_read (y h : Nodes) (hy : W (Proc.devRef .tc main_v186) = y) (hh : W (Proc.devRef .tc main_v128) = h) :
    after c3t W (Proc.devRef .tc main_v188)
      = addf (maximumf y (broadcastInDim S100000x128 ![] bcast_S_S100000x128 (constant (F := Ideal) S_ .f32 0x00000000#32))) h := by
  after_results_simp
  rw [hy, hh]
  rfl

set_option maxHeartbeats 2000000 in
/-- Layer 3's result after its stretch. -/
theorem c3_read (x0 : Nodes) (x1 : Edges) (x2 : Sq) (x3 : Vec) (x4 : Sq3) (x5 : Vec3) (x6 : Sq3) (x7 x8 : Vec3)
    (hin : W (Proc.devRef .tc main_v128) = val_main_v128 (F := Ideal) x0 x1 x2 x3 x4 x5 x6 x7 x8)
    (h1 : W (Proc.devRef .tc main_v1) = val_main_v1 (F := Ideal) x1)
    (h3 : W (Proc.devRef .tc main_v3) = val_main_v3 (F := Ideal) x1)
    (a4 : W (Proc.devRef .tc main_arg4) = x4) (a5 : W (Proc.devRef .tc main_arg5) = x5)
    (a6 : W (Proc.devRef .tc main_arg6) = x6) (a7 : W (Proc.devRef .tc main_arg7) = x7)
    (a8 : W (Proc.devRef .tc main_arg8) = x8) :
    after c3 W (Proc.devRef .tc main_v188) = val_main_v188 (F := Ideal) x0 x1 x2 x3 x4 x5 x6 x7 x8 := by
  rw [c3_cut, after_append]
  have hpre : after c3h W (Proc.devRef .tc main_v186) = val_main_v186 (F := Ideal) x0 x1 x2 x3 x4 x5 x6 x7 x8 := by
    after_results_simp
    rw [hin, h1, h3, a4, a5, a6, a7, a8]
    rfl
  have hres : after c3h W (Proc.devRef .tc main_v128) = val_main_v128 (F := Ideal) x0 x1 x2 x3 x4 x5 x6 x7 x8 := by
    after_results_simp
    exact hin
  exact (c3t_read (after c3h W) _ _ hpre hres).trans rfl

end Cert.Sage.Ref

end
-- ==== Proof.RefRunOut.lean ====
/-
  The last stretch of the reference, read at the program's result.  Entered with contents `W` that hold the three
  layers' rows, the output matrix and the output bias, it leaves in the result buffer the last stage of the argument
  arrays.
-/
import proofs.«121075_j4492535791673_1_alg».proof.Proof.RefChunks
import proofs.«121075_j4492535791673_1_alg».proof.Proof.RefNet
import Idealize.ShloMosaic.Lib.StableHlo.Run

set_option maxRecDepth 16384

noncomputable section

namespace Cert.Sage.Ref

open Cert.ReferenceIdeal Cert.ReferenceIdeal.Gen Cert.ReferenceIdeal.ReadP
open Idealize.ShloMosaic Idealize.ShloMosaic.TcCoe Idealize.SL.Sem Idealize.ShloMosaic.StableHlo

variable (W : Valuation τ sig (Elt Ideal))

/-- The program's result after the last stretch. -/
theorem cOut_read (x0 : Nodes) (x1 : Edges) (x2 : Sq) (x3 : Vec) (x4 : Sq3) (x5 : Vec3) (x6 : Sq3) (x7 x8 : Vec3)
    (x9 : OutW) (x10 : OutB)
    (h68 : W (Proc.devRef .tc main_v68) = val_main_v68 (F := Ideal) x0 x1 x2 x3 x4 x5 x6 x7 x8)
    (h128 : W (Proc.devRef .tc main_v128) = val_main_v128 (F := Ideal) x0 x1 x2 x3 x4 x5 x6 x7 x8)
    (h188 : W (Proc.devRef .tc main_v188) = val_main_v188 (F := Ideal) x0 x1 x2 x3 x4 x5 x6 x7 x8)
    (a9 : W (Proc.devRef .tc main_arg9) = x9) (a10 : W (Proc.devRef .tc main_arg10) = x10) :
    after cOut W (Proc.devRef .tc main_v193) = val_main_v193 (F := Ideal) x0 x1 x2 x3 x4 x5 x6 x7 x8 x9 x10 := by
  after_results_simp
  have h68' : W (Proc.devRef .tc ((![main_v68, main_v128, main_v188] : Fin 3 → Ref sig .tc) 0))
      = val_main_v68 (F := Ideal) x0 x1 x2 x3 x4 x5 x6 x7 x8 := h68
  have h128' : W (Proc.devRef .tc ((![main_v68, main_v128, main_v188] : Fin 3 → Ref sig .tc) 1))
      = val_main_v128 (F := Ideal) x0 x1 x2 x3 x4 x5 x6 x7 x8 := h128
  have h188' : W (Proc.devRef .tc ((![main_v68, main_v128, main_v188] : Fin 3 → Ref sig .tc) 2))
      = val_main_v188 (F := Ideal) x0 x1 x2 x3 x4 x5 x6 x7 x8 := h188
  rw [h68', h128', h188', a9, a10]
  rfl

end Cert.Sage.Ref

end
-- ==== Proof.RefRunHand.lean ====
/-
  The reference's run, read at its result.

  The reference is one straight line of host operations, cut into five stretches: the input projection with the two
  id arrays, the three layers, the output step.  Each stretch, entered with contents that hold what it reads, leaves
  its result at the stage of the same name applied to the argument arrays; and it writes only buffers of its own, so
  the id arrays, the earlier layers' rows and the arguments reach the later stretches unchanged.  Following the five
  stretches from the launch memory gives the program's result as the last stage of the eleven arguments; and the
  arguments, declared before every written buffer, end as they began.
-/
import proofs.«121075_j4492535791673_1_alg».proof.Proof.RefChunks
import proofs.«121075_j4492535791673_1_alg».proof.Proof.RefRunA
import proofs.«121075_j4492535791673_1_alg».proof.Proof.RefRun1
import proofs.«121075_j4492535791673_1_alg».proof.Proof.RefRun2
import proofs.«121075_j4492535791673_1_alg».proof.Proof.RefRun3
import proofs.«121075_j4492535791673_1_alg».proof.Proof.RefRunOut
import Idealize.ShloMosaic.Lib.StableHlo.Run

set_option maxRecDepth 16384

noncomputable section

namespace Cert.Sage.Ref

open Cert.ReferenceIdeal Cert.ReferenceIdeal.Gen Cert.ReferenceIdeal.ReadP
open Idealize.ShloMosaic Idealize.ShloMosaic.TcCoe Idealize.SL.Sem Idealize.ShloMosaic.StableHlo
open Cert.LibTailOps

/-- A buffer declared before a range of positions is not in the range. -/
theorem not_inRange_of_lt {lo hi : Nat} {r : Ref sig .tc} (h : r.idx.val < lo) : ¬ inRange lo hi r :=
  fun hr => absurd hr.1 (by omega)

/-- None of the program's operations allocates: each lies in one of the five stretches. -/
theorem ops_fresh : ∀ op ∈ (OpsP.ops (F := Ideal)), op.fresh = ∅ := by
  rw [ops_split]
  intro op hop
  rcases List.mem_append.mp hop with h | hop
  · exact ((List.forall_iff_forall_mem.mp cA_writes) op h).1
  rcases List.mem_append.mp hop with h | hop
  · exact ((List.forall_iff_forall_mem.mp c1_writes) op h).1
  rcases List.mem_append.mp hop with h | hop
  · exact ((List.forall_iff_forall_mem.mp c2_writes) op h).1
  rcases List.mem_append.mp hop with h | h
  · exact ((List.forall_iff_forall_mem.mp c3_writes) op h).1
  · exact ((List.forall_iff_forall_mem.mp cOut_writes) op h).1

/-! ## The arguments are kept -/

/-- The eleven arguments are declared first, before every buffer any stretch writes: the program leaves them as it
    found them. -/
theorem kept (V : Valuation τ sig (Elt Ideal)) (r : Ref sig .tc) (hr : r.idx.val < 11) :
    after (OpsP.ops (F := Ideal)) V (Proc.devRef .tc r) = V (Proc.devRef .tc r) := by
  rw [ops_split, after_append, after_append, after_append, after_append,
    keepOut _ r (not_inRange_of_lt (by omega)), keep3 _ r (not_inRange_of_lt (by omega)),
    keep2 _ r (not_inRange_of_lt (by omega)), keep1 _ r (not_inRange_of_lt (by omega)),
    keepA _ r (not_inRange_of_lt (by omega))]

/-! ## The result -/

/-- From any contents `V`: the result buffer after the program holds the last stage of the eleven arguments'
    contents in `V`.  The stretches are followed forward; through each, the buffers the later ones read — the id
    arrays, the earlier layers' rows, the arguments — are carried unchanged. -/
theorem final_of (V : Valuation τ sig (Elt Ideal)) :
    after (OpsP.ops (F := Ideal)) V (Proc.devRef .tc main_v193)
      = val_main_v193 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  rw [ops_split, after_append, after_append, after_append, after_append]
  -- after the first stretch
  have h8A := cA_h0 V
  have h1A := cA_src V
  have h3A := cA_dst V
  have a4A := keepA V main_arg4 (by decide)
  have a5A := keepA V main_arg5 (by decide)
  have a6A := keepA V main_arg6 (by decide)
  have a7A := keepA V main_arg7 (by decide)
  have a8A := keepA V main_arg8 (by decide)
  have a9A := keepA V main_arg9 (by decide)
  have a10A := keepA V main_arg10 (by decide)
  -- after layer 1
  have h68B := c1_read (after cA V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) h8A h1A h3A a4A a5A a6A a7A a8A
  have h1B := (keep1 (after cA V) main_v1 (by decide)).trans h1A
  have h3B := (keep1 (after cA V) main_v3 (by decide)).trans h3A
  have a4B := (keep1 (after cA V) main_arg4 (by decide)).trans a4A
  have a5B := (keep1 (after cA V) main_arg5 (by decide)).trans a5A
  have a6B := (keep1 (after cA V) main_arg6 (by decide)).trans a6A
  have a7B := (keep1 (after cA V) main_arg7 (by decide)).trans a7A
  have a8B := (keep1 (after cA V) main_arg8 (by decide)).trans a8A
  have a9B := (keep1 (after cA V) main_arg9 (by decide)).trans a9A
  have a10B := (keep1 (after cA V) main_arg10 (by decide)).trans a10A
  -- after layer 2
  have h128C := c2_read (after c1 (after cA V)) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) h68B h1B h3B a4B a5B a6B a7B a8B
  have h68C := (keep2 (after c1 (after cA V)) main_v68 (by decide)).trans h68B
  have h1C := (keep2 (after c1 (after cA V)) main_v1 (by decide)).trans h1B
  have h3C := (keep2 (after c1 (after cA V)) main_v3 (by decide)).trans h3B
  have a4C := (keep2 (after c1 (after cA V)) main_arg4 (by decide)).trans a4B
  have a5C := (keep2 (after c1 (after cA V)) main_arg5 (by decide)).trans a5B
  have a6C := (keep2 (after c1 (after cA V)) main_arg6 (by decide)).trans a6B
  have a7C := (keep2 (after c1 (after cA V)) main_arg7 (by decide)).trans a7B
  have a8C := (keep2 (after c1 (after cA V)) main_arg8 (by decide)).trans a8B
  have a9C := (keep2 (after c1 (after cA V)) main_arg9 (by decide)).trans a9B
  have a10C := (keep2 (after c1 (after cA V)) main_arg10 (by decide)).trans a10B
  -- after layer 3
  have h188D := c3_read (after c2 (after c1 (after cA V))) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) h128C h1C h3C a4C a5C a6C a7C a8C
  have h68D := (keep3 (after c2 (after c1 (after cA V))) main_v68 (by decide)).trans h68C
  have h128D := (keep3 (after c2 (after c1 (after cA V))) main_v128 (by decide)).trans h128C
  have a9D := (keep3 (after c2 (after c1 (after cA V))) main_arg9 (by decide)).trans a9C
  have a10D := (keep3 (after c2 (after c1 (after cA V))) main_arg10 (by decide)).trans a10C
  -- the output step
  exact cOut_read (after c3 (after c2 (after c1 (after cA V)))) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) h68D h128D h188D a9D a10D

/-- The same from the launch memory of core `c`. -/
theorem final (m : (ℓ : Loc nD τ sig) → Buf (Elt Ideal) ℓ) (c : Dev nD) :
    after (OpsP.ops (F := Ideal)) (launchContents m c) (Proc.devRef .tc main_v193)
      = val_main_v193 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) :=
  final_of (launchContents m c)

/-! ## The run -/

/-- On every core, from any memory with zero counters: every weakly fair execution of the reference terminates with the
    result buffer at the last stage of the arguments' launch contents, and the eleven arguments unchanged. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v193) = val_main_v193 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v193).trans (final m c),
      (h c main_arg0).trans (kept _ main_arg0 (by decide)),
      (h c main_arg1).trans (kept _ main_arg1 (by decide)),
      (h c main_arg2).trans (kept _ main_arg2 (by decide)),
      (h c main_arg3).trans (kept _ main_arg3 (by decide)),
      (h c main_arg4).trans (kept _ main_arg4 (by decide)),
      (h c main_arg5).trans (kept _ main_arg5 (by decide)),
      (h c main_arg6).trans (kept _ main_arg6 (by decide)),
      (h c main_arg7).trans (kept _ main_arg7 (by decide)),
      (h c main_arg8).trans (kept _ main_arg8 (by decide)),
      (h c main_arg9).trans (kept _ main_arg9 (by decide)),
      (h c main_arg10).trans (kept _ main_arg10 (by decide))⟩)
    (run_seq OpsP.scopedRefs_eq OpsP.scopedSems_eq defs main (fun _ => OpsP.ops) OpsP.main_eq (fun _ => OpsP.ops_sub) m ρ
      (fun _ => ops_fresh))

end Cert.Sage.Ref

end
-- ==== Proof.Bridge.lean ====
/-
  The two programs' graph parts are the same functions of the edge list.

  Both programs gather the previous layer's rows at the (wrapped) source ids and add them up at the destination
  ids into zeros, by the same host operations of the edge list: the two aggregation maps are one map.  The
  neighbour counts are computed in two layouts — the kernel sums ones into a flat vector of 100000 zeros, the
  reference into a 100000 x 1 column — but each is, at node r, zero plus one for every edge whose destination id
  is r, so the clipped counts agree node by node.
-/
import proofs.«121075_j4492535791673_1_alg».proof.Proof.KGraph
import proofs.«121075_j4492535791673_1_alg».proof.Proof.RefGraph
import proofs.«121075_j4492535791673_1_alg».proof.Proof.LibSegmentSum

noncomputable section

open scoped BigOperators

namespace Cert.Sage.Bridge

open Idealize.ShloMosaic Idealize.ShloMosaic.ValueIdx
open Cert.Sage.K Cert.Sage.Ref

/-! ## The aggregation -/

/-- The two programs name the same dimension numbers for the row scatter and the row gather. -/
theorem rowScatter_dims : Cert.KernelIdeal.scatter_S100000x128_S1600000x1_S1600000x128_1_0_0_1
    = Cert.ReferenceIdeal.scatter_S100000x128_S1600000x1_S1600000x128_1_0_0_1 := rfl
theorem rowGather_dims : Cert.KernelIdeal.gather_S100000x128_S1600000x1_S1600000x128_1_0_n_n_0_1_1128
    = Cert.ReferenceIdeal.gather_S100000x128_S1600000x1_S1600000x128_1_0_n_n_0_1_1128 := rfl

/-- Both start from the same zeros, -/
theorem zeros_eq : broadcastInDim Cert.KernelIdeal.S100000x128 ![] Cert.KernelIdeal.Facts₀.bcast_S_S100000x128
      (constant (F := Ideal) Cert.KernelIdeal.S_ .f32 0x00000000#32)
    = Cert.ReferenceIdeal.ReadP.val_main_v22 (F := Ideal) := rfl

/-- lay out the destination ids as the same column, -/
theorem dstCol_eq (e : Cert.Sage.K.Edges) :
    broadcastInDim Cert.KernelIdeal.S1600000x1 ![0] Cert.KernelIdeal.Facts₀.bcast_S1600000_S1600000x1_0 (dstK e)
      = Cert.ReferenceIdeal.ReadP.val_main_v23 (F := Ideal) e := rfl

/-- and wrap and lay out the source ids as the same column. -/
theorem srcCol_eq (e : Cert.Sage.K.Edges) :
    broadcastInDim Cert.KernelIdeal.S1600000x1 ![0] Cert.KernelIdeal.Facts₀.bcast_S1600000_S1600000x1_0 (wrapK (srcK e))
      = Cert.ReferenceIdeal.ReadP.val_main_v20 (F := Ideal) e := rfl

/-- The two aggregations are the same host term of the edge list and the rows. -/
theorem agg_bridge (e : Cert.Sage.K.Edges) (h : Cert.Sage.Mat 100000 128) : aggK e h = aggR e h := by
  unfold aggK aggI aggR
  rw [rowScatter_dims, rowGather_dims, zeros_eq, dstCol_eq, srcCol_eq]

/-! ## The counts -/

/-- Two sums of the same shape agree when their starts, their conditions and their terms do. -/
theorem count_congr {ι : Type} [Fintype ι] (pK pR : ι → Prop) [DecidablePred pK] [DecidablePred pR] (xK xR : EReal)
    (uK uR : ι → EReal) (hx : xK = xR) (hp : ∀ k, pK k ↔ pR k) (hu : ∀ k, uK k = uR k) :
    xK + ∑ k : ι, (if pK k then uK k else 0) = xR + ∑ k : ι, (if pR k then uR k else 0) := by
  rw [hx]
  refine congrArg (xR + ·) (Finset.sum_congr rfl fun k _ => ?_)
  rw [hu k]
  exact if_congr (hp k) rfl rfl

/-- The kernel's count is a flat segment sum. -/
theorem flat_dims : Cert.KernelIdeal.scatter_S100000_S1600000x1_S1600000_n_0_0_1
    = SegmentSum.flatDims 100000 1600000 Cert.KernelIdeal.Facts₀.scatter_S100000_S1600000x1_S1600000_n_0_0_1_wf := rfl

/-- Both lay out the destination ids as the same column of segment ids. -/
theorem countIds_eq (e : Cert.Sage.K.Edges) :
    broadcastInDim Cert.KernelIdeal.S1600000x1 ![0] Cert.KernelIdeal.Facts₀.bcast_S1600000_S1600000x1_0 (dstK e)
      = Cert.ReferenceIdeal.ReadP.val_main_v27 (F := Ideal) e := rfl

/-- Node r's count before the clip, in the two layouts. -/
theorem count_bridge (e : Cert.Sage.K.Edges) (r : Fin 100000) :
    Host.scatterAdd (F := Ideal) Cert.KernelIdeal.scatter_S100000_S1600000x1_S1600000_n_0_0_1
        (broadcastInDim Cert.KernelIdeal.S100000 ![] Cert.KernelIdeal.Facts₀.bcast_S_S100000
          (constant (F := Ideal) Cert.KernelIdeal.S_ .f32 0x00000000#32))
        (broadcastInDim Cert.KernelIdeal.S1600000x1 ![0] Cert.KernelIdeal.Facts₀.bcast_S1600000_S1600000x1_0 (dstK e))
        (broadcastInDim Cert.KernelIdeal.S1600000 ![] Cert.KernelIdeal.Facts₀.bcast_S_S1600000
          (constant (F := Ideal) Cert.KernelIdeal.S_ .f32 0x3F800000#32)) (ix1 r)
      = Cert.ReferenceIdeal.ReadP.val_main_v28 (F := Ideal) e (ix2 r (0 : Fin 1)) := by
  unfold Cert.ReferenceIdeal.ReadP.val_main_v28
  rw [countIds_eq e, SegmentSum.scatterAdd_ideal, SegmentSum.scatterAdd_ideal, flat_dims, Cert.Sage.Ref.count_dims,
    SegmentSum.flat_apply, SegmentSum.col_apply]
  refine count_congr _ _ _ _ _ _ ?_ (fun _ => Iff.rfl) (fun _ => ?_)
  · rfl
  · rfl

/-- The clipped counts agree node by node. -/
theorem cm_bridge (e : Cert.Sage.K.Edges) (r : Fin 100000) : cmK e r = cmR e r := by
  have hone : broadcastInDim Cert.KernelIdeal.S100000 ![] Cert.KernelIdeal.Facts₀.bcast_S_S100000
      (constant (F := Ideal) Cert.KernelIdeal.S_ .f32 0x3F800000#32) (ix1 r)
      = Cert.ReferenceIdeal.ReadP.val_main_v29 (F := Ideal) (ix2 r (0 : Fin 1)) := rfl
  unfold cmK clipK cmR Cert.ReferenceIdeal.ReadP.val_main_v30
  rw [maximumf_apply, maximumf_apply, count_bridge e r, hone]

/-- So the network over the reference's graph part is the network over the kernel's. -/
theorem net_bridge (e : Cert.Sage.K.Edges) :
    Cert.Sage.net 100000 (aggR e) (cmR e) = Cert.Sage.net 100000 (aggK e) (cmK e) := by
  have ha : aggR e = aggK e := funext fun h => (agg_bridge e h).symm
  have hc : cmR e = cmK e := funext fun r => (cm_bridge e r).symm
  rw [ha, hc]

end Cert.Sage.Bridge

end
-- ==== Proof.lean ====
/-
  A three-layer neighbourhood-averaging network on 100000 nodes: the tiled kernel against the whole-array reference.

  Both programs compute, at the exact (extended real) values,
      h0 = max (x W_in + b_in, 0),
      h(l) = max (normalise (mean(l) Wl(l) + bl(l) + h(l-1) Wr(l)) g(l) + b(l), 0) + h(l-1)        for l = 1, 2, 3,
      out = h1 W0 + h2 W1 + h3 W2 + b_out,
  where mean(l) is the sum of the rows of h(l-1) over the edges arriving at a node, times the reciprocal of the node's
  number of arriving edges clipped below at one, and "normalise" subtracts a row's mean and multiplies by the
  reciprocal square root of its variance plus epsilon.  The kernel computes the dense steps block by block (2000
  rows at a time) in five regions with the sums over edges done by host operations in between; since every dense
  step's entry depends on its own row only, each region's output array is the whole-array function of its input
  arrays, and tracing the buffers through the run gives the result as this network of the eleven arguments.  The
  reference computes the same network in one straight line of host operations, dividing by the clipped count
  where the kernel multiplies by its reciprocal (the same thing, the count being a real number that is at least
  one) and multiplying the three layers' concatenated rows by the whole 384 x 16 output matrix where the kernel
  adds three products (the same sum, regrouped).  The sums over edges are the same host operations of the edge list
  in both programs.  No conjunct of the idealization's ledger is owed: the ledger is empty.
-/
import proofs.«121075_j4492535791673_1_alg».proof.Defs
import proofs.«121075_j4492535791673_1_alg».proof.Proof.Gen.Kernel
import proofs.«121075_j4492535791673_1_alg».proof.Proof.Gen.Kernel.Frame
import proofs.«121075_j4492535791673_1_alg».proof.Proof.Gen.KernelIdeal
import proofs.«121075_j4492535791673_1_alg».proof.Proof.Gen.KernelIdeal.Frame
import proofs.«121075_j4492535791673_1_alg».proof.Proof.Gen.ReferenceIdeal
import proofs.«121075_j4492535791673_1_alg».proof.Proof.Gen.Pre_finite_inputs
import proofs.«121075_j4492535791673_1_alg».proof.Proof.KRun
import proofs.«121075_j4492535791673_1_alg».proof.Proof.KFoldAll
import proofs.«121075_j4492535791673_1_alg».proof.Proof.KRegion0
import proofs.«121075_j4492535791673_1_alg».proof.Proof.KRegion1
import proofs.«121075_j4492535791673_1_alg».proof.Proof.KRegion2
import proofs.«121075_j4492535791673_1_alg».proof.Proof.KRegion3
import proofs.«121075_j4492535791673_1_alg».proof.Proof.KRegion4
import proofs.«121075_j4492535791673_1_alg».proof.Proof.RefNet
import proofs.«121075_j4492535791673_1_alg».proof.Proof.RefRunHand
import proofs.«121075_j4492535791673_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- So does the reference: its run, with the result dropped. -/
theorem frame_ri : Cert.frame_ReferenceIdeal := fun m ρ _ =>
  (θ_run Cert.ReferenceIdeal.defs _ _).mono (fun _ h c => (h c).2) (Cert.Sage.Ref.ref_run m ρ)

/-- The idealization rewrote nothing. -/
theorem preserves : Cert.preserves_Kernel_KernelIdeal := trivial

/-- From memories that agree on the arguments, both idealized programs end with the network's value of those
    arguments: the kernel by tracing its five regions and host stretches, the reference by its straight line, the two
    graph parts being the same functions of the edge list. -/
theorem algebraic : Cert.algebraic_KernelIdeal_ReferenceIdeal := by
  intro m ρ m' ρ' _ hagree
  refine ⟨fun c => Cert.Sage.net 100000
      (Cert.Sage.K.aggK (m ((c.tc : Thread Cert.KernelIdeal.nD Cert.KernelIdeal.τ).loc Cert.KernelIdeal.main_arg1)))
      (Cert.Sage.K.cmK (m ((c.tc : Thread Cert.KernelIdeal.nD Cert.KernelIdeal.τ).loc Cert.KernelIdeal.main_arg1)))
      (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.Sage.K.result_eq m ρ c), (h c).2⟩)
      (Cert.Sage.KRun.run_value (F := Ideal) m ρ)
  · refine (θ_run Cert.ReferenceIdeal.defs _ _).mono (fun r h c => ⟨(h c).1.trans ?_, (h c).2⟩)
      (Cert.Sage.Ref.ref_run m' ρ')
    rw [Cert.Sage.Ref.ref_net, (hagree c).1, (hagree c).2.1, (hagree c).2.2.1, (hagree c).2.2.2.1, (hagree c).2.2.2.2.1,
      (hagree c).2.2.2.2.2.1, (hagree c).2.2.2.2.2.2.1, (hagree c).2.2.2.2.2.2.2.1, (hagree c).2.2.2.2.2.2.2.2.1,
      (hagree c).2.2.2.2.2.2.2.2.2.1, (hagree c).2.2.2.2.2.2.2.2.2.2]
    exact congrFun (congrFun (congrFun (congrFun (congrFun (congrFun (congrFun (congrFun (congrFun (congrFun
      (Cert.Sage.Bridge.net_bridge _) _) _) _) _) _) _) _) _) _) _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
